-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.named_const.Statement Cert.KernelIdeal.κ "inv_6400000" .f32 0x3427C5AC#32 ((1 / 6400000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S10000 : Shape := ⟨1, ![10000]⟩
abbrev S128x64 : Shape := ⟨2, ![128, 64]⟩
abbrev S64 : Shape := ⟨1, ![64]⟩
abbrev S_ : Shape := ⟨0, ![]⟩
abbrev S64x40 : Shape := ⟨2, ![64, 40]⟩
abbrev S40 : Shape := ⟨1, ![40]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  reducesTo_S_S_d : S_.ReducesTo [] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_v66 : IVec S_ 1) (main_v67 : FVec F S40 .f32) : IVec S_ 1 :=
  let main_cst_26 : FVec F S_ .f32 := constant S_ .f32 0x7F800000#32
  let main_v68 : FVec F S40 .f32 := broadcastInDim S40 ![] bcast_S_S40 main_cst_26
  let main_v69 : IVec S40 1 := cmpf .olt main_v67 main_v68
  let main_c_27 : IVec S_ 1 := constantI S_ 1 1#1
  let main_v70 : IVec S_ 1 := (fun x v => Host.reduce IntOp.andi x v reducesTo_S40_S_d0 h_S_) main_v69 main_c_27
  let main_v71 : IVec S_ 1 := andi main_v66 main_v70
  main_v71

def fn_part3 {F : FTy → Type} [FloatOps F] (main_arg13 : FVec F S40 .f32) (main_arg14 : FVec F S40 .f32) (main_arg15 : FVec F S40 .f32) (main_arg16 : FVec F S40 .f32) (main_v46 : IVec S_ 1) (main_v49 : IVec S64 1) (main_c_19 : IVec S_ 1) : IVec S_ 1 :=
  let main_v50 : IVec S_ 1 := (fun x v => Host.reduce IntOp.andi x v reducesTo_S64_S_d0 h_S_) main_v49 main_c_19
  let main_v51 : IVec S_ 1 := andi main_v46 main_v50
  let main_v52 : FVec F S40 .f32 := Host.absf main_arg13
  let main_cst_20 : FVec F S_ .f32 := constant S_ .f32 0x7F800000#32
  let main_v53 : FVec F S40 .f32 := broadcastInDim S40 ![] bcast_S_S40 main_cst_20
  let main_v54 : IVec S40 1 := cmpf .olt main_v52 main_v53
  let main_c_21 : IVec S_ 1 := constantI S_ 1 1#1
  let main_v55 : IVec S_ 1 := (fun x v => Host.reduce IntOp.andi x v reducesTo_S40_S_d0 h_S_) main_v54 main_c_21
  let main_v56 : IVec S_ 1 := andi main_v51 main_v55
  let main_v57 : FVec F S40 .f32 := Host.absf main_arg14
  let main_cst_22 : FVec F S_ .f32 := constant S_ .f32 0x7F800000#32
  let main_v58 : FVec F S40 .f32 := broadcastInDim S40 ![] bcast_S_S40 main_cst_22
  let main_v59 : IVec S40 1 := cmpf .olt main_v57 main_v58
  let main_c_23 : IVec S_ 1 := constantI S_ 1 1#1
  let main_v60 : IVec S_ 1 := (fun x v => Host.reduce IntOp.andi x v reducesTo_S40_S_d0 h_S_) main_v59 main_c_23
  let main_v61 : IVec S_ 1 := andi main_v56 main_v60
  let main_v62 : FVec F S40 .f32 := Host.absf main_arg15
  let main_cst_24 : FVec F S_ .f32 := constant S_ .f32 0x7F800000#32
  let main_v63 : FVec F S40 .f32 := broadcastInDim S40 ![] bcast_S_S40 main_cst_24
  let main_v64 : IVec S40 1 := cmpf .olt main_v62 main_v63
  let main_c_25 : IVec S_ 1 := constantI S_ 1 1#1
  let main_v65 : IVec S_ 1 := (fun x v => Host.reduce IntOp.andi x v reducesTo_S40_S_d0 h_S_) main_v64 main_c_25
  let main_v66 : IVec S_ 1 := andi main_v61 main_v65
  let main_v67 : FVec F S40 .f32 := Host.absf main_arg16
  fn_part4 (F := F) main_v66 main_v67

def fn_part2 {F : FTy → Type} [FloatOps F] (main_arg10 : FVec F S64 .f32) (main_arg11 : FVec F S64 .f32) (main_arg12 : FVec F S64 .f32) (main_arg13 : FVec F S40 .f32) (main_arg14 : FVec F S40 .f32) (main_arg15 : FVec F S40 .f32) (main_arg16 : FVec F S40 .f32) (main_v31 : IVec S_ 1) (main_v32 : FVec F S64 .f32) (main_cst_12 : FVec F S_ .f32) : IVec S_ 1 :=
  let main_v33 : FVec F S64 .f32 := broadcastInDim S64 ![] bcast_S_S64 main_cst_12
  let main_v34 : IVec S64 1 := cmpf .olt main_v32 main_v33
  let main_c_13 : IVec S_ 1 := constantI S_ 1 1#1
  let main_v35 : IVec S_ 1 := (fun x v => Host.reduce IntOp.andi x v reducesTo_S64_S_d0 h_S_) main_v34 main_c_13
  let main_v36 : IVec S_ 1 := andi main_v31 main_v35
  let main_v37 : FVec F S64 .f32 := Host.absf main_arg10
  let main_cst_14 : FVec F S_ .f32 := constant S_ .f32 0x7F800000#32
  let main_v38 : FVec F S64 .f32 := broadcastInDim S64 ![] bcast_S_S64 main_cst_14
  let main_v39 : IVec S64 1 := cmpf .olt main_v37 main_v38
  let main_c_15 : IVec S_ 1 := constantI S_ 1 1#1
  let main_v40 : IVec S_ 1 := (fun x v => Host.reduce IntOp.andi x v reducesTo_S64_S_d0 h_S_) main_v39 main_c_15
  let main_v41 : IVec S_ 1 := andi main_v36 main_v40
  let main_v42 : FVec F S64 .f32 := Host.absf main_arg11
  let main_cst_16 : FVec F S_ .f32 := constant S_ .f32 0x7F800000#32
  let main_v43 : FVec F S64 .f32 := broadcastInDim S64 ![] bcast_S_S64 main_cst_16
  let main_v44 : IVec S64 1 := cmpf .olt main_v42 main_v43
  let main_c_17 : IVec S_ 1 := constantI S_ 1 1#1
  let main_v45 : IVec S_ 1 := (fun x v => Host.reduce IntOp.andi x v reducesTo_S64_S_d0 h_S_) main_v44 main_c_17
  let main_v46 : IVec S_ 1 := andi main_v41 main_v45
  let main_v47 : FVec F S64 .f32 := Host.absf main_arg12
  let main_cst_18 : FVec F S_ .f32 := constant S_ .f32 0x7F800000#32
  let main_v48 : FVec F S64 .f32 := broadcastInDim S64 ![] bcast_S_S64 main_cst_18
  let main_v49 : IVec S64 1 := cmpf .olt main_v47 main_v48
  let main_c_19 : IVec S_ 1 := constantI S_ 1 1#1
  fn_part3 (F := F) main_arg13 main_arg14 main_arg15 main_arg16 main_v46 main_v49 main_c_19

def fn_part1 {F : FTy → Type} [FloatOps F] (main_arg6 : FVec F S64x40 .f32) (main_arg7 : FVec F S40 .f32) (main_arg8 : FVec F S_ .f32) (main_arg9 : FVec F S64 .f32) (main_arg10 : FVec F S64 .f32) (main_arg11 : FVec F S64 .f32) (main_arg12 : FVec F S64 .f32) (main_arg13 : FVec F S40 .f32) (main_arg14 : FVec F S40 .f32) (main_arg15 : FVec F S40 .f32) (main_arg16 : FVec F S40 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S64x40 .f32 := Host.absf main_arg6
  let main_cst_6 : FVec F S_ .f32 := constant S_ .f32 0x7F800000#32
  let main_v19 : FVec F S64x40 .f32 := broadcastInDim S64x40 ![] bcast_S_S64x40 main_cst_6
  let main_v20 : IVec S64x40 1 := cmpf .olt main_v18 main_v19
  let main_c_7 : IVec S_ 1 := constantI S_ 1 1#1
  let main_v21 : IVec S_ 1 := (fun x v => Host.reduce IntOp.andi x v reducesTo_S64x40_S_d0_1 h_S_) main_v20 main_c_7
  let main_v22 : IVec S_ 1 := andi main_v17 main_v21
  let main_v23 : FVec F S40 .f32 := Host.absf main_arg7
  let main_cst_8 : FVec F S_ .f32 := constant S_ .f32 0x7F800000#32
  let main_v24 : FVec F S40 .f32 := broadcastInDim S40 ![] bcast_S_S40 main_cst_8
  let main_v25 : IVec S40 1 := cmpf .olt main_v23 main_v24
  let main_c_9 : IVec S_ 1 := constantI S_ 1 1#1
  let main_v26 : IVec S_ 1 := (fun x v => Host.reduce IntOp.andi x v reducesTo_S40_S_d0 h_S_) main_v25 main_c_9
  let main_v27 : IVec S_ 1 := andi main_v22 main_v26
  let main_v28 : FVec F S_ .f32 := Host.absf main_arg8
  let main_cst_10 : FVec F S_ .f32 := constant S_ .f32 0x7F800000#32
  let main_v29 : IVec S_ 1 := cmpf .olt main_v28 main_cst_10
  let main_c_11 : IVec S_ 1 := constantI S_ 1 1#1
  let main_v30 : IVec S_ 1 := (fun x v => Host.reduce IntOp.andi x v reducesTo_S_S_d h_S_) main_v29 main_c_11
  let main_v31 : IVec S_ 1 := andi main_v27 main_v30
  let main_v32 : FVec F S64 .f32 := Host.absf main_arg9
  let main_cst_12 : FVec F S_ .f32 := constant S_ .f32 0x7F800000#32
  fn_part2 (F := F) main_arg10 main_arg11 main_arg12 main_arg13 main_arg14 main_arg15 main_arg16 main_v31 main_v32 main_cst_12

def fn {F : FTy → Type} [FloatOps F] (main_arg0 : FVec F S100000x128 .f32) (main_arg1 : IVec S2x1600000 32) (main_arg2 : IVec S10000 32) (main_arg3 : FVec F S128x64 .f32) (main_arg4 : FVec F S64 .f32) (main_arg5 : FVec F S_ .f32) (main_arg6 : FVec F S64x40 .f32) (main_arg7 : FVec F S40 .f32) (main_arg8 : FVec F S_ .f32) (main_arg9 : FVec F S64 .f32) (main_arg10 : FVec F S64 .f32) (main_arg11 : FVec F S64 .f32) (main_arg12 : FVec F S64 .f32) (main_arg13 : FVec F S40 .f32) (main_arg14 : FVec F S40 .f32) (main_arg15 : FVec F S40 .f32) (main_arg16 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S_ .f32 := Host.absf main_arg5
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg6 main_arg7 main_arg8 main_arg9 main_arg10 main_arg11 main_arg12 main_arg13 main_arg14 main_arg15 main_arg16 main_v13 main_v15 main_c_5
-- ==== Kernel.lean ====
abbrev S100000x128 : Shape := ⟨2, ![100000, 128]⟩
abbrev S2x1600000 : Shape := ⟨2, ![2, 1600000]⟩
abbrev S10000 : Shape := ⟨1, ![10000]⟩
abbrev S128x64 : Shape := ⟨2, ![128, 64]⟩
abbrev S64 : Shape := ⟨1, ![64]⟩
abbrev S_ : Shape := ⟨0, ![]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S1x1 : Shape := ⟨2, ![1, 1]⟩
abbrev S10000x1 : Shape := ⟨2, ![10000, 1]⟩
abbrev S1 : Shape := ⟨1, ![1]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩

abbrev nBuf : Space → Nat
  | .hbm => 131
  | .vmem => 38
  | .smem => 0
  | _ => 0

abbrev hbmTy0_0 (i : Nat) : BufTy := match i % 128 with
  | 0 => ⟨S100000x128, .f32⟩
  | 1 => ⟨S2x1600000, .i32⟩
  | 2 => ⟨S10000, .i32⟩
  | 3 => ⟨S128x64, .f32⟩
  | 4 => ⟨S64, .f32⟩
  | 5 => ⟨S_, .f32⟩
  | 6 => ⟨S64x40, .f32⟩
  | 7 => ⟨S40, .f32⟩
  | 8 => ⟨S_, .f32⟩
  | 9 => ⟨S64, .f32⟩
  | 10 => ⟨S64, .f32⟩
  | 11 => ⟨S64, .f32⟩
  | 12 => ⟨S64, .f32⟩
  | 13 => ⟨S40, .f32⟩
  | 14 => ⟨S40, .f32⟩
  | 15 => ⟨S40, .f32⟩
  | 16 => ⟨S40, .f32⟩
  | 17 => ⟨S1x1600000, .i32⟩
  | 18 => ⟨S1600000, .i32⟩
  | 19 => ⟨S1x1600000, .i32⟩
  | 20 => ⟨S1600000, .i32⟩
  | 21 => ⟨S100000, .i32⟩
  | 22 => ⟨S1700000, .i32⟩
  | 23 => ⟨S1700000, .i32⟩
  | 24 => ⟨S_, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S_, .f32⟩
  | 35 => ⟨S1700000, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x64, .f32⟩
  | 58 => ⟨S1700000x1, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x64, .f32⟩
  | 68 => ⟨S1700000x64, .f32⟩
  | 69 => ⟨S1700000x64, .f32⟩
  | 70 => ⟨S_, .f32⟩
  | 71 => ⟨S100000x64, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S100000x64, .f32⟩
  | 81 => ⟨S1x64, .f32⟩
  | 82 => ⟨S1x64, .f32⟩
  | 83 => ⟨S1x64, .f32⟩
  | 84 => ⟨S1x64, .f32⟩
  | 85 => ⟨S1x64, .f32⟩
  | 86 => ⟨S1x1, .f32⟩
  | 87 => ⟨S100000x64, .f32⟩
  | 88 => ⟨S1x1, .f32⟩
  | 89 => ⟨S_, .f32⟩
  | 90 => ⟨S100000x40, .f32⟩
  | 91 => ⟨S1700000x1, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x40, .f32⟩
  | 101 => ⟨S1700000x40, .f32⟩
  | 102 => ⟨S1700000x40, .f32⟩
  | 103 => ⟨S_, .f32⟩
  | 104 => ⟨S100000x40, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S100000x40, .f32⟩
  | 114 => ⟨S1x40, .f32⟩
  | 115 => ⟨S1x40, .f32⟩
  | 116 => ⟨S1x40, .f32⟩
  | 117 => ⟨S1x40, .f32⟩
  | 118 => ⟨S1x40, .f32⟩
  | 119 => ⟨S1x1, .f32⟩
  | 120 => ⟨S100000x40, .f32⟩
  | 121 => ⟨S_, .i32⟩
  | 122 => ⟨S10000, .i32⟩
  | 123 => ⟨S10000, .i1⟩
  | 124 => ⟨S_, .i32⟩
  | 125 => ⟨S10000, .i32⟩
  | 126 => ⟨S10000, .i32⟩
  | 127 => ⟨S10000, .i32⟩
  | _ => ⟨S100000x128, .f32⟩

abbrev hbmTy0_1 (i : Nat) : BufTy := match i % 128 with
  | 0 => ⟨S10000x1, .i32⟩
  | 1 => ⟨S10000x40, .f32⟩
  | 2 => ⟨S10000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S1x1, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S1x1, .f32⟩
  | .local _ .vmem, ⟨18, _⟩ => ⟨S1x1, .f32⟩
  | .local _ .vmem, ⟨19, _⟩ => ⟨S10000x64, .f32⟩
  | .local _ .vmem, ⟨20, _⟩ => ⟨S10000x64, .f32⟩
  | .local _ .vmem, ⟨21, _⟩ => ⟨S64x40, .f32⟩
  | .local _ .vmem, ⟨22, _⟩ => ⟨S10000x40, .f32⟩
  | .local _ .vmem, ⟨23, _⟩ => ⟨S10000x40, .f32⟩
  | .local _ .vmem, ⟨24, _⟩ => ⟨S10000x40, .f32⟩
  | .local _ .vmem, ⟨25, _⟩ => ⟨S10000x40, .f32⟩
  | .local _ .vmem, ⟨26, _⟩ => ⟨S10000x40, .f32⟩
  | .local _ .vmem, ⟨27, _⟩ => ⟨S10000x40, .f32⟩
  | .local _ .vmem, ⟨28, _⟩ => ⟨S1x1, .f32⟩
  | .local _ .vmem, ⟨29, _⟩ => ⟨S1x40, .f32⟩
  | .local _ .vmem, ⟨30, _⟩ => ⟨S1x40, .f32⟩
  | .local _ .vmem, ⟨31, _⟩ => ⟨S1x40, .f32⟩
  | .local _ .vmem, ⟨32, _⟩ => ⟨S1x40, .f32⟩
  | .local _ .vmem, ⟨33, _⟩ => ⟨S1x40, .f32⟩
  | .local _ .vmem, ⟨34, _⟩ => ⟨S10000x40, .f32⟩
  | .local _ .vmem, ⟨35, _⟩ => ⟨S10000x40, .f32⟩
  | .local _ .vmem, ⟨36, _⟩ => ⟨S10000x40, .f32⟩
  | .local _ .vmem, ⟨37, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_c_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57_0 : Ref sig .tc := ⟨.hbm, 87, rfl⟩
abbrev main_v57_1 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_11 : Ref sig .tc := ⟨.hbm, 92, rfl⟩
abbrev main_v61 : Ref sig .tc := ⟨.hbm, 93, rfl⟩
abbrev main_v62 : Ref sig .tc := ⟨.hbm, 94, rfl⟩
abbrev main_c_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_c_14 : Ref sig .tc := ⟨.hbm, 105, rfl⟩
abbrev main_v71 : Ref sig .tc := ⟨.hbm, 106, rfl⟩
abbrev main_v72 : Ref sig .tc := ⟨.hbm, 107, rfl⟩
abbrev main_c_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_16 : Ref sig .tc := ⟨.hbm, 121, rfl⟩
abbrev main_v85 : Ref sig .tc := ⟨.hbm, 122, rfl⟩
abbrev main_v86 : Ref sig .tc := ⟨.hbm, 123, rfl⟩
abbrev main_c_17 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg1_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem8_1 : DmaSem sig := 16
abbrev cc1_sem9_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem8_0 : DmaSem sig := 33
abbrev cc3_sem8_1 : DmaSem sig := 34
abbrev cc4_sem0_0 : DmaSem sig := 35
abbrev cc4_sem1_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v51 : BitVec 1 := Scalar.cmpi .eq arg0 c9_i32
  let v52 : BitVec 32 := Scalar.extui v51
  let c0_i32_24 : BitVec 32 := 0#32
  let v53 : BitVec 1 := Scalar.cmpi .ne v52 c0_i32_24
  v53

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x40 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x40 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x40 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S10000x40 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S10000x40 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S10000x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S10000x64_S10000x64 : S10000x64.ShapeCasts S10000x64
  inpos_S1x1_p0_0 : ∀ a, (![0, 0] : Fin 2 → Nat) a < S1x1.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  reduces_S10000x1_S1 : S10000x1.Reduces [0] S1
  shapeCasts_S1_S1x1 : S1.ShapeCasts S1x1
  shapeCasts_S1x1_S_ : S1x1.ShapeCasts S_
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  bcast_S_S10000 : S_.BroadcastsInDim S10000 (![] : Fin 0 → Fin S10000.rank)
  bcast_S10000_S10000x1_0 : S10000.BroadcastsInDim S10000x1 (![0] : Fin 1 → Fin S10000x1.rank)
  reduces_S10000x40_S10000 : S10000x40.Reduces [1] S10000
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  gather_S100000x40_S10000x1_S10000x40_1_0_n_n_0_1_140_wf : GatherDims.WF S100000x40 S10000x1 S10000x40 [1] [0] [] [0] [] 1 ![1, 40]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x64.size a ≤ S100000x64.size a
  hwx1_8 : ∀ i : grid1.Coords, EltTy.bits .f32 = 32 ∨ (Rect.block (s := S100000x64) S10000x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x40.size a ≤ S100000x40.size a
  hwx3_1 : ∀ i : grid3.Coords, EltTy.bits .f32 = 32 ∨ (Rect.block (s := S100000x40) S10000x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x40.size a ≤ S1x40.size a
  hwx3_4 : ∀ i : grid3.Coords, EltTy.bits .f32 = 32 ∨ (Rect.block (s := S1x40) S1x40.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x40.size a ≤ S1x40.size a
  hwx3_5 : ∀ i : grid3.Coords, EltTy.bits .f32 = 32 ∨ (Rect.block (s := S1x40) S1x40.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x40.size a ≤ S1x40.size a
  hwx3_6 : ∀ i : grid3.Coords, EltTy.bits .f32 = 32 ∨ (Rect.block (s := S1x40) S1x40.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x40.size a ≤ S1x40.size a
  hwx3_7 : ∀ i : grid3.Coords, EltTy.bits .f32 = 32 ∨ (Rect.block (s := S1x40) S1x40.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S10000x40.size a ≤ S100000x40.size a
  hwx3_8 : ∀ i : grid3.Coords, EltTy.bits .f32 = 32 ∨ (Rect.block (s := S100000x40) S10000x40.size (cc3_transform_8 i) (hinb3_8 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S10000x40.size a ≤ S10000x40.size a
  hwx4_0 : ∀ i : grid4.Coords, EltTy.bits .f32 = 32 ∨ (Rect.block (s := S10000x40) S10000x40.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S10000x40.size a ≤ S10000x40.size a
  hwx4_1 : ∀ i : grid4.Coords, EltTy.bits .f32 = 32 ∨ (Rect.block (s := S10000x40) S10000x40.size (cc4_transform_1 i) (hinb4_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf
def gather_S100000x40_S10000x1_S10000x40_1_0_n_n_0_1_140 : GatherDims S100000x40 S10000x1 S10000x40 where
  offsetDims := [1]
  collapsedSliceDims := [0]
  operandBatchingDims := []
  startIndicesBatchingDims := []
  startIndexMap := [0]
  indexVectorDim := 1
  sliceSizes := ![1, 40]
  wf := gather_S100000x40_S10000x1_S10000x40_1_0_n_n_0_1_140_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v55) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v57_0) S10000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v57_1) S1x1.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v57_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S10000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v83) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S1x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80) S1x40.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v81) S1x40.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v82) S1x40.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v84) S10000x40.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v91) S10000x40.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v92) S10000x40.size cc4_transform_1 reads4_1 true false 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S10000 : Shape := ⟨1, ![10000]⟩
abbrev S128x64 : Shape := ⟨2, ![128, 64]⟩
abbrev S64 : Shape := ⟨1, ![64]⟩
abbrev S_ : Shape := ⟨0, ![]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S10000x1 : Shape := ⟨2, ![10000, 1]⟩
abbrev S10000x40 : Shape := ⟨2, ![10000, 40]⟩

abbrev nBuf : Space → Nat
  | .hbm => 229
  | .vmem => 0
  | .smem => 0
  | _ => 0

abbrev hbmTy0_0 (i : Nat) : BufTy := match i % 128 with
  | 0 => ⟨S100000x128, .f32⟩
  | 1 => ⟨S2x1600000, .i32⟩
  | 2 => ⟨S10000, .i32⟩
  | 3 => ⟨S128x64, .f32⟩
  | 4 => ⟨S64, .f32⟩
  | 5 => ⟨S_, .f32⟩
  | 6 => ⟨S64x40, .f32⟩
  | 7 => ⟨S40, .f32⟩
  | 8 => ⟨S_, .f32⟩
  | 9 => ⟨S64, .f32⟩
  | 10 => ⟨S64, .f32⟩
  | 11 => ⟨S64, .f32⟩
  | 12 => ⟨S64, .f32⟩
  | 13 => ⟨S40, .f32⟩
  | 14 => ⟨S40, .f32⟩
  | 15 => ⟨S40, .f32⟩
  | 16 => ⟨S40, .f32⟩
  | 17 => ⟨S1x1600000, .i32⟩
  | 18 => ⟨S1600000, .i32⟩
  | 19 => ⟨S1x1600000, .i32⟩
  | 20 => ⟨S1600000, .i32⟩
  | 21 => ⟨S100000x64, .f32⟩
  | 22 => ⟨S100000, .i32⟩
  | 23 => ⟨S1700000, .i32⟩
  | 24 => ⟨S1700000, .i32⟩
  | 25 => ⟨S_, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S_, .f32⟩
  | 36 => ⟨S1700000, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S1700000x1, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x64, .f32⟩
  | 68 => ⟨S1700000x64, .f32⟩
  | 69 => ⟨S1700000x64, .f32⟩
  | 70 => ⟨S_, .f32⟩
  | 71 => ⟨S100000x64, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S100000x64, .f32⟩
  | 81 => ⟨S100000x64, .f32⟩
  | 82 => ⟨S100000x64, .f32⟩
  | 83 => ⟨S100000x64, .f32⟩
  | 84 => ⟨S1x64, .f32⟩
  | 85 => ⟨S100000x64, .f32⟩
  | 86 => ⟨S100000x64, .f32⟩
  | 87 => ⟨S100000x64, .f32⟩
  | 88 => ⟨S100000x64, .f32⟩
  | 89 => ⟨S100000x64, .f32⟩
  | 90 => ⟨S100000x64, .f32⟩
  | 91 => ⟨S100000x64, .f32⟩
  | 92 => ⟨S_, .f32⟩
  | 93 => ⟨S_, .f32⟩
  | 94 => ⟨S_, .f32⟩
  | 95 => ⟨S_, .f32⟩
  | 96 => ⟨S1x64, .f32⟩
  | 97 => ⟨S100000x64, .f32⟩
  | 98 => ⟨S100000x64, .f32⟩
  | 99 => ⟨S_, .f32⟩
  | 100 => ⟨S64, .f32⟩
  | 101 => ⟨S64, .f32⟩
  | 102 => ⟨S64, .f32⟩
  | 103 => ⟨S1x64, .f32⟩
  | 104 => ⟨S100000x64, .f32⟩
  | 105 => ⟨S100000x64, .f32⟩
  | 106 => ⟨S1x64, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S100000x64, .f32⟩
  | 113 => ⟨S100000x40, .f32⟩
  | 114 => ⟨S100000, .i32⟩
  | 115 => ⟨S1700000, .i32⟩
  | 116 => ⟨S1700000, .i32⟩
  | 117 => ⟨S_, .f32⟩
  | 118 => ⟨S100000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S_, .f32⟩
  | _ => ⟨S100000x128, .f32⟩

abbrev hbmTy0_1 (i : Nat) : BufTy := match i % 128 with
  | 0 => ⟨S1700000, .f32⟩
  | 1 => ⟨S100000, .f32⟩
  | 2 => ⟨S100000, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000, .f32⟩
  | 12 => ⟨S_, .i32⟩
  | 13 => ⟨S1700000, .i32⟩
  | 14 => ⟨S1700000, .i1⟩
  | 15 => ⟨S_, .i32⟩
  | 16 => ⟨S1700000, .i32⟩
  | 17 => ⟨S1700000, .i32⟩
  | 18 => ⟨S1700000, .i32⟩
  | 19 => ⟨S1700000x1, .i32⟩
  | 20 => ⟨S1700000, .f32⟩
  | 21 => ⟨S1700000, .f32⟩
  | 22 => ⟨S1700000x1, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000x40, .f32⟩
  | 32 => ⟨S1700000x40, .f32⟩
  | 33 => ⟨S1700000x40, .f32⟩
  | 34 => ⟨S_, .f32⟩
  | 35 => ⟨S100000x40, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S100000x40, .f32⟩
  | 45 => ⟨S100000x40, .f32⟩
  | 46 => ⟨S100000x40, .f32⟩
  | 47 => ⟨S100000x40, .f32⟩
  | 48 => ⟨S1x40, .f32⟩
  | 49 => ⟨S100000x40, .f32⟩
  | 50 => ⟨S100000x40, .f32⟩
  | 51 => ⟨S100000x40, .f32⟩
  | 52 => ⟨S100000x40, .f32⟩
  | 53 => ⟨S100000x40, .f32⟩
  | 54 => ⟨S100000x40, .f32⟩
  | 55 => ⟨S100000x40, .f32⟩
  | 56 => ⟨S_, .f32⟩
  | 57 => ⟨S_, .f32⟩
  | 58 => ⟨S_, .f32⟩
  | 59 => ⟨S_, .f32⟩
  | 60 => ⟨S1x40, .f32⟩
  | 61 => ⟨S100000x40, .f32⟩
  | 62 => ⟨S100000x40, .f32⟩
  | 63 => ⟨S_, .f32⟩
  | 64 => ⟨S40, .f32⟩
  | 65 => ⟨S40, .f32⟩
  | 66 => ⟨S40, .f32⟩
  | 67 => ⟨S1x40, .f32⟩
  | 68 => ⟨S100000x40, .f32⟩
  | 69 => ⟨S100000x40, .f32⟩
  | 70 => ⟨S1x40, .f32⟩
  | 71 => ⟨S100000x40, .f32⟩
  | 72 => ⟨S100000x40, .f32⟩
  | 73 => ⟨S1x40, .f32⟩
  | 74 => ⟨S100000x40, .f32⟩
  | 75 => ⟨S100000x40, .f32⟩
  | 76 => ⟨S100000x40, .f32⟩
  | 77 => ⟨S_, .i32⟩
  | 78 => ⟨S10000, .i32⟩
  | 79 => ⟨S10000, .i1⟩
  | 80 => ⟨S_, .i32⟩
  | 81 => ⟨S10000, .i32⟩
  | 82 => ⟨S10000, .i32⟩
  | 83 => ⟨S10000, .i32⟩
  | 84 => ⟨S10000x1, .i32⟩
  | 85 => ⟨S10000x40, .f32⟩
  | 86 => ⟨S_, .f32⟩
  | 87 => ⟨S10000, .f32⟩
  | 88 => ⟨S_, .f32⟩
  | 89 => ⟨S10000, .f32⟩
  | 90 => ⟨S10000, .f32⟩
  | 91 => ⟨S10000x1, .f32⟩
  | 92 => ⟨S10000x40, .f32⟩
  | 93 => ⟨S10000x40, .f32⟩
  | 94 => ⟨S10000x40, .f32⟩
  | 95 => ⟨S_, .f32⟩
  | 96 => ⟨S10000, .f32⟩
  | 97 => ⟨S10000x1, .f32⟩
  | 98 => ⟨S10000x1, .f32⟩
  | 99 => ⟨S10000x40, .f32⟩
  | 100 => ⟨S10000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_c_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_14 : Ref sig .tc := ⟨.hbm, 117, rfl⟩
abbrev main_v84 : Ref sig .tc := ⟨.hbm, 118, rfl⟩
abbrev main_c_15 : Ref sig .tc := ⟨.hbm, 119, rfl⟩
abbrev main_v85 : Ref sig .tc := ⟨.hbm, 120, rfl⟩
abbrev main_v86 : Ref sig .tc := ⟨.hbm, 121, rfl⟩
abbrev main_c_16 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_17 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_18 : Ref sig .tc := ⟨.hbm, 131, rfl⟩
abbrev main_v94 : Ref sig .tc := ⟨.hbm, 132, rfl⟩
abbrev main_v95 : Ref sig .tc := ⟨.hbm, 133, rfl⟩
abbrev main_c_19 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_c_20 : Ref sig .tc := ⟨.hbm, 140, rfl⟩
abbrev main_v101 : Ref sig .tc := ⟨.hbm, 141, rfl⟩
abbrev main_v102 : Ref sig .tc := ⟨.hbm, 142, rfl⟩
abbrev main_c_21 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_22 : Ref sig .tc := ⟨.hbm, 151, rfl⟩
abbrev main_v110 : Ref sig .tc := ⟨.hbm, 152, rfl⟩
abbrev main_v111 : Ref sig .tc := ⟨.hbm, 153, rfl⟩
abbrev main_c_23 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_24 : Ref sig .tc := ⟨.hbm, 162, rfl⟩
abbrev main_v119 : Ref sig .tc := ⟨.hbm, 163, rfl⟩
abbrev main_c_25 : Ref sig .tc := ⟨.hbm, 164, rfl⟩
abbrev main_v120 : Ref sig .tc := ⟨.hbm, 165, rfl⟩
abbrev main_v121 : Ref sig .tc := ⟨.hbm, 166, rfl⟩
abbrev main_c_26 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_27 : Ref sig .tc := ⟨.hbm, 184, rfl⟩
abbrev main_v138 : Ref sig .tc := ⟨.hbm, 185, rfl⟩
abbrev main_cst_28 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_29 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_c_30 : Ref sig .tc := ⟨.hbm, 205, rfl⟩
abbrev main_v156 : Ref sig .tc := ⟨.hbm, 206, rfl⟩
abbrev main_v157 : Ref sig .tc := ⟨.hbm, 207, rfl⟩
abbrev main_c_31 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_call0_cst : Ref sig .tc := ⟨.hbm, 214, rfl⟩
abbrev main_call0_v0 : Ref sig .tc := ⟨.hbm, 215, rfl⟩
abbrev main_call0_cst_0 : Ref sig .tc := ⟨.hbm, 216, rfl⟩
abbrev main_call0_v1 : Ref sig .tc := ⟨.hbm, 217, rfl⟩
abbrev main_call0_v2 : Ref sig .tc := ⟨.hbm, 218, rfl⟩
abbrev main_call0_v3 : Ref sig .tc := ⟨.hbm, 219, rfl⟩
abbrev main_call0_v4 : Ref sig .tc := ⟨.hbm, 220, rfl⟩
abbrev main_call0_v5 : Ref sig .tc := ⟨.hbm, 221, rfl⟩
abbrev main_call0_v6 : Ref sig .tc := ⟨.hbm, 222, rfl⟩
abbrev main_call0_cst_1 : Ref sig .tc := ⟨.hbm, 223, rfl⟩
abbrev main_call0_v7 : Ref sig .tc := ⟨.hbm, 224, rfl⟩
abbrev main_call0_v8 : Ref sig .tc := ⟨.hbm, 225, rfl⟩
abbrev main_call0_v9 : Ref sig .tc := ⟨.hbm, 226, rfl⟩
abbrev main_call0_v10 : Ref sig .tc := ⟨.hbm, 227, rfl⟩
abbrev main_v163 : Ref sig .tc := ⟨.hbm, 228, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S_d0_1 : S100000x64.ReducesTo [0, 1] S_
  h_S_ : 0 < S_.numel
  bcast_S_S64 : S_.BroadcastsInDim S64 (![] : Fin 0 → Fin S64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S_d0_1 : S100000x40.ReducesTo [0, 1] S_
  bcast_S_S40 : S_.BroadcastsInDim S40 (![] : Fin 0 → Fin S40.rank)
  bcast_S_S10000 : S_.BroadcastsInDim S10000 (![] : Fin 0 → Fin S10000.rank)
  bcast_S10000_S10000x1_0 : S10000.BroadcastsInDim S10000x1 (![0] : Fin 1 → Fin S10000x1.rank)
  reducesTo_S10000x40_S10000_d1 : S10000x40.ReducesTo [1] S10000
  bcast_S10000x1_S10000x40_0_1 : S10000x1.BroadcastsInDim S10000x40 (![0, 1] : Fin 2 → Fin S10000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  gather_S100000x40_S10000x1_S10000x40_1_0_n_n_0_1_140_wf : GatherDims.WF S100000x40 S10000x1 S10000x40 [1] [0] [] [0] [] 1 ![1, 40]

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf
def gather_S100000x40_S10000x1_S10000x40_1_0_n_n_0_1_140 : GatherDims S100000x40 S10000x1 S10000x40 where
  offsetDims := [1]
  collapsedSliceDims := [0]
  operandBatchingDims := []
  startIndicesBatchingDims := []
  startIndexMap := [0]
  indexVectorDim := 1
  sliceSizes := ![1, 40]
  wf := gather_S100000x40_S10000x1_S10000x40_1_0_n_n_0_1_140_wf

class Facts : Prop extends Facts₀ where

variable [Facts]
-- ==== Proof.K.R0.lean ====
/-
  The first dense layer, one row tile at a time. The grid has ten points; at point t the body sees rows
  10000·t … 10000·t + 9999 of the feature matrix (a 10000 × 128 tile), the whole 128 × 64 weight matrix, and
  leaves in the result window the tile's product with the weights (one matrix product into a zero accumulator).
  This file states that for the tile contents as the region finds them (a parameter `V`: the buffers when the
  region is entered) and proves the body's obligation towards the pipeline at a generic point, for any float
  instance: the body runs, faults nowhere, gives the two input tiles back unchanged and the result tile at the
  product.
-/
import proofs.«150785_j1864015806542_1_alg».proof.Proof.Gen.Kernel.Launch
import proofs.«150785_j1864015806542_1_alg».proof.Proof.Gen.Kernel.Skeleton
import proofs.«150785_j1864015806542_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Tiles as the region finds them -/

/-- The tile of window `w` at grid point `t`, read off the window's array as it is when the region starts. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its tile at every point (whether or not the point fetched it: when it
    did not, the tile index has not moved), as long as the body leaves the tile in place. The feature tile: -/
theorem held0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)
/-- and the weight matrix: -/
theorem held0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-! ## What the body leaves in the result tile -/

abbrev whole0_x : Rect S10000x128 := Rect.unit (s := S10000x128) ![0, 0] S10000x128.size inb_S10000x128_S10000x128_0_0
abbrev whole0_w : Rect S128x64 := Rect.unit (s := S128x64) ![0, 0] S128x64.size inb_S128x64_S128x64_0_0
abbrev whole0_o : Rect S10000x64 := Rect.unit (s := S10000x64) ![0, 0] S10000x64.size inb_S10000x64_S10000x64_0_0

/-- The result tile after the body: its one store, of the product of the two loaded tiles. -/
def prod0 (x : Vec F S10000x128 .f32) (w : Vec F S128x64 .f32) : Vec F S10000x64 .f32 :=
  View.canon [⟨whole0_o, k0_pay1 (View.ld x whole0_x) (View.ld w whole0_w)⟩]

/-- The one store covers the result tile. -/
theorem covers0 (p : Vec F S10000x64 .f32) (y : S10000x64.Idx) :
    ∃ pc ∈ ([⟨whole0_o, p⟩] : List (View.Piece (Elt F) S10000x64 .f32)), y ∈ pc.1.set :=
  View.cover_of_tiled [⟨whole0_o, p⟩] S10000x64.size (by rfl) y

/-! ## The body runs -/

set_option maxHeartbeats 1000000 in
/-- On whole staging buffers holding `x`, `w` and anything, the body runs to its end, keeps `x` and `w` and leaves
    the third at `prod0 x w`. -/
theorem run_body0 (c : Dev nD) (E : Set ℕ) (i : grid0.Coords) (a1 : Memref sig .tc .vmem S10000x128 .f32) (h1 : a1.IsWhole)
    (a2 : Memref sig .tc .vmem S128x64 .f32) (h2 : a2.IsWhole) (a3 : Memref sig .tc .vmem S10000x64 .f32) (h3 : a3.IsWhole)
    (x : Vec F S10000x128 .f32) (w : Vec F S128x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (prod0 x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0 _)

/-! ## The pipeline's proof data and the obligation at a point -/

/-- Proof data of this pipeline on core `c`: arrays as found; after the body at point `t` the inputs' buffers at
    their tiles and the result's at the product; the invariant is the untouched scoped rest and generator
    register; nothing owed; full shares. -/
def data0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => prod0 (tile0 V c 0 t) (tile0 V c 1 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_0 (c : Dev nD) (t : Fin cfg0.N) : (data0 V c).after 0 t = tile0 V c 0 t := by dsimp only [data0]
theorem data0_after_1 (c : Dev nD) (t : Fin cfg0.N) : (data0 V c).after 1 t = tile0 V c 1 t := by dsimp only [data0]
theorem data0_after_2 (c : Dev nD) (t : Fin cfg0.N) :
    (data0 V c).after 2 t = prod0 (tile0 V c 0 t) (tile0 V c 1 t) := by dsimp only [data0]

theorem data0_before_0 (c : Dev nD) (t : Fin cfg0.N) (d) : (data0 V c).before 0 t d = tile0 V c 0 t :=
  held0_0_of V (data0 V c) (data0_A V c 0) (data0_after_0 V c) t d
theorem data0_before_1 (c : Dev nD) (t : Fin cfg0.N) (d) : (data0 V c).before 1 t d = tile0 V c 1 t :=
  held0_1_of V (data0 V c) (data0_A V c 1) (data0_after_1 V c) t d

/-- What the body is called with at point `t`, -/
def pre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

/-- and what it returns. -/
def post0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

theorem at_point0 (c : Dev nD) (t : Fin cfg0.N) :
    pre0 V c t ⊢ wp frame (wpE (defs₀ (F := F)) Variants.none c none) Set.univ (bodyAt0 t) (fun _ => post0 V c t) := by
  unfold pre0 post0 bodyAt0
  simp only [data0_before_0, data0_before_1]
  rw [show (data0 V c).Φ t.succ = (data0 V c).Φ t.castSucc from rfl,
    show (data0 V c).owesAt () t.succ = (data0 V c).owesAt () t.castSucc from rfl,
    data0_after_0, data0_after_1, data0_after_2]
  iintro ⟨HΦ, Ho, ⟨%d0, H0⟩, ⟨%d1, H1⟩, ⟨%d2, H2⟩⟩
  iapply (run_body0 c Set.univ _ _ _ _ _ _ _ (tile0 V c 0 t) (tile0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation towards the pipeline, at every point. -/
theorem obligation0 (c : Dev nD) : BodyObligation (data0 (F := F) V c) (defs₀ (F := F)) Variants.none () Set.univ := fun t => by
  rw [bigSep_W0, bigSep_W0]
  exact at_point0 V c t

end Cert.Kernel.Fr

end
-- ==== Proof.K.R1.lean ====
/-
  The first layer's combine step with the Helmholtz loss, one row tile at a time. The grid has ten points; at point
  t the body sees rows 10000·t … 10000·t + 9999 of the projected features h and of the aggregated messages agg (two
  10000 × 64 tiles), the scalar k² as a 1 × 1 array and five 1 × 64 rows (bias, scale, shift, running mean, running
  variance). It stores tanh(((agg + k²·h + bias) − mean) · rsqrt(variance + ε) · scale + shift) into the result tile,
  and adds the tile's sum of squared residuals (agg − h + k²·h)² to a 1 × 1 accumulator kept in a scratch buffer
  across the points: the first point stores zero there first, and the last point stores the accumulator times a
  constant (the single-precision number nearest 1/6400000, as the program's word spells it) into the loss window. The loss window is idle at the other nine points (its buffer is handed back
  as found) and is written back once, after the last. This file proves the body's obligation towards the pipeline for
  the tile contents as the region finds them (a parameter `V`), for any float instance; the invariant between
  points says what the scratch holds.
-/
import proofs.«150785_j1864015806542_1_alg».proof.Proof.Gen.Kernel.Launch
import proofs.«150785_j1864015806542_1_alg».proof.Proof.Gen.Kernel.Skeleton
import proofs.«150785_j1864015806542_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles, the result tile, and the accumulator's steps -/

/-- The tile of window `w` at grid point `t`, read off the window's array as it is when the region starts. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its tile at every point (whether or not the point fetched it: when it
    did not, the tile index has not moved), as long as the body leaves the tile in place. One statement per window: -/
theorem held1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)
theorem held1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)
theorem held1_2_of {c : Dev nD} (dat : Dat τ (Elt F) Unit ℕ (UR sig nD τ) ℕ cfg1 c) (hA : dat.A 2 = V c (Pipeline.arrRef spec1 2))
    (hafter : ∀ t, dat.after 2 t = tile1 V c 2 t) (t : Fin cfg1.N) (d) : dat.before 2 t d = tile1 V c 2 t :=
  (dat.before_in_eq_fetched 2 rfl (fun _ => rfl) (fun _ _ _ => rfl) (fun t => by rw [hafter]; unfold Dat.blockOf tile1; rw [hA]; try rfl) t d).trans
    (by unfold Dat.fetched Dat.blockOf tile1; rw [hA]; try rfl)
theorem held1_3_of {c : Dev nD} (dat : Dat τ (Elt F) Unit ℕ (UR sig nD τ) ℕ cfg1 c) (hA : dat.A 3 = V c (Pipeline.arrRef spec1 3))
    (hafter : ∀ t, dat.after 3 t = tile1 V c 3 t) (t : Fin cfg1.N) (d) : dat.before 3 t d = tile1 V c 3 t :=
  (dat.before_in_eq_fetched 3 rfl (fun _ => rfl) (fun _ _ _ => rfl) (fun t => by rw [hafter]; unfold Dat.blockOf tile1; rw [hA]; try rfl) t d).trans
    (by unfold Dat.fetched Dat.blockOf tile1; rw [hA]; try rfl)
theorem held1_4_of {c : Dev nD} (dat : Dat τ (Elt F) Unit ℕ (UR sig nD τ) ℕ cfg1 c) (hA : dat.A 4 = V c (Pipeline.arrRef spec1 4))
    (hafter : ∀ t, dat.after 4 t = tile1 V c 4 t) (t : Fin cfg1.N) (d) : dat.before 4 t d = tile1 V c 4 t :=
  (dat.before_in_eq_fetched 4 rfl (fun _ => rfl) (fun _ _ _ => rfl) (fun t => by rw [hafter]; unfold Dat.blockOf tile1; rw [hA]; try rfl) t d).trans
    (by unfold Dat.fetched Dat.blockOf tile1; rw [hA]; try rfl)
theorem held1_5_of {c : Dev nD} (dat : Dat τ (Elt F) Unit ℕ (UR sig nD τ) ℕ cfg1 c) (hA : dat.A 5 = V c (Pipeline.arrRef spec1 5))
    (hafter : ∀ t, dat.after 5 t = tile1 V c 5 t) (t : Fin cfg1.N) (d) : dat.before 5 t d = tile1 V c 5 t :=
  (dat.before_in_eq_fetched 5 rfl (fun _ => rfl) (fun _ _ _ => rfl) (fun t => by rw [hafter]; unfold Dat.blockOf tile1; rw [hA]; try rfl) t d).trans
    (by unfold Dat.fetched Dat.blockOf tile1; rw [hA]; try rfl)
theorem held1_6_of {c : Dev nD} (dat : Dat τ (Elt F) Unit ℕ (UR sig nD τ) ℕ cfg1 c) (hA : dat.A 6 = V c (Pipeline.arrRef spec1 6))
    (hafter : ∀ t, dat.after 6 t = tile1 V c 6 t) (t : Fin cfg1.N) (d) : dat.before 6 t d = tile1 V c 6 t :=
  (dat.before_in_eq_fetched 6 rfl (fun _ => rfl) (fun _ _ _ => rfl) (fun t => by rw [hafter]; unfold Dat.blockOf tile1; rw [hA]; try rfl) t d).trans
    (by unfold Dat.fetched Dat.blockOf tile1; rw [hA]; try rfl)
theorem held1_7_of {c : Dev nD} (dat : Dat τ (Elt F) Unit ℕ (UR sig nD τ) ℕ cfg1 c) (hA : dat.A 7 = V c (Pipeline.arrRef spec1 7))
    (hafter : ∀ t, dat.after 7 t = tile1 V c 7 t) (t : Fin cfg1.N) (d) : dat.before 7 t d = tile1 V c 7 t :=
  (dat.before_in_eq_fetched 7 rfl (fun _ => rfl) (fun _ _ _ => rfl) (fun t => by rw [hafter]; unfold Dat.blockOf tile1; rw [hA]; try rfl) t d).trans
    (by unfold Dat.fetched Dat.blockOf tile1; rw [hA]; try rfl)

abbrev whole1_t : Rect S10000x64 := Rect.unit (s := S10000x64) ![0, 0] S10000x64.size inb_S10000x64_S10000x64_0_0
abbrev whole1_s : Rect S1x1 := Rect.unit (s := S1x1) ![0, 0] S1x1.size inb_S1x1_S1x1_0_0
abbrev whole1_r : Rect S1x64 := Rect.unit (s := S1x64) ![0, 0] S1x64.size inb_S1x64_S1x64_0_0

/-- The first grid point zeroes the accumulator: the body's test `program_id = 0`, as it is printed. -/
abbrev atFirst1 (i : grid1.Coords) : Prop :=
  Scalar.cmpi .ne (Scalar.extui (Scalar.cmpi .eq (BitVec.ofNat 32 (i 0).val) 0#32)) 0#32 = 1#1
/-- The last grid point writes the loss: the body's test `program_id = 9`. -/
abbrev atLast1 (i : grid1.Coords) : Prop := k1_cond2 i = 1#1

/-- The result tile after the body, from the eight input tiles in the windows' order (h, agg, k², bias, scale,
    shift, mean, variance): its one store. -/
def comb1 (x0 x1 : Vec F S10000x64 .f32) (x2 : Vec F S1x1 .f32) (x3 x4 x5 x6 x7 : Vec F S1x64 .f32) : Vec F S10000x64 .f32 :=
  View.canon [⟨whole1_t, k1_pay7 (View.ld x0 whole1_t) (View.ld x1 whole1_t) (View.ld x2 whole1_s) (View.ld x3 whole1_r)
    (View.ld x6 whole1_r) (View.ld x7 whole1_r) (View.ld x4 whole1_r) (View.ld x5 whole1_r)⟩]

/-- The accumulator after a point's update: what it held plus the sum of the squared residuals of the point's two
    tiles (the payload of the body's store into the scratch). -/
def step1 (x0 x1 : Vec F S10000x64 .f32) (x2 : Vec F S1x1 .f32) (s : Vec F S1x1 .f32) : Vec F S1x1 .f32 :=
  k1_pay1 (k1_pay4 (View.ld x0 whole1_t)) (k1_pay5 (View.ld x1 whole1_t)) (k1_pay6 (View.ld x2 whole1_s)) s

/-- The accumulator after the body at grid coordinates `i`, if it held `s` before: the first point starts from the
    zero the body stores there, every other point from `s`. -/
def next1 (i : grid1.Coords) (x0 x1 : Vec F S10000x64 .f32) (x2 : Vec F S1x1 .f32) (s : Vec F S1x1 .f32) : Vec F S1x1 .f32 :=
  step1 x0 x1 x2 (if atFirst1 i then k1_pay3 else s)

/-- The loss window's buffer after the body: at the last point the updated accumulator times the constant, at every
    other point what it held (`y`). -/
def lossOr1 (i : grid1.Coords) (x0 x1 : Vec F S10000x64 .f32) (x2 : Vec F S1x1 .f32) (y s : Vec F S1x1 .f32) : Vec F S1x1 .f32 :=
  if atLast1 i then k1_pay2 (next1 i x0 x1 x2 s) else y

theorem covers1_t (p : Vec F S10000x64 .f32) (y : S10000x64.Idx) :
    ∃ pc ∈ ([⟨whole1_t, p⟩] : List (View.Piece (Elt F) S10000x64 .f32)), y ∈ pc.1.set :=
  View.cover_of_tiled [⟨whole1_t, p⟩] S10000x64.size (by rfl) y

theorem zero_offsets1 : (![0, 0] : Fin S1x1.rank → Nat) = fun _ => 0 := by
  funext a; fin_cases a <;> rfl

/-- A whole-buffer store, last, leaves its payload, whatever was stored before. -/
theorem read_after_whole1 {κ : Kind} {sp : Space} (v : View sig κ sp S1x1 .f32) (f : v.ty.Contents (Elt F)) (w : Vec F S1x1 .f32)
    (L : List (View.Piece (Elt F) S1x1 .f32)) :
    v.read (Elt F) (v.writes (Elt F) f ((⟨whole1_s, w⟩ : View.Piece (Elt F) S1x1 .f32) :: L)) = w :=
  (View.read_writes_eq_canon v f _ (fun y => ⟨_, List.mem_cons_self, (View.cover_of_tiled [⟨whole1_s, w⟩] S1x1.size (by rfl) y).elim
    (fun pc h => by have := List.mem_singleton.1 h.1; subst this; exact h.2)⟩)).trans (View.canon_cons_unit_zero zero_offsets1 _ w L)

set_option maxHeartbeats 8000000 in
/-- On whole staging buffers holding the eight inputs, anything in the result's, `y` in the loss window's and `s` in
    the scratch, the body runs to its end, keeps the inputs, and leaves the result's buffer at `comb1` of them, the
    scratch at `next1` and the loss window's at `lossOr1`. -/
theorem run_body1 (c : Dev nD) (E : Set ℕ) (i : grid1.Coords)
    (a1 : Memref sig .tc .vmem S10000x64 .f32) (h1 : a1.IsWhole) (a2 : Memref sig .tc .vmem S10000x64 .f32) (h2 : a2.IsWhole)
    (a3 : Memref sig .tc .vmem S1x1 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (a7 : Memref sig .tc .vmem S1x64 .f32) (h7 : a7.IsWhole) (a8 : Memref sig .tc .vmem S1x64 .f32) (h8 : a8.IsWhole)
    (a9 : Memref sig .tc .vmem S10000x64 .f32) (h9 : a9.IsWhole) (a10 : Memref sig .tc .vmem S1x1 .f32) (h10 : a10.IsWhole)
    (a11 : Memref sig .tc .vmem S1x1 .f32) (h11 : a11.IsWhole)
    (x0 x1 : Vec F S10000x64 .f32) (x2 : Vec F S1x1 .f32) (x3 x4 x5 x6 x7 : Vec F S1x64 .f32) (y s : Vec F S1x1 .f32) (K : PUnit → sProp 𝕄)
    (hne : ¬ (atFirst1 i ∧ atLast1 i)) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d)
        ∗ owns (c : Thread nD τ) a10 fullShare y ∗ owns (c : Thread nD τ) a11 fullShare s
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7
            ∗ owns (c : Thread nD τ) a9 fullShare (comb1 x0 x1 x2 x3 x4 x5 x6 x7)
            ∗ owns (c : Thread nD τ) a10 fullShare (lossOr1 i x0 x1 x2 y s)
            ∗ owns (c : Thread nD τ) a11 fullShare (next1 i x0 x1 x2 s)) -∗ K ⟨⟩))
      ⊢ wp frame (wpE (defs₀ (F := F)) Variants.none c none) E (cc1__combine_loss_kernel i a1 h1 a2 h2 a3 h3 a4 h4 a5 h5 a6 h6 a7 h7 a8 h8 a9 h9 a10 h10 a11 h11) K := by
  simp only [cc1__combine_loss_kernel_eq_skeleton]; unfold cc1__combine_loss_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf1; subst hf2; subst hf3; subst hf4; subst hf5; subst hf6; subst hf7; subst hf8; subst hf10; subst hf11
  by_cases hf : atFirst1 i <;> by_cases hl : atLast1 i
  · exact absurd ⟨hf, hl⟩ hne
  all_goals
    sl_exec (disch := first | exact hf | exact hl)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; isplitr
      swap; · iexact H9
      ipureintro
      exact View.read_writes_eq_canon _ _ _ (covers1_t _)
    isplitl [H10]
    · iexists _; isplitr
      swap; · iexact H10
      ipureintro
      first
        | (unfold lossOr1; rw [if_neg hl])
        | (refine (read_after_whole1 _ _ _ _).trans ?_
           unfold lossOr1; rw [if_pos hl]
           refine congrArg k1_pay2 ?_
           sl_unfold_run_names
           refine (View.readCov_unit_zero _ zero_offsets1 _ _).trans ?_
           unfold next1 step1; rw [if_neg hf]
           exact congrArg (k1_pay1 _ _ _) (View.ld_unit_zero (S := S1x1) zero_offsets1 _ _))
    · iexists _; isplitr
      swap; · iexact H11
      ipureintro
      refine (read_after_whole1 _ _ _ _).trans ?_
      unfold next1 step1
      first
        | (rw [if_pos hf]; sl_unfold_run_names; exact congrArg (k1_pay1 _ _ _) (View.readCov_unit_zero _ zero_offsets1 _ _))
        | (rw [if_neg hf]; sl_unfold_run_names; exact congrArg (k1_pay1 _ _ _) (View.ld_unit_zero (S := S1x1) zero_offsets1 _ _))

/-! ## The accumulator's history, the proof data, the obligation at a point -/

/-- The accumulator after the updates of points `0 … n − 1`, started from the zero the first point stores. -/
def scr1 (c : Dev nD) : ℕ → Vec F S1x1 .f32
  | 0 => k1_pay3
  | n + 1 => if h : n < cfg1.N then step1 (tile1 V c 0 ⟨n, h⟩) (tile1 V c 1 ⟨n, h⟩) (tile1 V c 2 ⟨n, h⟩) (scr1 c n) else scr1 c n

theorem scr1_succ (c : Dev nD) (t : Fin cfg1.N) :
    scr1 V c (t.val + 1) = step1 (tile1 V c 0 t) (tile1 V c 1 t) (tile1 V c 2 t) (scr1 V c t.val) := by
  rw [scr1]; exact dif_pos t.isLt

/-- Decided once over the ten grid points: the body's first-point test holds at point 0 only, its last-point test
    at point 9 only; the loss window is idle except at point 9, and is written back at point 9 only. -/
theorem first_iff1 : ∀ t : Fin cfg1.N, atFirst1 (grid1.coords t) ↔ t.val = 0 :=
  (by decide +kernel : ∀ t : Fin grid1.N, atFirst1 (grid1.coords t) ↔ t.val = 0)
theorem last_iff1 : ∀ t : Fin cfg1.N, atLast1 (grid1.coords t) ↔ t.val = 9 :=
  (by decide +kernel : ∀ t : Fin grid1.N, atLast1 (grid1.coords t) ↔ t.val = 9)
theorem idle_eq1 : ∀ t : Fin cfg1.N, idle1 9 (grid1.coords t) = !decide (t.val = 9) :=
  (by decide +kernel : ∀ t : Fin grid1.N, idle1 9 (grid1.coords t) = !decide (t.val = 9))
theorem flush_eq1 : ∀ t : Fin cfg1.N, (win1 9).flush t = decide (t.val = 9) :=
  (by decide +kernel : ∀ t : Fin grid1.N, (win1 9).flush t = decide (t.val = 9))

/-- The region's invariant before point `j`: the scratch holds the accumulator's history up to `j` (anything before
    the first point), beside the other scoped buffers and the generator register, untouched. -/
def inv1 (c : Dev nD) (j : Fin (cfg1.N + 1)) : sProp 𝕄 :=
  iprop((∃ s : Vec F S1x1 .f32, ⌜j.val ≠ 0 → s = scr1 V c j.val⌝ ∗ owns (c : Thread nD τ) (Memref.whole cc1_scratch0) fullShare s)
    ∗ Pipeline.scopedRestBut (Ix := Unit) (Name := ℕ) (U := UR sig nD τ) (Lvl := ℕ) (Val := Elt F) spec1 c [cc1_scratch0]
    ∗ ∃ r, prngReg c r)

/-- Proof data of this pipeline on core `c`: arrays as found; after the body at point `t` each input's buffer at its
    tile, the result's at `comb1` of the input tiles, the loss window's at the constant times the accumulator after
    point `t` (read only where the window is written back: the last point); the invariant `inv1`; nothing owed;
    full shares. -/
def data1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => tile1 V c 4 t
    | ⟨5, _⟩ => tile1 V c 5 t
    | ⟨6, _⟩ => tile1 V c 6 t
    | ⟨7, _⟩ => tile1 V c 7 t
    | ⟨8, _⟩ => comb1 (tile1 V c 0 t) (tile1 V c 1 t) (tile1 V c 2 t) (tile1 V c 3 t) (tile1 V c 4 t) (tile1 V c 5 t) (tile1 V c 6 t) (tile1 V c 7 t)
    | ⟨9, _⟩ => k1_pay2 (scr1 V c (t.val + 1))
  Φ j := inv1 V c j
  q _ := fullShare
  owed _ := 0

theorem data1_A (c : Dev nD) (w : Fin cfg1.W) : (data1 V c).A w = V c (Pipeline.arrRef spec1 w) := by
  dsimp only [data1]
theorem data1_Φ (c : Dev nD) (j : Fin (cfg1.N + 1)) : (data1 V c).Φ j = inv1 V c j := by dsimp only [data1]
theorem data1_after_0 (c : Dev nD) (t : Fin cfg1.N) : (data1 V c).after 0 t = tile1 V c 0 t := by dsimp only [data1]
theorem data1_after_1 (c : Dev nD) (t : Fin cfg1.N) : (data1 V c).after 1 t = tile1 V c 1 t := by dsimp only [data1]
theorem data1_after_2 (c : Dev nD) (t : Fin cfg1.N) : (data1 V c).after 2 t = tile1 V c 2 t := by dsimp only [data1]
theorem data1_after_3 (c : Dev nD) (t : Fin cfg1.N) : (data1 V c).after 3 t = tile1 V c 3 t := by dsimp only [data1]
theorem data1_after_4 (c : Dev nD) (t : Fin cfg1.N) : (data1 V c).after 4 t = tile1 V c 4 t := by dsimp only [data1]
theorem data1_after_5 (c : Dev nD) (t : Fin cfg1.N) : (data1 V c).after 5 t = tile1 V c 5 t := by dsimp only [data1]
theorem data1_after_6 (c : Dev nD) (t : Fin cfg1.N) : (data1 V c).after 6 t = tile1 V c 6 t := by dsimp only [data1]
theorem data1_after_7 (c : Dev nD) (t : Fin cfg1.N) : (data1 V c).after 7 t = tile1 V c 7 t := by dsimp only [data1]
theorem data1_after_8 (c : Dev nD) (t : Fin cfg1.N) : (data1 V c).after 8 t = comb1 (tile1 V c 0 t) (tile1 V c 1 t) (tile1 V c 2 t) (tile1 V c 3 t) (tile1 V c 4 t) (tile1 V c 5 t) (tile1 V c 6 t) (tile1 V c 7 t) := by
  dsimp only [data1]
theorem data1_after_9 (c : Dev nD) (t : Fin cfg1.N) : (data1 V c).after 9 t = k1_pay2 (scr1 V c (t.val + 1)) := by
  dsimp only [data1]
theorem data1_before_0 (c : Dev nD) (t : Fin cfg1.N) (d) : (data1 V c).before 0 t d = tile1 V c 0 t :=
  held1_0_of V (data1 V c) (data1_A V c 0) (data1_after_0 V c) t d
theorem data1_before_1 (c : Dev nD) (t : Fin cfg1.N) (d) : (data1 V c).before 1 t d = tile1 V c 1 t :=
  held1_1_of V (data1 V c) (data1_A V c 1) (data1_after_1 V c) t d
theorem data1_before_2 (c : Dev nD) (t : Fin cfg1.N) (d) : (data1 V c).before 2 t d = tile1 V c 2 t :=
  held1_2_of V (data1 V c) (data1_A V c 2) (data1_after_2 V c) t d
theorem data1_before_3 (c : Dev nD) (t : Fin cfg1.N) (d) : (data1 V c).before 3 t d = tile1 V c 3 t :=
  held1_3_of V (data1 V c) (data1_A V c 3) (data1_after_3 V c) t d
theorem data1_before_4 (c : Dev nD) (t : Fin cfg1.N) (d) : (data1 V c).before 4 t d = tile1 V c 4 t :=
  held1_4_of V (data1 V c) (data1_A V c 4) (data1_after_4 V c) t d
theorem data1_before_5 (c : Dev nD) (t : Fin cfg1.N) (d) : (data1 V c).before 5 t d = tile1 V c 5 t :=
  held1_5_of V (data1 V c) (data1_A V c 5) (data1_after_5 V c) t d
theorem data1_before_6 (c : Dev nD) (t : Fin cfg1.N) (d) : (data1 V c).before 6 t d = tile1 V c 6 t :=
  held1_6_of V (data1 V c) (data1_A V c 6) (data1_after_6 V c) t d
theorem data1_before_7 (c : Dev nD) (t : Fin cfg1.N) (d) : (data1 V c).before 7 t d = tile1 V c 7 t :=
  held1_7_of V (data1 V c) (data1_A V c 7) (data1_after_7 V c) t d

/-- The accumulator after point `t`'s update, from what the invariant says it held before. -/
theorem next1_eq (c : Dev nD) (t : Fin cfg1.N) (s : Vec F S1x1 .f32) (hs : t.castSucc.val ≠ 0 → s = scr1 V c t.castSucc.val) :
    next1 (grid1.coords t) (tile1 V c 0 t) (tile1 V c 1 t) (tile1 V c 2 t) s = scr1 V c (t.val + 1) := by
  unfold next1; rw [scr1_succ]
  refine congrArg (step1 _ _ _) ?_
  by_cases h0 : t.val = 0
  · rw [if_pos ((first_iff1 t).2 h0), h0]; rfl
  · rw [if_neg (mt (first_iff1 t).1 h0)]; exact hs h0

/-- What the body is called with at point `t`, -/
def pre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d))
    ∗ (∃ d, owns (c : Thread nD τ) (st1_6 t) fullShare ((data1 V c).before 6 t d))
    ∗ (∃ d, owns (c : Thread nD τ) (st1_7 t) fullShare ((data1 V c).before 7 t d))
    ∗ (∃ d, owns (c : Thread nD τ) (st1_8 t) fullShare ((data1 V c).before 8 t d))
    ∗ (∃ d, owns (c : Thread nD τ) (st1_9 t) fullShare ((data1 V c).before 9 t d)))

/-- and what it returns: the loss window's buffer at the loss where the point writes it, and as it was found where
    the window is idle. -/
def post1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t)
    ∗ owns (c : Thread nD τ) (st1_6 t) fullShare ((data1 V c).after 6 t)
    ∗ owns (c : Thread nD τ) (st1_7 t) fullShare ((data1 V c).after 7 t)
    ∗ owns (c : Thread nD τ) (st1_8 t) fullShare ((data1 V c).after 8 t)
    ∗ (match cfg1.idle 9 (cfg1.grid.coords t) with
        | true =>
          match (cfg1.win 9).flush t with
          | false => iprop(∃ d, owns (c : Thread nD τ) (st1_9 t) fullShare ((data1 V c).before 9 t d))
          | true => owns (c : Thread nD τ) (st1_9 t) fullShare ((data1 V c).after 9 t)
        | false => owns (c : Thread nD τ) (st1_9 t) fullShare ((data1 V c).after 9 t)))

set_option maxHeartbeats 2000000 in
theorem at_point1 (c : Dev nD) (t : Fin cfg1.N) :
    pre1 V c t ⊢ wp frame (wpE (defs₀ (F := F)) Variants.none c none) Set.univ (bodyAt1 t) (fun _ => post1 V c t) := by
  unfold pre1 post1 bodyAt1
  simp only [data1_before_0, data1_before_1, data1_before_2, data1_before_3, data1_before_4, data1_before_5, data1_before_6, data1_before_7]
  rw [show (data1 V c).owesAt () t.succ = (data1 V c).owesAt () t.castSucc from rfl,
    data1_after_0, data1_after_1, data1_after_2, data1_after_3, data1_after_4, data1_after_5, data1_after_6, data1_after_7, data1_after_8, data1_after_9, data1_Φ, data1_Φ]
  unfold inv1
  iintro ⟨⟨⟨%s, %hs, Hs⟩, HR, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hne : ¬ (atFirst1 (grid1.coords t) ∧ atLast1 (grid1.coords t)) := fun h => by
    have a := (first_iff1 t).1 h.1; have b := (last_iff1 t).1 h.2; omega
  have hnext := next1_eq V c t s hs
  iapply (run_body1 c Set.univ (grid1.coords t) _ _ _ _ _ _ _ _ _ _ _ _ _ _ _ _ _ _ _ _ _ _
    (tile1 V c 0 t) (tile1 V c 1 t) (tile1 V c 2 t) (tile1 V c 3 t) (tile1 V c 4 t) (tile1 V c 5 t) (tile1 V c 6 t) (tile1 V c 7 t) ((data1 V c).before 9 t d9) s _ hne)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [Hs]; · iexact Hs
  rw [hnext]
  iintro ⟨H0, H1, H2, H3, H4, H5, H6, H7, H8, H9, Hs⟩
  isplitl [Hs HR Hp]
  · isplitl [Hs]
    · iexists _; isplitr; · ipureintro; exact fun _ => rfl
      iexact Hs
    isplitl [HR]; · iexact HR
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  by_cases h9 : t.val = 9
  · rw [idle_eq1 t, decide_eq_true h9, Bool.not_true]
    dsimp only
    unfold lossOr1
    rw [if_pos ((last_iff1 t).2 h9), hnext]
    iexact H9
  · rw [idle_eq1 t, flush_eq1 t, decide_eq_false h9, Bool.not_false]
    dsimp only
    unfold lossOr1
    rw [if_neg (mt (last_iff1 t).1 h9)]
    iexists d9; iexact H9

/-- The body's obligation towards the pipeline, at every point. -/
theorem obligation1 (c : Dev nD) : BodyObligation (data1 (F := F) V c) (defs₀ (F := F)) Variants.none () Set.univ := fun t => by
  rw [bigSep_W1, bigSep_W1]
  exact at_point1 V c t

end Cert.Kernel.Fr

end
-- ==== Proof.K.R2.lean ====
/-
  The second dense layer, one row tile at a time. The grid has ten points; at point t the body sees rows
  10000·t … 10000·t + 9999 of the first layer's output (a 10000 × 64 tile), the whole 64 × 40 weight matrix, and
  leaves in the result window the tile's product with the weights (one matrix product into a zero accumulator).
  This file states that for the tile contents as the region finds them (a parameter `V`: the buffers when the
  region is entered) and proves the body's obligation towards the pipeline at a generic point, for any float
  instance: the body runs, faults nowhere, gives the two input tiles back unchanged and the result tile at the
  product.
-/
import proofs.«150785_j1864015806542_1_alg».proof.Proof.Gen.Kernel.Launch
import proofs.«150785_j1864015806542_1_alg».proof.Proof.Gen.Kernel.Skeleton
import proofs.«150785_j1864015806542_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Tiles as the region finds them -/

/-- The tile of window `w` at grid point `t`, read off the window's array as it is when the region starts. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its tile at every point (whether or not the point fetched it: when it
    did not, the tile index has not moved), as long as the body leaves the tile in place. The hidden-layer tile: -/
theorem held2_0_of {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)
/-- and the weight matrix: -/
theorem held2_1_of {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-! ## What the body leaves in the result tile -/

abbrev whole2_x : Rect S10000x64 := Rect.unit (s := S10000x64) ![0, 0] S10000x64.size inb_S10000x64_S10000x64_0_0
abbrev whole2_w : Rect S64x40 := Rect.unit (s := S64x40) ![0, 0] S64x40.size inb_S64x40_S64x40_0_0
abbrev whole2_o : Rect S10000x40 := Rect.unit (s := S10000x40) ![0, 0] S10000x40.size inb_S10000x40_S10000x40_0_0

/-- The result tile after the body: its one store, of the product of the two loaded tiles. -/
def prod2 (x : Vec F S10000x64 .f32) (w : Vec F S64x40 .f32) : Vec F S10000x40 .f32 :=
  View.canon [⟨whole2_o, k2_pay1 (View.ld x whole2_x) (View.ld w whole2_w)⟩]

/-- The one store covers the result tile. -/
theorem covers2 (p : Vec F S10000x40 .f32) (y : S10000x40.Idx) :
    ∃ pc ∈ ([⟨whole2_o, p⟩] : List (View.Piece (Elt F) S10000x40 .f32)), y ∈ pc.1.set :=
  View.cover_of_tiled [⟨whole2_o, p⟩] S10000x40.size (by rfl) y

/-! ## The body runs -/

set_option maxHeartbeats 1000000 in
/-- On whole staging buffers holding `x`, `w` and anything, the body runs to its end, keeps `x` and `w` and leaves
    the third at `prod2 x w`. -/
theorem run_body2 (c : Dev nD) (E : Set ℕ) (i : grid2.Coords) (a1 : Memref sig .tc .vmem S10000x64 .f32) (h1 : a1.IsWhole)
    (a2 : Memref sig .tc .vmem S64x40 .f32) (h2 : a2.IsWhole) (a3 : Memref sig .tc .vmem S10000x40 .f32) (h3 : a3.IsWhole)
    (x : Vec F S10000x64 .f32) (w : Vec F S64x40 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (prod2 x w)) -∗ K ⟨⟩))
      ⊢ wp frame (wpE (defs₀ (F := F)) Variants.none c none) E (cc2__matmul_kernel i a1 h1 a2 h2 a3 h3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2 _)

/-! ## The pipeline's proof data and the obligation at a point -/

/-- Proof data of this pipeline on core `c`: arrays as found; after the body at point `t` the inputs' buffers at
    their tiles and the result's at the product; the invariant is the untouched scoped rest and generator
    register; nothing owed; full shares. -/
def data2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => prod2 (tile2 V c 0 t) (tile2 V c 1 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after_0 (c : Dev nD) (t : Fin cfg2.N) : (data2 V c).after 0 t = tile2 V c 0 t := by dsimp only [data2]
theorem data2_after_1 (c : Dev nD) (t : Fin cfg2.N) : (data2 V c).after 1 t = tile2 V c 1 t := by dsimp only [data2]
theorem data2_after_2 (c : Dev nD) (t : Fin cfg2.N) :
    (data2 V c).after 2 t = prod2 (tile2 V c 0 t) (tile2 V c 1 t) := by dsimp only [data2]

theorem data2_before_0 (c : Dev nD) (t : Fin cfg2.N) (d) : (data2 V c).before 0 t d = tile2 V c 0 t :=
  held2_0_of V (data2 V c) (data2_A V c 0) (data2_after_0 V c) t d
theorem data2_before_1 (c : Dev nD) (t : Fin cfg2.N) (d) : (data2 V c).before 1 t d = tile2 V c 1 t :=
  held2_1_of V (data2 V c) (data2_A V c 1) (data2_after_1 V c) t d

/-- What the body is called with at point `t`, -/
def pre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d)))

/-- and what it returns. -/
def post2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t))

theorem at_point2 (c : Dev nD) (t : Fin cfg2.N) :
    pre2 V c t ⊢ wp frame (wpE (defs₀ (F := F)) Variants.none c none) Set.univ (bodyAt2 t) (fun _ => post2 V c t) := by
  unfold pre2 post2 bodyAt2
  simp only [data2_before_0, data2_before_1]
  rw [show (data2 V c).Φ t.succ = (data2 V c).Φ t.castSucc from rfl,
    show (data2 V c).owesAt () t.succ = (data2 V c).owesAt () t.castSucc from rfl,
    data2_after_0, data2_after_1, data2_after_2]
  iintro ⟨HΦ, Ho, ⟨%d0, H0⟩, ⟨%d1, H1⟩, ⟨%d2, H2⟩⟩
  iapply (run_body2 c Set.univ _ _ _ _ _ _ _ (tile2 V c 0 t) (tile2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation towards the pipeline, at every point. -/
theorem obligation2 (c : Dev nD) : BodyObligation (data2 (F := F) V c) (defs₀ (F := F)) Variants.none () Set.univ := fun t => by
  rw [bigSep_W2, bigSep_W2]
  exact at_point2 V c t

end Cert.Kernel.Fr

end
-- ==== Proof.K.R3.lean ====
/-
  The second layer's combine step, one row tile at a time. The grid has ten points; at point t the body sees rows
  10000·t … 10000·t + 9999 of the projected features h and of the aggregated messages agg (two 10000 × 40 tiles),
  the scalar k² as a 1 × 1 array, and five 1 × 40 rows (bias, scale, shift, running mean, running variance), and
  stores tanh(((agg + k²·h + bias) − mean) · rsqrt(variance + ε) · scale + shift) into the result tile. This file
  proves the body's obligation towards the pipeline for the tile contents as the region finds them (a parameter
  `V`), for any float instance.
-/
import proofs.«150785_j1864015806542_1_alg».proof.Proof.Gen.Kernel.Launch
import proofs.«150785_j1864015806542_1_alg».proof.Proof.Gen.Kernel.Skeleton
import proofs.«150785_j1864015806542_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, read off the window's array as it is when the region starts. -/
def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its tile at every point (whether or not the point fetched it: when it
    did not, the tile index has not moved), as long as the body leaves the tile in place. One statement per window: -/
theorem held3_0_of {c : Dev nD} (dat : Dat τ (Elt F) Unit ℕ (UR sig nD τ) ℕ cfg3 c) (hA : dat.A 0 = V c (Pipeline.arrRef spec3 0))
    (hafter : ∀ t, dat.after 0 t = tile3 V c 0 t) (t : Fin cfg3.N) (d) : dat.before 0 t d = tile3 V c 0 t :=
  (dat.before_in_eq_fetched 0 rfl (fun _ => rfl) (fun _ _ _ => rfl) (fun t => by rw [hafter]; unfold Dat.blockOf tile3; rw [hA]; try rfl) t d).trans
    (by unfold Dat.fetched Dat.blockOf tile3; rw [hA]; try rfl)
theorem held3_1_of {c : Dev nD} (dat : Dat τ (Elt F) Unit ℕ (UR sig nD τ) ℕ cfg3 c) (hA : dat.A 1 = V c (Pipeline.arrRef spec3 1))
    (hafter : ∀ t, dat.after 1 t = tile3 V c 1 t) (t : Fin cfg3.N) (d) : dat.before 1 t d = tile3 V c 1 t :=
  (dat.before_in_eq_fetched 1 rfl (fun _ => rfl) (fun _ _ _ => rfl) (fun t => by rw [hafter]; unfold Dat.blockOf tile3; rw [hA]; try rfl) t d).trans
    (by unfold Dat.fetched Dat.blockOf tile3; rw [hA]; try rfl)
theorem held3_2_of {c : Dev nD} (dat : Dat τ (Elt F) Unit ℕ (UR sig nD τ) ℕ cfg3 c) (hA : dat.A 2 = V c (Pipeline.arrRef spec3 2))
    (hafter : ∀ t, dat.after 2 t = tile3 V c 2 t) (t : Fin cfg3.N) (d) : dat.before 2 t d = tile3 V c 2 t :=
  (dat.before_in_eq_fetched 2 rfl (fun _ => rfl) (fun _ _ _ => rfl) (fun t => by rw [hafter]; unfold Dat.blockOf tile3; rw [hA]; try rfl) t d).trans
    (by unfold Dat.fetched Dat.blockOf tile3; rw [hA]; try rfl)
theorem held3_3_of {c : Dev nD} (dat : Dat τ (Elt F) Unit ℕ (UR sig nD τ) ℕ cfg3 c) (hA : dat.A 3 = V c (Pipeline.arrRef spec3 3))
    (hafter : ∀ t, dat.after 3 t = tile3 V c 3 t) (t : Fin cfg3.N) (d) : dat.before 3 t d = tile3 V c 3 t :=
  (dat.before_in_eq_fetched 3 rfl (fun _ => rfl) (fun _ _ _ => rfl) (fun t => by rw [hafter]; unfold Dat.blockOf tile3; rw [hA]; try rfl) t d).trans
    (by unfold Dat.fetched Dat.blockOf tile3; rw [hA]; try rfl)
theorem held3_4_of {c : Dev nD} (dat : Dat τ (Elt F) Unit ℕ (UR sig nD τ) ℕ cfg3 c) (hA : dat.A 4 = V c (Pipeline.arrRef spec3 4))
    (hafter : ∀ t, dat.after 4 t = tile3 V c 4 t) (t : Fin cfg3.N) (d) : dat.before 4 t d = tile3 V c 4 t :=
  (dat.before_in_eq_fetched 4 rfl (fun _ => rfl) (fun _ _ _ => rfl) (fun t => by rw [hafter]; unfold Dat.blockOf tile3; rw [hA]; try rfl) t d).trans
    (by unfold Dat.fetched Dat.blockOf tile3; rw [hA]; try rfl)
theorem held3_5_of {c : Dev nD} (dat : Dat τ (Elt F) Unit ℕ (UR sig nD τ) ℕ cfg3 c) (hA : dat.A 5 = V c (Pipeline.arrRef spec3 5))
    (hafter : ∀ t, dat.after 5 t = tile3 V c 5 t) (t : Fin cfg3.N) (d) : dat.before 5 t d = tile3 V c 5 t :=
  (dat.before_in_eq_fetched 5 rfl (fun _ => rfl) (fun _ _ _ => rfl) (fun t => by rw [hafter]; unfold Dat.blockOf tile3; rw [hA]; try rfl) t d).trans
    (by unfold Dat.fetched Dat.blockOf tile3; rw [hA]; try rfl)
theorem held3_6_of {c : Dev nD} (dat : Dat τ (Elt F) Unit ℕ (UR sig nD τ) ℕ cfg3 c) (hA : dat.A 6 = V c (Pipeline.arrRef spec3 6))
    (hafter : ∀ t, dat.after 6 t = tile3 V c 6 t) (t : Fin cfg3.N) (d) : dat.before 6 t d = tile3 V c 6 t :=
  (dat.before_in_eq_fetched 6 rfl (fun _ => rfl) (fun _ _ _ => rfl) (fun t => by rw [hafter]; unfold Dat.blockOf tile3; rw [hA]; try rfl) t d).trans
    (by unfold Dat.fetched Dat.blockOf tile3; rw [hA]; try rfl)
theorem held3_7_of {c : Dev nD} (dat : Dat τ (Elt F) Unit ℕ (UR sig nD τ) ℕ cfg3 c) (hA : dat.A 7 = V c (Pipeline.arrRef spec3 7))
    (hafter : ∀ t, dat.after 7 t = tile3 V c 7 t) (t : Fin cfg3.N) (d) : dat.before 7 t d = tile3 V c 7 t :=
  (dat.before_in_eq_fetched 7 rfl (fun _ => rfl) (fun _ _ _ => rfl) (fun t => by rw [hafter]; unfold Dat.blockOf tile3; rw [hA]; try rfl) t d).trans
    (by unfold Dat.fetched Dat.blockOf tile3; rw [hA]; try rfl)

abbrev whole3_t : Rect S10000x40 := Rect.unit (s := S10000x40) ![0, 0] S10000x40.size inb_S10000x40_S10000x40_0_0
abbrev whole3_s : Rect S1x1 := Rect.unit (s := S1x1) ![0, 0] S1x1.size inb_S1x1_S1x1_0_0
abbrev whole3_r : Rect S1x40 := Rect.unit (s := S1x40) ![0, 0] S1x40.size inb_S1x40_S1x40_0_0

/-- The result tile after the body, from the eight input tiles in the windows' order (h, agg, k², bias, scale,
    shift, mean, variance): its one store. -/
def comb3 (x0 x1 : Vec F S10000x40 .f32) (x2 : Vec F S1x1 .f32) (x3 x4 x5 x6 x7 : Vec F S1x40 .f32) : Vec F S10000x40 .f32 :=
  View.canon [⟨whole3_t, k3_pay1 (View.ld x0 whole3_t) (View.ld x1 whole3_t) (View.ld x2 whole3_s) (View.ld x3 whole3_r)
    (View.ld x6 whole3_r) (View.ld x7 whole3_r) (View.ld x4 whole3_r) (View.ld x5 whole3_r)⟩]

theorem covers3 (p : Vec F S10000x40 .f32) (y : S10000x40.Idx) :
    ∃ pc ∈ ([⟨whole3_t, p⟩] : List (View.Piece (Elt F) S10000x40 .f32)), y ∈ pc.1.set :=
  View.cover_of_tiled [⟨whole3_t, p⟩] S10000x40.size (by rfl) y

set_option maxHeartbeats 2000000 in
/-- On whole staging buffers holding the eight inputs and anything in the ninth, the body runs to its end, keeps the
    inputs and leaves the ninth at `comb3` of them. -/
theorem run_body3 (c : Dev nD) (E : Set ℕ) (i : grid3.Coords)
    (a1 : Memref sig .tc .vmem S10000x40 .f32) (h1 : a1.IsWhole) (a2 : Memref sig .tc .vmem S10000x40 .f32) (h2 : a2.IsWhole)
    (a3 : Memref sig .tc .vmem S1x1 .f32) (h3 : a3.IsWhole) (a4 : Memref sig .tc .vmem S1x40 .f32) (h4 : a4.IsWhole)
    (a5 : Memref sig .tc .vmem S1x40 .f32) (h5 : a5.IsWhole) (a6 : Memref sig .tc .vmem S1x40 .f32) (h6 : a6.IsWhole)
    (a7 : Memref sig .tc .vmem S1x40 .f32) (h7 : a7.IsWhole) (a8 : Memref sig .tc .vmem S1x40 .f32) (h8 : a8.IsWhole)
    (a9 : Memref sig .tc .vmem S10000x40 .f32) (h9 : a9.IsWhole)
    (x0 x1 : Vec F S10000x40 .f32) (x2 : Vec F S1x1 .f32) (x3 x4 x5 x6 x7 : Vec F S1x40 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ (∃ d, owns (c : Thread nD τ) a9 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7
            ∗ owns (c : Thread nD τ) a9 fullShare (comb3 x0 x1 x2 x3 x4 x5 x6 x7)) -∗ K ⟨⟩))
      ⊢ wp frame (wpE (defs₀ (F := F)) Variants.none c none) E (cc3__combine_kernel i a1 h1 a2 h2 a3 h3 a4 h4 a5 h5 a6 h6 a7 h7 a8 h8 a9 h9) K := by
  simp only [cc3__combine_kernel_eq_skeleton]; unfold cc3__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1; subst hf2; subst hf3; subst hf4; subst hf5; subst hf6; subst hf7; subst hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (covers3 _)

/-- Proof data of this pipeline on core `c`: arrays as found; after the body at point `t` each input's buffer at
    its tile and the result's at `comb3` of the input tiles; the invariant is the untouched scoped rest and
    generator register; nothing owed; full shares. -/
def data3 (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => tile3 V c 2 t
    | ⟨3, _⟩ => tile3 V c 3 t
    | ⟨4, _⟩ => tile3 V c 4 t
    | ⟨5, _⟩ => tile3 V c 5 t
    | ⟨6, _⟩ => tile3 V c 6 t
    | ⟨7, _⟩ => tile3 V c 7 t
    | ⟨8, _⟩ => comb3 (tile3 V c 0 t) (tile3 V c 1 t) (tile3 V c 2 t) (tile3 V c 3 t) (tile3 V c 4 t) (tile3 V c 5 t) (tile3 V c 6 t) (tile3 V c 7 t)
  Φ _ := Pipeline.ΦA spec3 c
  q _ := fullShare
  owed _ := 0

theorem data3_A (c : Dev nD) (w : Fin cfg3.W) : (data3 V c).A w = V c (Pipeline.arrRef spec3 w) := by
  dsimp only [data3]
theorem data3_after_0 (c : Dev nD) (t : Fin cfg3.N) : (data3 V c).after 0 t = tile3 V c 0 t := by dsimp only [data3]
theorem data3_after_1 (c : Dev nD) (t : Fin cfg3.N) : (data3 V c).after 1 t = tile3 V c 1 t := by dsimp only [data3]
theorem data3_after_2 (c : Dev nD) (t : Fin cfg3.N) : (data3 V c).after 2 t = tile3 V c 2 t := by dsimp only [data3]
theorem data3_after_3 (c : Dev nD) (t : Fin cfg3.N) : (data3 V c).after 3 t = tile3 V c 3 t := by dsimp only [data3]
theorem data3_after_4 (c : Dev nD) (t : Fin cfg3.N) : (data3 V c).after 4 t = tile3 V c 4 t := by dsimp only [data3]
theorem data3_after_5 (c : Dev nD) (t : Fin cfg3.N) : (data3 V c).after 5 t = tile3 V c 5 t := by dsimp only [data3]
theorem data3_after_6 (c : Dev nD) (t : Fin cfg3.N) : (data3 V c).after 6 t = tile3 V c 6 t := by dsimp only [data3]
theorem data3_after_7 (c : Dev nD) (t : Fin cfg3.N) : (data3 V c).after 7 t = tile3 V c 7 t := by dsimp only [data3]
theorem data3_after_8 (c : Dev nD) (t : Fin cfg3.N) : (data3 V c).after 8 t
    = comb3 (tile3 V c 0 t) (tile3 V c 1 t) (tile3 V c 2 t) (tile3 V c 3 t) (tile3 V c 4 t) (tile3 V c 5 t) (tile3 V c 6 t) (tile3 V c 7 t) := by
  dsimp only [data3]
theorem data3_before_0 (c : Dev nD) (t : Fin cfg3.N) (d) : (data3 V c).before 0 t d = tile3 V c 0 t :=
  held3_0_of V (data3 V c) (data3_A V c 0) (data3_after_0 V c) t d
theorem data3_before_1 (c : Dev nD) (t : Fin cfg3.N) (d) : (data3 V c).before 1 t d = tile3 V c 1 t :=
  held3_1_of V (data3 V c) (data3_A V c 1) (data3_after_1 V c) t d
theorem data3_before_2 (c : Dev nD) (t : Fin cfg3.N) (d) : (data3 V c).before 2 t d = tile3 V c 2 t :=
  held3_2_of V (data3 V c) (data3_A V c 2) (data3_after_2 V c) t d
theorem data3_before_3 (c : Dev nD) (t : Fin cfg3.N) (d) : (data3 V c).before 3 t d = tile3 V c 3 t :=
  held3_3_of V (data3 V c) (data3_A V c 3) (data3_after_3 V c) t d
theorem data3_before_4 (c : Dev nD) (t : Fin cfg3.N) (d) : (data3 V c).before 4 t d = tile3 V c 4 t :=
  held3_4_of V (data3 V c) (data3_A V c 4) (data3_after_4 V c) t d
theorem data3_before_5 (c : Dev nD) (t : Fin cfg3.N) (d) : (data3 V c).before 5 t d = tile3 V c 5 t :=
  held3_5_of V (data3 V c) (data3_A V c 5) (data3_after_5 V c) t d
theorem data3_before_6 (c : Dev nD) (t : Fin cfg3.N) (d) : (data3 V c).before 6 t d = tile3 V c 6 t :=
  held3_6_of V (data3 V c) (data3_A V c 6) (data3_after_6 V c) t d
theorem data3_before_7 (c : Dev nD) (t : Fin cfg3.N) (d) : (data3 V c).before 7 t d = tile3 V c 7 t :=
  held3_7_of V (data3 V c) (data3_A V c 7) (data3_after_7 V c) t d

def pre3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d))
    ∗ (∃ d, owns (c : Thread nD τ) (st3_4 t) fullShare ((data3 V c).before 4 t d))
    ∗ (∃ d, owns (c : Thread nD τ) (st3_5 t) fullShare ((data3 V c).before 5 t d))
    ∗ (∃ d, owns (c : Thread nD τ) (st3_6 t) fullShare ((data3 V c).before 6 t d))
    ∗ (∃ d, owns (c : Thread nD τ) (st3_7 t) fullShare ((data3 V c).before 7 t d))
    ∗ (∃ d, owns (c : Thread nD τ) (st3_8 t) fullShare ((data3 V c).before 8 t d)))

def post3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t)
    ∗ owns (c : Thread nD τ) (st3_4 t) fullShare ((data3 V c).after 4 t)
    ∗ owns (c : Thread nD τ) (st3_5 t) fullShare ((data3 V c).after 5 t)
    ∗ owns (c : Thread nD τ) (st3_6 t) fullShare ((data3 V c).after 6 t)
    ∗ owns (c : Thread nD τ) (st3_7 t) fullShare ((data3 V c).after 7 t)
    ∗ owns (c : Thread nD τ) (st3_8 t) fullShare ((data3 V c).after 8 t))

theorem at_point3 (c : Dev nD) (t : Fin cfg3.N) :
    pre3 V c t ⊢ wp frame (wpE (defs₀ (F := F)) Variants.none c none) Set.univ (bodyAt3 t) (fun _ => post3 V c t) := by
  unfold pre3 post3 bodyAt3
  simp only [data3_before_0, data3_before_1, data3_before_2, data3_before_3, data3_before_4, data3_before_5, data3_before_6, data3_before_7]
  rw [show (data3 V c).Φ t.succ = (data3 V c).Φ t.castSucc from rfl,
    show (data3 V c).owesAt () t.succ = (data3 V c).owesAt () t.castSucc from rfl,
    data3_after_0, data3_after_1, data3_after_2, data3_after_3, data3_after_4, data3_after_5, data3_after_6, data3_after_7, data3_after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body3 c Set.univ _ _ _ _ _ _ _ _ _ _ _ _ _ _ _ _ _ _ _ (tile3 V c 0 t) (tile3 V c 1 t) (tile3 V c 2 t) (tile3 V c 3 t)
    (tile3 V c 4 t) (tile3 V c 5 t) (tile3 V c 6 t) (tile3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's obligation towards the pipeline, at every point. -/
theorem obligation3 (c : Dev nD) : BodyObligation (data3 (F := F) V c) (defs₀ (F := F)) Variants.none () Set.univ := fun t => by
  rw [bigSep_W3, bigSep_W3]
  exact at_point3 V c t

end Cert.Kernel.Fr

end
-- ==== Proof.K.R4.lean ====
/-
  The last region: a row-wise log-softmax of the 10000 gathered rows (40 columns each), in one grid point. The
  body loads the whole input tile and stores, into the result tile, each entry minus its row's maximum minus the
  logarithm of the row's sum of exponentials of those differences. This file proves the body's obligation towards
  the pipeline for the tile contents as the region finds them (a parameter `V`), for any float instance.
-/
import proofs.«150785_j1864015806542_1_alg».proof.Proof.Gen.Kernel.Launch
import proofs.«150785_j1864015806542_1_alg».proof.Proof.Gen.Kernel.Skeleton
import proofs.«150785_j1864015806542_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of window `w` at grid point `t`, read off the window's array as it is when the region starts. -/
def tile4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's staging buffer holds its tile at the point, as long as the body leaves the tile in place. -/
theorem held4_0_of {c : Dev nD} (dat : Dat τ (Elt F) Unit ℕ (UR sig nD τ) ℕ cfg4 c) (hA : dat.A 0 = V c (Pipeline.arrRef spec4 0))
    (hafter : ∀ t, dat.after 0 t = tile4 V c 0 t) (t : Fin cfg4.N) (d) : dat.before 0 t d = tile4 V c 0 t :=
  (dat.before_in_eq_fetched 0 rfl (fun _ => rfl) (fun _ _ _ => rfl) (fun t => by rw [hafter]; unfold Dat.blockOf tile4; rw [hA]; try rfl) t d).trans
    (by unfold Dat.fetched Dat.blockOf tile4; rw [hA]; try rfl)

abbrev whole4 : Rect S10000x40 := Rect.unit (s := S10000x40) ![0, 0] S10000x40.size inb_S10000x40_S10000x40_0_0

/-- The result tile after the body: its one store, the log-softmax of the loaded tile. -/
def lsm4 (x : Vec F S10000x40 .f32) : Vec F S10000x40 .f32 :=
  View.canon [⟨whole4, k4_pay1 (View.ld x whole4)⟩]

theorem covers4 (p : Vec F S10000x40 .f32) (y : S10000x40.Idx) :
    ∃ pc ∈ ([⟨whole4, p⟩] : List (View.Piece (Elt F) S10000x40 .f32)), y ∈ pc.1.set :=
  View.cover_of_tiled [⟨whole4, p⟩] S10000x40.size (by rfl) y

set_option maxHeartbeats 1000000 in
/-- On whole staging buffers holding `x` and anything, the body runs to its end, keeps `x` and leaves the second at
    `lsm4 x`. -/
theorem run_body4 (c : Dev nD) (E : Set ℕ) (i : grid4.Coords) (a1 : Memref sig .tc .vmem S10000x40 .f32) (h1 : a1.IsWhole)
    (a2 : Memref sig .tc .vmem S10000x40 .f32) (h2 : a2.IsWhole)
    (x : Vec F S10000x40 .f32) (K : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (lsm4 x)) -∗ K ⟨⟩))
      ⊢ wp frame (wpE (defs₀ (F := F)) Variants.none c none) E (cc4__log_softmax_kernel i a1 h1 a2 h2) K := by
  simp only [cc4__log_softmax_kernel_eq_skeleton]; unfold cc4__log_softmax_kernel_skel
  unfold owns
  iintro ⟨⟨%f1, %hf1, H1⟩, ⟨%d2, %f2, -, H2⟩, Hk⟩
  subst hf1
  sl_exec
  sl_step
  iapply Hk
  isplitl [H1]
  · iexists f1; isplitr; · ipureintro; rfl
    iexact H1
  iexists _; isplitr
  swap; · iexact H2
  ipureintro
  exact View.read_writes_eq_canon _ _ _ (covers4 _)

/-- Proof data of this pipeline on core `c`: arrays as found; after the body the input's buffer at its tile and
    the result's at the tile's log-softmax; the invariant is the untouched scoped rest and generator register;
    nothing owed; full shares. -/
def data4 (c : Dev nD) : Dat τ (Elt F) Unit ℕ (UR sig nD τ) ℕ cfg4 c where
  A w := V c (Pipeline.arrRef spec4 w)
  after w t := match w with
    | ⟨0, _⟩ => tile4 V c 0 t
    | ⟨1, _⟩ => lsm4 (tile4 V c 0 t)
  Φ _ := Pipeline.ΦA spec4 c
  q _ := fullShare
  owed _ := 0

theorem data4_A (c : Dev nD) (w : Fin cfg4.W) : (data4 V c).A w = V c (Pipeline.arrRef spec4 w) := by
  dsimp only [data4]
theorem data4_after_0 (c : Dev nD) (t : Fin cfg4.N) : (data4 V c).after 0 t = tile4 V c 0 t := by dsimp only [data4]
theorem data4_after_1 (c : Dev nD) (t : Fin cfg4.N) : (data4 V c).after 1 t = lsm4 (tile4 V c 0 t) := by dsimp only [data4]
theorem data4_before_0 (c : Dev nD) (t : Fin cfg4.N) (d) : (data4 V c).before 0 t d = tile4 V c 0 t :=
  held4_0_of V (data4 V c) (data4_A V c 0) (data4_after_0 V c) t d

def pre4 (c : Dev nD) (t : Fin cfg4.N) : sProp 𝕄 :=
  iprop((data4 V c).Φ t.castSucc ∗ (data4 V c).owesAt () t.castSucc
    ∗ (∃ d, owns (c : Thread nD τ) (st4_0 t) fullShare ((data4 V c).before 0 t d))
    ∗ (∃ d, owns (c : Thread nD τ) (st4_1 t) fullShare ((data4 V c).before 1 t d)))

def post4 (c : Dev nD) (t : Fin cfg4.N) : sProp 𝕄 :=
  iprop((data4 V c).Φ t.succ ∗ (data4 V c).owesAt () t.succ
    ∗ owns (c : Thread nD τ) (st4_0 t) fullShare ((data4 V c).after 0 t)
    ∗ owns (c : Thread nD τ) (st4_1 t) fullShare ((data4 V c).after 1 t))

theorem at_point4 (c : Dev nD) (t : Fin cfg4.N) :
    pre4 V c t ⊢ wp frame (wpE (defs₀ (F := F)) Variants.none c none) Set.univ (bodyAt4 t) (fun _ => post4 V c t) := by
  unfold pre4 post4 bodyAt4
  simp only [data4_before_0]
  rw [show (data4 V c).Φ t.succ = (data4 V c).Φ t.castSucc from rfl,
    show (data4 V c).owesAt () t.succ = (data4 V c).owesAt () t.castSucc from rfl,
    data4_after_0, data4_after_1]
  iintro ⟨HΦ, Ho, ⟨%d0, H0⟩, ⟨%d1, H1⟩⟩
  iapply (run_body4 c Set.univ _ _ _ _ _ (tile4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body's obligation towards the pipeline, at every point. -/
theorem obligation4 (c : Dev nD) : BodyObligation (data4 (F := F) V c) (defs₀ (F := F)) Variants.none () Set.univ := fun t => by
  rw [bigSep_W4, bigSep_W4]
  exact at_point4 V c t

end Cert.Kernel.Fr

end
-- ==== Proof.K.Fold.lean ====
/-
  The contents of core c's buffers at the ten boundaries of the program: the launch memory (W0); after the first
  stretch of host operations (W1: degrees, normalisation coefficients, the concatenated edge lists); after the first
  dense layer's region (W2: its result array holds what the ten row tiles' write-backs leave, every other buffer as
  before); after the stretch that gathers, weights and scatter-adds the messages (W3); after the first combine region
  (W4: the activations and the loss); the loss reshaped (W5); the second dense layer (W6); the second aggregation
  (W7); the second combine (W8); the gather of the batch rows (W9); the log-softmax region (W10). A host stretch
  acts by applying its operations in order; a region replaces its windows' arrays by what its pipeline leaves there
  and touches nothing else.
-/
import proofs.«150785_j1864015806542_1_alg».proof.Proof.Gen.Kernel.Launch
import proofs.«150785_j1864015806542_1_alg».proof.Proof.Gen.Kernel.Skeleton
import proofs.«150785_j1864015806542_1_alg».proof.Proof.Gen.Kernel.Points
import proofs.«150785_j1864015806542_1_alg».proof.Proof.K.R0
import proofs.«150785_j1864015806542_1_alg».proof.Proof.K.R1
import proofs.«150785_j1864015806542_1_alg».proof.Proof.K.R2
import proofs.«150785_j1864015806542_1_alg».proof.Proof.K.R3
import proofs.«150785_j1864015806542_1_alg».proof.Proof.K.R4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch `hostOps0`: what region 0 is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- When region 0 is left: its windows' arrays at what the pipeline leaves (an input as entered, an output with its
    write-backs folded in), every other buffer as entered. -/
def W2 (c : Dev nD) : Valuation τ sig (Elt F) :=
  Pipeline.withArrays spec0 c (W1 m ρ c) fun w => (data0 (V1 m ρ) c).arrAt w cfg0.N
theorem W2_arr (c : Dev nD) (w : Fin cfg0.W) :
    W2 m ρ c (Proc.devRef .tc (Pipeline.arrRef spec0 w)) = (data0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem left0_arr (c : Dev nD) (w : Fin cfg0.W) : (data0 (V1 m ρ) c).arrAt w cfg0.N = V2 m ρ c (Pipeline.arrRef spec0 w) :=
  (W2_arr m ρ c w).symm
theorem left0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: what region 1 is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- When region 1 is left: its windows' arrays at what the pipeline leaves (an input as entered, an output with its
    write-backs folded in), every other buffer as entered. -/
def W4 (c : Dev nD) : Valuation τ sig (Elt F) :=
  Pipeline.withArrays spec1 c (W3 m ρ c) fun w => (data1 (V3 m ρ) c).arrAt w cfg1.N
theorem W4_arr (c : Dev nD) (w : Fin cfg1.W) :
    W4 m ρ c (Proc.devRef .tc (Pipeline.arrRef spec1 w)) = (data1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem left1_arr (c : Dev nD) (w : Fin cfg1.W) : (data1 (V3 m ρ) c).arrAt w cfg1.N = V4 m ρ c (Pipeline.arrRef spec1 w) :=
  (W4_arr m ρ c w).symm
theorem left1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: what region 2 is entered from. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- When region 2 is left: its windows' arrays at what the pipeline leaves (an input as entered, an output with its
    write-backs folded in), every other buffer as entered. -/
def W6 (c : Dev nD) : Valuation τ sig (Elt F) :=
  Pipeline.withArrays spec2 c (W5 m ρ c) fun w => (data2 (V5 m ρ) c).arrAt w cfg2.N
theorem W6_arr (c : Dev nD) (w : Fin cfg2.W) :
    W6 m ρ c (Proc.devRef .tc (Pipeline.arrRef spec2 w)) = (data2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem left2_arr (c : Dev nD) (w : Fin cfg2.W) : (data2 (V5 m ρ) c).arrAt w cfg2.N = V6 m ρ c (Pipeline.arrRef spec2 w) :=
  (W6_arr m ρ c w).symm
theorem left2_rest (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: what region 3 is entered from. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- When region 3 is left: its windows' arrays at what the pipeline leaves (an input as entered, an output with its
    write-backs folded in), every other buffer as entered. -/
def W8 (c : Dev nD) : Valuation τ sig (Elt F) :=
  Pipeline.withArrays spec3 c (W7 m ρ c) fun w => (data3 (V7 m ρ) c).arrAt w cfg3.N
theorem W8_arr (c : Dev nD) (w : Fin cfg3.W) :
    W8 m ρ c (Proc.devRef .tc (Pipeline.arrRef spec3 w)) = (data3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem left3_arr (c : Dev nD) (w : Fin cfg3.W) : (data3 (V7 m ρ) c).arrAt w cfg3.N = V8 m ρ c (Pipeline.arrRef spec3 w) :=
  (W8_arr m ρ c w).symm
theorem left3_rest (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`: what region 4 is entered from. -/
abbrev W9 : Dev nD → Valuation τ sig (Elt F) := fun c => StableHlo.after hostOps4 (W8 m ρ c)
/-- The same, read at the TensorCore's references. -/
abbrev V9 : (c : Dev nD) → (b : Ref sig .tc) → Buf (Elt F) ((c : Thread nD τ).loc b) := fun c b => W9 m ρ c b
/-- When region 4 is left: its windows' arrays at what the pipeline leaves (an input as entered, an output with its
    write-backs folded in), every other buffer as entered. -/
def W10 (c : Dev nD) : Valuation τ sig (Elt F) :=
  Pipeline.withArrays spec4 c (W9 m ρ c) fun w => (data4 (V9 m ρ) c).arrAt w cfg4.N
theorem W10_arr (c : Dev nD) (w : Fin cfg4.W) :
    W10 m ρ c (Proc.devRef .tc (Pipeline.arrRef spec4 w)) = (data4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem left4_arr (c : Dev nD) (w : Fin cfg4.W) : (data4 (V9 m ρ) c).arrAt w cfg4.N = V10 m ρ c (Pipeline.arrRef spec4 w) :=
  (W10_arr m ρ c w).symm
theorem left4_rest (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

end Cert.Kernel.Fr

end
-- ==== Proof.K.Run.lean ====
/-
  The whole program as a chain of ten segments — five stretches of host operations and five kernel regions, in turn
  — and its run: from any launch memory with zero counters every weakly fair execution terminates, nothing faults,
  and core c's unscoped buffers end at the contents `W10 m ρ c` of the last boundary. Each region is entered with the
  unscoped buffers at one boundary's contents and left with them at the next's: its windows' arrays are taken out of
  the thread state, run through the pipeline against the body's obligation, and put back at what the write-backs
  leave; every other buffer rides along. The first combine region also takes its scratch buffer out of the scoped
  rest into its invariant and gives it back at the end.
-/
import proofs.«150785_j1864015806542_1_alg».proof.Proof.Gen.Kernel.Launch
import proofs.«150785_j1864015806542_1_alg».proof.Proof.Gen.Kernel.Skeleton
import proofs.«150785_j1864015806542_1_alg».proof.Proof.Gen.Kernel.Points
import proofs.«150785_j1864015806542_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Idealize.ShloMosaic.Pipeline (RegionSeg Seg HostSeg)

variable (m : (ℓ : Loc nD τ sig) → Buf (Elt F) ℓ) (ρ : Dev nD → PrngReg)

/-- No pipeline of this program has a prefetched table. -/
abbrev adm : (p : Fin 5) → (pcfgs (F := F) p).Adm := fun p => (cfgs p).toPCfg_adm
/-- Every pipeline's proof data, each at the contents its region is entered from. -/
def pdats : (p : Fin 5) → (c : Dev nD) → Dat τ (Elt F) Unit ℕ (UR sig nD τ) ℕ (Pipeline.pin (pcfgs (F := F)) adm p) c
  | ⟨0, _⟩ => fun c => data0 (V1 m ρ) c
  | ⟨1, _⟩ => fun c => data1 (V3 m ρ) c
  | ⟨2, _⟩ => fun c => data2 (V5 m ρ) c
  | ⟨3, _⟩ => fun c => data3 (V7 m ρ) c
  | ⟨4, _⟩ => fun c => data4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem fresh4 : (hostOps4 : List (HloOp τ sig (Elt F))).Forall fun op => op.fresh = ∅ := by
  simp only [List.Forall]; repeat' constructor

-- a library lemma stated over the pinned configuration unifies with the printed one only when unification may unfold
-- plain definitions in a metavariable's type
set_option backward.isDefEq.respectTransparency.types false in
/-- Region 0 over the thread state: entered with every unscoped buffer at `W1`, left with them at `W2`. Its
    windows' arrays are split out of the unscoped buffers and put back at what the pipeline leaves; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0_arr m ρ c) (left0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its
    windows' arrays are split out of the unscoped buffers and put back at what the pipeline leaves; the generator
    register goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = inv1 (V3 m ρ) c 0 from rfl]; unfold inv1
    rw [show (Pipeline.scopedRest (Ix := Unit) (Name := ℕ) (U := UR sig nD τ) (Lvl := ℕ) (Val := Elt F) (Pipeline.pin (pcfgs (F := F)) adm 1).spec c : sProp 𝕄)
      = _ from scopedRest1_split c]
    simp only [owns_whole]
    iintro ⟨Hp, -, ⟨%f, Hf⟩, Hr⟩
    isplitl [Hf]
    · iexists f; isplitr; · ipureintro; exact fun h => absurd rfl h
      iexact Hf
    isplitl [Hr]; · iexact Hr
    iexact Hp
  hout c := by
    rw [Pipeline.ownSems0_none, show (pdats m ρ 1 c).Φ (Fin.last _) = inv1 (V3 m ρ) c (Fin.last _) from rfl]; unfold inv1
    rw [show (Pipeline.scopedRest (Ix := Unit) (Name := ℕ) (U := UR sig nD τ) (Lvl := ℕ) (Val := Elt F) (Pipeline.pin (pcfgs (F := F)) adm 1).spec c : sProp 𝕄)
      = _ from scopedRest1_split c]
    simp only [owns_whole]
    iintro ⟨⟨%s, -, Hs⟩, Hr, Hp⟩
    isplitl [Hp]; · iexact Hp
    isplitr; · iempintro
    isplitl [Hs]; · iexists s; iexact Hs
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (left1_arr m ρ c) (left1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W5`, left with them at `W6`. Its
    windows' arrays are split out of the unscoped buffers and put back at what the pipeline leaves; the generator
    register goes into the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (left2_arr m ρ c) (left2_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered with every unscoped buffer at `W7`, left with them at `W8`. Its
    windows' arrays are split out of the unscoped buffers and put back at what the pipeline leaves; the generator
    register goes into the invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (left3_arr m ρ c) (left3_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state: entered with every unscoped buffer at `W9`, left with them at `W10`. Its
    windows' arrays are split out of the unscoped buffers and put back at what the pipeline leaves; the generator
    register goes into the invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (left4_arr m ρ c) (left4_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The ten segments in order. -/
abbrev segs : List (Pipeline.Seg (pcfgs (F := F)) adm (pdats m ρ) () defs₀ 𝒱₀ L lv) :=
  [ .host (hseg hostOps0 hostOps0_sub fresh0 (W0 m ρ)), .region (reg0 m ρ),
    .host (hseg hostOps1 hostOps1_sub fresh1 (W2 m ρ)), .region (reg1 m ρ),
    .host (hseg hostOps2 hostOps2_sub fresh2 (W4 m ρ)), .region (reg2 m ρ),
    .host (hseg hostOps3 hostOps3_sub fresh3 (W6 m ρ)), .region (reg3 m ρ),
    .host (hseg hostOps4 hostOps4_sub fresh4 (W8 m ρ)), .region (reg4 m ρ) ]
/-- The program IS the run of the segments. -/
theorem main_run (c : Dev nD) : main (F := F) c = Pipeline.Seg.run (segs m ρ) := (main_chain c).trans (by chain_rfl)

-- the kit's implicit arguments are found by unifying its conclusion with this one, which takes unfolding plain
-- definitions in a metavariable's type
set_option backward.isDefEq.respectTransparency.types false in
/-- THE RUN: from any memory with zero counters every weakly fair execution of the program terminates, nothing
    faults, and in every final state core `c`'s unscoped buffers hold `W10 m ρ c`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W10 m ρ c) ∗ ∃ r, prngReg c r))
    (hch := ⟨fun _ => .rfl, fun _ => .rfl, fun _ => .rfl, fun _ => .rfl, fun _ => .rfl, fun _ => .rfl, fun _ => .rfl, fun _ => .rfl, fun _ => .rfl,
      fun _ => .rfl, fun c => by
        show (iprop(StableHlo.held (c : Thread nD τ) (Pipeline.ucRefs τ sig) (W10 m ρ c) ∗ R c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Fr

end
-- ==== Proof.K.Keep.lean ====
/-
  Which buffers the program leaves alone. A stretch of host operations changes only the buffers its operations
  write; a region changes only its windows' arrays. So a buffer that no stretch writes and that is no window's array
  holds at the end what it held at launch — in particular each of the seventeen argument arrays — and the loss,
  written by the third stretch, is unchanged from there to the end.
-/
import proofs.«150785_j1864015806542_1_alg».proof.Proof.Gen.Kernel.Launch
import proofs.«150785_j1864015806542_1_alg».proof.Proof.Gen.Kernel.Skeleton
import proofs.«150785_j1864015806542_1_alg».proof.Proof.Gen.Kernel.Points
import proofs.«150785_j1864015806542_1_alg».proof.Proof.K.Fold
import proofs.«150785_j1864015806542_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-- Region 0 keeps every buffer that is not the array of one of its output windows: an input window's array is left as
    entered, and a buffer that is no window's array is not touched at all. -/
theorem W2_keeps (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hh : (cfg0.win w).isOut
      · rfl
      · exact absurd rfl (hb w hh)
    exact (W2_arr m ρ c w).trans (((data0 (V1 m ρ) c).arrAt_in w hin _).trans (data0_A (V1 m ρ) c w))
  · exact W2_of_ne m ρ c b (fun w e => h ⟨w, e⟩)

/-- Region 1 keeps every buffer that is not the array of one of its output windows: an input window's array is left as
    entered, and a buffer that is no window's array is not touched at all. -/
theorem W4_keeps (c : Dev nD) (b : Ref sig .tc) (hb : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hh : (cfg1.win w).isOut
      · rfl
      · exact absurd rfl (hb w hh)
    exact (W4_arr m ρ c w).trans (((data1 (V3 m ρ) c).arrAt_in w hin _).trans (data1_A (V3 m ρ) c w))
  · exact W4_of_ne m ρ c b (fun w e => h ⟨w, e⟩)

/-- Region 2 keeps every buffer that is not the array of one of its output windows: an input window's array is left as
    entered, and a buffer that is no window's array is not touched at all. -/
theorem W6_keeps (c : Dev nD) (b : Ref sig .tc) (hb : ∀ w, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hh : (cfg2.win w).isOut
      · rfl
      · exact absurd rfl (hb w hh)
    exact (W6_arr m ρ c w).trans (((data2 (V5 m ρ) c).arrAt_in w hin _).trans (data2_A (V5 m ρ) c w))
  · exact W6_of_ne m ρ c b (fun w e => h ⟨w, e⟩)

/-- Region 3 keeps every buffer that is not the array of one of its output windows: an input window's array is left as
    entered, and a buffer that is no window's array is not touched at all. -/
theorem W8_keeps (c : Dev nD) (b : Ref sig .tc) (hb : ∀ w, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases hh : (cfg3.win w).isOut
      · rfl
      · exact absurd rfl (hb w hh)
    exact (W8_arr m ρ c w).trans (((data3 (V7 m ρ) c).arrAt_in w hin _).trans (data3_A (V7 m ρ) c w))
  · exact W8_of_ne m ρ c b (fun w e => h ⟨w, e⟩)

/-- Region 4 keeps every buffer that is not the array of one of its output windows: an input window's array is left as
    entered, and a buffer that is no window's array is not touched at all. -/
theorem W10_keeps (c : Dev nD) (b : Ref sig .tc) (hb : ∀ w, (cfg4.win w).isOut = true → Pipeline.arrRef spec4 w ≠ b) :
    W10 m ρ c (Proc.devRef .tc b) = W9 m ρ c (Proc.devRef .tc b) := by
  by_cases h : ∃ w, Pipeline.arrRef spec4 w = b
  · obtain ⟨w, rfl⟩ := h
    have hin : (cfg4.win w).isOut = false := by
      cases hh : (cfg4.win w).isOut
      · rfl
      · exact absurd rfl (hb w hh)
    exact (W10_arr m ρ c w).trans (((data4 (V9 m ρ) c).arrAt_in w hin _).trans (data4_A (V9 m ρ) c w))
  · exact W10_of_ne m ρ c b (fun w e => h ⟨w, e⟩)

/-- A buffer untouched from the third stretch's end to the program's end. -/
theorem W10_eq_W5 (c : Dev nD) (b : Ref sig .tc) (h3 : b ∉ hostOps3_W) (h4 : b ∉ hostOps4_W)
    (r2 : ∀ w, (cfg2.win w).isOut = true → Pipeline.arrRef spec2 w ≠ b) (r3 : ∀ w, (cfg3.win w).isOut = true → Pipeline.arrRef spec3 w ≠ b) (r4 : ∀ w, (cfg4.win w).isOut = true → Pipeline.arrRef spec4 w ≠ b) :
    W10 m ρ c (Proc.devRef .tc b) = W5 m ρ c (Proc.devRef .tc b) :=
  (W10_keeps m ρ c b r4).trans <| (StableHlo.after_of_writes_sub hostOps4 _ hostOps4_writes h4).trans <|
  (W8_keeps m ρ c b r3).trans <| (StableHlo.after_of_writes_sub hostOps3 _ hostOps3_writes h3).trans <|
  (W6_keeps m ρ c b r2)

/-- A buffer untouched by the whole program ends as launched. -/
theorem W10_kept (c : Dev nD) (b : Ref sig .tc) (h0 : b ∉ hostOps0_W) (h1 : b ∉ hostOps1_W) (h2 : b ∉ hostOps2_W)
    (h3 : b ∉ hostOps3_W) (h4 : b ∉ hostOps4_W)
    (r0 : ∀ w, (cfg0.win w).isOut = true → Pipeline.arrRef spec0 w ≠ b) (r1 : ∀ w, (cfg1.win w).isOut = true → Pipeline.arrRef spec1 w ≠ b) (r2 : ∀ w, (cfg2.win w).isOut = true → Pipeline.arrRef spec2 w ≠ b)
    (r3 : ∀ w, (cfg3.win w).isOut = true → Pipeline.arrRef spec3 w ≠ b) (r4 : ∀ w, (cfg4.win w).isOut = true → Pipeline.arrRef spec4 w ≠ b) :
    W10 m ρ c (Proc.devRef .tc b) = m ((c : Thread nD τ).loc b) :=
  (W10_eq_W5 m ρ c b h3 h4 r2 r3 r4).trans <| (StableHlo.after_of_writes_sub hostOps2 _ hostOps2_writes h2).trans <|
  (W4_keeps m ρ c b r1).trans <| (StableHlo.after_of_writes_sub hostOps1 _ hostOps1_writes h1).trans <|
  (W2_keeps m ρ c b r0).trans <| (StableHlo.after_of_writes_sub hostOps0 _ hostOps0_writes h0).trans rfl

theorem W10_main_arg0 (c : Dev nD) : W10 m ρ c (Proc.devRef .tc main_arg0) = m ((c : Thread nD τ).loc main_arg0) :=
  W10_kept m ρ c main_arg0 (by decide) (by decide) (by decide) (by decide) (by decide) (by decide) (by decide) (by decide) (by decide) (by decide)
theorem W10_main_arg1 (c : Dev nD) : W10 m ρ c (Proc.devRef .tc main_arg1) = m ((c : Thread nD τ).loc main_arg1) :=
  W10_kept m ρ c main_arg1 (by decide) (by decide) (by decide) (by decide) (by decide) (by decide) (by decide) (by decide) (by decide) (by decide)
theorem W10_main_arg2 (c : Dev nD) : W10 m ρ c (Proc.devRef .tc main_arg2) = m ((c : Thread nD τ).loc main_arg2) :=
  W10_kept m ρ c main_arg2 (by decide) (by decide) (by decide) (by decide) (by decide) (by decide) (by decide) (by decide) (by decide) (by decide)
theorem W10_main_arg3 (c : Dev nD) : W10 m ρ c (Proc.devRef .tc main_arg3) = m ((c : Thread nD τ).loc main_arg3) :=
  W10_kept m ρ c main_arg3 (by decide) (by decide) (by decide) (by decide) (by decide) (by decide) (by decide) (by decide) (by decide) (by decide)
theorem W10_main_arg4 (c : Dev nD) : W10 m ρ c (Proc.devRef .tc main_arg4) = m ((c : Thread nD τ).loc main_arg4) :=
  W10_kept m ρ c main_arg4 (by decide) (by decide) (by decide) (by decide) (by decide) (by decide) (by decide) (by decide) (by decide) (by decide)
theorem W10_main_arg5 (c : Dev nD) : W10 m ρ c (Proc.devRef .tc main_arg5) = m ((c : Thread nD τ).loc main_arg5) :=
  W10_kept m ρ c main_arg5 (by decide) (by decide) (by decide) (by decide) (by decide) (by decide) (by decide) (by decide) (by decide) (by decide)
theorem W10_main_arg6 (c : Dev nD) : W10 m ρ c (Proc.devRef .tc main_arg6) = m ((c : Thread nD τ).loc main_arg6) :=
  W10_kept m ρ c main_arg6 (by decide) (by decide) (by decide) (by decide) (by decide) (by decide) (by decide) (by decide) (by decide) (by decide)
theorem W10_main_arg7 (c : Dev nD) : W10 m ρ c (Proc.devRef .tc main_arg7) = m ((c : Thread nD τ).loc main_arg7) :=
  W10_kept m ρ c main_arg7 (by decide) (by decide) (by decide) (by decide) (by decide) (by decide) (by decide) (by decide) (by decide) (by decide)
theorem W10_main_arg8 (c : Dev nD) : W10 m ρ c (Proc.devRef .tc main_arg8) = m ((c : Thread nD τ).loc main_arg8) :=
  W10_kept m ρ c main_arg8 (by decide) (by decide) (by decide) (by decide) (by decide) (by decide) (by decide) (by decide) (by decide) (by decide)
theorem W10_main_arg9 (c : Dev nD) : W10 m ρ c (Proc.devRef .tc main_arg9) = m ((c : Thread nD τ).loc main_arg9) :=
  W10_kept m ρ c main_arg9 (by decide) (by decide) (by decide) (by decide) (by decide) (by decide) (by decide) (by decide) (by decide) (by decide)
theorem W10_main_arg10 (c : Dev nD) : W10 m ρ c (Proc.devRef .tc main_arg10) = m ((c : Thread nD τ).loc main_arg10) :=
  W10_kept m ρ c main_arg10 (by decide) (by decide) (by decide) (by decide) (by decide) (by decide) (by decide) (by decide) (by decide) (by decide)
theorem W10_main_arg11 (c : Dev nD) : W10 m ρ c (Proc.devRef .tc main_arg11) = m ((c : Thread nD τ).loc main_arg11) :=
  W10_kept m ρ c main_arg11 (by decide) (by decide) (by decide) (by decide) (by decide) (by decide) (by decide) (by decide) (by decide) (by decide)
theorem W10_main_arg12 (c : Dev nD) : W10 m ρ c (Proc.devRef .tc main_arg12) = m ((c : Thread nD τ).loc main_arg12) :=
  W10_kept m ρ c main_arg12 (by decide) (by decide) (by decide) (by decide) (by decide) (by decide) (by decide) (by decide) (by decide) (by decide)
theorem W10_main_arg13 (c : Dev nD) : W10 m ρ c (Proc.devRef .tc main_arg13) = m ((c : Thread nD τ).loc main_arg13) :=
  W10_kept m ρ c main_arg13 (by decide) (by decide) (by decide) (by decide) (by decide) (by decide) (by decide) (by decide) (by decide) (by decide)
theorem W10_main_arg14 (c : Dev nD) : W10 m ρ c (Proc.devRef .tc main_arg14) = m ((c : Thread nD τ).loc main_arg14) :=
  W10_kept m ρ c main_arg14 (by decide) (by decide) (by decide) (by decide) (by decide) (by decide) (by decide) (by decide) (by decide) (by decide)
theorem W10_main_arg15 (c : Dev nD) : W10 m ρ c (Proc.devRef .tc main_arg15) = m ((c : Thread nD τ).loc main_arg15) :=
  W10_kept m ρ c main_arg15 (by decide) (by decide) (by decide) (by decide) (by decide) (by decide) (by decide) (by decide) (by decide) (by decide)
theorem W10_main_arg16 (c : Dev nD) : W10 m ρ c (Proc.devRef .tc main_arg16) = m ((c : Thread nD τ).loc main_arg16) :=
  W10_kept m ρ c main_arg16 (by decide) (by decide) (by decide) (by decide) (by decide) (by decide) (by decide) (by decide) (by decide) (by decide)

/-- The loss at the end is the loss as the third stretch leaves it. -/
theorem W10_main_v58 (c : Dev nD) : W10 m ρ c (Proc.devRef .tc main_v58) = W5 m ρ c (Proc.devRef .tc main_v58) :=
  W10_eq_W5 m ρ c main_v58 (by decide) (by decide) (by decide) (by decide) (by decide)

end Cert.Kernel.Fr

end
-- ==== Proof.K.Frame.lean ====
/-
  The frame of the program: it runs to the end from any launch memory, nothing faults, and each of its seventeen
  argument arrays ends holding what it held at launch — read off the run's last boundary, through which no stretch
  and no region writes an argument. The same run with the two results named: the log-probabilities end at the last
  region's array, the loss at what the third stretch of host operations left.
-/
import proofs.«150785_j1864015806542_1_alg».proof.Proof.Gen.Kernel.Launch
import proofs.«150785_j1864015806542_1_alg».proof.Proof.Gen.Kernel.Skeleton
import proofs.«150785_j1864015806542_1_alg».proof.Proof.Gen.Kernel.Points
import proofs.«150785_j1864015806542_1_alg».proof.Proof.K.Run
import proofs.«150785_j1864015806542_1_alg».proof.Proof.K.Keep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c),
    (h c _ (mem_uc main_arg10 (by decide))).trans (W10_main_arg10 m ρ c),
    (h c _ (mem_uc main_arg11 (by decide))).trans (W10_main_arg11 m ρ c),
    (h c _ (mem_uc main_arg12 (by decide))).trans (W10_main_arg12 m ρ c),
    (h c _ (mem_uc main_arg13 (by decide))).trans (W10_main_arg13 m ρ c),
    (h c _ (mem_uc main_arg14 (by decide))).trans (W10_main_arg14 m ρ c),
    (h c _ (mem_uc main_arg15 (by decide))).trans (W10_main_arg15 m ρ c),
    (h c _ (mem_uc main_arg16 (by decide))).trans (W10_main_arg16 m ρ c)⟩)
    (run m ρ)

theorem run_results : θ_run defs (onTc (τ := τ) (main (F := F))) ⟨m, fun _ => 0, ρ⟩ (fun r => ∀ c : Dev nD,
      r.2.mem ((c.tc : Thread nD τ).loc main_v92) = W10 m ρ c (Proc.devRef .tc main_v92)
      ∧ r.2.mem ((c.tc : Thread nD τ).loc main_v58) = W5 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨h c _ (mem_uc main_v92 (by decide)),
    (h c _ (mem_uc main_v58 (by decide))).trans (W10_main_v58 m ρ c),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c),
    (h c _ (mem_uc main_arg10 (by decide))).trans (W10_main_arg10 m ρ c),
    (h c _ (mem_uc main_arg11 (by decide))).trans (W10_main_arg11 m ρ c),
    (h c _ (mem_uc main_arg12 (by decide))).trans (W10_main_arg12 m ρ c),
    (h c _ (mem_uc main_arg13 (by decide))).trans (W10_main_arg13 m ρ c),
    (h c _ (mem_uc main_arg14 (by decide))).trans (W10_main_arg14 m ρ c),
    (h c _ (mem_uc main_arg15 (by decide))).trans (W10_main_arg15 m ρ c),
    (h c _ (mem_uc main_arg16 (by decide))).trans (W10_main_arg16 m ρ c)⟩)
    (run m ρ)

end Cert.Kernel.Fr

end
-- ==== Proof.KI.R0.lean ====
/-
  The first dense layer, one row tile at a time. The grid has ten points; at point t the body sees rows
  10000·t … 10000·t + 9999 of the feature matrix (a 10000 × 128 tile), the whole 128 × 64 weight matrix, and
  leaves in the result window the tile's product with the weights (one matrix product into a zero accumulator).
  This file states that for the tile contents as the region finds them (a parameter `V`: the buffers when the
  region is entered) and proves the body's obligation towards the pipeline at a generic point, for any float
  instance: the body runs, faults nowhere, gives the two input tiles back unchanged and the result tile at the
  product.
-/
import proofs.«150785_j1864015806542_1_alg».proof.Proof.Gen.KernelIdeal.Launch
import proofs.«150785_j1864015806542_1_alg».proof.Proof.Gen.KernelIdeal.Skeleton
import proofs.«150785_j1864015806542_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Tiles as the region finds them -/

/-- The tile of window `w` at grid point `t`, read off the window's array as it is when the region starts. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its tile at every point (whether or not the point fetched it: when it
    did not, the tile index has not moved), as long as the body leaves the tile in place. The feature tile: -/
theorem held0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)
/-- and the weight matrix: -/
theorem held0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-! ## What the body leaves in the result tile -/

abbrev whole0_x : Rect S10000x128 := Rect.unit (s := S10000x128) ![0, 0] S10000x128.size inb_S10000x128_S10000x128_0_0
abbrev whole0_w : Rect S128x64 := Rect.unit (s := S128x64) ![0, 0] S128x64.size inb_S128x64_S128x64_0_0
abbrev whole0_o : Rect S10000x64 := Rect.unit (s := S10000x64) ![0, 0] S10000x64.size inb_S10000x64_S10000x64_0_0

/-- The result tile after the body: its one store, of the product of the two loaded tiles. -/
def prod0 (x : Vec F S10000x128 .f32) (w : Vec F S128x64 .f32) : Vec F S10000x64 .f32 :=
  View.canon [⟨whole0_o, k0_pay1 (View.ld x whole0_x) (View.ld w whole0_w)⟩]

/-- The one store covers the result tile. -/
theorem covers0 (p : Vec F S10000x64 .f32) (y : S10000x64.Idx) :
    ∃ pc ∈ ([⟨whole0_o, p⟩] : List (View.Piece (Elt F) S10000x64 .f32)), y ∈ pc.1.set :=
  View.cover_of_tiled [⟨whole0_o, p⟩] S10000x64.size (by rfl) y

/-! ## The body runs -/

set_option maxHeartbeats 1000000 in
/-- On whole staging buffers holding `x`, `w` and anything, the body runs to its end, keeps `x` and `w` and leaves
    the third at `prod0 x w`. -/
theorem run_body0 (c : Dev nD) (E : Set ℕ) (i : grid0.Coords) (a1 : Memref sig .tc .vmem S10000x128 .f32) (h1 : a1.IsWhole)
    (a2 : Memref sig .tc .vmem S128x64 .f32) (h2 : a2.IsWhole) (a3 : Memref sig .tc .vmem S10000x64 .f32) (h3 : a3.IsWhole)
    (x : Vec F S10000x128 .f32) (w : Vec F S128x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (prod0 x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0 _)

/-! ## The pipeline's proof data and the obligation at a point -/

/-- Proof data of this pipeline on core `c`: arrays as found; after the body at point `t` the inputs' buffers at
    their tiles and the result's at the product; the invariant is the untouched scoped rest and generator
    register; nothing owed; full shares. -/
def data0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => prod0 (tile0 V c 0 t) (tile0 V c 1 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_0 (c : Dev nD) (t : Fin cfg0.N) : (data0 V c).after 0 t = tile0 V c 0 t := by dsimp only [data0]
theorem data0_after_1 (c : Dev nD) (t : Fin cfg0.N) : (data0 V c).after 1 t = tile0 V c 1 t := by dsimp only [data0]
theorem data0_after_2 (c : Dev nD) (t : Fin cfg0.N) :
    (data0 V c).after 2 t = prod0 (tile0 V c 0 t) (tile0 V c 1 t) := by dsimp only [data0]

theorem data0_before_0 (c : Dev nD) (t : Fin cfg0.N) (d) : (data0 V c).before 0 t d = tile0 V c 0 t :=
  held0_0_of V (data0 V c) (data0_A V c 0) (data0_after_0 V c) t d
theorem data0_before_1 (c : Dev nD) (t : Fin cfg0.N) (d) : (data0 V c).before 1 t d = tile0 V c 1 t :=
  held0_1_of V (data0 V c) (data0_A V c 1) (data0_after_1 V c) t d

/-- What the body is called with at point `t`, -/
def pre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

/-- and what it returns. -/
def post0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

theorem at_point0 (c : Dev nD) (t : Fin cfg0.N) :
    pre0 V c t ⊢ wp frame (wpE (defs₀ (F := F)) Variants.none c none) Set.univ (bodyAt0 t) (fun _ => post0 V c t) := by
  unfold pre0 post0 bodyAt0
  simp only [data0_before_0, data0_before_1]
  rw [show (data0 V c).Φ t.succ = (data0 V c).Φ t.castSucc from rfl,
    show (data0 V c).owesAt () t.succ = (data0 V c).owesAt () t.castSucc from rfl,
    data0_after_0, data0_after_1, data0_after_2]
  iintro ⟨HΦ, Ho, ⟨%d0, H0⟩, ⟨%d1, H1⟩, ⟨%d2, H2⟩⟩
  iapply (run_body0 c Set.univ _ _ _ _ _ _ _ (tile0 V c 0 t) (tile0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation towards the pipeline, at every point. -/
theorem obligation0 (c : Dev nD) : BodyObligation (data0 (F := F) V c) (defs₀ (F := F)) Variants.none () Set.univ := fun t => by
  rw [bigSep_W0, bigSep_W0]
  exact at_point0 V c t

end Cert.KernelIdeal.Fr

end
-- ==== Proof.KI.R1.lean ====
/-
  The first layer's combine step with the Helmholtz loss, one row tile at a time. The grid has ten points; at point
  t the body sees rows 10000·t … 10000·t + 9999 of the projected features h and of the aggregated messages agg (two
  10000 × 64 tiles), the scalar k² as a 1 × 1 array and five 1 × 64 rows (bias, scale, shift, running mean, running
  variance). It stores tanh(((agg + k²·h + bias) − mean) · rsqrt(variance + ε) · scale + shift) into the result tile,
  and adds the tile's sum of squared residuals (agg − h + k²·h)² to a 1 × 1 accumulator kept in a scratch buffer
  across the points: the first point stores zero there first, and the last point stores the accumulator times the
  constant 1/6400000 into the loss window. The loss window is idle at the other nine points (its buffer is handed back
  as found) and is written back once, after the last. This file proves the body's obligation towards the pipeline for
  the tile contents as the region finds them (a parameter `V`), for any float instance; the invariant between
  points says what the scratch holds.
-/
import proofs.«150785_j1864015806542_1_alg».proof.Proof.Gen.KernelIdeal.Launch
import proofs.«150785_j1864015806542_1_alg».proof.Proof.Gen.KernelIdeal.Skeleton
import proofs.«150785_j1864015806542_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The tiles, the result tile, and the accumulator's steps -/

/-- The tile of window `w` at grid point `t`, read off the window's array as it is when the region starts. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its tile at every point (whether or not the point fetched it: when it
    did not, the tile index has not moved), as long as the body leaves the tile in place. One statement per window: -/
theorem held1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)
theorem held1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)
theorem held1_2_of {c : Dev nD} (dat : Dat τ (Elt F) Unit ℕ (UR sig nD τ) ℕ cfg1 c) (hA : dat.A 2 = V c (Pipeline.arrRef spec1 2))
    (hafter : ∀ t, dat.after 2 t = tile1 V c 2 t) (t : Fin cfg1.N) (d) : dat.before 2 t d = tile1 V c 2 t :=
  (dat.before_in_eq_fetched 2 rfl (fun _ => rfl) (fun _ _ _ => rfl) (fun t => by rw [hafter]; unfold Dat.blockOf tile1; rw [hA]; try rfl) t d).trans
    (by unfold Dat.fetched Dat.blockOf tile1; rw [hA]; try rfl)
theorem held1_3_of {c : Dev nD} (dat : Dat τ (Elt F) Unit ℕ (UR sig nD τ) ℕ cfg1 c) (hA : dat.A 3 = V c (Pipeline.arrRef spec1 3))
    (hafter : ∀ t, dat.after 3 t = tile1 V c 3 t) (t : Fin cfg1.N) (d) : dat.before 3 t d = tile1 V c 3 t :=
  (dat.before_in_eq_fetched 3 rfl (fun _ => rfl) (fun _ _ _ => rfl) (fun t => by rw [hafter]; unfold Dat.blockOf tile1; rw [hA]; try rfl) t d).trans
    (by unfold Dat.fetched Dat.blockOf tile1; rw [hA]; try rfl)
theorem held1_4_of {c : Dev nD} (dat : Dat τ (Elt F) Unit ℕ (UR sig nD τ) ℕ cfg1 c) (hA : dat.A 4 = V c (Pipeline.arrRef spec1 4))
    (hafter : ∀ t, dat.after 4 t = tile1 V c 4 t) (t : Fin cfg1.N) (d) : dat.before 4 t d = tile1 V c 4 t :=
  (dat.before_in_eq_fetched 4 rfl (fun _ => rfl) (fun _ _ _ => rfl) (fun t => by rw [hafter]; unfold Dat.blockOf tile1; rw [hA]; try rfl) t d).trans
    (by unfold Dat.fetched Dat.blockOf tile1; rw [hA]; try rfl)
theorem held1_5_of {c : Dev nD} (dat : Dat τ (Elt F) Unit ℕ (UR sig nD τ) ℕ cfg1 c) (hA : dat.A 5 = V c (Pipeline.arrRef spec1 5))
    (hafter : ∀ t, dat.after 5 t = tile1 V c 5 t) (t : Fin cfg1.N) (d) : dat.before 5 t d = tile1 V c 5 t :=
  (dat.before_in_eq_fetched 5 rfl (fun _ => rfl) (fun _ _ _ => rfl) (fun t => by rw [hafter]; unfold Dat.blockOf tile1; rw [hA]; try rfl) t d).trans
    (by unfold Dat.fetched Dat.blockOf tile1; rw [hA]; try rfl)
theorem held1_6_of {c : Dev nD} (dat : Dat τ (Elt F) Unit ℕ (UR sig nD τ) ℕ cfg1 c) (hA : dat.A 6 = V c (Pipeline.arrRef spec1 6))
    (hafter : ∀ t, dat.after 6 t = tile1 V c 6 t) (t : Fin cfg1.N) (d) : dat.before 6 t d = tile1 V c 6 t :=
  (dat.before_in_eq_fetched 6 rfl (fun _ => rfl) (fun _ _ _ => rfl) (fun t => by rw [hafter]; unfold Dat.blockOf tile1; rw [hA]; try rfl) t d).trans
    (by unfold Dat.fetched Dat.blockOf tile1; rw [hA]; try rfl)
theorem held1_7_of {c : Dev nD} (dat : Dat τ (Elt F) Unit ℕ (UR sig nD τ) ℕ cfg1 c) (hA : dat.A 7 = V c (Pipeline.arrRef spec1 7))
    (hafter : ∀ t, dat.after 7 t = tile1 V c 7 t) (t : Fin cfg1.N) (d) : dat.before 7 t d = tile1 V c 7 t :=
  (dat.before_in_eq_fetched 7 rfl (fun _ => rfl) (fun _ _ _ => rfl) (fun t => by rw [hafter]; unfold Dat.blockOf tile1; rw [hA]; try rfl) t d).trans
    (by unfold Dat.fetched Dat.blockOf tile1; rw [hA]; try rfl)

abbrev whole1_t : Rect S10000x64 := Rect.unit (s := S10000x64) ![0, 0] S10000x64.size inb_S10000x64_S10000x64_0_0
abbrev whole1_s : Rect S1x1 := Rect.unit (s := S1x1) ![0, 0] S1x1.size inb_S1x1_S1x1_0_0
abbrev whole1_r : Rect S1x64 := Rect.unit (s := S1x64) ![0, 0] S1x64.size inb_S1x64_S1x64_0_0

/-- The first grid point zeroes the accumulator: the body's test `program_id = 0`, as it is printed. -/
abbrev atFirst1 (i : grid1.Coords) : Prop :=
  Scalar.cmpi .ne (Scalar.extui (Scalar.cmpi .eq (BitVec.ofNat 32 (i 0).val) 0#32)) 0#32 = 1#1
/-- The last grid point writes the loss: the body's test `program_id = 9`. -/
abbrev atLast1 (i : grid1.Coords) : Prop := k1_cond2 i = 1#1

/-- The result tile after the body, from the eight input tiles in the windows' order (h, agg, k², bias, scale,
    shift, mean, variance): its one store. -/
def comb1 (x0 x1 : Vec F S10000x64 .f32) (x2 : Vec F S1x1 .f32) (x3 x4 x5 x6 x7 : Vec F S1x64 .f32) : Vec F S10000x64 .f32 :=
  View.canon [⟨whole1_t, k1_pay7 (View.ld x0 whole1_t) (View.ld x1 whole1_t) (View.ld x2 whole1_s) (View.ld x3 whole1_r)
    (View.ld x6 whole1_r) (View.ld x7 whole1_r) (View.ld x4 whole1_r) (View.ld x5 whole1_r)⟩]

/-- The accumulator after a point's update: what it held plus the sum of the squared residuals of the point's two
    tiles (the payload of the body's store into the scratch). -/
def step1 (x0 x1 : Vec F S10000x64 .f32) (x2 : Vec F S1x1 .f32) (s : Vec F S1x1 .f32) : Vec F S1x1 .f32 :=
  k1_pay1 (k1_pay4 (View.ld x0 whole1_t)) (k1_pay5 (View.ld x1 whole1_t)) (k1_pay6 (View.ld x2 whole1_s)) s

/-- The accumulator after the body at grid coordinates `i`, if it held `s` before: the first point starts from the
    zero the body stores there, every other point from `s`. -/
def next1 (i : grid1.Coords) (x0 x1 : Vec F S10000x64 .f32) (x2 : Vec F S1x1 .f32) (s : Vec F S1x1 .f32) : Vec F S1x1 .f32 :=
  step1 x0 x1 x2 (if atFirst1 i then k1_pay3 else s)

/-- The loss window's buffer after the body: at the last point the updated accumulator times the constant, at every
    other point what it held (`y`). -/
def lossOr1 (i : grid1.Coords) (x0 x1 : Vec F S10000x64 .f32) (x2 : Vec F S1x1 .f32) (y s : Vec F S1x1 .f32) : Vec F S1x1 .f32 :=
  if atLast1 i then k1_pay2 (next1 i x0 x1 x2 s) else y

theorem covers1_t (p : Vec F S10000x64 .f32) (y : S10000x64.Idx) :
    ∃ pc ∈ ([⟨whole1_t, p⟩] : List (View.Piece (Elt F) S10000x64 .f32)), y ∈ pc.1.set :=
  View.cover_of_tiled [⟨whole1_t, p⟩] S10000x64.size (by rfl) y

theorem zero_offsets1 : (![0, 0] : Fin S1x1.rank → Nat) = fun _ => 0 := by
  funext a; fin_cases a <;> rfl

/-- A whole-buffer store, last, leaves its payload, whatever was stored before. -/
theorem read_after_whole1 {κ : Kind} {sp : Space} (v : View sig κ sp S1x1 .f32) (f : v.ty.Contents (Elt F)) (w : Vec F S1x1 .f32)
    (L : List (View.Piece (Elt F) S1x1 .f32)) :
    v.read (Elt F) (v.writes (Elt F) f ((⟨whole1_s, w⟩ : View.Piece (Elt F) S1x1 .f32) :: L)) = w :=
  (View.read_writes_eq_canon v f _ (fun y => ⟨_, List.mem_cons_self, (View.cover_of_tiled [⟨whole1_s, w⟩] S1x1.size (by rfl) y).elim
    (fun pc h => by have := List.mem_singleton.1 h.1; subst this; exact h.2)⟩)).trans (View.canon_cons_unit_zero zero_offsets1 _ w L)

set_option maxHeartbeats 8000000 in
/-- On whole staging buffers holding the eight inputs, anything in the result's, `y` in the loss window's and `s` in
    the scratch, the body runs to its end, keeps the inputs, and leaves the result's buffer at `comb1` of them, the
    scratch at `next1` and the loss window's at `lossOr1`. -/
theorem run_body1 (c : Dev nD) (E : Set ℕ) (i : grid1.Coords)
    (a1 : Memref sig .tc .vmem S10000x64 .f32) (h1 : a1.IsWhole) (a2 : Memref sig .tc .vmem S10000x64 .f32) (h2 : a2.IsWhole)
    (a3 : Memref sig .tc .vmem S1x1 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (a7 : Memref sig .tc .vmem S1x64 .f32) (h7 : a7.IsWhole) (a8 : Memref sig .tc .vmem S1x64 .f32) (h8 : a8.IsWhole)
    (a9 : Memref sig .tc .vmem S10000x64 .f32) (h9 : a9.IsWhole) (a10 : Memref sig .tc .vmem S1x1 .f32) (h10 : a10.IsWhole)
    (a11 : Memref sig .tc .vmem S1x1 .f32) (h11 : a11.IsWhole)
    (x0 x1 : Vec F S10000x64 .f32) (x2 : Vec F S1x1 .f32) (x3 x4 x5 x6 x7 : Vec F S1x64 .f32) (y s : Vec F S1x1 .f32) (K : PUnit → sProp 𝕄)
    (hne : ¬ (atFirst1 i ∧ atLast1 i)) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ (∃ d, owns (c : Thread nD τ) a9 fullShare d)
        ∗ owns (c : Thread nD τ) a10 fullShare y ∗ owns (c : Thread nD τ) a11 fullShare s
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7
            ∗ owns (c : Thread nD τ) a9 fullShare (comb1 x0 x1 x2 x3 x4 x5 x6 x7)
            ∗ owns (c : Thread nD τ) a10 fullShare (lossOr1 i x0 x1 x2 y s)
            ∗ owns (c : Thread nD τ) a11 fullShare (next1 i x0 x1 x2 s)) -∗ K ⟨⟩))
      ⊢ wp frame (wpE (defs₀ (F := F)) Variants.none c none) E (cc1__combine_loss_kernel i a1 h1 a2 h2 a3 h3 a4 h4 a5 h5 a6 h6 a7 h7 a8 h8 a9 h9 a10 h10 a11 h11) K := by
  simp only [cc1__combine_loss_kernel_eq_skeleton]; unfold cc1__combine_loss_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf1; subst hf2; subst hf3; subst hf4; subst hf5; subst hf6; subst hf7; subst hf8; subst hf10; subst hf11
  by_cases hf : atFirst1 i <;> by_cases hl : atLast1 i
  · exact absurd ⟨hf, hl⟩ hne
  all_goals
    sl_exec (disch := first | exact hf | exact hl)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; isplitr
      swap; · iexact H9
      ipureintro
      exact View.read_writes_eq_canon _ _ _ (covers1_t _)
    isplitl [H10]
    · iexists _; isplitr
      swap; · iexact H10
      ipureintro
      first
        | (unfold lossOr1; rw [if_neg hl])
        | (refine (read_after_whole1 _ _ _ _).trans ?_
           unfold lossOr1; rw [if_pos hl]
           refine congrArg k1_pay2 ?_
           sl_unfold_run_names
           refine (View.readCov_unit_zero _ zero_offsets1 _ _).trans ?_
           unfold next1 step1; rw [if_neg hf]
           exact congrArg (k1_pay1 _ _ _) (View.ld_unit_zero (S := S1x1) zero_offsets1 _ _))
    · iexists _; isplitr
      swap; · iexact H11
      ipureintro
      refine (read_after_whole1 _ _ _ _).trans ?_
      unfold next1 step1
      first
        | (rw [if_pos hf]; sl_unfold_run_names; exact congrArg (k1_pay1 _ _ _) (View.readCov_unit_zero _ zero_offsets1 _ _))
        | (rw [if_neg hf]; sl_unfold_run_names; exact congrArg (k1_pay1 _ _ _) (View.ld_unit_zero (S := S1x1) zero_offsets1 _ _))

/-! ## The accumulator's history, the proof data, the obligation at a point -/

/-- The accumulator after the updates of points `0 … n − 1`, started from the zero the first point stores. -/
def scr1 (c : Dev nD) : ℕ → Vec F S1x1 .f32
  | 0 => k1_pay3
  | n + 1 => if h : n < cfg1.N then step1 (tile1 V c 0 ⟨n, h⟩) (tile1 V c 1 ⟨n, h⟩) (tile1 V c 2 ⟨n, h⟩) (scr1 c n) else scr1 c n

theorem scr1_succ (c : Dev nD) (t : Fin cfg1.N) :
    scr1 V c (t.val + 1) = step1 (tile1 V c 0 t) (tile1 V c 1 t) (tile1 V c 2 t) (scr1 V c t.val) := by
  rw [scr1]; exact dif_pos t.isLt

/-- Decided once over the ten grid points: the body's first-point test holds at point 0 only, its last-point test
    at point 9 only; the loss window is idle except at point 9, and is written back at point 9 only. -/
theorem first_iff1 : ∀ t : Fin cfg1.N, atFirst1 (grid1.coords t) ↔ t.val = 0 :=
  (by decide +kernel : ∀ t : Fin grid1.N, atFirst1 (grid1.coords t) ↔ t.val = 0)
theorem last_iff1 : ∀ t : Fin cfg1.N, atLast1 (grid1.coords t) ↔ t.val = 9 :=
  (by decide +kernel : ∀ t : Fin grid1.N, atLast1 (grid1.coords t) ↔ t.val = 9)
theorem idle_eq1 : ∀ t : Fin cfg1.N, idle1 9 (grid1.coords t) = !decide (t.val = 9) :=
  (by decide +kernel : ∀ t : Fin grid1.N, idle1 9 (grid1.coords t) = !decide (t.val = 9))
theorem flush_eq1 : ∀ t : Fin cfg1.N, (win1 9).flush t = decide (t.val = 9) :=
  (by decide +kernel : ∀ t : Fin grid1.N, (win1 9).flush t = decide (t.val = 9))

/-- The region's invariant before point `j`: the scratch holds the accumulator's history up to `j` (anything before
    the first point), beside the other scoped buffers and the generator register, untouched. -/
def inv1 (c : Dev nD) (j : Fin (cfg1.N + 1)) : sProp 𝕄 :=
  iprop((∃ s : Vec F S1x1 .f32, ⌜j.val ≠ 0 → s = scr1 V c j.val⌝ ∗ owns (c : Thread nD τ) (Memref.whole cc1_scratch0) fullShare s)
    ∗ Pipeline.scopedRestBut (Ix := Unit) (Name := ℕ) (U := UR sig nD τ) (Lvl := ℕ) (Val := Elt F) spec1 c [cc1_scratch0]
    ∗ ∃ r, prngReg c r)

/-- Proof data of this pipeline on core `c`: arrays as found; after the body at point `t` each input's buffer at its
    tile, the result's at `comb1` of the input tiles, the loss window's at the constant times the accumulator after
    point `t` (read only where the window is written back: the last point); the invariant `inv1`; nothing owed;
    full shares. -/
def data1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => tile1 V c 4 t
    | ⟨5, _⟩ => tile1 V c 5 t
    | ⟨6, _⟩ => tile1 V c 6 t
    | ⟨7, _⟩ => tile1 V c 7 t
    | ⟨8, _⟩ => comb1 (tile1 V c 0 t) (tile1 V c 1 t) (tile1 V c 2 t) (tile1 V c 3 t) (tile1 V c 4 t) (tile1 V c 5 t) (tile1 V c 6 t) (tile1 V c 7 t)
    | ⟨9, _⟩ => k1_pay2 (scr1 V c (t.val + 1))
  Φ j := inv1 V c j
  q _ := fullShare
  owed _ := 0

theorem data1_A (c : Dev nD) (w : Fin cfg1.W) : (data1 V c).A w = V c (Pipeline.arrRef spec1 w) := by
  dsimp only [data1]
theorem data1_Φ (c : Dev nD) (j : Fin (cfg1.N + 1)) : (data1 V c).Φ j = inv1 V c j := by dsimp only [data1]
theorem data1_after_0 (c : Dev nD) (t : Fin cfg1.N) : (data1 V c).after 0 t = tile1 V c 0 t := by dsimp only [data1]
theorem data1_after_1 (c : Dev nD) (t : Fin cfg1.N) : (data1 V c).after 1 t = tile1 V c 1 t := by dsimp only [data1]
theorem data1_after_2 (c : Dev nD) (t : Fin cfg1.N) : (data1 V c).after 2 t = tile1 V c 2 t := by dsimp only [data1]
theorem data1_after_3 (c : Dev nD) (t : Fin cfg1.N) : (data1 V c).after 3 t = tile1 V c 3 t := by dsimp only [data1]
theorem data1_after_4 (c : Dev nD) (t : Fin cfg1.N) : (data1 V c).after 4 t = tile1 V c 4 t := by dsimp only [data1]
theorem data1_after_5 (c : Dev nD) (t : Fin cfg1.N) : (data1 V c).after 5 t = tile1 V c 5 t := by dsimp only [data1]
theorem data1_after_6 (c : Dev nD) (t : Fin cfg1.N) : (data1 V c).after 6 t = tile1 V c 6 t := by dsimp only [data1]
theorem data1_after_7 (c : Dev nD) (t : Fin cfg1.N) : (data1 V c).after 7 t = tile1 V c 7 t := by dsimp only [data1]
theorem data1_after_8 (c : Dev nD) (t : Fin cfg1.N) : (data1 V c).after 8 t = comb1 (tile1 V c 0 t) (tile1 V c 1 t) (tile1 V c 2 t) (tile1 V c 3 t) (tile1 V c 4 t) (tile1 V c 5 t) (tile1 V c 6 t) (tile1 V c 7 t) := by
  dsimp only [data1]
theorem data1_after_9 (c : Dev nD) (t : Fin cfg1.N) : (data1 V c).after 9 t = k1_pay2 (scr1 V c (t.val + 1)) := by
  dsimp only [data1]
theorem data1_before_0 (c : Dev nD) (t : Fin cfg1.N) (d) : (data1 V c).before 0 t d = tile1 V c 0 t :=
  held1_0_of V (data1 V c) (data1_A V c 0) (data1_after_0 V c) t d
theorem data1_before_1 (c : Dev nD) (t : Fin cfg1.N) (d) : (data1 V c).before 1 t d = tile1 V c 1 t :=
  held1_1_of V (data1 V c) (data1_A V c 1) (data1_after_1 V c) t d
theorem data1_before_2 (c : Dev nD) (t : Fin cfg1.N) (d) : (data1 V c).before 2 t d = tile1 V c 2 t :=
  held1_2_of V (data1 V c) (data1_A V c 2) (data1_after_2 V c) t d
theorem data1_before_3 (c : Dev nD) (t : Fin cfg1.N) (d) : (data1 V c).before 3 t d = tile1 V c 3 t :=
  held1_3_of V (data1 V c) (data1_A V c 3) (data1_after_3 V c) t d
theorem data1_before_4 (c : Dev nD) (t : Fin cfg1.N) (d) : (data1 V c).before 4 t d = tile1 V c 4 t :=
  held1_4_of V (data1 V c) (data1_A V c 4) (data1_after_4 V c) t d
theorem data1_before_5 (c : Dev nD) (t : Fin cfg1.N) (d) : (data1 V c).before 5 t d = tile1 V c 5 t :=
  held1_5_of V (data1 V c) (data1_A V c 5) (data1_after_5 V c) t d
theorem data1_before_6 (c : Dev nD) (t : Fin cfg1.N) (d) : (data1 V c).before 6 t d = tile1 V c 6 t :=
  held1_6_of V (data1 V c) (data1_A V c 6) (data1_after_6 V c) t d
theorem data1_before_7 (c : Dev nD) (t : Fin cfg1.N) (d) : (data1 V c).before 7 t d = tile1 V c 7 t :=
  held1_7_of V (data1 V c) (data1_A V c 7) (data1_after_7 V c) t d

/-- The accumulator after point `t`'s update, from what the invariant says it held before. -/
theorem next1_eq (c : Dev nD) (t : Fin cfg1.N) (s : Vec F S1x1 .f32) (hs : t.castSucc.val ≠ 0 → s = scr1 V c t.castSucc.val) :
    next1 (grid1.coords t) (tile1 V c 0 t) (tile1 V c 1 t) (tile1 V c 2 t) s = scr1 V c (t.val + 1) := by
  unfold next1; rw [scr1_succ]
  refine congrArg (step1 _ _ _) ?_
  by_cases h0 : t.val = 0
  · rw [if_pos ((first_iff1 t).2 h0), h0]; rfl
  · rw [if_neg (mt (first_iff1 t).1 h0)]; exact hs h0

/-- What the body is called with at point `t`, -/
def pre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d))
    ∗ (∃ d, owns (c : Thread nD τ) (st1_6 t) fullShare ((data1 V c).before 6 t d))
    ∗ (∃ d, owns (c : Thread nD τ) (st1_7 t) fullShare ((data1 V c).before 7 t d))
    ∗ (∃ d, owns (c : Thread nD τ) (st1_8 t) fullShare ((data1 V c).before 8 t d))
    ∗ (∃ d, owns (c : Thread nD τ) (st1_9 t) fullShare ((data1 V c).before 9 t d)))

/-- and what it returns: the loss window's buffer at the loss where the point writes it, and as it was found where
    the window is idle. -/
def post1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t)
    ∗ owns (c : Thread nD τ) (st1_6 t) fullShare ((data1 V c).after 6 t)
    ∗ owns (c : Thread nD τ) (st1_7 t) fullShare ((data1 V c).after 7 t)
    ∗ owns (c : Thread nD τ) (st1_8 t) fullShare ((data1 V c).after 8 t)
    ∗ (match cfg1.idle 9 (cfg1.grid.coords t) with
        | true =>
          match (cfg1.win 9).flush t with
          | false => iprop(∃ d, owns (c : Thread nD τ) (st1_9 t) fullShare ((data1 V c).before 9 t d))
          | true => owns (c : Thread nD τ) (st1_9 t) fullShare ((data1 V c).after 9 t)
        | false => owns (c : Thread nD τ) (st1_9 t) fullShare ((data1 V c).after 9 t)))

set_option maxHeartbeats 2000000 in
theorem at_point1 (c : Dev nD) (t : Fin cfg1.N) :
    pre1 V c t ⊢ wp frame (wpE (defs₀ (F := F)) Variants.none c none) Set.univ (bodyAt1 t) (fun _ => post1 V c t) := by
  unfold pre1 post1 bodyAt1
  simp only [data1_before_0, data1_before_1, data1_before_2, data1_before_3, data1_before_4, data1_before_5, data1_before_6, data1_before_7]
  rw [show (data1 V c).owesAt () t.succ = (data1 V c).owesAt () t.castSucc from rfl,
    data1_after_0, data1_after_1, data1_after_2, data1_after_3, data1_after_4, data1_after_5, data1_after_6, data1_after_7, data1_after_8, data1_after_9, data1_Φ, data1_Φ]
  unfold inv1
  iintro ⟨⟨⟨%s, %hs, Hs⟩, HR, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hne : ¬ (atFirst1 (grid1.coords t) ∧ atLast1 (grid1.coords t)) := fun h => by
    have a := (first_iff1 t).1 h.1; have b := (last_iff1 t).1 h.2; omega
  have hnext := next1_eq V c t s hs
  iapply (run_body1 c Set.univ (grid1.coords t) _ _ _ _ _ _ _ _ _ _ _ _ _ _ _ _ _ _ _ _ _ _
    (tile1 V c 0 t) (tile1 V c 1 t) (tile1 V c 2 t) (tile1 V c 3 t) (tile1 V c 4 t) (tile1 V c 5 t) (tile1 V c 6 t) (tile1 V c 7 t) ((data1 V c).before 9 t d9) s _ hne)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [Hs]; · iexact Hs
  rw [hnext]
  iintro ⟨H0, H1, H2, H3, H4, H5, H6, H7, H8, H9, Hs⟩
  isplitl [Hs HR Hp]
  · isplitl [Hs]
    · iexists _; isplitr; · ipureintro; exact fun _ => rfl
      iexact Hs
    isplitl [HR]; · iexact HR
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  by_cases h9 : t.val = 9
  · rw [idle_eq1 t, decide_eq_true h9, Bool.not_true]
    dsimp only
    unfold lossOr1
    rw [if_pos ((last_iff1 t).2 h9), hnext]
    iexact H9
  · rw [idle_eq1 t, flush_eq1 t, decide_eq_false h9, Bool.not_false]
    dsimp only
    unfold lossOr1
    rw [if_neg (mt (last_iff1 t).1 h9)]
    iexists d9; iexact H9

/-- The body's obligation towards the pipeline, at every point. -/
theorem obligation1 (c : Dev nD) : BodyObligation (data1 (F := F) V c) (defs₀ (F := F)) Variants.none () Set.univ := fun t => by
  rw [bigSep_W1, bigSep_W1]
  exact at_point1 V c t

end Cert.KernelIdeal.Fr

end
-- ==== Proof.KI.R2.lean ====
/-
  The second dense layer, one row tile at a time. The grid has ten points; at point t the body sees rows
  10000·t … 10000·t + 9999 of the first layer's output (a 10000 × 64 tile), the whole 64 × 40 weight matrix, and
  leaves in the result window the tile's product with the weights (one matrix product into a zero accumulator).
  This file states that for the tile contents as the region finds them (a parameter `V`: the buffers when the
  region is entered) and proves the body's obligation towards the pipeline at a generic point, for any float
  instance: the body runs, faults nowhere, gives the two input tiles back unchanged and the result tile at the
  product.
-/
import proofs.«150785_j1864015806542_1_alg».proof.Proof.Gen.KernelIdeal.Launch
import proofs.«150785_j1864015806542_1_alg».proof.Proof.Gen.KernelIdeal.Skeleton
import proofs.«150785_j1864015806542_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Tiles as the region finds them -/

/-- The tile of window `w` at grid point `t`, read off the window's array as it is when the region starts. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its tile at every point (whether or not the point fetched it: when it
    did not, the tile index has not moved), as long as the body leaves the tile in place. The hidden-layer tile: -/
theorem held2_0_of {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)
/-- and the weight matrix: -/
theorem held2_1_of {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-! ## What the body leaves in the result tile -/

abbrev whole2_x : Rect S10000x64 := Rect.unit (s := S10000x64) ![0, 0] S10000x64.size inb_S10000x64_S10000x64_0_0
abbrev whole2_w : Rect S64x40 := Rect.unit (s := S64x40) ![0, 0] S64x40.size inb_S64x40_S64x40_0_0
abbrev whole2_o : Rect S10000x40 := Rect.unit (s := S10000x40) ![0, 0] S10000x40.size inb_S10000x40_S10000x40_0_0

/-- The result tile after the body: its one store, of the product of the two loaded tiles. -/
def prod2 (x : Vec F S10000x64 .f32) (w : Vec F S64x40 .f32) : Vec F S10000x40 .f32 :=
  View.canon [⟨whole2_o, k2_pay1 (View.ld x whole2_x) (View.ld w whole2_w)⟩]

/-- The one store covers the result tile. -/
theorem covers2 (p : Vec F S10000x40 .f32) (y : S10000x40.Idx) :
    ∃ pc ∈ ([⟨whole2_o, p⟩] : List (View.Piece (Elt F) S10000x40 .f32)), y ∈ pc.1.set :=
  View.cover_of_tiled [⟨whole2_o, p⟩] S10000x40.size (by rfl) y

/-! ## The body runs -/

set_option maxHeartbeats 1000000 in
/-- On whole staging buffers holding `x`, `w` and anything, the body runs to its end, keeps `x` and `w` and leaves
    the third at `prod2 x w`. -/
theorem run_body2 (c : Dev nD) (E : Set ℕ) (i : grid2.Coords) (a1 : Memref sig .tc .vmem S10000x64 .f32) (h1 : a1.IsWhole)
    (a2 : Memref sig .tc .vmem S64x40 .f32) (h2 : a2.IsWhole) (a3 : Memref sig .tc .vmem S10000x40 .f32) (h3 : a3.IsWhole)
    (x : Vec F S10000x64 .f32) (w : Vec F S64x40 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (prod2 x w)) -∗ K ⟨⟩))
      ⊢ wp frame (wpE (defs₀ (F := F)) Variants.none c none) E (cc2__matmul_kernel i a1 h1 a2 h2 a3 h3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2 _)

/-! ## The pipeline's proof data and the obligation at a point -/

/-- Proof data of this pipeline on core `c`: arrays as found; after the body at point `t` the inputs' buffers at
    their tiles and the result's at the product; the invariant is the untouched scoped rest and generator
    register; nothing owed; full shares. -/
def data2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => prod2 (tile2 V c 0 t) (tile2 V c 1 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after_0 (c : Dev nD) (t : Fin cfg2.N) : (data2 V c).after 0 t = tile2 V c 0 t := by dsimp only [data2]
theorem data2_after_1 (c : Dev nD) (t : Fin cfg2.N) : (data2 V c).after 1 t = tile2 V c 1 t := by dsimp only [data2]
theorem data2_after_2 (c : Dev nD) (t : Fin cfg2.N) :
    (data2 V c).after 2 t = prod2 (tile2 V c 0 t) (tile2 V c 1 t) := by dsimp only [data2]

theorem data2_before_0 (c : Dev nD) (t : Fin cfg2.N) (d) : (data2 V c).before 0 t d = tile2 V c 0 t :=
  held2_0_of V (data2 V c) (data2_A V c 0) (data2_after_0 V c) t d
theorem data2_before_1 (c : Dev nD) (t : Fin cfg2.N) (d) : (data2 V c).before 1 t d = tile2 V c 1 t :=
  held2_1_of V (data2 V c) (data2_A V c 1) (data2_after_1 V c) t d

/-- What the body is called with at point `t`, -/
def pre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d)))

/-- and what it returns. -/
def post2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t))

theorem at_point2 (c : Dev nD) (t : Fin cfg2.N) :
    pre2 V c t ⊢ wp frame (wpE (defs₀ (F := F)) Variants.none c none) Set.univ (bodyAt2 t) (fun _ => post2 V c t) := by
  unfold pre2 post2 bodyAt2
  simp only [data2_before_0, data2_before_1]
  rw [show (data2 V c).Φ t.succ = (data2 V c).Φ t.castSucc from rfl,
    show (data2 V c).owesAt () t.succ = (data2 V c).owesAt () t.castSucc from rfl,
    data2_after_0, data2_after_1, data2_after_2]
  iintro ⟨HΦ, Ho, ⟨%d0, H0⟩, ⟨%d1, H1⟩, ⟨%d2, H2⟩⟩
  iapply (run_body2 c Set.univ _ _ _ _ _ _ _ (tile2 V c 0 t) (tile2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation towards the pipeline, at every point. -/
theorem obligation2 (c : Dev nD) : BodyObligation (data2 (F := F) V c) (defs₀ (F := F)) Variants.none () Set.univ := fun t => by
  rw [bigSep_W2, bigSep_W2]
  exact at_point2 V c t

end Cert.KernelIdeal.Fr

end
-- ==== Proof.KI.R3.lean ====
/-
  The second layer's combine step, one row tile at a time. The grid has ten points; at point t the body sees rows
  10000·t … 10000·t + 9999 of the projected features h and of the aggregated messages agg (two 10000 × 40 tiles),
  the scalar k² as a 1 × 1 array, and five 1 × 40 rows (bias, scale, shift, running mean, running variance), and
  stores tanh(((agg + k²·h + bias) − mean) · rsqrt(variance + ε) · scale + shift) into the result tile. This file
  proves the body's obligation towards the pipeline for the tile contents as the region finds them (a parameter
  `V`), for any float instance.
-/
import proofs.«150785_j1864015806542_1_alg».proof.Proof.Gen.KernelIdeal.Launch
import proofs.«150785_j1864015806542_1_alg».proof.Proof.Gen.KernelIdeal.Skeleton
import proofs.«150785_j1864015806542_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The tile of window `w` at grid point `t`, read off the window's array as it is when the region starts. -/
def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its tile at every point (whether or not the point fetched it: when it
    did not, the tile index has not moved), as long as the body leaves the tile in place. One statement per window: -/
theorem held3_0_of {c : Dev nD} (dat : Dat τ (Elt F) Unit ℕ (UR sig nD τ) ℕ cfg3 c) (hA : dat.A 0 = V c (Pipeline.arrRef spec3 0))
    (hafter : ∀ t, dat.after 0 t = tile3 V c 0 t) (t : Fin cfg3.N) (d) : dat.before 0 t d = tile3 V c 0 t :=
  (dat.before_in_eq_fetched 0 rfl (fun _ => rfl) (fun _ _ _ => rfl) (fun t => by rw [hafter]; unfold Dat.blockOf tile3; rw [hA]; try rfl) t d).trans
    (by unfold Dat.fetched Dat.blockOf tile3; rw [hA]; try rfl)
theorem held3_1_of {c : Dev nD} (dat : Dat τ (Elt F) Unit ℕ (UR sig nD τ) ℕ cfg3 c) (hA : dat.A 1 = V c (Pipeline.arrRef spec3 1))
    (hafter : ∀ t, dat.after 1 t = tile3 V c 1 t) (t : Fin cfg3.N) (d) : dat.before 1 t d = tile3 V c 1 t :=
  (dat.before_in_eq_fetched 1 rfl (fun _ => rfl) (fun _ _ _ => rfl) (fun t => by rw [hafter]; unfold Dat.blockOf tile3; rw [hA]; try rfl) t d).trans
    (by unfold Dat.fetched Dat.blockOf tile3; rw [hA]; try rfl)
theorem held3_2_of {c : Dev nD} (dat : Dat τ (Elt F) Unit ℕ (UR sig nD τ) ℕ cfg3 c) (hA : dat.A 2 = V c (Pipeline.arrRef spec3 2))
    (hafter : ∀ t, dat.after 2 t = tile3 V c 2 t) (t : Fin cfg3.N) (d) : dat.before 2 t d = tile3 V c 2 t :=
  (dat.before_in_eq_fetched 2 rfl (fun _ => rfl) (fun _ _ _ => rfl) (fun t => by rw [hafter]; unfold Dat.blockOf tile3; rw [hA]; try rfl) t d).trans
    (by unfold Dat.fetched Dat.blockOf tile3; rw [hA]; try rfl)
theorem held3_3_of {c : Dev nD} (dat : Dat τ (Elt F) Unit ℕ (UR sig nD τ) ℕ cfg3 c) (hA : dat.A 3 = V c (Pipeline.arrRef spec3 3))
    (hafter : ∀ t, dat.after 3 t = tile3 V c 3 t) (t : Fin cfg3.N) (d) : dat.before 3 t d = tile3 V c 3 t :=
  (dat.before_in_eq_fetched 3 rfl (fun _ => rfl) (fun _ _ _ => rfl) (fun t => by rw [hafter]; unfold Dat.blockOf tile3; rw [hA]; try rfl) t d).trans
    (by unfold Dat.fetched Dat.blockOf tile3; rw [hA]; try rfl)
theorem held3_4_of {c : Dev nD} (dat : Dat τ (Elt F) Unit ℕ (UR sig nD τ) ℕ cfg3 c) (hA : dat.A 4 = V c (Pipeline.arrRef spec3 4))
    (hafter : ∀ t, dat.after 4 t = tile3 V c 4 t) (t : Fin cfg3.N) (d) : dat.before 4 t d = tile3 V c 4 t :=
  (dat.before_in_eq_fetched 4 rfl (fun _ => rfl) (fun _ _ _ => rfl) (fun t => by rw [hafter]; unfold Dat.blockOf tile3; rw [hA]; try rfl) t d).trans
    (by unfold Dat.fetched Dat.blockOf tile3; rw [hA]; try rfl)
theorem held3_5_of {c : Dev nD} (dat : Dat τ (Elt F) Unit ℕ (UR sig nD τ) ℕ cfg3 c) (hA : dat.A 5 = V c (Pipeline.arrRef spec3 5))
    (hafter : ∀ t, dat.after 5 t = tile3 V c 5 t) (t : Fin cfg3.N) (d) : dat.before 5 t d = tile3 V c 5 t :=
  (dat.before_in_eq_fetched 5 rfl (fun _ => rfl) (fun _ _ _ => rfl) (fun t => by rw [hafter]; unfold Dat.blockOf tile3; rw [hA]; try rfl) t d).trans
    (by unfold Dat.fetched Dat.blockOf tile3; rw [hA]; try rfl)
theorem held3_6_of {c : Dev nD} (dat : Dat τ (Elt F) Unit ℕ (UR sig nD τ) ℕ cfg3 c) (hA : dat.A 6 = V c (Pipeline.arrRef spec3 6))
    (hafter : ∀ t, dat.after 6 t = tile3 V c 6 t) (t : Fin cfg3.N) (d) : dat.before 6 t d = tile3 V c 6 t :=
  (dat.before_in_eq_fetched 6 rfl (fun _ => rfl) (fun _ _ _ => rfl) (fun t => by rw [hafter]; unfold Dat.blockOf tile3; rw [hA]; try rfl) t d).trans
    (by unfold Dat.fetched Dat.blockOf tile3; rw [hA]; try rfl)
theorem held3_7_of {c : Dev nD} (dat : Dat τ (Elt F) Unit ℕ (UR sig nD τ) ℕ cfg3 c) (hA : dat.A 7 = V c (Pipeline.arrRef spec3 7))
    (hafter : ∀ t, dat.after 7 t = tile3 V c 7 t) (t : Fin cfg3.N) (d) : dat.before 7 t d = tile3 V c 7 t :=
  (dat.before_in_eq_fetched 7 rfl (fun _ => rfl) (fun _ _ _ => rfl) (fun t => by rw [hafter]; unfold Dat.blockOf tile3; rw [hA]; try rfl) t d).trans
    (by unfold Dat.fetched Dat.blockOf tile3; rw [hA]; try rfl)

abbrev whole3_t : Rect S10000x40 := Rect.unit (s := S10000x40) ![0, 0] S10000x40.size inb_S10000x40_S10000x40_0_0
abbrev whole3_s : Rect S1x1 := Rect.unit (s := S1x1) ![0, 0] S1x1.size inb_S1x1_S1x1_0_0
abbrev whole3_r : Rect S1x40 := Rect.unit (s := S1x40) ![0, 0] S1x40.size inb_S1x40_S1x40_0_0

/-- The result tile after the body, from the eight input tiles in the windows' order (h, agg, k², bias, scale,
    shift, mean, variance): its one store. -/
def comb3 (x0 x1 : Vec F S10000x40 .f32) (x2 : Vec F S1x1 .f32) (x3 x4 x5 x6 x7 : Vec F S1x40 .f32) : Vec F S10000x40 .f32 :=
  View.canon [⟨whole3_t, k3_pay1 (View.ld x0 whole3_t) (View.ld x1 whole3_t) (View.ld x2 whole3_s) (View.ld x3 whole3_r)
    (View.ld x6 whole3_r) (View.ld x7 whole3_r) (View.ld x4 whole3_r) (View.ld x5 whole3_r)⟩]

theorem covers3 (p : Vec F S10000x40 .f32) (y : S10000x40.Idx) :
    ∃ pc ∈ ([⟨whole3_t, p⟩] : List (View.Piece (Elt F) S10000x40 .f32)), y ∈ pc.1.set :=
  View.cover_of_tiled [⟨whole3_t, p⟩] S10000x40.size (by rfl) y

set_option maxHeartbeats 2000000 in
/-- On whole staging buffers holding the eight inputs and anything in the ninth, the body runs to its end, keeps the
    inputs and leaves the ninth at `comb3` of them. -/
theorem run_body3 (c : Dev nD) (E : Set ℕ) (i : grid3.Coords)
    (a1 : Memref sig .tc .vmem S10000x40 .f32) (h1 : a1.IsWhole) (a2 : Memref sig .tc .vmem S10000x40 .f32) (h2 : a2.IsWhole)
    (a3 : Memref sig .tc .vmem S1x1 .f32) (h3 : a3.IsWhole) (a4 : Memref sig .tc .vmem S1x40 .f32) (h4 : a4.IsWhole)
    (a5 : Memref sig .tc .vmem S1x40 .f32) (h5 : a5.IsWhole) (a6 : Memref sig .tc .vmem S1x40 .f32) (h6 : a6.IsWhole)
    (a7 : Memref sig .tc .vmem S1x40 .f32) (h7 : a7.IsWhole) (a8 : Memref sig .tc .vmem S1x40 .f32) (h8 : a8.IsWhole)
    (a9 : Memref sig .tc .vmem S10000x40 .f32) (h9 : a9.IsWhole)
    (x0 x1 : Vec F S10000x40 .f32) (x2 : Vec F S1x1 .f32) (x3 x4 x5 x6 x7 : Vec F S1x40 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ (∃ d, owns (c : Thread nD τ) a9 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7
            ∗ owns (c : Thread nD τ) a9 fullShare (comb3 x0 x1 x2 x3 x4 x5 x6 x7)) -∗ K ⟨⟩))
      ⊢ wp frame (wpE (defs₀ (F := F)) Variants.none c none) E (cc3__combine_kernel i a1 h1 a2 h2 a3 h3 a4 h4 a5 h5 a6 h6 a7 h7 a8 h8 a9 h9) K := by
  simp only [cc3__combine_kernel_eq_skeleton]; unfold cc3__combine_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1; subst hf2; subst hf3; subst hf4; subst hf5; subst hf6; subst hf7; subst hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (covers3 _)

/-- Proof data of this pipeline on core `c`: arrays as found; after the body at point `t` each input's buffer at
    its tile and the result's at `comb3` of the input tiles; the invariant is the untouched scoped rest and
    generator register; nothing owed; full shares. -/
def data3 (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => tile3 V c 2 t
    | ⟨3, _⟩ => tile3 V c 3 t
    | ⟨4, _⟩ => tile3 V c 4 t
    | ⟨5, _⟩ => tile3 V c 5 t
    | ⟨6, _⟩ => tile3 V c 6 t
    | ⟨7, _⟩ => tile3 V c 7 t
    | ⟨8, _⟩ => comb3 (tile3 V c 0 t) (tile3 V c 1 t) (tile3 V c 2 t) (tile3 V c 3 t) (tile3 V c 4 t) (tile3 V c 5 t) (tile3 V c 6 t) (tile3 V c 7 t)
  Φ _ := Pipeline.ΦA spec3 c
  q _ := fullShare
  owed _ := 0

theorem data3_A (c : Dev nD) (w : Fin cfg3.W) : (data3 V c).A w = V c (Pipeline.arrRef spec3 w) := by
  dsimp only [data3]
theorem data3_after_0 (c : Dev nD) (t : Fin cfg3.N) : (data3 V c).after 0 t = tile3 V c 0 t := by dsimp only [data3]
theorem data3_after_1 (c : Dev nD) (t : Fin cfg3.N) : (data3 V c).after 1 t = tile3 V c 1 t := by dsimp only [data3]
theorem data3_after_2 (c : Dev nD) (t : Fin cfg3.N) : (data3 V c).after 2 t = tile3 V c 2 t := by dsimp only [data3]
theorem data3_after_3 (c : Dev nD) (t : Fin cfg3.N) : (data3 V c).after 3 t = tile3 V c 3 t := by dsimp only [data3]
theorem data3_after_4 (c : Dev nD) (t : Fin cfg3.N) : (data3 V c).after 4 t = tile3 V c 4 t := by dsimp only [data3]
theorem data3_after_5 (c : Dev nD) (t : Fin cfg3.N) : (data3 V c).after 5 t = tile3 V c 5 t := by dsimp only [data3]
theorem data3_after_6 (c : Dev nD) (t : Fin cfg3.N) : (data3 V c).after 6 t = tile3 V c 6 t := by dsimp only [data3]
theorem data3_after_7 (c : Dev nD) (t : Fin cfg3.N) : (data3 V c).after 7 t = tile3 V c 7 t := by dsimp only [data3]
theorem data3_after_8 (c : Dev nD) (t : Fin cfg3.N) : (data3 V c).after 8 t
    = comb3 (tile3 V c 0 t) (tile3 V c 1 t) (tile3 V c 2 t) (tile3 V c 3 t) (tile3 V c 4 t) (tile3 V c 5 t) (tile3 V c 6 t) (tile3 V c 7 t) := by
  dsimp only [data3]
theorem data3_before_0 (c : Dev nD) (t : Fin cfg3.N) (d) : (data3 V c).before 0 t d = tile3 V c 0 t :=
  held3_0_of V (data3 V c) (data3_A V c 0) (data3_after_0 V c) t d
theorem data3_before_1 (c : Dev nD) (t : Fin cfg3.N) (d) : (data3 V c).before 1 t d = tile3 V c 1 t :=
  held3_1_of V (data3 V c) (data3_A V c 1) (data3_after_1 V c) t d
theorem data3_before_2 (c : Dev nD) (t : Fin cfg3.N) (d) : (data3 V c).before 2 t d = tile3 V c 2 t :=
  held3_2_of V (data3 V c) (data3_A V c 2) (data3_after_2 V c) t d
theorem data3_before_3 (c : Dev nD) (t : Fin cfg3.N) (d) : (data3 V c).before 3 t d = tile3 V c 3 t :=
  held3_3_of V (data3 V c) (data3_A V c 3) (data3_after_3 V c) t d
theorem data3_before_4 (c : Dev nD) (t : Fin cfg3.N) (d) : (data3 V c).before 4 t d = tile3 V c 4 t :=
  held3_4_of V (data3 V c) (data3_A V c 4) (data3_after_4 V c) t d
theorem data3_before_5 (c : Dev nD) (t : Fin cfg3.N) (d) : (data3 V c).before 5 t d = tile3 V c 5 t :=
  held3_5_of V (data3 V c) (data3_A V c 5) (data3_after_5 V c) t d
theorem data3_before_6 (c : Dev nD) (t : Fin cfg3.N) (d) : (data3 V c).before 6 t d = tile3 V c 6 t :=
  held3_6_of V (data3 V c) (data3_A V c 6) (data3_after_6 V c) t d
theorem data3_before_7 (c : Dev nD) (t : Fin cfg3.N) (d) : (data3 V c).before 7 t d = tile3 V c 7 t :=
  held3_7_of V (data3 V c) (data3_A V c 7) (data3_after_7 V c) t d

def pre3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d))
    ∗ (∃ d, owns (c : Thread nD τ) (st3_4 t) fullShare ((data3 V c).before 4 t d))
    ∗ (∃ d, owns (c : Thread nD τ) (st3_5 t) fullShare ((data3 V c).before 5 t d))
    ∗ (∃ d, owns (c : Thread nD τ) (st3_6 t) fullShare ((data3 V c).before 6 t d))
    ∗ (∃ d, owns (c : Thread nD τ) (st3_7 t) fullShare ((data3 V c).before 7 t d))
    ∗ (∃ d, owns (c : Thread nD τ) (st3_8 t) fullShare ((data3 V c).before 8 t d)))

def post3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t)
    ∗ owns (c : Thread nD τ) (st3_4 t) fullShare ((data3 V c).after 4 t)
    ∗ owns (c : Thread nD τ) (st3_5 t) fullShare ((data3 V c).after 5 t)
    ∗ owns (c : Thread nD τ) (st3_6 t) fullShare ((data3 V c).after 6 t)
    ∗ owns (c : Thread nD τ) (st3_7 t) fullShare ((data3 V c).after 7 t)
    ∗ owns (c : Thread nD τ) (st3_8 t) fullShare ((data3 V c).after 8 t))

theorem at_point3 (c : Dev nD) (t : Fin cfg3.N) :
    pre3 V c t ⊢ wp frame (wpE (defs₀ (F := F)) Variants.none c none) Set.univ (bodyAt3 t) (fun _ => post3 V c t) := by
  unfold pre3 post3 bodyAt3
  simp only [data3_before_0, data3_before_1, data3_before_2, data3_before_3, data3_before_4, data3_before_5, data3_before_6, data3_before_7]
  rw [show (data3 V c).Φ t.succ = (data3 V c).Φ t.castSucc from rfl,
    show (data3 V c).owesAt () t.succ = (data3 V c).owesAt () t.castSucc from rfl,
    data3_after_0, data3_after_1, data3_after_2, data3_after_3, data3_after_4, data3_after_5, data3_after_6, data3_after_7, data3_after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body3 c Set.univ _ _ _ _ _ _ _ _ _ _ _ _ _ _ _ _ _ _ _ (tile3 V c 0 t) (tile3 V c 1 t) (tile3 V c 2 t) (tile3 V c 3 t)
    (tile3 V c 4 t) (tile3 V c 5 t) (tile3 V c 6 t) (tile3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's obligation towards the pipeline, at every point. -/
theorem obligation3 (c : Dev nD) : BodyObligation (data3 (F := F) V c) (defs₀ (F := F)) Variants.none () Set.univ := fun t => by
  rw [bigSep_W3, bigSep_W3]
  exact at_point3 V c t

end Cert.KernelIdeal.Fr

end
-- ==== Proof.KI.R4.lean ====
/-
  The last region: a row-wise log-softmax of the 10000 gathered rows (40 columns each), in one grid point. The
  body loads the whole input tile and stores, into the result tile, each entry minus its row's maximum minus the
  logarithm of the row's sum of exponentials of those differences. This file proves the body's obligation towards
  the pipeline for the tile contents as the region finds them (a parameter `V`), for any float instance.
-/
import proofs.«150785_j1864015806542_1_alg».proof.Proof.Gen.KernelIdeal.Launch
import proofs.«150785_j1864015806542_1_alg».proof.Proof.Gen.KernelIdeal.Skeleton
import proofs.«150785_j1864015806542_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The tile of window `w` at grid point `t`, read off the window's array as it is when the region starts. -/
def tile4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's staging buffer holds its tile at the point, as long as the body leaves the tile in place. -/
theorem held4_0_of {c : Dev nD} (dat : Dat τ (Elt F) Unit ℕ (UR sig nD τ) ℕ cfg4 c) (hA : dat.A 0 = V c (Pipeline.arrRef spec4 0))
    (hafter : ∀ t, dat.after 0 t = tile4 V c 0 t) (t : Fin cfg4.N) (d) : dat.before 0 t d = tile4 V c 0 t :=
  (dat.before_in_eq_fetched 0 rfl (fun _ => rfl) (fun _ _ _ => rfl) (fun t => by rw [hafter]; unfold Dat.blockOf tile4; rw [hA]; try rfl) t d).trans
    (by unfold Dat.fetched Dat.blockOf tile4; rw [hA]; try rfl)

abbrev whole4 : Rect S10000x40 := Rect.unit (s := S10000x40) ![0, 0] S10000x40.size inb_S10000x40_S10000x40_0_0

/-- The result tile after the body: its one store, the log-softmax of the loaded tile. -/
def lsm4 (x : Vec F S10000x40 .f32) : Vec F S10000x40 .f32 :=
  View.canon [⟨whole4, k4_pay1 (View.ld x whole4)⟩]

theorem covers4 (p : Vec F S10000x40 .f32) (y : S10000x40.Idx) :
    ∃ pc ∈ ([⟨whole4, p⟩] : List (View.Piece (Elt F) S10000x40 .f32)), y ∈ pc.1.set :=
  View.cover_of_tiled [⟨whole4, p⟩] S10000x40.size (by rfl) y

set_option maxHeartbeats 1000000 in
/-- On whole staging buffers holding `x` and anything, the body runs to its end, keeps `x` and leaves the second at
    `lsm4 x`. -/
theorem run_body4 (c : Dev nD) (E : Set ℕ) (i : grid4.Coords) (a1 : Memref sig .tc .vmem S10000x40 .f32) (h1 : a1.IsWhole)
    (a2 : Memref sig .tc .vmem S10000x40 .f32) (h2 : a2.IsWhole)
    (x : Vec F S10000x40 .f32) (K : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (lsm4 x)) -∗ K ⟨⟩))
      ⊢ wp frame (wpE (defs₀ (F := F)) Variants.none c none) E (cc4__log_softmax_kernel i a1 h1 a2 h2) K := by
  simp only [cc4__log_softmax_kernel_eq_skeleton]; unfold cc4__log_softmax_kernel_skel
  unfold owns
  iintro ⟨⟨%f1, %hf1, H1⟩, ⟨%d2, %f2, -, H2⟩, Hk⟩
  subst hf1
  sl_exec
  sl_step
  iapply Hk
  isplitl [H1]
  · iexists f1; isplitr; · ipureintro; rfl
    iexact H1
  iexists _; isplitr
  swap; · iexact H2
  ipureintro
  exact View.read_writes_eq_canon _ _ _ (covers4 _)

/-- Proof data of this pipeline on core `c`: arrays as found; after the body the input's buffer at its tile and
    the result's at the tile's log-softmax; the invariant is the untouched scoped rest and generator register;
    nothing owed; full shares. -/
def data4 (c : Dev nD) : Dat τ (Elt F) Unit ℕ (UR sig nD τ) ℕ cfg4 c where
  A w := V c (Pipeline.arrRef spec4 w)
  after w t := match w with
    | ⟨0, _⟩ => tile4 V c 0 t
    | ⟨1, _⟩ => lsm4 (tile4 V c 0 t)
  Φ _ := Pipeline.ΦA spec4 c
  q _ := fullShare
  owed _ := 0

theorem data4_A (c : Dev nD) (w : Fin cfg4.W) : (data4 V c).A w = V c (Pipeline.arrRef spec4 w) := by
  dsimp only [data4]
theorem data4_after_0 (c : Dev nD) (t : Fin cfg4.N) : (data4 V c).after 0 t = tile4 V c 0 t := by dsimp only [data4]
theorem data4_after_1 (c : Dev nD) (t : Fin cfg4.N) : (data4 V c).after 1 t = lsm4 (tile4 V c 0 t) := by dsimp only [data4]
theorem data4_before_0 (c : Dev nD) (t : Fin cfg4.N) (d) : (data4 V c).before 0 t d = tile4 V c 0 t :=
  held4_0_of V (data4 V c) (data4_A V c 0) (data4_after_0 V c) t d

def pre4 (c : Dev nD) (t : Fin cfg4.N) : sProp 𝕄 :=
  iprop((data4 V c).Φ t.castSucc ∗ (data4 V c).owesAt () t.castSucc
    ∗ (∃ d, owns (c : Thread nD τ) (st4_0 t) fullShare ((data4 V c).before 0 t d))
    ∗ (∃ d, owns (c : Thread nD τ) (st4_1 t) fullShare ((data4 V c).before 1 t d)))

def post4 (c : Dev nD) (t : Fin cfg4.N) : sProp 𝕄 :=
  iprop((data4 V c).Φ t.succ ∗ (data4 V c).owesAt () t.succ
    ∗ owns (c : Thread nD τ) (st4_0 t) fullShare ((data4 V c).after 0 t)
    ∗ owns (c : Thread nD τ) (st4_1 t) fullShare ((data4 V c).after 1 t))

theorem at_point4 (c : Dev nD) (t : Fin cfg4.N) :
    pre4 V c t ⊢ wp frame (wpE (defs₀ (F := F)) Variants.none c none) Set.univ (bodyAt4 t) (fun _ => post4 V c t) := by
  unfold pre4 post4 bodyAt4
  simp only [data4_before_0]
  rw [show (data4 V c).Φ t.succ = (data4 V c).Φ t.castSucc from rfl,
    show (data4 V c).owesAt () t.succ = (data4 V c).owesAt () t.castSucc from rfl,
    data4_after_0, data4_after_1]
  iintro ⟨HΦ, Ho, ⟨%d0, H0⟩, ⟨%d1, H1⟩⟩
  iapply (run_body4 c Set.univ _ _ _ _ _ (tile4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body's obligation towards the pipeline, at every point. -/
theorem obligation4 (c : Dev nD) : BodyObligation (data4 (F := F) V c) (defs₀ (F := F)) Variants.none () Set.univ := fun t => by
  rw [bigSep_W4, bigSep_W4]
  exact at_point4 V c t

end Cert.KernelIdeal.Fr

end
-- ==== Proof.KI.Fold.lean ====
/-
  The contents of core c's buffers at the ten boundaries of the program: the launch memory (W0); after the first
  stretch of host operations (W1: degrees, normalisation coefficients, the concatenated edge lists); after the first
  dense layer's region (W2: its result array holds what the ten row tiles' write-backs leave, every other buffer as
  before); after the stretch that gathers, weights and scatter-adds the messages (W3); after the first combine region
  (W4: the activations and the loss); the loss reshaped (W5); the second dense layer (W6); the second aggregation
  (W7); the second combine (W8); the gather of the batch rows (W9); the log-softmax region (W10). A host stretch
  acts by applying its operations in order; a region replaces its windows' arrays by what its pipeline leaves there
  and touches nothing else.
-/
import proofs.«150785_j1864015806542_1_alg».proof.Proof.Gen.KernelIdeal.Launch
import proofs.«150785_j1864015806542_1_alg».proof.Proof.Gen.KernelIdeal.Skeleton
import proofs.«150785_j1864015806542_1_alg».proof.Proof.Gen.KernelIdeal.Points
import proofs.«150785_j1864015806542_1_alg».proof.Proof.KI.R0
import proofs.«150785_j1864015806542_1_alg».proof.Proof.KI.R1
import proofs.«150785_j1864015806542_1_alg».proof.Proof.KI.R2
import proofs.«150785_j1864015806542_1_alg».proof.Proof.KI.R3
import proofs.«150785_j1864015806542_1_alg».proof.Proof.KI.R4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch `hostOps0`: what region 0 is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- When region 0 is left: its windows' arrays at what the pipeline leaves (an input as entered, an output with its
    write-backs folded in), every other buffer as entered. -/
def W2 (c : Dev nD) : Valuation τ sig (Elt F) :=
  Pipeline.withArrays spec0 c (W1 m ρ c) fun w => (data0 (V1 m ρ) c).arrAt w cfg0.N
theorem W2_arr (c : Dev nD) (w : Fin cfg0.W) :
    W2 m ρ c (Proc.devRef .tc (Pipeline.arrRef spec0 w)) = (data0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem left0_arr (c : Dev nD) (w : Fin cfg0.W) : (data0 (V1 m ρ) c).arrAt w cfg0.N = V2 m ρ c (Pipeline.arrRef spec0 w) :=
  (W2_arr m ρ c w).symm
theorem left0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: what region 1 is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- When region 1 is left: its windows' arrays at what the pipeline leaves (an input as entered, an output with its
    write-backs folded in), every other buffer as entered. -/
def W4 (c : Dev nD) : Valuation τ sig (Elt F) :=
  Pipeline.withArrays spec1 c (W3 m ρ c) fun w => (data1 (V3 m ρ) c).arrAt w cfg1.N
theorem W4_arr (c : Dev nD) (w : Fin cfg1.W) :
    W4 m ρ c (Proc.devRef .tc (Pipeline.arrRef spec1 w)) = (data1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem left1_arr (c : Dev nD) (w : Fin cfg1.W) : (data1 (V3 m ρ) c).arrAt w cfg1.N = V4 m ρ c (Pipeline.arrRef spec1 w) :=
  (W4_arr m ρ c w).symm
theorem left1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: what region 2 is entered from. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- When region 2 is left: its windows' arrays at what the pipeline leaves (an input as entered, an output with its
    write-backs folded in), every other buffer as entered. -/
def W6 (c : Dev nD) : Valuation τ sig (Elt F) :=
  Pipeline.withArrays spec2 c (W5 m ρ c) fun w => (data2 (V5 m ρ) c).arrAt w cfg2.N
theorem W6_arr (c : Dev nD) (w : Fin cfg2.W) :
    W6 m ρ c (Proc.devRef .tc (Pipeline.arrRef spec2 w)) = (data2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem left2_arr (c : Dev nD) (w : Fin cfg2.W) : (data2 (V5 m ρ) c).arrAt w cfg2.N = V6 m ρ c (Pipeline.arrRef spec2 w) :=
  (W6_arr m ρ c w).symm
theorem left2_rest (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: what region 3 is entered from. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- When region 3 is left: its windows' arrays at what the pipeline leaves (an input as entered, an output with its
    write-backs folded in), every other buffer as entered. -/
def W8 (c : Dev nD) : Valuation τ sig (Elt F) :=
  Pipeline.withArrays spec3 c (W7 m ρ c) fun w => (data3 (V7 m ρ) c).arrAt w cfg3.N
theorem W8_arr (c : Dev nD) (w : Fin cfg3.W) :
    W8 m ρ c (Proc.devRef .tc (Pipeline.arrRef spec3 w)) = (data3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem left3_arr (c : Dev nD) (w : Fin cfg3.W) : (data3 (V7 m ρ) c).arrAt w cfg3.N = V8 m ρ c (Pipeline.arrRef spec3 w) :=
  (W8_arr m ρ c w).symm
theorem left3_rest (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`: what region 4 is entered from. -/
abbrev W9 : Dev nD → Valuation τ sig (Elt F) := fun c => StableHlo.after hostOps4 (W8 m ρ c)
/-- The same, read at the TensorCore's references. -/
abbrev V9 : (c : Dev nD) → (b : Ref sig .tc) → Buf (Elt F) ((c : Thread nD τ).loc b) := fun c b => W9 m ρ c b
/-- When region 4 is left: its windows' arrays at what the pipeline leaves (an input as entered, an output with its
    write-backs folded in), every other buffer as entered. -/
def W10 (c : Dev nD) : Valuation τ sig (Elt F) :=
  Pipeline.withArrays spec4 c (W9 m ρ c) fun w => (data4 (V9 m ρ) c).arrAt w cfg4.N
theorem W10_arr (c : Dev nD) (w : Fin cfg4.W) :
    W10 m ρ c (Proc.devRef .tc (Pipeline.arrRef spec4 w)) = (data4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem left4_arr (c : Dev nD) (w : Fin cfg4.W) : (data4 (V9 m ρ) c).arrAt w cfg4.N = V10 m ρ c (Pipeline.arrRef spec4 w) :=
  (W10_arr m ρ c w).symm
theorem left4_rest (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

end Cert.KernelIdeal.Fr

end
-- ==== Proof.KI.Run.lean ====
/-
  The whole program as a chain of ten segments — five stretches of host operations and five kernel regions, in turn
  — and its run: from any launch memory with zero counters every weakly fair execution terminates, nothing faults,
  and core c's unscoped buffers end at the contents `W10 m ρ c` of the last boundary. Each region is entered with the
  unscoped buffers at one boundary's contents and left with them at the next's: its windows' arrays are taken out of
  the thread state, run through the pipeline against the body's obligation, and put back at what the write-backs
  leave; every other buffer rides along. The first combine region also takes its scratch buffer out of the scoped
  rest into its invariant and gives it back at the end.
-/
import proofs.«150785_j1864015806542_1_alg».proof.Proof.Gen.KernelIdeal.Launch
import proofs.«150785_j1864015806542_1_alg».proof.Proof.Gen.KernelIdeal.Skeleton
import proofs.«150785_j1864015806542_1_alg».proof.Proof.Gen.KernelIdeal.Points
import proofs.«150785_j1864015806542_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

open Idealize.ShloMosaic.Pipeline (RegionSeg Seg HostSeg)

variable (m : (ℓ : Loc nD τ sig) → Buf (Elt F) ℓ) (ρ : Dev nD → PrngReg)

/-- No pipeline of this program has a prefetched table. -/
abbrev adm : (p : Fin 5) → (pcfgs (F := F) p).Adm := fun p => (cfgs p).toPCfg_adm
/-- Every pipeline's proof data, each at the contents its region is entered from. -/
def pdats : (p : Fin 5) → (c : Dev nD) → Dat τ (Elt F) Unit ℕ (UR sig nD τ) ℕ (Pipeline.pin (pcfgs (F := F)) adm p) c
  | ⟨0, _⟩ => fun c => data0 (V1 m ρ) c
  | ⟨1, _⟩ => fun c => data1 (V3 m ρ) c
  | ⟨2, _⟩ => fun c => data2 (V5 m ρ) c
  | ⟨3, _⟩ => fun c => data3 (V7 m ρ) c
  | ⟨4, _⟩ => fun c => data4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor
theorem fresh4 : (hostOps4 : List (HloOp τ sig (Elt F))).Forall fun op => op.fresh = ∅ := by
  simp only [List.Forall]; repeat' constructor

-- a library lemma stated over the pinned configuration unifies with the printed one only when unification may unfold
-- plain definitions in a metavariable's type
set_option backward.isDefEq.respectTransparency.types false in
/-- Region 0 over the thread state: entered with every unscoped buffer at `W1`, left with them at `W2`. Its
    windows' arrays are split out of the unscoped buffers and put back at what the pipeline leaves; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0_arr m ρ c) (left0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its
    windows' arrays are split out of the unscoped buffers and put back at what the pipeline leaves; the generator
    register goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = inv1 (V3 m ρ) c 0 from rfl]; unfold inv1
    rw [show (Pipeline.scopedRest (Ix := Unit) (Name := ℕ) (U := UR sig nD τ) (Lvl := ℕ) (Val := Elt F) (Pipeline.pin (pcfgs (F := F)) adm 1).spec c : sProp 𝕄)
      = _ from scopedRest1_split c]
    simp only [owns_whole]
    iintro ⟨Hp, -, ⟨%f, Hf⟩, Hr⟩
    isplitl [Hf]
    · iexists f; isplitr; · ipureintro; exact fun h => absurd rfl h
      iexact Hf
    isplitl [Hr]; · iexact Hr
    iexact Hp
  hout c := by
    rw [Pipeline.ownSems0_none, show (pdats m ρ 1 c).Φ (Fin.last _) = inv1 (V3 m ρ) c (Fin.last _) from rfl]; unfold inv1
    rw [show (Pipeline.scopedRest (Ix := Unit) (Name := ℕ) (U := UR sig nD τ) (Lvl := ℕ) (Val := Elt F) (Pipeline.pin (pcfgs (F := F)) adm 1).spec c : sProp 𝕄)
      = _ from scopedRest1_split c]
    simp only [owns_whole]
    iintro ⟨⟨%s, -, Hs⟩, Hr, Hp⟩
    isplitl [Hp]; · iexact Hp
    isplitr; · iempintro
    isplitl [Hs]; · iexists s; iexact Hs
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (left1_arr m ρ c) (left1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W5`, left with them at `W6`. Its
    windows' arrays are split out of the unscoped buffers and put back at what the pipeline leaves; the generator
    register goes into the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (left2_arr m ρ c) (left2_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered with every unscoped buffer at `W7`, left with them at `W8`. Its
    windows' arrays are split out of the unscoped buffers and put back at what the pipeline leaves; the generator
    register goes into the invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (left3_arr m ρ c) (left3_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state: entered with every unscoped buffer at `W9`, left with them at `W10`. Its
    windows' arrays are split out of the unscoped buffers and put back at what the pipeline leaves; the generator
    register goes into the invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (left4_arr m ρ c) (left4_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The ten segments in order. -/
abbrev segs : List (Pipeline.Seg (pcfgs (F := F)) adm (pdats m ρ) () defs₀ 𝒱₀ L lv) :=
  [ .host (hseg hostOps0 hostOps0_sub fresh0 (W0 m ρ)), .region (reg0 m ρ),
    .host (hseg hostOps1 hostOps1_sub fresh1 (W2 m ρ)), .region (reg1 m ρ),
    .host (hseg hostOps2 hostOps2_sub fresh2 (W4 m ρ)), .region (reg2 m ρ),
    .host (hseg hostOps3 hostOps3_sub fresh3 (W6 m ρ)), .region (reg3 m ρ),
    .host (hseg hostOps4 hostOps4_sub fresh4 (W8 m ρ)), .region (reg4 m ρ) ]
/-- The program IS the run of the segments. -/
theorem main_run (c : Dev nD) : main (F := F) c = Pipeline.Seg.run (segs m ρ) := (main_chain c).trans (by chain_rfl)

-- the kit's implicit arguments are found by unifying its conclusion with this one, which takes unfolding plain
-- definitions in a metavariable's type
set_option backward.isDefEq.respectTransparency.types false in
/-- THE RUN: from any memory with zero counters every weakly fair execution of the program terminates, nothing
    faults, and in every final state core `c`'s unscoped buffers hold `W10 m ρ c`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W10 m ρ c) ∗ ∃ r, prngReg c r))
    (hch := ⟨fun _ => .rfl, fun _ => .rfl, fun _ => .rfl, fun _ => .rfl, fun _ => .rfl, fun _ => .rfl, fun _ => .rfl, fun _ => .rfl, fun _ => .rfl,
      fun _ => .rfl, fun c => by
        show (iprop(StableHlo.held (c : Thread nD τ) (Pipeline.ucRefs τ sig) (W10 m ρ c) ∗ R c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Fr

end
-- ==== Proof.KI.Keep.lean ====
/-
  Which buffers the program leaves alone. A stretch of host operations changes only the buffers its operations
  write; a region changes only its windows' arrays. So a buffer that no stretch writes and that is no window's array
  holds at the end what it held at launch — in particular each of the seventeen argument arrays — and the loss,
  written by the third stretch, is unchanged from there to the end.
-/
import proofs.«150785_j1864015806542_1_alg».proof.Proof.Gen.KernelIdeal.Launch
import proofs.«150785_j1864015806542_1_alg».proof.Proof.Gen.KernelIdeal.Skeleton
import proofs.«150785_j1864015806542_1_alg».proof.Proof.Gen.KernelIdeal.Points
import proofs.«150785_j1864015806542_1_alg».proof.Proof.KI.Fold
import proofs.«150785_j1864015806542_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

/-- Region 0 keeps every buffer that is not the array of one of its output windows: an input window's array is left as
    entered, and a buffer that is no window's array is not touched at all. -/
theorem W2_keeps (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hh : (cfg0.win w).isOut
      · rfl
      · exact absurd rfl (hb w hh)
    exact (W2_arr m ρ c w).trans (((data0 (V1 m ρ) c).arrAt_in w hin _).trans (data0_A (V1 m ρ) c w))
  · exact W2_of_ne m ρ c b (fun w e => h ⟨w, e⟩)

/-- Region 1 keeps every buffer that is not the array of one of its output windows: an input window's array is left as
    entered, and a buffer that is no window's array is not touched at all. -/
theorem W4_keeps (c : Dev nD) (b : Ref sig .tc) (hb : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hh : (cfg1.win w).isOut
      · rfl
      · exact absurd rfl (hb w hh)
    exact (W4_arr m ρ c w).trans (((data1 (V3 m ρ) c).arrAt_in w hin _).trans (data1_A (V3 m ρ) c w))
  · exact W4_of_ne m ρ c b (fun w e => h ⟨w, e⟩)

/-- Region 2 keeps every buffer that is not the array of one of its output windows: an input window's array is left as
    entered, and a buffer that is no window's array is not touched at all. -/
theorem W6_keeps (c : Dev nD) (b : Ref sig .tc) (hb : ∀ w, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hh : (cfg2.win w).isOut
      · rfl
      · exact absurd rfl (hb w hh)
    exact (W6_arr m ρ c w).trans (((data2 (V5 m ρ) c).arrAt_in w hin _).trans (data2_A (V5 m ρ) c w))
  · exact W6_of_ne m ρ c b (fun w e => h ⟨w, e⟩)

/-- Region 3 keeps every buffer that is not the array of one of its output windows: an input window's array is left as
    entered, and a buffer that is no window's array is not touched at all. -/
theorem W8_keeps (c : Dev nD) (b : Ref sig .tc) (hb : ∀ w, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases hh : (cfg3.win w).isOut
      · rfl
      · exact absurd rfl (hb w hh)
    exact (W8_arr m ρ c w).trans (((data3 (V7 m ρ) c).arrAt_in w hin _).trans (data3_A (V7 m ρ) c w))
  · exact W8_of_ne m ρ c b (fun w e => h ⟨w, e⟩)

/-- Region 4 keeps every buffer that is not the array of one of its output windows: an input window's array is left as
    entered, and a buffer that is no window's array is not touched at all. -/
theorem W10_keeps (c : Dev nD) (b : Ref sig .tc) (hb : ∀ w, (cfg4.win w).isOut = true → Pipeline.arrRef spec4 w ≠ b) :
    W10 m ρ c (Proc.devRef .tc b) = W9 m ρ c (Proc.devRef .tc b) := by
  by_cases h : ∃ w, Pipeline.arrRef spec4 w = b
  · obtain ⟨w, rfl⟩ := h
    have hin : (cfg4.win w).isOut = false := by
      cases hh : (cfg4.win w).isOut
      · rfl
      · exact absurd rfl (hb w hh)
    exact (W10_arr m ρ c w).trans (((data4 (V9 m ρ) c).arrAt_in w hin _).trans (data4_A (V9 m ρ) c w))
  · exact W10_of_ne m ρ c b (fun w e => h ⟨w, e⟩)

/-- A buffer untouched from the third stretch's end to the program's end. -/
theorem W10_eq_W5 (c : Dev nD) (b : Ref sig .tc) (h3 : b ∉ hostOps3_W) (h4 : b ∉ hostOps4_W)
    (r2 : ∀ w, (cfg2.win w).isOut = true → Pipeline.arrRef spec2 w ≠ b) (r3 : ∀ w, (cfg3.win w).isOut = true → Pipeline.arrRef spec3 w ≠ b) (r4 : ∀ w, (cfg4.win w).isOut = true → Pipeline.arrRef spec4 w ≠ b) :
    W10 m ρ c (Proc.devRef .tc b) = W5 m ρ c (Proc.devRef .tc b) :=
  (W10_keeps m ρ c b r4).trans <| (StableHlo.after_of_writes_sub hostOps4 _ hostOps4_writes h4).trans <|
  (W8_keeps m ρ c b r3).trans <| (StableHlo.after_of_writes_sub hostOps3 _ hostOps3_writes h3).trans <|
  (W6_keeps m ρ c b r2)

/-- A buffer untouched by the whole program ends as launched. -/
theorem W10_kept (c : Dev nD) (b : Ref sig .tc) (h0 : b ∉ hostOps0_W) (h1 : b ∉ hostOps1_W) (h2 : b ∉ hostOps2_W)
    (h3 : b ∉ hostOps3_W) (h4 : b ∉ hostOps4_W)
    (r0 : ∀ w, (cfg0.win w).isOut = true → Pipeline.arrRef spec0 w ≠ b) (r1 : ∀ w, (cfg1.win w).isOut = true → Pipeline.arrRef spec1 w ≠ b) (r2 : ∀ w, (cfg2.win w).isOut = true → Pipeline.arrRef spec2 w ≠ b)
    (r3 : ∀ w, (cfg3.win w).isOut = true → Pipeline.arrRef spec3 w ≠ b) (r4 : ∀ w, (cfg4.win w).isOut = true → Pipeline.arrRef spec4 w ≠ b) :
    W10 m ρ c (Proc.devRef .tc b) = m ((c : Thread nD τ).loc b) :=
  (W10_eq_W5 m ρ c b h3 h4 r2 r3 r4).trans <| (StableHlo.after_of_writes_sub hostOps2 _ hostOps2_writes h2).trans <|
  (W4_keeps m ρ c b r1).trans <| (StableHlo.after_of_writes_sub hostOps1 _ hostOps1_writes h1).trans <|
  (W2_keeps m ρ c b r0).trans <| (StableHlo.after_of_writes_sub hostOps0 _ hostOps0_writes h0).trans rfl

theorem W10_main_arg0 (c : Dev nD) : W10 m ρ c (Proc.devRef .tc main_arg0) = m ((c : Thread nD τ).loc main_arg0) :=
  W10_kept m ρ c main_arg0 (by decide) (by decide) (by decide) (by decide) (by decide) (by decide) (by decide) (by decide) (by decide) (by decide)
theorem W10_main_arg1 (c : Dev nD) : W10 m ρ c (Proc.devRef .tc main_arg1) = m ((c : Thread nD τ).loc main_arg1) :=
  W10_kept m ρ c main_arg1 (by decide) (by decide) (by decide) (by decide) (by decide) (by decide) (by decide) (by decide) (by decide) (by decide)
theorem W10_main_arg2 (c : Dev nD) : W10 m ρ c (Proc.devRef .tc main_arg2) = m ((c : Thread nD τ).loc main_arg2) :=
  W10_kept m ρ c main_arg2 (by decide) (by decide) (by decide) (by decide) (by decide) (by decide) (by decide) (by decide) (by decide) (by decide)
theorem W10_main_arg3 (c : Dev nD) : W10 m ρ c (Proc.devRef .tc main_arg3) = m ((c : Thread nD τ).loc main_arg3) :=
  W10_kept m ρ c main_arg3 (by decide) (by decide) (by decide) (by decide) (by decide) (by decide) (by decide) (by decide) (by decide) (by decide)
theorem W10_main_arg4 (c : Dev nD) : W10 m ρ c (Proc.devRef .tc main_arg4) = m ((c : Thread nD τ).loc main_arg4) :=
  W10_kept m ρ c main_arg4 (by decide) (by decide) (by decide) (by decide) (by decide) (by decide) (by decide) (by decide) (by decide) (by decide)
theorem W10_main_arg5 (c : Dev nD) : W10 m ρ c (Proc.devRef .tc main_arg5) = m ((c : Thread nD τ).loc main_arg5) :=
  W10_kept m ρ c main_arg5 (by decide) (by decide) (by decide) (by decide) (by decide) (by decide) (by decide) (by decide) (by decide) (by decide)
theorem W10_main_arg6 (c : Dev nD) : W10 m ρ c (Proc.devRef .tc main_arg6) = m ((c : Thread nD τ).loc main_arg6) :=
  W10_kept m ρ c main_arg6 (by decide) (by decide) (by decide) (by decide) (by decide) (by decide) (by decide) (by decide) (by decide) (by decide)
theorem W10_main_arg7 (c : Dev nD) : W10 m ρ c (Proc.devRef .tc main_arg7) = m ((c : Thread nD τ).loc main_arg7) :=
  W10_kept m ρ c main_arg7 (by decide) (by decide) (by decide) (by decide) (by decide) (by decide) (by decide) (by decide) (by decide) (by decide)
theorem W10_main_arg8 (c : Dev nD) : W10 m ρ c (Proc.devRef .tc main_arg8) = m ((c : Thread nD τ).loc main_arg8) :=
  W10_kept m ρ c main_arg8 (by decide) (by decide) (by decide) (by decide) (by decide) (by decide) (by decide) (by decide) (by decide) (by decide)
theorem W10_main_arg9 (c : Dev nD) : W10 m ρ c (Proc.devRef .tc main_arg9) = m ((c : Thread nD τ).loc main_arg9) :=
  W10_kept m ρ c main_arg9 (by decide) (by decide) (by decide) (by decide) (by decide) (by decide) (by decide) (by decide) (by decide) (by decide)
theorem W10_main_arg10 (c : Dev nD) : W10 m ρ c (Proc.devRef .tc main_arg10) = m ((c : Thread nD τ).loc main_arg10) :=
  W10_kept m ρ c main_arg10 (by decide) (by decide) (by decide) (by decide) (by decide) (by decide) (by decide) (by decide) (by decide) (by decide)
theorem W10_main_arg11 (c : Dev nD) : W10 m ρ c (Proc.devRef .tc main_arg11) = m ((c : Thread nD τ).loc main_arg11) :=
  W10_kept m ρ c main_arg11 (by decide) (by decide) (by decide) (by decide) (by decide) (by decide) (by decide) (by decide) (by decide) (by decide)
theorem W10_main_arg12 (c : Dev nD) : W10 m ρ c (Proc.devRef .tc main_arg12) = m ((c : Thread nD τ).loc main_arg12) :=
  W10_kept m ρ c main_arg12 (by decide) (by decide) (by decide) (by decide) (by decide) (by decide) (by decide) (by decide) (by decide) (by decide)
theorem W10_main_arg13 (c : Dev nD) : W10 m ρ c (Proc.devRef .tc main_arg13) = m ((c : Thread nD τ).loc main_arg13) :=
  W10_kept m ρ c main_arg13 (by decide) (by decide) (by decide) (by decide) (by decide) (by decide) (by decide) (by decide) (by decide) (by decide)
theorem W10_main_arg14 (c : Dev nD) : W10 m ρ c (Proc.devRef .tc main_arg14) = m ((c : Thread nD τ).loc main_arg14) :=
  W10_kept m ρ c main_arg14 (by decide) (by decide) (by decide) (by decide) (by decide) (by decide) (by decide) (by decide) (by decide) (by decide)
theorem W10_main_arg15 (c : Dev nD) : W10 m ρ c (Proc.devRef .tc main_arg15) = m ((c : Thread nD τ).loc main_arg15) :=
  W10_kept m ρ c main_arg15 (by decide) (by decide) (by decide) (by decide) (by decide) (by decide) (by decide) (by decide) (by decide) (by decide)
theorem W10_main_arg16 (c : Dev nD) : W10 m ρ c (Proc.devRef .tc main_arg16) = m ((c : Thread nD τ).loc main_arg16) :=
  W10_kept m ρ c main_arg16 (by decide) (by decide) (by decide) (by decide) (by decide) (by decide) (by decide) (by decide) (by decide) (by decide)

/-- The loss at the end is the loss as the third stretch leaves it. -/
theorem W10_main_v58 (c : Dev nD) : W10 m ρ c (Proc.devRef .tc main_v58) = W5 m ρ c (Proc.devRef .tc main_v58) :=
  W10_eq_W5 m ρ c main_v58 (by decide) (by decide) (by decide) (by decide) (by decide)

end Cert.KernelIdeal.Fr

end
-- ==== Proof.KI.Frame.lean ====
/-
  The frame of the program: it runs to the end from any launch memory, nothing faults, and each of its seventeen
  argument arrays ends holding what it held at launch — read off the run's last boundary, through which no stretch
  and no region writes an argument. The same run with the two results named: the log-probabilities end at the last
  region's array, the loss at what the third stretch of host operations left.
-/
import proofs.«150785_j1864015806542_1_alg».proof.Proof.Gen.KernelIdeal.Launch
import proofs.«150785_j1864015806542_1_alg».proof.Proof.Gen.KernelIdeal.Skeleton
import proofs.«150785_j1864015806542_1_alg».proof.Proof.Gen.KernelIdeal.Points
import proofs.«150785_j1864015806542_1_alg».proof.Proof.KI.Run
import proofs.«150785_j1864015806542_1_alg».proof.Proof.KI.Keep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c),
    (h c _ (mem_uc main_arg10 (by decide))).trans (W10_main_arg10 m ρ c),
    (h c _ (mem_uc main_arg11 (by decide))).trans (W10_main_arg11 m ρ c),
    (h c _ (mem_uc main_arg12 (by decide))).trans (W10_main_arg12 m ρ c),
    (h c _ (mem_uc main_arg13 (by decide))).trans (W10_main_arg13 m ρ c),
    (h c _ (mem_uc main_arg14 (by decide))).trans (W10_main_arg14 m ρ c),
    (h c _ (mem_uc main_arg15 (by decide))).trans (W10_main_arg15 m ρ c),
    (h c _ (mem_uc main_arg16 (by decide))).trans (W10_main_arg16 m ρ c)⟩)
    (run m ρ)

theorem run_results : θ_run defs (onTc (τ := τ) (main (F := F))) ⟨m, fun _ => 0, ρ⟩ (fun r => ∀ c : Dev nD,
      r.2.mem ((c.tc : Thread nD τ).loc main_v92) = W10 m ρ c (Proc.devRef .tc main_v92)
      ∧ r.2.mem ((c.tc : Thread nD τ).loc main_v58) = W5 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨h c _ (mem_uc main_v92 (by decide)),
    (h c _ (mem_uc main_v58 (by decide))).trans (W10_main_v58 m ρ c),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c),
    (h c _ (mem_uc main_arg10 (by decide))).trans (W10_main_arg10 m ρ c),
    (h c _ (mem_uc main_arg11 (by decide))).trans (W10_main_arg11 m ρ c),
    (h c _ (mem_uc main_arg12 (by decide))).trans (W10_main_arg12 m ρ c),
    (h c _ (mem_uc main_arg13 (by decide))).trans (W10_main_arg13 m ρ c),
    (h c _ (mem_uc main_arg14 (by decide))).trans (W10_main_arg14 m ρ c),
    (h c _ (mem_uc main_arg15 (by decide))).trans (W10_main_arg15 m ρ c),
    (h c _ (mem_uc main_arg16 (by decide))).trans (W10_main_arg16 m ρ c)⟩)
    (run m ρ)

end Cert.KernelIdeal.Fr

end
-- ==== Proof.Val.APay0.lean ====
/-
  One tile of the first dense layer, entry by entry, on exact values.

  The tile's result is the matrix product of a 10000 × 128 tile of features with the 128 × 64 weight matrix,
  accumulated into zero. Narrowing the factors to the matrix unit's input format changes nothing on exact values, so
  entry (a, b) is the inner product `∑ₖ x(a,k) · w(k,b)`.
-/
import proofs.«150785_j1864015806542_1_alg».proof.Proof.Gen.KernelIdeal.Skeleton
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.Val

open Idealize.ShloMosaic Idealize.ShloMosaic.ValueIdx Cert.KernelIdeal Cert.KernelIdeal.Gen

/-- The first layer's contraction has the plain dimension numbers: rows by columns, one contracted axis. -/
theorem dot0_eq_plain : dot_S10000x128_S128x64_S10000x64_1_0_0_1_n_n = DotDims.plain 10000 128 64 := rfl

/-- Entry (a, b) of a tile's product: row `a` of the feature tile against column `b` of the weights. -/
theorem k0_pay1_apply (x : Vec Ideal S10000x128 .f32) (w : Vec Ideal S128x64 .f32) (a : Fin 10000) (b : Fin 64) :
    k0_pay1 (F := Ideal) x w (ix2 a b) = ∑ k : Fin 128, x (ix2 a k) * w (ix2 k b) := by
  unfold k0_pay1
  rw [dot0_eq_plain]
  exact (congrFun (matmul_zero_eq_dotGeneral (DotDims.plain 10000 128 64) none (φ₁ := .bf16) (φ₂ := .bf16) x w) (ix2 a b)).trans
    (StackMember.dotGeneral_plain_apply none x w a b)

end Cert.Val

end
-- ==== Proof.Val.ASpec.lean ====
/-
  The first layer, stated once over plain arrays of extended reals: what both programs compute.

  * `matProd X W`: the product of a 100000 × 128 matrix with a 128 × 64 one, entry by entry.
  * `sqres h a k = ((a − h) + k·h)²`, the squared residual of one entry, and `sqSum H A k`, its sum over all
    100000 × 64 entries; the loss is that sum times 1/6400000.
  * `act h a k b m v g be = tanh ((((a + k·h + b) − m) · rsqrt (v + ε)) · g + be)`, the activation of one entry, and
    `actArr`, the activation of every entry with the per-column parameters read at the entry's column.
-/
import Idealize.ShloMosaic.Lib.ValueIdx
import Idealize.ShloMosaic.PureOps.Ideal.Laws

noncomputable section

open scoped BigOperators

namespace Cert.Val

open Idealize.ShloMosaic Idealize.ShloMosaic.ValueIdx

/-- The product of a 100000 × 128 matrix with a 128 × 64 one, entry by entry. -/
def matProd (X : (⟨2, ![100000, 128]⟩ : Shape).Idx → EReal) (Wt : (⟨2, ![128, 64]⟩ : Shape).Idx → EReal) :
    (⟨2, ![100000, 64]⟩ : Shape).Idx → EReal :=
  fun i => ∑ k : Fin 128, X (ix2 (⟨(i 0).val, idx2_lt0 i⟩ : Fin 100000) k) * Wt (ix2 k (⟨(i 1).val, idx2_lt1 i⟩ : Fin 64))

/-- The squared residual of one entry: `((agg − h) + k·h)²`. -/
def sqres (h agg k : EReal) : EReal := ((agg - h) + k * h) * ((agg - h) + k * h)

/-- The sum of the squared residuals of all entries. -/
def sqSum (H A : (⟨2, ![100000, 64]⟩ : Shape).Idx → EReal) (k : EReal) : EReal := ∑ j, sqres (H j) (A j) k

/-- The divisor 6400000.0 denotes the real 6400000. -/
theorem ofBits_total : Ideal.ofBits .f32 0x4AC35000#32 = ((6400000 : ℝ) : EReal) := by
  simp [Ideal.ofBits, Ideal.ieee, -EReal.coe_mul]; norm_num

/-- The activation of one entry. -/
def act (h agg k b m v g be : EReal) : EReal :=
  Ideal.tanh ((((agg + k * h) + b) - m) * Ideal.rsqrt (v + Ideal.ofBits .f32 0x3727C5AC#32) * g + be)

/-- Column `j` of a one-row array, for the column of a matrix index. -/
def colOf (i : (⟨2, ![100000, 64]⟩ : Shape).Idx) : (⟨2, ![1, 64]⟩ : Shape).Idx := ix2 (0 : Fin 1) (⟨(i 1).val, idx2_lt1 i⟩ : Fin 64)

/-- The activation of every entry: `H` the dense layer's result, `A` the aggregated messages, `K` the scalar, then the
    bias, mean, variance, scale and shift rows. -/
def actArr (H A : (⟨2, ![100000, 64]⟩ : Shape).Idx → EReal) (K : (⟨2, ![1, 1]⟩ : Shape).Idx → EReal)
    (B M Vr G Be : (⟨2, ![1, 64]⟩ : Shape).Idx → EReal) : (⟨2, ![100000, 64]⟩ : Shape).Idx → EReal :=
  fun i => act (H i) (A i) (K (ix2 (0 : Fin 1) (0 : Fin 1))) (B (colOf i)) (M (colOf i)) (Vr (colOf i)) (G (colOf i)) (Be (colOf i))

end Cert.Val

end
-- ==== Proof.Val.ATile0.lean ====
/-
  The first dense layer's result array, as one function of the two arrays the region reads.

  The ten grid points write back ten disjoint row tiles that together fill the 100000 × 64 result. Tile `t` of the
  feature matrix is its rows `10000·t … 10000·t + 9999`, the weight matrix's tile is the whole matrix at every point,
  and the result tile at `t` lands on the same rows of the result. So entry (i, j) of the result array after the region
  is the inner product of row `i` of the features with column `j` of the weights, whatever the arrays held on entry.
-/
import proofs.«150785_j1864015806542_1_alg».proof.Proof.KI.R0
import proofs.«150785_j1864015806542_1_alg».proof.Proof.Val.APay0
import proofs.«150785_j1864015806542_1_alg».proof.Proof.Val.ASpec
import Idealize.ShloMosaic.Lib.Pipeline.Value

set_option maxRecDepth 16384

noncomputable section

open scoped BigOperators

namespace Cert.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The result tile, entry by entry. -/
theorem prod0_apply (x : Vec Ideal S10000x128 .f32) (w : Vec Ideal S128x64 .f32) (a : Fin 10000) (b : Fin 64) :
    prod0 (F := Ideal) x w (ix2 a b) = ∑ k : Fin 128, x (ix2 a k) * w (ix2 k b) := by
  unfold prod0
  rw [View.canon_unit_zero zero_offsets0]
  simp only [View.ld_unit_zero (S := S10000x128) zero_offsets0, View.ld_unit_zero (S := S128x64) zero_offsets0]
  exact k0_pay1_apply x w a b

/-- The printed index maps, decided over the ten grid points: the feature window and the result window sit on row
    tile `t`, column tile 0; the weight window on tile (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature tile at point `t` is rows `10000·t …` of the feature array. -/
theorem tile0_0_apply (c : Dev nD) (t : Fin cfg0.N) (x : S10000x128.Idx) (k : S100000x128.Idx)
    (hk0 : (k 0).val = 10000 * t.val + (x 0).val) (hk1 : (k 1).val = (x 1).val) :
    (tile0 V c 0 t : Vec Ideal S10000x128 .f32) x = (V c main_arg0 : S100000x128.Idx → EReal) k := by
  obtain ⟨e0, e1, -, -, -, -⟩ := idx_facts0 t
  unfold tile0
  rw [View.read_apply]
  show V c main_arg0 _ = V c main_arg0 _
  congr 1
  funext a
  apply Fin.ext
  match a with
  | ⟨0, _⟩ => show win0_0.index t 0 * 10000 + 1 * (x 0).val = (k 0).val; rw [e0, hk0]; omega
  | ⟨1, _⟩ => show win0_0.index t 1 * 128 + 1 * (x 1).val = (k 1).val; rw [e1, hk1]; omega

/-- The weight tile at every point is the weight array. -/
theorem tile0_1_apply (c : Dev nD) (t : Fin cfg0.N) (x : S128x64.Idx) :
    (tile0 V c 1 t : Vec Ideal S128x64 .f32) x = (V c main_arg3 : S128x64.Idx → EReal) x := by
  obtain ⟨-, -, e0, e1, -, -⟩ := idx_facts0 t
  unfold tile0
  rw [View.read_apply]
  show V c main_arg3 _ = V c main_arg3 _
  congr 1
  funext a
  apply Fin.ext
  match a with
  | ⟨0, _⟩ => show win0_1.index t 0 * 128 + 1 * (x 0).val = (x 0).val; rw [e0]; omega
  | ⟨1, _⟩ => show win0_1.index t 1 * 64 + 1 * (x 1).val = (x 1).val; rw [e1]; omega

/-- What point `t` writes back is tile `t` of the product of the two arrays. -/
theorem flushed0_eq (c : Dev nD) (t : Fin cfg0.N) :
    (data0 V c).flushed 2 t = ((cfg0.win 2).blk t).view.read (Elt Ideal) (matProd (V c main_arg0) (V c main_arg3)) := by
  obtain ⟨-, -, -, -, e0, e1⟩ := idx_facts0 t
  show (cfg0.win 2).cut (grid0.coords t) ((data0 V c).after 2 t) = _
  rw [data0_after_2]
  funext j
  obtain ⟨a, b, rfl⟩ : ∃ (a : Fin 10000) (b : Fin 64), j = ix2 a b := ⟨j 0, j 1, eq_ix2 j⟩
  rw [View.read_apply]
  refine (prod0_apply _ _ a b).trans ?_
  unfold matProd
  refine Finset.sum_congr rfl fun k _ => ?_
  refine congrArg₂ (· * ·) ?_ ?_
  · refine tile0_0_apply V c t (ix2 a k) _ ?_ ?_
    · show (((cfg0.win 2).blk t).view.emb (ix2 a b) 0).val = 10000 * t.val + a.val
      show win0_2.index t 0 * 10000 + 1 * a.val = _
      rw [e0]; omega
    · rfl
  · refine (tile0_1_apply V c t (ix2 k b)).trans ?_
    congr 1
    funext d
    apply Fin.ext
    match d with
    | ⟨0, _⟩ => rfl
    | ⟨1, _⟩ =>
      show b.val = win0_2.index t 1 * 64 + 1 * b.val
      rw [e1]; omega

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- The result array after the region: the product of the two arrays it read. -/
theorem arr0_eq (c : Dev nD) : (data0 V c).arrAt 2 cfg0.N = matProd (V c main_arg0) (V c main_arg3) :=
  (data0 V c).arrAt_eq_of_cover 2 _ (fun t _ => flushed0_eq V c t) fun i => by
    have hi0 : (i 0).val < 100000 := (i 0).isLt
    have hi1 : (i 1).val < 64 := (i 1).isLt
    have hN : cfg0.N = 10 := N_0
    refine ⟨⟨(i 0).val / 10000, by rw [hN]; omega⟩, flush0_2 _, ?_⟩
    rw [mem_blk0]
    obtain ⟨-, -, -, -, e0, e1⟩ := idx_facts0 ⟨(i 0).val / 10000, by rw [hN]; omega⟩
    intro a
    match a with
    | ⟨0, _⟩ =>
      show win0_2.index _ 0 * 10000 ≤ (i 0).val ∧ (i 0).val < win0_2.index _ 0 * 10000 + 10000
      rw [e0]; show (i 0).val / 10000 * 10000 ≤ (i 0).val ∧ (i 0).val < (i 0).val / 10000 * 10000 + 10000; omega
    | ⟨1, _⟩ =>
      show win0_2.index _ 1 * 64 ≤ (i 1).val ∧ (i 1).val < win0_2.index _ 1 * 64 + 64
      rw [e1]; omega

end Cert.Val

end
-- ==== Proof.Val.APay1.lean ====
/-
  The first combine step on one tile, entry by entry, on exact values.

  With `h` the dense layer's tile, `agg` the aggregated messages' tile and `k` the scalar weight of the identity:
  * the activation at (r, q) is `tanh ((((agg + k·h + b) − m) · rsqrt (v + ε)) · g + be)`, the per-column parameters
    `b, m, v, g, be` read from one-row arrays;
  * the squared residual at (r, q) is `((agg − h) + k·h)²`; a tile adds to the running sum the sum over its rows of the
    sums along each row (both reductions start from their neutral element, which drops out);
  * the running sum starts at zero, and the loss is the finished sum times the constant named 1/6400000, which denotes
    that rational; the reference's divisor denotes the real 6400000.
-/
import proofs.«150785_j1864015806542_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import proofs.«150785_j1864015806542_1_alg».proof.Proof.Val.ASpec

noncomputable section

open scoped BigOperators

namespace Cert.Val

open Idealize.ShloMosaic Idealize.ShloMosaic.ValueIdx Cert.KernelIdeal Cert.KernelIdeal.Gen

/-- Every index of a one-by-one array is the index (0, 0). -/
theorem idx11 (i : S1x1.Idx) : i = ix2 (0 : Fin 1) (0 : Fin 1) := funext fun a => Fin.ext (by
  match a with
  | ⟨0, _⟩ => have h : (i 0).val < 1 := (i 0).isLt; show (i 0).val = 0; omega
  | ⟨1, _⟩ => have h : (i 1).val < 1 := (i 1).isLt; show (i 1).val = 0; omega)

/-- The scalar taken out of a one-by-one array is its entry (0, 0). -/
theorem extract00 (k : Vec Ideal S1x1 .f32) : extractAt ![0, 0] k inpos_S1x1_p0_0 = k (ix2 (0 : Fin 1) (0 : Fin 1)) :=
  congrArg k (idx11 _)

/-- The constant named 1/6400000 denotes that rational. -/
theorem inv_total : Named.named (F := Ideal) Cert.KernelIdeal.κ "inv_6400000" (φ := .f32) 0x3427C5AC#32 = ((1 / 6400000 : ℝ) : EReal) :=
  IdealRules.named_const.ideal_named_scalar _ _ _ _ rfl

/-- A sum along the rows of a 10000 × 64 matrix, at row `r`. -/
theorem rowsum64 (v : FVec Ideal S10000x64 .f32) (hφ : FKind.Formats .f32)
    (hacc : (0x00000000#32 : BitVec FTy.f32.bits) = FKind.add.neutral .f32 hφ) (r : Fin 10000) :
    multiReduction .add [1] S10000 v 0x00000000#32 reduces_S10000x64_S10000 hφ hacc (ix1 r) = ∑ q : Fin 64, v (ix2 r q) := by
  refine (Ideal.multiReduction_add_single v 0x00000000#32 reduces_S10000x64_S10000 hφ hacc (ix1 r)).trans ?_
  refine Finset.sum_congr rfl fun q _ => congrArg v (funext fun a => Fin.ext ?_)
  match a with
  | ⟨0, _⟩ => rfl
  | ⟨1, _⟩ => rfl

/-- The sum down the one column of a 10000 × 1 matrix. -/
theorem colsum1 (v : FVec Ideal S10000x1 .f32) (hφ : FKind.Formats .f32)
    (hacc : (0x00000000#32 : BitVec FTy.f32.bits) = FKind.add.neutral .f32 hφ) :
    multiReduction .add [0] S1 v 0x00000000#32 reduces_S10000x1_S1 hφ hacc (ix1 (0 : Fin 1)) = ∑ r : Fin 10000, v (ix2 r (0 : Fin 1)) := by
  refine (Ideal.multiReduction_add_single v 0x00000000#32 reduces_S10000x1_S1 hφ hacc (ix1 (0 : Fin 1))).trans ?_
  refine Finset.sum_congr rfl fun q _ => congrArg v (funext fun a => Fin.ext ?_)
  match a with
  | ⟨0, _⟩ => rfl
  | ⟨1, _⟩ => rfl

/-- A vector of 10000 entries viewed as a column reads, at (r, 0), the entry r. -/
theorem col_of_vec (x : S10000.Idx → EReal) (r : Fin 10000) :
    shapeCast S10000x1 x shapeCasts_S10000_S10000x1 (ix2 r (0 : Fin 1)) = x (ix1 r) :=
  shapeCast_apply x shapeCasts_S10000_S10000x1 _ _ (by
    rw [Shape.rowMajor_val_two, Shape.rowMajor_val_one]
    show r.val = r.val * 1 + 0
    omega)

/-- One tile's contribution to the running sum: the old value plus the tile's sum of squared residuals. -/
theorem k1_pay1_apply (h agg : FVec Ideal S10000x64 .f32) (k : Ideal .f32) (acc : Vec Ideal S1x1 .f32) :
    k1_pay1 (F := Ideal) h agg k acc (ix2 (0 : Fin 1) (0 : Fin 1))
      = acc (ix2 (0 : Fin 1) (0 : Fin 1)) + ∑ r : Fin 10000, ∑ q : Fin 64, sqres (h (ix2 r q)) (agg (ix2 r q)) k := by
  unfold k1_pay1
  rw [shapeCast_self, addf_apply]
  refine congrArg (acc (ix2 (0 : Fin 1) (0 : Fin 1)) + ·) ?_
  refine (shapeCast_a_1a_apply _ shapeCasts_S1_S1x1 (0 : Fin 1) (0 : Fin 1)).trans ?_
  refine (colsum1 _ _ _).trans ?_
  refine Finset.sum_congr rfl fun r _ => ?_
  refine (col_of_vec _ r).trans ?_
  refine (rowsum64 _ _ _ r).trans ?_
  rfl

/-- The running sum starts at zero. -/
theorem k1_pay3_apply : k1_pay3 (F := Ideal) (ix2 (0 : Fin 1) (0 : Fin 1)) = 0 := by
  unfold k1_pay3
  rw [shapeCast_self]
  exact Ideal.ofBits_zero_f32

/-- The loss: the finished sum times 1/6400000. -/
theorem k1_pay2_apply (v : Vec Ideal S1x1 .f32) :
    k1_pay2 (F := Ideal) v (ix2 (0 : Fin 1) (0 : Fin 1)) = v (ix2 (0 : Fin 1) (0 : Fin 1)) * ((1 / 6400000 : ℝ) : EReal) := by
  unfold k1_pay2
  rw [mulf_apply, broadcast_apply, inv_total]

/-- One entry of the first layer's activation. -/
theorem k1_pay7_apply (h agg : Vec Ideal S10000x64 .f32) (k : Vec Ideal S1x1 .f32) (b m v g be : Vec Ideal S1x64 .f32)
    (r : Fin 10000) (q : Fin 64) :
    k1_pay7 (F := Ideal) h agg k b m v g be (ix2 r q)
      = act (h (ix2 r q)) (agg (ix2 r q)) (k (ix2 (0 : Fin 1) (0 : Fin 1))) (b (ix2 (0 : Fin 1) q)) (m (ix2 (0 : Fin 1) q))
          (v (ix2 (0 : Fin 1) q)) (g (ix2 (0 : Fin 1) q)) (be (ix2 (0 : Fin 1) q)) := by
  unfold k1_pay7 k1_pay6 k1_pay5 k1_pay4 act
  simp only [shapeCast_self]
  refine congrArg Ideal.tanh ?_
  simp only [addf_apply, mulf_apply, subf_apply, broadcast_apply, broadcastTo_1b_ab_apply]
  rw [extract00 k]
  rfl

end Cert.Val

end
-- ==== Proof.Val.ASums.lean ====
/-
  Sums over the rows of a 100000-row matrix, taken ten tiles of 10000 rows at a time.

  A row number `a < 100000` is, uniquely, `10000 · t + r` with `t < 10` the tile and `r < 10000` the row inside the
  tile. Addition in a commutative monoid may be regrouped along this bijection, so a sum over all rows is the sum over
  the tiles of the sums over each tile's rows, and a sum over all entries of a 100000 × 64 matrix is the sum over the
  tiles of the sums over each tile's rows of the row sums. A value built up from zero by adding one term per tile is the
  sum of the terms.
-/
import Idealize.ShloMosaic.Lib.ValueIdx

noncomputable section

open scoped BigOperators

namespace Cert.Val

open Idealize.ShloMosaic Idealize.ShloMosaic.ValueIdx

/-- Row `r` of tile `t`, as a row of the whole matrix. -/
def rowOf (t : Fin 10) (r : Fin 10000) : Fin 100000 :=
  ⟨t.val * 10000 + r.val, by have := t.isLt; have := r.isLt; omega⟩

theorem rowOf_val (t : Fin 10) (r : Fin 10000) : (rowOf t r).val = t.val * 10000 + r.val := rfl

/-- (tile, row in tile) ↔ row. -/
def tileRowEquiv : Fin 10 × Fin 10000 ≃ Fin 100000 where
  toFun p := rowOf p.1 p.2
  invFun a := (⟨a.val / 10000, by have := a.isLt; omega⟩, ⟨a.val % 10000, by omega⟩)
  left_inv p := by
    obtain ⟨t, r⟩ := p
    have := t.isLt; have := r.isLt
    refine Prod.ext (Fin.ext ?_) (Fin.ext ?_)
    · show (t.val * 10000 + r.val) / 10000 = t.val; omega
    · show (t.val * 10000 + r.val) % 10000 = r.val; omega
  right_inv a := Fin.ext (by show a.val / 10000 * 10000 + a.val % 10000 = a.val; omega)

/-- A sum over all rows, tile by tile. -/
theorem sum_rows_by_tiles {M : Type*} [AddCommMonoid M] (g : Fin 100000 → M) :
    ∑ a, g a = ∑ t : Fin 10, ∑ r : Fin 10000, g (rowOf t r) := by
  rw [← Equiv.sum_comp tileRowEquiv g, Fintype.sum_prod_type]
  rfl

/-- A sum over all entries of a 100000 × 64 matrix: tile by tile, row by row, entry by entry. -/
theorem sum_entries_by_tiles {M : Type*} [AddCommMonoid M] (f : (⟨2, ![100000, 64]⟩ : Shape).Idx → M) :
    ∑ j, f j = ∑ t : Fin 10, ∑ r : Fin 10000, ∑ q : Fin 64, f (ix2 (rowOf t r) q) := by
  rw [sum_idx2, sum_rows_by_tiles]

/-- A value that starts at `z` and receives one more term at each step. -/
def runningSum {M : Type*} [AddCommMonoid M] (z : M) (T : ℕ → M) : ℕ → M
  | 0 => z
  | n + 1 => runningSum z T n + T n

theorem runningSum_eq {M : Type*} [AddCommMonoid M] (z : M) (T : ℕ → M) (n : ℕ) :
    runningSum z T n = z + ∑ t ∈ Finset.range n, T t := by
  induction n with
  | zero => simp [runningSum]
  | succ n ih => rw [runningSum, ih, Finset.sum_range_succ, add_assoc]

/-- After ten steps from zero: the sum of the ten terms. -/
theorem runningSum_ten {M : Type*} [AddCommMonoid M] (T : ℕ → M) :
    runningSum 0 T 10 = ∑ t : Fin 10, T t.val := by
  rw [runningSum_eq, zero_add, Finset.sum_range]

end Cert.Val

end
-- ==== Proof.Val.ATile1.lean ====
/-
  The first combine region's two results, as functions of the arrays the region reads.

  Rows: tile `t` of the dense layer's result `H` and of the aggregated messages `A` is their rows
  `10000·t … 10000·t + 9999`; the scalar and the five per-column parameter rows are the same at every point.
  * The activation array ends holding, at (i, j), `act` of `H(i,j)`, `A(i,j)`, the scalar and column `j` of the five rows.
  * The running sum after the updates of points `0 … n−1` is the sum over those tiles of the tile's squared residuals;
    after all ten it is, regrouping the rows, the sum of the squared residuals of all 100000 × 64 entries. The loss
    window is written back once, after the last point, with that sum times 1/6400000.
-/
import proofs.«150785_j1864015806542_1_alg».proof.Proof.KI.R1
import proofs.«150785_j1864015806542_1_alg».proof.Proof.Val.APay1
import proofs.«150785_j1864015806542_1_alg».proof.Proof.Val.ASums
import Idealize.ShloMosaic.Lib.Pipeline.Value

set_option maxRecDepth 16384

noncomputable section

open scoped BigOperators

namespace Cert.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets1' : (![0, 0] : Fin 2 → Nat) = fun _ => 0 := funext fun a => by fin_cases a <;> rfl

/-! ## The body's two results on one tile -/

/-- The activation tile, entry by entry; the parameter rows come in the windows' order (bias, scale, shift, mean,
    variance). -/
theorem comb1_apply (x0 x1 : Vec Ideal S10000x64 .f32) (x2 : Vec Ideal S1x1 .f32) (x3 x4 x5 x6 x7 : Vec Ideal S1x64 .f32)
    (r : Fin 10000) (q : Fin 64) :
    comb1 (F := Ideal) x0 x1 x2 x3 x4 x5 x6 x7 (ix2 r q)
      = act (x0 (ix2 r q)) (x1 (ix2 r q)) (x2 (ix2 (0 : Fin 1) (0 : Fin 1))) (x3 (ix2 (0 : Fin 1) q)) (x6 (ix2 (0 : Fin 1) q))
          (x7 (ix2 (0 : Fin 1) q)) (x4 (ix2 (0 : Fin 1) q)) (x5 (ix2 (0 : Fin 1) q)) := by
  unfold comb1
  rw [View.canon_unit_zero zero_offsets1']
  simp only [View.ld_unit_zero (S := S10000x64) zero_offsets1', View.ld_unit_zero (S := S1x1) zero_offsets1',
    View.ld_unit_zero (S := S1x64) zero_offsets1']
  exact k1_pay7_apply x0 x1 x2 x3 x6 x7 x4 x5 r q

/-- One update of the running sum: the old value plus the tile's squared residuals. -/
theorem step1_apply (x0 x1 : Vec Ideal S10000x64 .f32) (x2 s : Vec Ideal S1x1 .f32) :
    step1 (F := Ideal) x0 x1 x2 s (ix2 (0 : Fin 1) (0 : Fin 1))
      = s (ix2 (0 : Fin 1) (0 : Fin 1))
        + ∑ r : Fin 10000, ∑ q : Fin 64, sqres (x0 (ix2 r q)) (x1 (ix2 r q)) (x2 (ix2 (0 : Fin 1) (0 : Fin 1))) := by
  unfold step1 k1_pay4 k1_pay5 k1_pay6
  simp only [View.ld_unit_zero (S := S10000x64) zero_offsets1', View.ld_unit_zero (S := S1x1) zero_offsets1', shapeCast_self]
  rw [extract00 x2]
  exact k1_pay1_apply x0 x1 (x2 (ix2 (0 : Fin 1) (0 : Fin 1))) s

/-! ## The tiles as parts of the arrays -/

/-- The printed index maps, decided over the ten grid points: the two big inputs and the activation window sit on
    row tile `t`; every small window on its one tile. -/
theorem idx_facts1 : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0)
    ∧ (win1_9.index t (0 : Fin 2) = 0 ∧ win1_9.index t (1 : Fin 2) = 0) :=
  (by decide +kernel : ∀ t : Fin grid1.N, _)

/-- The dense layer's tile at point `t` is rows `10000·t …` of its array. -/
theorem tile1_0_apply (c : Dev nD) (t : Fin cfg1.N) (x : S10000x64.Idx) (k : S100000x64.Idx)
    (hk0 : (k 0).val = 10000 * t.val + (x 0).val) (hk1 : (k 1).val = (x 1).val) :
    (tile1 V c 0 t : Vec Ideal S10000x64 .f32) x = (V c main_v32 : S100000x64.Idx → EReal) k := by
  obtain ⟨⟨e0, e1⟩, -⟩ := idx_facts1 t
  unfold tile1
  rw [View.read_apply]
  show V c main_v32 _ = V c main_v32 _
  congr 1
  funext a
  apply Fin.ext
  match a with
  | ⟨0, _⟩ => show win1_0.index t 0 * 10000 + 1 * (x 0).val = (k 0).val; rw [e0, hk0]; omega
  | ⟨1, _⟩ => show win1_0.index t 1 * 64 + 1 * (x 1).val = (k 1).val; rw [e1, hk1]; omega

/-- The aggregated messages' tile at point `t` is rows `10000·t …` of their array. -/
theorem tile1_1_apply (c : Dev nD) (t : Fin cfg1.N) (x : S10000x64.Idx) (k : S100000x64.Idx)
    (hk0 : (k 0).val = 10000 * t.val + (x 0).val) (hk1 : (k 1).val = (x 1).val) :
    (tile1 V c 1 t : Vec Ideal S10000x64 .f32) x = (V c main_v50 : S100000x64.Idx → EReal) k := by
  obtain ⟨-, ⟨e0, e1⟩, -⟩ := idx_facts1 t
  unfold tile1
  rw [View.read_apply]
  show V c main_v50 _ = V c main_v50 _
  congr 1
  funext a
  apply Fin.ext
  match a with
  | ⟨0, _⟩ => show win1_1.index t 0 * 10000 + 1 * (x 0).val = (k 0).val; rw [e0, hk0]; omega
  | ⟨1, _⟩ => show win1_1.index t 1 * 64 + 1 * (x 1).val = (k 1).val; rw [e1, hk1]; omega

/-- The scalar's tile is its one-by-one array. -/
theorem tile1_2_apply (c : Dev nD) (t : Fin cfg1.N) (x : S1x1.Idx) :
    (tile1 V c 2 t : Vec Ideal S1x1 .f32) x = (V c main_v56 : S1x1.Idx → EReal) x := by
  obtain ⟨-, -, ⟨e0, e1⟩, -⟩ := idx_facts1 t
  unfold tile1
  rw [View.read_apply]
  show V c main_v56 _ = V c main_v56 _
  congr 1
  funext a
  apply Fin.ext
  match a with
  | ⟨0, _⟩ => show win1_2.index t 0 * 1 + 1 * (x 0).val = (x 0).val; rw [e0]; omega
  | ⟨1, _⟩ => show win1_2.index t 1 * 1 + 1 * (x 1).val = (x 1).val; rw [e1]; omega

/-- Each parameter row's tile is its one-row array. -/
theorem tile1_3_apply (c : Dev nD) (t : Fin cfg1.N) (x : S1x64.Idx) :
    (tile1 V c 3 t : Vec Ideal S1x64 .f32) x = (V c main_v51 : S1x64.Idx → EReal) x := by
  obtain ⟨-, -, -, ⟨e0, e1⟩, -⟩ := idx_facts1 t
  unfold tile1
  rw [View.read_apply]
  show V c main_v51 _ = V c main_v51 _
  congr 1
  funext a
  apply Fin.ext
  match a with
  | ⟨0, _⟩ => show win1_3.index t 0 * 1 + 1 * (x 0).val = (x 0).val; rw [e0]; omega
  | ⟨1, _⟩ => show win1_3.index t 1 * 64 + 1 * (x 1).val = (x 1).val; rw [e1]; omega
theorem tile1_4_apply (c : Dev nD) (t : Fin cfg1.N) (x : S1x64.Idx) :
    (tile1 V c 4 t : Vec Ideal S1x64 .f32) x = (V c main_v52 : S1x64.Idx → EReal) x := by
  obtain ⟨-, -, -, -, ⟨e0, e1⟩, -⟩ := idx_facts1 t
  unfold tile1
  rw [View.read_apply]
  show V c main_v52 _ = V c main_v52 _
  congr 1
  funext a
  apply Fin.ext
  match a with
  | ⟨0, _⟩ => show win1_4.index t 0 * 1 + 1 * (x 0).val = (x 0).val; rw [e0]; omega
  | ⟨1, _⟩ => show win1_4.index t 1 * 64 + 1 * (x 1).val = (x 1).val; rw [e1]; omega
theorem tile1_5_apply (c : Dev nD) (t : Fin cfg1.N) (x : S1x64.Idx) :
    (tile1 V c 5 t : Vec Ideal S1x64 .f32) x = (V c main_v53 : S1x64.Idx → EReal) x := by
  obtain ⟨-, -, -, -, -, ⟨e0, e1⟩, -⟩ := idx_facts1 t
  unfold tile1
  rw [View.read_apply]
  show V c main_v53 _ = V c main_v53 _
  congr 1
  funext a
  apply Fin.ext
  match a with
  | ⟨0, _⟩ => show win1_5.index t 0 * 1 + 1 * (x 0).val = (x 0).val; rw [e0]; omega
  | ⟨1, _⟩ => show win1_5.index t 1 * 64 + 1 * (x 1).val = (x 1).val; rw [e1]; omega
theorem tile1_6_apply (c : Dev nD) (t : Fin cfg1.N) (x : S1x64.Idx) :
    (tile1 V c 6 t : Vec Ideal S1x64 .f32) x = (V c main_v54 : S1x64.Idx → EReal) x := by
  obtain ⟨-, -, -, -, -, -, ⟨e0, e1⟩, -⟩ := idx_facts1 t
  unfold tile1
  rw [View.read_apply]
  show V c main_v54 _ = V c main_v54 _
  congr 1
  funext a
  apply Fin.ext
  match a with
  | ⟨0, _⟩ => show win1_6.index t 0 * 1 + 1 * (x 0).val = (x 0).val; rw [e0]; omega
  | ⟨1, _⟩ => show win1_6.index t 1 * 64 + 1 * (x 1).val = (x 1).val; rw [e1]; omega
theorem tile1_7_apply (c : Dev nD) (t : Fin cfg1.N) (x : S1x64.Idx) :
    (tile1 V c 7 t : Vec Ideal S1x64 .f32) x = (V c main_v55 : S1x64.Idx → EReal) x := by
  obtain ⟨-, -, -, -, -, -, -, ⟨e0, e1⟩, -⟩ := idx_facts1 t
  unfold tile1
  rw [View.read_apply]
  show V c main_v55 _ = V c main_v55 _
  congr 1
  funext a
  apply Fin.ext
  match a with
  | ⟨0, _⟩ => show win1_7.index t 0 * 1 + 1 * (x 0).val = (x 0).val; rw [e0]; omega
  | ⟨1, _⟩ => show win1_7.index t 1 * 64 + 1 * (x 1).val = (x 1).val; rw [e1]; omega

end Cert.Val

end
-- ==== Proof.Val.AAct1.lean ====
/-
  The first layer's activation array, as a function of the arrays the first combine region reads.

  The ten grid points write back ten disjoint row tiles that fill the 100000 × 64 array; the tile at point `t` lands on
  rows `10000·t … 10000·t + 9999`, the rows its two big input tiles were read from. So entry (i, j) of the array after
  the region is `act` of the two big arrays' entries (i, j), the scalar, and column `j` of the five parameter rows.
-/
import proofs.«150785_j1864015806542_1_alg».proof.Proof.Val.ATile1

set_option maxRecDepth 16384

noncomputable section

open scoped BigOperators

namespace Cert.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What point `t` writes back is tile `t` of the activation array. -/
theorem flushed8_eq (c : Dev nD) (t : Fin cfg1.N) :
    (data1 V c).flushed 8 t = ((cfg1.win 8).blk t).view.read (Elt Ideal)
      (actArr (V c main_v32) (V c main_v50) (V c main_v56) (V c main_v51) (V c main_v54) (V c main_v55) (V c main_v52) (V c main_v53)) := by
  obtain ⟨-, -, -, -, -, -, -, -, ⟨e0, e1⟩, -⟩ := idx_facts1 t
  show (cfg1.win 8).cut (grid1.coords t) ((data1 V c).after 8 t) = _
  rw [data1_after_8]
  funext j
  obtain ⟨a, b, rfl⟩ : ∃ (a : Fin 10000) (b : Fin 64), j = ix2 a b := ⟨j 0, j 1, eq_ix2 j⟩
  rw [View.read_apply]
  refine (comb1_apply _ _ _ _ _ _ _ _ a b).trans ?_
  unfold actArr
  have hk0 : ((((cfg1.win 8).blk t).view.emb (ix2 a b) : S100000x64.Idx) 0).val = 10000 * t.val + ((ix2 a b : S10000x64.Idx) 0).val := by
    show win1_8.index t 0 * 10000 + 1 * a.val = 10000 * t.val + a.val
    rw [e0]; omega
  have hk1 : ((((cfg1.win 8).blk t).view.emb (ix2 a b) : S100000x64.Idx) 1).val = ((ix2 a b : S10000x64.Idx) 1).val := by
    show win1_8.index t 1 * 64 + 1 * b.val = b.val
    rw [e1]; omega
  have hcol : colOf (((cfg1.win 8).blk t).view.emb (ix2 a b)) = ix2 (0 : Fin 1) b := by
    unfold colOf
    congr 1
    exact Fin.ext hk1
  rw [hcol, tile1_0_apply V c t (ix2 a b) _ hk0 hk1, tile1_1_apply V c t (ix2 a b) _ hk0 hk1, tile1_2_apply, tile1_3_apply,
    tile1_4_apply, tile1_5_apply, tile1_6_apply, tile1_7_apply]
  rfl

/-- An index of the activation array is in point `t`'s block iff each coordinate is in the block's range on its axis. -/
theorem mem_blk8 (t : Fin cfg1.N) (i : S100000x64.Idx) :
    i ∈ ((cfg1.win 8).blk t).view.set ↔ ∀ a : Fin 2, win1_8.index t a * S10000x64.size a ≤ (i a).val ∧ (i a).val < win1_8.index t a * S10000x64.size a + S10000x64.size a := by
  show i ∈ ((View.whole main_v57_0).slice (win1_8.rect t)).set ↔ _
  rw [View.set_slice_whole, Rect.mem_set_unit]
  exact Iff.rfl

/-- The activation array after the region. -/
theorem arr8_eq (c : Dev nD) :
    (data1 V c).arrAt 8 cfg1.N
      = actArr (V c main_v32) (V c main_v50) (V c main_v56) (V c main_v51) (V c main_v54) (V c main_v55) (V c main_v52) (V c main_v53) :=
  (data1 V c).arrAt_eq_of_cover 8 _ (fun t _ => flushed8_eq V c t) fun i => by
    have hi0 : (i 0).val < 100000 := (i 0).isLt
    have hi1 : (i 1).val < 64 := (i 1).isLt
    have hN : cfg1.N = 10 := N_1
    refine ⟨⟨(i 0).val / 10000, by rw [hN]; omega⟩, flush1_8 _, ?_⟩
    rw [mem_blk8]
    obtain ⟨-, -, -, -, -, -, -, -, ⟨e0, e1⟩, -⟩ := idx_facts1 ⟨(i 0).val / 10000, by rw [hN]; omega⟩
    intro a
    match a with
    | ⟨0, _⟩ =>
      show win1_8.index _ 0 * 10000 ≤ (i 0).val ∧ (i 0).val < win1_8.index _ 0 * 10000 + 10000
      rw [e0]; show (i 0).val / 10000 * 10000 ≤ (i 0).val ∧ (i 0).val < (i 0).val / 10000 * 10000 + 10000; omega
    | ⟨1, _⟩ =>
      show win1_8.index _ 1 * 64 ≤ (i 1).val ∧ (i 1).val < win1_8.index _ 1 * 64 + 64
      rw [e1]; omega

end Cert.Val

end
-- ==== Proof.Val.ALoss1.lean ====
/-
  The loss, as a function of the arrays the first combine region reads.

  The running sum after the updates of points `0 … n−1` is the sum over those tiles of each tile's squared residuals
  (induction on `n`: it starts at zero and each point adds its tile's sum). After all ten points, regrouping the rows
  of the matrix by tile, it is the sum of the squared residuals of all 100000 × 64 entries. The loss window's one
  write-back, after the last point, covers its one-by-one array and writes that sum times 1/6400000.
-/
import proofs.«150785_j1864015806542_1_alg».proof.Proof.Val.ATile1

set_option maxRecDepth 16384

noncomputable section

open scoped BigOperators

namespace Cert.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The sum of the squared residuals of tile `t`'s entries (zero past the last tile). -/
def tileSq (H A : S100000x64.Idx → EReal) (k : EReal) (t : ℕ) : EReal :=
  if h : t < 10 then ∑ r : Fin 10000, ∑ q : Fin 64, sqres (H (ix2 (rowOf ⟨t, h⟩ r) q)) (A (ix2 (rowOf ⟨t, h⟩ r) q)) k else 0

/-- All entries, tile by tile. -/
theorem sqSum_eq_tiles (H A : S100000x64.Idx → EReal) (k : EReal) : sqSum H A k = ∑ t : Fin 10, tileSq H A k t.val := by
  unfold sqSum
  rw [sum_entries_by_tiles]
  refine Finset.sum_congr rfl fun t _ => ?_
  unfold tileSq
  rw [dif_pos t.isLt]

/-- The running sum after the updates of points `0 … n−1`. -/
theorem scr1_apply (c : Dev nD) (n : ℕ) (hn : n ≤ 10) :
    scr1 V c n (ix2 (0 : Fin 1) (0 : Fin 1))
      = runningSum 0 (tileSq (V c main_v32) (V c main_v50) ((V c main_v56 : S1x1.Idx → EReal) (ix2 (0 : Fin 1) (0 : Fin 1)))) n := by
  induction n with
  | zero => exact k1_pay3_apply
  | succ n ih =>
    have hN : cfg1.N = 10 := N_1
    have h : n < cfg1.N := by omega
    have h10 : n < 10 := by omega
    refine (congrFun (scr1_succ V c ⟨n, h⟩) (ix2 (0 : Fin 1) (0 : Fin 1))).trans ?_
    refine (step1_apply _ _ _ _).trans ?_
    show scr1 V c n (ix2 (0 : Fin 1) (0 : Fin 1)) + _ = runningSum 0 _ n + tileSq _ _ _ n
    rw [ih (by omega)]
    refine congrArg (_ + ·) ?_
    unfold tileSq
    rw [dif_pos h10]
    refine Finset.sum_congr rfl fun r _ => Finset.sum_congr rfl fun q _ => ?_
    have e0 := tile1_0_apply V c ⟨n, h⟩ (ix2 r q) (ix2 (rowOf ⟨n, h10⟩ r) q)
      (by show n * 10000 + r.val = 10000 * n + r.val; omega) rfl
    have e1 := tile1_1_apply V c ⟨n, h⟩ (ix2 r q) (ix2 (rowOf ⟨n, h10⟩ r) q)
      (by show n * 10000 + r.val = 10000 * n + r.val; omega) rfl
    have e2 := tile1_2_apply V c ⟨n, h⟩ (ix2 (0 : Fin 1) (0 : Fin 1))
    rw [e0, e1, e2]

/-- The finished sum: the squared residuals of all entries. -/
theorem scr1_last (c : Dev nD) :
    scr1 V c 10 (ix2 (0 : Fin 1) (0 : Fin 1))
      = sqSum (V c main_v32) (V c main_v50) ((V c main_v56 : S1x1.Idx → EReal) (ix2 (0 : Fin 1) (0 : Fin 1))) := by
  rw [scr1_apply V c 10 (le_refl _), runningSum_ten, sqSum_eq_tiles]

/-- An index of the loss array is in point `t`'s block iff each coordinate is in the block's range on its axis. -/
theorem mem_blk9 (t : Fin cfg1.N) (i : S1x1.Idx) :
    i ∈ ((cfg1.win 9).blk t).view.set ↔ ∀ a : Fin 2, win1_9.index t a * S1x1.size a ≤ (i a).val ∧ (i a).val < win1_9.index t a * S1x1.size a + S1x1.size a := by
  show i ∈ ((View.whole main_v57_1).slice (win1_9.rect t)).set ↔ _
  rw [View.set_slice_whole, Rect.mem_set_unit]
  exact Iff.rfl

/-- The loss array after the region. -/
theorem arr9_eq (c : Dev nD) :
    (data1 V c).arrAt 9 cfg1.N
      = fun _ => sqSum (V c main_v32) (V c main_v50) ((V c main_v56 : S1x1.Idx → EReal) (ix2 (0 : Fin 1) (0 : Fin 1)))
          * ((1 / 6400000 : ℝ) : EReal) := by
  have hN : cfg1.N = 10 := N_1
  refine (data1 V c).arrAt_eq_of_cover 9 _ (fun t hf => ?_) fun i => ?_
  · have h9 : t.val = 9 := by rw [flush_eq1] at hf; exact of_decide_eq_true hf
    show (cfg1.win 9).cut (grid1.coords t) ((data1 V c).after 9 t) = _
    rw [data1_after_9]
    funext j
    rw [View.read_apply]
    rw [idx11 j, h9]
    exact (k1_pay2_apply _).trans (congrArg (· * _) (scr1_last V c))
  · refine ⟨⟨9, by rw [hN]; omega⟩, by rw [flush_eq1]; rfl, ?_⟩
    obtain ⟨-, -, -, -, -, -, -, -, -, ⟨e0, e1⟩⟩ := idx_facts1 ⟨9, by rw [hN]; omega⟩
    rw [mem_blk9]
    intro a
    have h0 : (i 0).val < 1 := (i 0).isLt
    have h1 : (i 1).val < 1 := (i 1).isLt
    match a with
    | ⟨0, _⟩ =>
      show win1_9.index _ 0 * 1 ≤ (i 0).val ∧ (i 0).val < win1_9.index _ 0 * 1 + 1
      rw [e0]; omega
    | ⟨1, _⟩ =>
      show win1_9.index _ 1 * 1 ≤ (i 1).val ∧ (i 1).val < win1_9.index _ 1 * 1 + 1
      rw [e1]; omega

end Cert.Val

end
-- ==== Proof.Val.ARef1.lean ====
/-
  The reference's first dense layer and its loss, as the functions of `ASpec`.

  * Its first contraction, read at (i, j), is `∑ₖ x(i,k) · w(k,j)`: the matrix product.
  * Its loss is the sum over all entries of `((agg − h) + k·h)²` from zero, divided by 6400000; dividing an extended
    real by a nonzero real is multiplying by its reciprocal, at the infinities too.
-/
import proofs.«150785_j1864015806542_1_alg».proof.Proof.RefReadP
import proofs.«150785_j1864015806542_1_alg».proof.Proof.Val.ASpec

set_option maxRecDepth 16384

noncomputable section

open scoped BigOperators

namespace Cert.Val

open Cert.ReferenceIdeal Cert.ReferenceIdeal.ReadP
open Idealize.ShloMosaic Idealize.ShloMosaic.ValueIdx

/-- The reference's first contraction is the matrix product. -/
theorem ref_h1 (x0 : S100000x128.Idx → EReal) (x3 : S128x64.Idx → EReal) :
    val_main_v4 (F := Ideal) x0 x3 = matProd x0 x3 := by
  funext i
  rw [val_main_v4_apply]
  unfold matProd
  refine Finset.sum_congr rfl fun k _ => congrArg₂ (· * ·) (congrArg x0 ?_) (congrArg x3 ?_)
  · funext a; match a with
    | ⟨0, _⟩ => rfl
    | ⟨1, _⟩ => rfl
  · funext a; match a with
    | ⟨0, _⟩ => rfl
    | ⟨1, _⟩ => rfl

/-- The squared residual array of the reference, entry by entry. -/
theorem ref_sq (x0 : S100000x128.Idx → EReal) (x1 : (⟨S2x1600000, .i32⟩ : BufTy).Contents (Elt Ideal)) (x3 : S128x64.Idx → EReal)
    (x5 : S_.Idx → EReal) (j : S100000x64.Idx) :
    val_main_v61 (F := Ideal) x0 x1 x3 x5 j
      = sqres (val_main_v4 (F := Ideal) x0 x3 j) (val_main_v50 (F := Ideal) x0 x1 x3 j) (x5 ix0) := by
  rw [val_main_v61_apply, val_main_v60_apply, val_main_v57_apply, val_main_v59_apply, val_main_v58_apply]
  rw [eq_ix0 (idx_main_v58 j)]
  rfl

/-- The reference's loss. -/
theorem ref_loss (x0 : S100000x128.Idx → EReal) (x1 : (⟨S2x1600000, .i32⟩ : BufTy).Contents (Elt Ideal)) (x3 : S128x64.Idx → EReal)
    (x5 : S_.Idx → EReal) :
    val_main_v63 (F := Ideal) x0 x1 x3 x5
      = fun _ => sqSum (val_main_v4 (F := Ideal) x0 x3) (val_main_v50 (F := Ideal) x0 x1 x3) (x5 ix0) * ((1 / 6400000 : ℝ) : EReal) := by
  funext i
  rw [val_main_v63_apply, val_main_v62_apply, val_main_cst_11_apply, val_main_cst_12_apply]
  simp only [Ideal.hostDivf_def, Ideal.ofBits_def, Ideal.ofBits_zero_f32, zero_add, ofBits_total,
    Ideal.div_coe (by norm_num : (6400000 : ℝ) ≠ 0)]
  have hsum : (∑ j, val_main_v61 (F := Ideal) x0 x1 x3 x5 j)
      = sqSum (val_main_v4 (F := Ideal) x0 x3) (val_main_v50 (F := Ideal) x0 x1 x3) (x5 ix0) := by
    unfold sqSum
    exact Finset.sum_congr rfl fun j _ => ref_sq x0 x1 x3 x5 j
  rw [hsum]

end Cert.Val

end
-- ==== Proof.Val.ARef2.lean ====
/-
  The reference's first-layer activation, as the function `actArr` of `ASpec`.

  Entry (i, j): `tanh ((((agg + k·h + b_j) − m_j) · rsqrt (v_j + ε)) · g_j + be_j)`, each per-column parameter broadcast
  from its vector of 64 entries first to one row and then down the rows, the scalar `k` broadcast to every entry. A
  vector of 64 entries viewed as one row reads the same entry at column `j`, and a scalar viewed as a one-by-one array
  reads the scalar, so the same function results when the parameters are given as one-row arrays.
-/
import proofs.«150785_j1864015806542_1_alg».proof.Proof.RefReadP
import proofs.«150785_j1864015806542_1_alg».proof.Proof.Val.ASpec
import Idealize.ShloMosaic.Lib.ValueLayout

set_option maxRecDepth 16384

noncomputable section

open scoped BigOperators

namespace Cert.Val

open Cert.ReferenceIdeal Cert.ReferenceIdeal.ReadP
open Idealize.ShloMosaic Idealize.ShloMosaic.ValueIdx

/-- A scalar viewed as a one-by-one array reads the scalar. -/
theorem scalar_as_11 (x : S_.Idx → EReal) (h : S_.ShapeCasts (⟨2, ![1, 1]⟩ : Shape)) :
    shapeCast (⟨2, ![1, 1]⟩ : Shape) x h (ix2 (0 : Fin 1) (0 : Fin 1)) = x ix0 :=
  shapeCast_apply x h _ _ (by
    have z : ∀ (n : ℕ) (hn : n = 1) (y : Fin n), y.val = 0 := by
      intro n hn y; subst hn; exact Fin.val_eq_zero y
    exact (z _ rfl _).trans (z _ rfl _).symm)

/-- A vector of 64 entries viewed as one row reads, at the column of a matrix index, the entry of that column. -/
theorem row_as_164 (x : S64.Idx → EReal) (h : S64.ShapeCasts S1x64) (i : S100000x64.Idx) :
    shapeCast S1x64 x h (colOf i) = x (ix1 (⟨(i 1).val, idx2_lt1 i⟩ : Fin 64)) :=
  shapeCast_a_1a_apply x h (0 : Fin 1) _

/-- The reference's first-layer activation. -/
theorem ref_x1 (x0 : S100000x128.Idx → EReal) (x1 : (⟨S2x1600000, .i32⟩ : BufTy).Contents (Elt Ideal)) (x3 : S128x64.Idx → EReal)
    (x4 : S64.Idx → EReal) (x5 : S_.Idx → EReal) (x9 x10 x11 x12 : S64.Idx → EReal)
    (h11 : S_.ShapeCasts (⟨2, ![1, 1]⟩ : Shape)) (h64 : S64.ShapeCasts S1x64) :
    val_main_v79 (F := Ideal) x0 x1 x3 x4 x5 x9 x10 x11 x12
      = actArr (val_main_v4 (F := Ideal) x0 x3) (val_main_v50 (F := Ideal) x0 x1 x3) (shapeCast (⟨2, ![1, 1]⟩ : Shape) x5 h11)
          (shapeCast S1x64 x4 h64) (shapeCast S1x64 x11 h64) (shapeCast S1x64 x12 h64) (shapeCast S1x64 x9 h64) (shapeCast S1x64 x10 h64) := by
  funext i
  unfold actArr
  rw [scalar_as_11, row_as_164, row_as_164, row_as_164, row_as_164, row_as_164]
  rw [val_main_v79_apply, val_main_v78_apply, val_main_v75_apply, val_main_v72_apply, val_main_v66_apply, val_main_v56_apply,
    val_main_v53_apply, val_main_v52_apply, val_main_v51_apply, val_main_v55_apply, val_main_v54_apply,
    val_main_v65_apply, val_main_v64_apply, val_main_v71_apply, val_main_v70_apply, val_main_v69_apply, val_main_v68_apply,
    val_main_v67_apply, val_main_cst_13_apply, val_main_v74_apply, val_main_v73_apply, val_main_v77_apply, val_main_v76_apply]
  rw [eq_ix0 (idx_main_v51 i)]
  have e4 : idx_main_v54 (idx_main_v55 i) = ix1 (⟨(i 1).val, idx2_lt1 i⟩ : Fin 64) := funext fun a => by
    match a with | ⟨0, _⟩ => rfl
  have e11 : idx_main_v64 (idx_main_v65 i) = ix1 (⟨(i 1).val, idx2_lt1 i⟩ : Fin 64) := funext fun a => by
    match a with | ⟨0, _⟩ => rfl
  have e12 : idx_main_v70 (idx_main_v71 i) = ix1 (⟨(i 1).val, idx2_lt1 i⟩ : Fin 64) := funext fun a => by
    match a with | ⟨0, _⟩ => rfl
  have e9 : idx_main_v73 (idx_main_v74 i) = ix1 (⟨(i 1).val, idx2_lt1 i⟩ : Fin 64) := funext fun a => by
    match a with | ⟨0, _⟩ => rfl
  have e10 : idx_main_v76 (idx_main_v77 i) = ix1 (⟨(i 1).val, idx2_lt1 i⟩ : Fin 64) := funext fun a => by
    match a with | ⟨0, _⟩ => rfl
  rw [e4, e11, e12, e9, e10]
  generalize val_main_v50 (F := Ideal) x0 x1 x3 i = a
  generalize val_main_v4 (F := Ideal) x0 x3 i = h
  generalize x5 ix0 = k
  generalize x4 (ix1 (⟨(i 1).val, idx2_lt1 i⟩ : Fin 64)) = b
  generalize x11 (ix1 (⟨(i 1).val, idx2_lt1 i⟩ : Fin 64)) = mu
  generalize x12 (ix1 (⟨(i 1).val, idx2_lt1 i⟩ : Fin 64)) = va
  generalize x9 (ix1 (⟨(i 1).val, idx2_lt1 i⟩ : Fin 64)) = g
  generalize x10 (ix1 (⟨(i 1).val, idx2_lt1 i⟩ : Fin 64)) = be
  rfl

end Cert.Val

end
-- ==== Proof.Val.AHost0.lean ====
/-
  The first host stretch: the concatenated edge lists and the normalisation coefficients.

  Both programs compute them from the edge-index argument by the same operations in the same order (slices, reshapes,
  an iota, two concatenations; a scatter-add of ones into zeros for the degrees, a reciprocal square root, two gathers
  and a product for the coefficients), so the buffers after the stretch hold the reference's corresponding stages of
  the same argument. Nothing in the stretch writes an argument buffer.
-/
import proofs.«150785_j1864015806542_1_alg».proof.Proof.KI.Fold
import proofs.«150785_j1864015806542_1_alg».proof.Proof.RefReadP

set_option maxRecDepth 16384

noncomputable section

namespace Cert.Val

open Cert.KernelIdeal Cert.KernelIdeal.Gen Cert.KernelIdeal.Fr
open Idealize.ShloMosaic Idealize.ShloMosaic.TcCoe Idealize.SL.Sem Idealize.ShloMosaic.StableHlo

variable (m : (ℓ : Loc nD τ sig) → Buf (Elt Ideal) ℓ) (ρ : Dev nD → PrngReg)

/-- The concatenated source list. -/
theorem src_eq (c : Dev nD) :
    W1 m ρ c (Proc.devRef .tc main_v5) = Cert.ReferenceIdeal.ReadP.val_main_v6 (F := Ideal) (W0 m ρ c (Proc.devRef .tc main_arg1)) := by
  show StableHlo.after hostOps0 (W0 m ρ c) (Proc.devRef .tc main_v5) = _
  after_results_simp
  rfl

/-- The concatenated destination list. -/
theorem dst_eq (c : Dev nD) :
    W1 m ρ c (Proc.devRef .tc main_v6) = Cert.ReferenceIdeal.ReadP.val_main_v7 (F := Ideal) (W0 m ρ c (Proc.devRef .tc main_arg1)) := by
  show StableHlo.after hostOps0 (W0 m ρ c) (Proc.devRef .tc main_v6) = _
  after_results_simp
  rfl

/-- The normalisation coefficients. -/
theorem coef_eq (c : Dev nD) :
    W1 m ρ c (Proc.devRef .tc main_v31) = Cert.ReferenceIdeal.ReadP.val_main_v32 (F := Ideal) (W0 m ρ c (Proc.devRef .tc main_arg1)) := by
  show StableHlo.after hostOps0 (W0 m ρ c) (Proc.devRef .tc main_v31) = _
  after_results_simp
  rfl

end Cert.Val

end
-- ==== Proof.Val.ALayer1.lean ====
/-
  The first layer of the kernel's program against the reference's, buffer by buffer.

  After the first dense region the result buffer holds the product of the feature and weight arguments: the
  reference's first contraction. The second host stretch applies to it, to the coefficients and to the edge lists the
  same gather, product and scatter-add as the reference, so the aggregated messages agree; its reshapes view each
  per-column parameter vector as one row and the scalar as a one-by-one array. After the combine region the activation
  buffer holds the reference's first-layer activation, and the loss buffer, reshaped back to a scalar, the reference's
  loss: the sum of all squared residuals times 1/6400000 on one side, divided by 6400000 on the other.
-/
import proofs.«150785_j1864015806542_1_alg».proof.Proof.KI.Fold
import proofs.«150785_j1864015806542_1_alg».proof.Proof.RefReadP
import proofs.«150785_j1864015806542_1_alg».proof.Proof.Val.ATile0
import proofs.«150785_j1864015806542_1_alg».proof.Proof.Val.AAct1
import proofs.«150785_j1864015806542_1_alg».proof.Proof.Val.ALoss1
import proofs.«150785_j1864015806542_1_alg».proof.Proof.Val.ARef1
import proofs.«150785_j1864015806542_1_alg».proof.Proof.Val.ARef2
import proofs.«150785_j1864015806542_1_alg».proof.Proof.Val.AHost0

set_option maxRecDepth 16384

noncomputable section

namespace Cert.Val

open Cert.KernelIdeal Cert.KernelIdeal.Gen Cert.KernelIdeal.Fr
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A buffer no operation of a host stretch writes is as before the stretch. -/
macro "not_written" : tactic => `(tactic| (
  refine StableHlo.after_of_forall_not_mem _ _ (List.forall_iff_forall_mem.mp ?_)
  simp only [hostOps0, hostOps1, hostOps2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## The arguments before the first region -/

theorem W1_arg0 (c : Dev nD) : W1 m ρ c (Proc.devRef .tc main_arg0) = W0 m ρ c (Proc.devRef .tc main_arg0) := by not_written
theorem W1_arg3 (c : Dev nD) : W1 m ρ c (Proc.devRef .tc main_arg3) = W0 m ρ c (Proc.devRef .tc main_arg3) := by not_written
theorem W1_arg4 (c : Dev nD) : W1 m ρ c (Proc.devRef .tc main_arg4) = W0 m ρ c (Proc.devRef .tc main_arg4) := by not_written
theorem W1_arg5 (c : Dev nD) : W1 m ρ c (Proc.devRef .tc main_arg5) = W0 m ρ c (Proc.devRef .tc main_arg5) := by not_written
theorem W1_arg9 (c : Dev nD) : W1 m ρ c (Proc.devRef .tc main_arg9) = W0 m ρ c (Proc.devRef .tc main_arg9) := by not_written
theorem W1_arg10 (c : Dev nD) : W1 m ρ c (Proc.devRef .tc main_arg10) = W0 m ρ c (Proc.devRef .tc main_arg10) := by not_written
theorem W1_arg11 (c : Dev nD) : W1 m ρ c (Proc.devRef .tc main_arg11) = W0 m ρ c (Proc.devRef .tc main_arg11) := by not_written
theorem W1_arg12 (c : Dev nD) : W1 m ρ c (Proc.devRef .tc main_arg12) = W0 m ρ c (Proc.devRef .tc main_arg12) := by not_written

/-! ## The dense layer's result -/

/-- After the first region the result buffer holds the reference's first contraction of the two arguments. -/
theorem h1_eq (c : Dev nD) :
    W2 m ρ c (Proc.devRef .tc main_v32)
      = Cert.ReferenceIdeal.ReadP.val_main_v4 (F := Ideal) (W0 m ρ c (Proc.devRef .tc main_arg0)) (W0 m ρ c (Proc.devRef .tc main_arg3)) := by
  refine (W2_arr m ρ c 2).trans ((arr0_eq (V1 m ρ) c).trans ?_)
  show matProd (W1 m ρ c (Proc.devRef .tc main_arg0)) (W1 m ρ c (Proc.devRef .tc main_arg3)) = _
  rw [W1_arg0, W1_arg3]
  exact (ref_h1 _ _).symm

/-! ## The second host stretch -/

theorem W3_v32 (c : Dev nD) : W3 m ρ c (Proc.devRef .tc main_v32) = W2 m ρ c (Proc.devRef .tc main_v32) := by not_written

/-- The aggregated messages: the same gather, product and scatter-add of the same operands as the reference's. -/
theorem agg1_eq (c : Dev nD) :
    W3 m ρ c (Proc.devRef .tc main_v50)
      = Cert.ReferenceIdeal.ReadP.val_main_v50 (F := Ideal) (W0 m ρ c (Proc.devRef .tc main_arg0)) (W0 m ρ c (Proc.devRef .tc main_arg1))
          (W0 m ρ c (Proc.devRef .tc main_arg3)) := by
  show StableHlo.after hostOps1 (W2 m ρ c) (Proc.devRef .tc main_v50) = _
  after_results_simp
  rw [W2_of_ne m ρ c main_v6 (by decide), W2_of_ne m ρ c main_v31 (by decide), W2_of_ne m ρ c main_v5 (by decide),
    dst_eq, coef_eq, src_eq, h1_eq]
  rfl

/-- The scalar as a one-by-one array, and each per-column parameter vector as one row. -/
theorem W3_v56 (c : Dev nD) :
    W3 m ρ c (Proc.devRef .tc main_v56) = shapeCast S1x1 (W0 m ρ c (Proc.devRef .tc main_arg5)) shapeCasts_S_S1x1 := by
  show StableHlo.after hostOps1 (W2 m ρ c) (Proc.devRef .tc main_v56) = _
  after_results_simp
  rw [W2_of_ne m ρ c main_arg5 (by decide), W1_arg5]
  rfl
theorem W3_v51 (c : Dev nD) :
    W3 m ρ c (Proc.devRef .tc main_v51) = shapeCast S1x64 (W0 m ρ c (Proc.devRef .tc main_arg4)) shapeCasts_S64_S1x64 := by
  show StableHlo.after hostOps1 (W2 m ρ c) (Proc.devRef .tc main_v51) = _
  after_results_simp
  rw [W2_of_ne m ρ c main_arg4 (by decide), W1_arg4]
  rfl
theorem W3_v52 (c : Dev nD) :
    W3 m ρ c (Proc.devRef .tc main_v52) = shapeCast S1x64 (W0 m ρ c (Proc.devRef .tc main_arg9)) shapeCasts_S64_S1x64 := by
  show StableHlo.after hostOps1 (W2 m ρ c) (Proc.devRef .tc main_v52) = _
  after_results_simp
  rw [W2_of_ne m ρ c main_arg9 (by decide), W1_arg9]
  rfl
theorem W3_v53 (c : Dev nD) :
    W3 m ρ c (Proc.devRef .tc main_v53) = shapeCast S1x64 (W0 m ρ c (Proc.devRef .tc main_arg10)) shapeCasts_S64_S1x64 := by
  show StableHlo.after hostOps1 (W2 m ρ c) (Proc.devRef .tc main_v53) = _
  after_results_simp
  rw [W2_of_ne m ρ c main_arg10 (by decide), W1_arg10]
  rfl
theorem W3_v54 (c : Dev nD) :
    W3 m ρ c (Proc.devRef .tc main_v54) = shapeCast S1x64 (W0 m ρ c (Proc.devRef .tc main_arg11)) shapeCasts_S64_S1x64 := by
  show StableHlo.after hostOps1 (W2 m ρ c) (Proc.devRef .tc main_v54) = _
  after_results_simp
  rw [W2_of_ne m ρ c main_arg11 (by decide), W1_arg11]
  rfl
theorem W3_v55 (c : Dev nD) :
    W3 m ρ c (Proc.devRef .tc main_v55) = shapeCast S1x64 (W0 m ρ c (Proc.devRef .tc main_arg12)) shapeCasts_S64_S1x64 := by
  show StableHlo.after hostOps1 (W2 m ρ c) (Proc.devRef .tc main_v55) = _
  after_results_simp
  rw [W2_of_ne m ρ c main_arg12 (by decide), W1_arg12]
  rfl

/-! ## The combine region's two results -/

/-- The first layer's activation. -/
theorem layer1_x1 (c : Dev nD) :
    W4 m ρ c (Proc.devRef .tc main_v57_0)
      = Cert.ReferenceIdeal.ReadP.val_main_v79 (F := Ideal) (W0 m ρ c (Proc.devRef .tc main_arg0)) (W0 m ρ c (Proc.devRef .tc main_arg1))
          (W0 m ρ c (Proc.devRef .tc main_arg3)) (W0 m ρ c (Proc.devRef .tc main_arg4)) (W0 m ρ c (Proc.devRef .tc main_arg5))
          (W0 m ρ c (Proc.devRef .tc main_arg9)) (W0 m ρ c (Proc.devRef .tc main_arg10)) (W0 m ρ c (Proc.devRef .tc main_arg11))
          (W0 m ρ c (Proc.devRef .tc main_arg12)) := by
  refine (W4_arr m ρ c 8).trans ((arr8_eq (V3 m ρ) c).trans ?_)
  show actArr (W3 m ρ c (Proc.devRef .tc main_v32)) (W3 m ρ c (Proc.devRef .tc main_v50)) (W3 m ρ c (Proc.devRef .tc main_v56))
    (W3 m ρ c (Proc.devRef .tc main_v51)) (W3 m ρ c (Proc.devRef .tc main_v54)) (W3 m ρ c (Proc.devRef .tc main_v55))
    (W3 m ρ c (Proc.devRef .tc main_v52)) (W3 m ρ c (Proc.devRef .tc main_v53)) = _
  rw [W3_v32, h1_eq, agg1_eq, W3_v56, W3_v51, W3_v54, W3_v55, W3_v52, W3_v53]
  exact (ref_x1 _ _ _ _ _ _ _ _ _ shapeCasts_S_S1x1 shapeCasts_S64_S1x64).symm

/-- The loss. -/
theorem layer1_loss (c : Dev nD) :
    W5 m ρ c (Proc.devRef .tc main_v58)
      = Cert.ReferenceIdeal.ReadP.val_main_v63 (F := Ideal) (W0 m ρ c (Proc.devRef .tc main_arg0)) (W0 m ρ c (Proc.devRef .tc main_arg1))
          (W0 m ρ c (Proc.devRef .tc main_arg3)) (W0 m ρ c (Proc.devRef .tc main_arg5)) := by
  show StableHlo.after hostOps2 (W4 m ρ c) (Proc.devRef .tc main_v58) = _
  after_results_simp
  rw [show W4 m ρ c (Proc.devRef .tc main_v57_1) = _ from (W4_arr m ρ c 9).trans (arr9_eq (V3 m ρ) c)]
  rw [ref_loss]
  funext i
  show sqSum (W3 m ρ c (Proc.devRef .tc main_v32)) (W3 m ρ c (Proc.devRef .tc main_v50))
      (W3 m ρ c (Proc.devRef .tc main_v56) (ix2 (0 : Fin 1) (0 : Fin 1))) * _ = _
  rw [W3_v32, h1_eq, agg1_eq, W3_v56, scalar_as_11]

end Cert.Val

end
-- ==== Proof.Val.BKeep.lean ====
/-
  Which buffers the second layer finds as earlier stages left them. A stretch of host operations changes only the buffers
  its operations write, and a region changes only its windows' arrays; so the edge lists and coefficients computed by the
  first stretch, and the argument arrays, reach the second layer's stretches and regions unchanged.
-/
import proofs.«150785_j1864015806542_1_alg».proof.Proof.KI.Fold
import proofs.«150785_j1864015806542_1_alg».proof.Proof.Gen.KernelIdeal.Regions

noncomputable section

open scoped BigOperators

namespace Cert.Val

open Cert.KernelIdeal Cert.KernelIdeal.Gen Cert.KernelIdeal.Fr
open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- Unchanged by the first stretch: as launched. -/
theorem W1_eq_m (c : Dev nD) (b : Ref sig .tc) (h0 : b ∉ hostOps0_W) :
    W1 m ρ c (Proc.devRef .tc b) = m ((c : Thread nD τ).loc b) :=
  (StableHlo.after_of_writes_sub hostOps0 _ hostOps0_writes h0).trans rfl

/-- Unchanged from the first stretch's end to the entry of region 2. -/
theorem W5_eq_W1 (c : Dev nD) (b : Ref sig .tc) (h1 : b ∉ hostOps1_W) (h2 : b ∉ hostOps2_W)
    (r0 : ∀ w, Pipeline.arrRef spec0 w ≠ b) (r1 : ∀ w, Pipeline.arrRef spec1 w ≠ b) :
    W5 m ρ c (Proc.devRef .tc b) = W1 m ρ c (Proc.devRef .tc b) :=
  (StableHlo.after_of_writes_sub hostOps2 _ hostOps2_writes h2).trans <|
  (W4_of_ne m ρ c b r1).trans <| (StableHlo.after_of_writes_sub hostOps1 _ hostOps1_writes h1).trans <|
  (W2_of_ne m ρ c b r0)

/-- Unchanged by the third stretch. -/
theorem W5_eq_W4 (c : Dev nD) (b : Ref sig .tc) (h2 : b ∉ hostOps2_W) :
    W5 m ρ c (Proc.devRef .tc b) = W4 m ρ c (Proc.devRef .tc b) :=
  StableHlo.after_of_writes_sub hostOps2 _ hostOps2_writes h2

/-- Unchanged from region 2's exit to region 3's exit. -/
theorem W8_eq_W6 (c : Dev nD) (b : Ref sig .tc) (h3 : b ∉ hostOps3_W) (r3 : ∀ w, Pipeline.arrRef spec3 w ≠ b) :
    W8 m ρ c (Proc.devRef .tc b) = W6 m ρ c (Proc.devRef .tc b) :=
  (W8_of_ne m ρ c b r3).trans (StableHlo.after_of_writes_sub hostOps3 _ hostOps3_writes h3)

/-- An argument array at the entry of region 2. -/
theorem W5_arg (c : Dev nD) (b : Ref sig .tc) (h0 : b ∉ hostOps0_W) (h1 : b ∉ hostOps1_W) (h2 : b ∉ hostOps2_W)
    (r0 : ∀ w, Pipeline.arrRef spec0 w ≠ b) (r1 : ∀ w, Pipeline.arrRef spec1 w ≠ b) :
    W5 m ρ c (Proc.devRef .tc b) = m ((c : Thread nD τ).loc b) :=
  (W5_eq_W1 m ρ c b h1 h2 r0 r1).trans (W1_eq_m m ρ c b h0)

/-- An argument array at the exit of region 2. -/
theorem W6_arg (c : Dev nD) (b : Ref sig .tc) (h0 : b ∉ hostOps0_W) (h1 : b ∉ hostOps1_W) (h2 : b ∉ hostOps2_W)
    (r0 : ∀ w, Pipeline.arrRef spec0 w ≠ b) (r1 : ∀ w, Pipeline.arrRef spec1 w ≠ b) (r2 : ∀ w, Pipeline.arrRef spec2 w ≠ b) :
    W6 m ρ c (Proc.devRef .tc b) = m ((c : Thread nD τ).loc b) :=
  (W6_of_ne m ρ c b r2).trans (W5_arg m ρ c b h0 h1 h2 r0 r1)

/-- The weights of the second dense layer, as region 2 finds them. -/
theorem W5_main_arg6 (c : Dev nD) : W5 m ρ c (Proc.devRef .tc main_arg6) = m ((c : Thread nD τ).loc main_arg6) :=
  W5_arg m ρ c main_arg6 (by decide) (by decide) (by decide) (by decide) (by decide)
theorem W6_main_arg7 (c : Dev nD) : W6 m ρ c (Proc.devRef .tc main_arg7) = m ((c : Thread nD τ).loc main_arg7) :=
  W6_arg m ρ c main_arg7 (by decide) (by decide) (by decide) (by decide) (by decide) (by decide)
theorem W6_main_arg8 (c : Dev nD) : W6 m ρ c (Proc.devRef .tc main_arg8) = m ((c : Thread nD τ).loc main_arg8) :=
  W6_arg m ρ c main_arg8 (by decide) (by decide) (by decide) (by decide) (by decide) (by decide)
theorem W6_main_arg13 (c : Dev nD) : W6 m ρ c (Proc.devRef .tc main_arg13) = m ((c : Thread nD τ).loc main_arg13) :=
  W6_arg m ρ c main_arg13 (by decide) (by decide) (by decide) (by decide) (by decide) (by decide)
theorem W6_main_arg14 (c : Dev nD) : W6 m ρ c (Proc.devRef .tc main_arg14) = m ((c : Thread nD τ).loc main_arg14) :=
  W6_arg m ρ c main_arg14 (by decide) (by decide) (by decide) (by decide) (by decide) (by decide)
theorem W6_main_arg15 (c : Dev nD) : W6 m ρ c (Proc.devRef .tc main_arg15) = m ((c : Thread nD τ).loc main_arg15) :=
  W6_arg m ρ c main_arg15 (by decide) (by decide) (by decide) (by decide) (by decide) (by decide)
theorem W6_main_arg16 (c : Dev nD) : W6 m ρ c (Proc.devRef .tc main_arg16) = m ((c : Thread nD τ).loc main_arg16) :=
  W6_arg m ρ c main_arg16 (by decide) (by decide) (by decide) (by decide) (by decide) (by decide)
/-- The batch nodes, as the last stretch finds them. -/
theorem W8_main_arg2 (c : Dev nD) : W8 m ρ c (Proc.devRef .tc main_arg2) = m ((c : Thread nD τ).loc main_arg2) :=
  (W8_eq_W6 m ρ c main_arg2 (by decide) (by decide)).trans
    (W6_arg m ρ c main_arg2 (by decide) (by decide) (by decide) (by decide) (by decide) (by decide))
/-- The source list with self loops, as the second aggregation finds it. -/
theorem W6_main_v5 (c : Dev nD) : W6 m ρ c (Proc.devRef .tc main_v5) = W1 m ρ c (Proc.devRef .tc main_v5) :=
  (W6_of_ne m ρ c main_v5 (by decide)).trans (W5_eq_W1 m ρ c main_v5 (by decide) (by decide) (by decide) (by decide))
/-- The destination list with self loops, as the second aggregation finds it. -/
theorem W6_main_v6 (c : Dev nD) : W6 m ρ c (Proc.devRef .tc main_v6) = W1 m ρ c (Proc.devRef .tc main_v6) :=
  (W6_of_ne m ρ c main_v6 (by decide)).trans (W5_eq_W1 m ρ c main_v6 (by decide) (by decide) (by decide) (by decide))
/-- The edge coefficients, as the second aggregation finds them. -/
theorem W6_main_v31 (c : Dev nD) : W6 m ρ c (Proc.devRef .tc main_v31) = W1 m ρ c (Proc.devRef .tc main_v31) :=
  (W6_of_ne m ρ c main_v31 (by decide)).trans (W5_eq_W1 m ρ c main_v31 (by decide) (by decide) (by decide) (by decide))
/-- The first layer's activations, as region 2 finds them. -/
theorem W5_main_v57_0 (c : Dev nD) : W5 m ρ c (Proc.devRef .tc main_v57_0) = W4 m ρ c (Proc.devRef .tc main_v57_0) :=
  W5_eq_W4 m ρ c main_v57_0 (by decide)

end Cert.Val

end
-- ==== Proof.Val.BOps.lean ====
/-
  The two host stretches of the second layer, each read as ONE function of the buffers it starts from.

  Before the second combine region the host gathers the rows of the dense layer's output at the edges' source nodes,
  weights each by the edge's coefficient, and scatter-adds the weighted rows into a zero array at the edges' destination
  nodes (negative node numbers are first wrapped by adding the node count); it also casts the bias, the four batch-norm
  vectors and the self weight to one-row (one-entry) arrays. Before the last region it gathers the batch nodes' rows.
  The gather and the scatter-add are kept as the host's own operations: nothing here looks inside them.
-/
import proofs.«150785_j1864015806542_1_alg».proof.Proof.Gen.KernelIdeal.Launch
import proofs.«150785_j1864015806542_1_alg».proof.Proof.Gen.KernelIdeal.Regions
import Idealize.ShloMosaic.Lib.StableHlo.Run

noncomputable section

open scoped BigOperators

namespace Cert.Val

open Cert.KernelIdeal Cert.KernelIdeal.Gen
open Idealize.ShloMosaic Idealize.ShloMosaic.TcCoe Idealize.SL.Sem Idealize.ShloMosaic.StableHlo

variable {F : FTy → Type} [FloatOps F] [Named F]

/-- Edge endpoints with negative numbers wrapped (`i < 0 ? i + 100000 : i`), as a column of start indices. -/
def wrapEdges (idx : (⟨S1700000, .i32⟩ : BufTy).Contents (Elt F)) : (⟨S1700000x1, .i32⟩ : BufTy).Contents (Elt F) :=
  broadcastInDim S1700000x1 ![0] bcast_S1700000_S1700000x1_0
    (select (cmpi .slt idx (broadcastInDim S1700000 ![] bcast_S_S1700000 (constantI S_ 32 0#32)))
      (addi idx (broadcastInDim S1700000 ![] bcast_S_S1700000 (constantI S_ 32 100000#32))) idx)

/-- The second aggregation: gather at the sources, weight by the coefficients, scatter-add at the destinations. -/
def agg2 (src dst : (⟨S1700000, .i32⟩ : BufTy).Contents (Elt F)) (coef : (⟨S1700000, .f32⟩ : BufTy).Contents (Elt F))
    (h : (⟨S100000x40, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant S_ .f32 0x00000000#32)) (wrapEdges dst)
    (mulf (broadcastInDim S1700000x40 ![0, 1] bcast_S1700000x1_S1700000x40_0_1
        (broadcastInDim S1700000x1 ![0] bcast_S1700000_S1700000x1_0 coef))
      (Host.gather gather_S100000x40_S1700000x1_S1700000x40_1_0_n_n_0_1_140 h (wrapEdges src)))

/-- Batch node numbers with negative ones wrapped, as a column of start indices. -/
def wrapBatch (idx : (⟨S10000, .i32⟩ : BufTy).Contents (Elt F)) : (⟨S10000x1, .i32⟩ : BufTy).Contents (Elt F) :=
  broadcastInDim S10000x1 ![0] bcast_S10000_S10000x1_0
    (select (cmpi .slt idx (broadcastInDim S10000 ![] bcast_S_S10000 (constantI S_ 32 0#32)))
      (addi idx (broadcastInDim S10000 ![] bcast_S_S10000 (constantI S_ 32 100000#32))) idx)

/-- The batch rows of the second layer's output. -/
def batchRows (x : (⟨S100000x40, .f32⟩ : BufTy).Contents (Elt F)) (nodes : (⟨S10000, .i32⟩ : BufTy).Contents (Elt F)) :
    (⟨S10000x40, .f32⟩ : BufTy).Contents (Elt F) :=
  Host.gather gather_S100000x40_S10000x1_S10000x40_1_0_n_n_0_1_140 x (wrapBatch nodes)

variable (W : Valuation τ sig (Elt F))

/-- The aggregated messages after the stretch. -/
theorem ops3_agg : StableHlo.after hostOps3 W (Proc.devRef .tc main_v77)
    = agg2 (W (Proc.devRef .tc main_v5)) (W (Proc.devRef .tc main_v6)) (W (Proc.devRef .tc main_v31)) (W (Proc.devRef .tc main_v59)) := by
  unfold agg2 wrapEdges
  after_results_simp

/-- The bias as a one-row array. -/
theorem ops3_v78 : StableHlo.after hostOps3 W (Proc.devRef .tc main_v78)
    = shapeCast S1x40 (W (Proc.devRef .tc main_arg7) : (⟨S40, .f32⟩ : BufTy).Contents (Elt F)) shapeCasts_S40_S1x40 := by
  after_results
  rfl
theorem ops3_v79 : StableHlo.after hostOps3 W (Proc.devRef .tc main_v79)
    = shapeCast S1x40 (W (Proc.devRef .tc main_arg13) : (⟨S40, .f32⟩ : BufTy).Contents (Elt F)) shapeCasts_S40_S1x40 := by
  after_results
  rfl
theorem ops3_v80 : StableHlo.after hostOps3 W (Proc.devRef .tc main_v80)
    = shapeCast S1x40 (W (Proc.devRef .tc main_arg14) : (⟨S40, .f32⟩ : BufTy).Contents (Elt F)) shapeCasts_S40_S1x40 := by
  after_results
  rfl
theorem ops3_v81 : StableHlo.after hostOps3 W (Proc.devRef .tc main_v81)
    = shapeCast S1x40 (W (Proc.devRef .tc main_arg15) : (⟨S40, .f32⟩ : BufTy).Contents (Elt F)) shapeCasts_S40_S1x40 := by
  after_results
  rfl
theorem ops3_v82 : StableHlo.after hostOps3 W (Proc.devRef .tc main_v82)
    = shapeCast S1x40 (W (Proc.devRef .tc main_arg16) : (⟨S40, .f32⟩ : BufTy).Contents (Elt F)) shapeCasts_S40_S1x40 := by
  after_results
  rfl
/-- The self weight as a one-entry array. -/
theorem ops3_v83 : StableHlo.after hostOps3 W (Proc.devRef .tc main_v83)
    = shapeCast S1x1 (W (Proc.devRef .tc main_arg8) : (⟨S_, .f32⟩ : BufTy).Contents (Elt F)) shapeCasts_S_S1x1 := by
  after_results
  rfl

/-- A buffer the stretch does not write is as before. -/
theorem ops3_keep (r : Ref sig .tc) (h : r ∉ hostOps3_W) :
    StableHlo.after hostOps3 W (Proc.devRef .tc r) = W (Proc.devRef .tc r) :=
  StableHlo.after_of_writes_sub hostOps3 W hostOps3_writes h

/-- The gathered batch rows after the last stretch. -/
theorem ops4_v91 : StableHlo.after hostOps4 W (Proc.devRef .tc main_v91)
    = batchRows (W (Proc.devRef .tc main_v84)) (W (Proc.devRef .tc main_arg2)) := by
  unfold batchRows wrapBatch
  after_results

theorem ops4_keep (r : Ref sig .tc) (h : r ∉ hostOps4_W) :
    StableHlo.after hostOps4 W (Proc.devRef .tc r) = W (Proc.devRef .tc r) :=
  StableHlo.after_of_writes_sub hostOps4 W hostOps4_writes h

end Cert.Val

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.Val.BMat2.lean ====
/-
  The second dense layer's arithmetic, read at one entry: for a tile `x` of 10000 rows of the hidden layer (64 columns)
  and the 64 × 40 weights `w`, the stored value at `(a, b)` is the inner product `∑_k x_{a,k} · w_{k,b}`. The body rounds
  both factors to bfloat16 first, which at the exact values changes nothing, and accumulates into a zero splat.
-/
import proofs.«150785_j1864015806542_1_alg».proof.Proof.Gen.KernelIdeal.Skeleton
import proofs.«150785_j1864015806542_1_alg».proof.Proof.LibMatmulPlain

noncomputable section

open scoped BigOperators

namespace Cert.Val

open Cert.KernelIdeal Cert.KernelIdeal.Gen Idealize.ShloMosaic Idealize.ShloMosaic.ValueIdx

/-- The printed dimension numbers of the second layer's product are the plain ones. -/
theorem dot2_plain : dot_S10000x64_S64x40_S10000x40_1_0_0_1_n_n = DotDims.plain 10000 64 40 := rfl

/-- The stored value of the second layer's product body at entry `(a, b)`. -/
theorem k2_pay1_apply (x : FVec Ideal S10000x64 .f32) (w : FVec Ideal S64x40 .f32) (a : Fin 10000) (b : Fin 40) :
    k2_pay1 (F := Ideal) x w (ix2 a b) = ∑ k : Fin 64, x (ix2 a k) * w (ix2 k b) := by
  unfold k2_pay1
  rw [dot2_plain]
  refine (LibMatmulPlain.matmul_plain_zero_apply none
    (truncf .bf16 (shapeCast S10000x64 x shapeCasts_S10000x64_S10000x64) bitsLt_bf16_f32)
    (truncf .bf16 w bitsLt_bf16_f32) a b).trans ?_
  refine Finset.sum_congr rfl fun k _ => ?_
  rw [truncf_apply, truncf_apply, shapeCast_self]

end Cert.Val

end
-- ==== Proof.LibEntryForms.lean ====
/-
  Entry-by-entry forms of the three kinds of array the kernel's regions produce, over any sizes, and the same arrays
  as the host's whole-array operations spell them.

  * the per-edge product: entry `(e, q)` is `weight(e, 0) · feature(e, q)`; the host multiplies the features by the
    weight column broadcast along the rows;
  * a layer's combine step: entry `(r, q)` is `agg(r, q) + (d(r, 0) · d(r, 0)) · x(r, q) + b(0, q)`; the host squares the
    inverse-root degrees first, as a vector, makes that a column and broadcasts it, and makes the bias a row and
    broadcasts it — at every entry the same three extended reals are added in the same order;
  * the positive part, entry by entry, against the host's maximum with a broadcast zero;
  * a matrix product: entry `(r, q)` is the sum over `c` of `x(r, c) · w(c, q)`, which is what the host's dot_general with
    the plain dimension numbers is at the exact values.

  None of these uses a law of arithmetic: each pair is the same expression, read through the layout operations.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Forms

open Idealize.ShloMosaic Idealize.ShloMosaic.ValueIdx

/-- An edge's weight times each of its features. -/
def scaled {E W : Nat} (nrm : (⟨2, ![E, 1]⟩ : Shape).Idx → Ideal .f32) (g : (⟨2, ![E, W]⟩ : Shape).Idx → Ideal .f32) :
    (⟨2, ![E, W]⟩ : Shape).Idx → Ideal .f32 :=
  fun i => nrm (ix2 (i 0) (0 : Fin 1)) * g i

/-- Neighbour sum + (inverse-root degree)² · own feature + bias, entry by entry. -/
def combined {N W : Nat} (agg xp : (⟨2, ![N, W]⟩ : Shape).Idx → Ideal .f32) (dis : (⟨2, ![N, 1]⟩ : Shape).Idx → Ideal .f32)
    (b : (⟨2, ![1, W]⟩ : Shape).Idx → Ideal .f32) : (⟨2, ![N, W]⟩ : Shape).Idx → Ideal .f32 :=
  fun i => (agg i + (dis (ix2 (i 0) (0 : Fin 1)) * dis (ix2 (i 0) (0 : Fin 1))) * xp i) + b (ix2 (0 : Fin 1) (i 1))

/-- The positive part, entry by entry. -/
def positivePart {s : Shape} (x : s.Idx → Ideal .f32) : s.Idx → Ideal .f32 :=
  fun i => max (x i) (Ideal.ofBits .f32 0x00000000#32)

/-- The matrix product, entry by entry. -/
def product {N K M : Nat} (x : (⟨2, ![N, K]⟩ : Shape).Idx → Ideal .f32) (w : (⟨2, ![K, M]⟩ : Shape).Idx → Ideal .f32) :
    (⟨2, ![N, M]⟩ : Shape).Idx → Ideal .f32 :=
  fun i => ∑ cc : Fin K, x (ix2 (i 0) cc) * w (ix2 cc (i 1))

/-- A column `[a, 1]` broadcast along the rows by the host reads, at `(p, q)`, the column at `p`. -/
theorem hostColumn_apply {a b : Nat} {α : Type} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` made a column `[a, 1]` by the host reads, at `(p, u)`, the vector at `p`. -/
theorem hostAsColumn_apply {a : Nat} {α : Type} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A row `[1, b]` broadcast down the rows by the host reads, at `(p, q)`, the row at `q`. -/
theorem hostRow_apply {a b : Nat} {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` made a row `[1, b]` by the host reads, at `(u, q)`, the vector at `q`. -/
theorem hostAsRow_apply {b : Nat} {α : Type} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply ![1] h v (ix2 u q) (ix1 q) fun ax => ?_
  match ax with
  | ⟨0, _⟩ =>
    show q.val = if b = 1 then 0 else q.val
    split
    · have := q.isLt; omega
    · rfl

/-- The per-edge product as the host spells it: the weight column broadcast along the rows, times the features. -/
theorem scaled_eq_host {E W : Nat} (nrm : (⟨2, ![E, 1]⟩ : Shape).Idx → Ideal .f32) (g : (⟨2, ![E, W]⟩ : Shape).Idx → Ideal .f32)
    (h : (⟨2, ![E, 1]⟩ : Shape).BroadcastsInDim ⟨2, ![E, W]⟩ ![0, 1]) :
    scaled nrm g = mulf (F := Ideal) (φ := .f32) (broadcastInDim ⟨2, ![E, W]⟩ ![0, 1] h nrm) g := by
  funext i
  obtain ⟨p, q, rfl⟩ : ∃ (p : Fin E) (q : Fin W), i = ix2 p q := ⟨i 0, i 1, eq_ix2 i⟩
  rw [mulf_apply, hostColumn_apply]
  rfl

/-- The combine step as the host spells it. The kernel is handed the inverse-root degrees as a column and the bias
    as a one-row cast of the bias vector; the host squares the degrees as a vector, then makes the column. -/
theorem combined_eq_host {N W : Nat} (agg xp : (⟨2, ![N, W]⟩ : Shape).Idx → Ideal .f32) (d : (⟨1, ![N]⟩ : Shape).Idx → Ideal .f32)
    (b : (⟨1, ![W]⟩ : Shape).Idx → Ideal .f32)
    (hcol : (⟨1, ![N]⟩ : Shape).BroadcastsInDim ⟨2, ![N, 1]⟩ ![0])
    (hcols : (⟨2, ![N, 1]⟩ : Shape).BroadcastsInDim ⟨2, ![N, W]⟩ ![0, 1])
    (hcast : (⟨1, ![W]⟩ : Shape).ShapeCasts ⟨2, ![1, W]⟩)
    (hrow : (⟨1, ![W]⟩ : Shape).BroadcastsInDim ⟨2, ![1, W]⟩ ![1])
    (hrows : (⟨2, ![1, W]⟩ : Shape).BroadcastsInDim ⟨2, ![N, W]⟩ ![0, 1]) :
    combined agg xp (broadcastInDim ⟨2, ![N, 1]⟩ ![0] hcol d) (shapeCast ⟨2, ![1, W]⟩ b hcast)
      = addf (F := Ideal) (φ := .f32) (addf (F := Ideal) (φ := .f32) agg (mulf (F := Ideal) (φ := .f32) (broadcastInDim ⟨2, ![N, W]⟩ ![0, 1] hcols (broadcastInDim ⟨2, ![N, 1]⟩ ![0] hcol (mulf (F := Ideal) (φ := .f32) d d))) xp))
          (broadcastInDim ⟨2, ![N, W]⟩ ![0, 1] hrows (broadcastInDim ⟨2, ![1, W]⟩ ![1] hrow b)) := by
  funext i
  obtain ⟨p, q, rfl⟩ : ∃ (p : Fin N) (q : Fin W), i = ix2 p q := ⟨i 0, i 1, eq_ix2 i⟩
  rw [addf_apply, addf_apply, mulf_apply, hostColumn_apply, hostAsColumn_apply, mulf_apply, hostRow_apply, hostAsRow_apply]
  show (agg (ix2 p q) + (broadcastInDim ⟨2, ![N, 1]⟩ ![0] hcol d (ix2 p (0 : Fin 1)) * broadcastInDim ⟨2, ![N, 1]⟩ ![0] hcol d (ix2 p (0 : Fin 1))) * xp (ix2 p q))
      + shapeCast ⟨2, ![1, W]⟩ b hcast (ix2 (0 : Fin 1) q) = _
  rw [hostAsColumn_apply, shapeCast_a_1a_apply]

/-- The positive part as the host spells it: the maximum with a broadcast zero. -/
theorem positivePart_eq_host {s : Shape} (x : s.Idx → Ideal .f32) (h : (⟨0, ![]⟩ : Shape).BroadcastsInDim s ![]) :
    positivePart x = maximumf (F := Ideal) (φ := .f32) x (broadcastInDim s ![] h (constant (F := Ideal) ⟨0, ![]⟩ .f32 0x00000000#32)) := by
  funext i
  rw [maximumf_apply]
  rfl

/-- The matrix product as the host spells it: dot_general with the plain dimension numbers. -/
theorem product_eq_host {N K M : Nat} (x : (⟨2, ![N, K]⟩ : Shape).Idx → Ideal .f32) (w : (⟨2, ![K, M]⟩ : Shape).Idx → Ideal .f32)
    (prec : Option ContractPrecision) :
    product x w = Host.dotGeneral (F := Ideal) (DotDims.plain N K M) prec (x : FVec Ideal ⟨2, ![N, K]⟩ .f32) (w : FVec Ideal ⟨2, ![K, M]⟩ .f32) := by
  funext i
  obtain ⟨p, q, rfl⟩ : ∃ (p : Fin N) (q : Fin M), i = ix2 p q := ⟨i 0, i 1, eq_ix2 i⟩
  exact (StackMember.dotGeneral_plain_apply prec x w p q).symm

end Cert.Forms

end
-- ==== Proof.Val.BBase.lean ====
/-
  A spelling fact shared by the tile lemmas: the two zero offsets of a rank-2 block are the constant-zero offset function.
-/
import Idealize.ShloMosaic.Lib.Pipeline.Value
import Idealize.ShloMosaic.Lib.ValueIdx

noncomputable section

open scoped BigOperators

namespace Cert.Val

open Idealize.ShloMosaic

/-- The two zero offsets of a rank-2 block, however spelt. -/
theorem zero2 : (![0, 0] : Fin 2 → Nat) = fun _ => 0 :=
  funext fun a => by match a with | ⟨0, _⟩ => rfl | ⟨1, _⟩ => rfl

end Cert.Val

end
-- ==== Proof.Val.BArr2.lean ====
/-
  The second dense layer's result array. Region 2 runs the product body on ten row tiles: at point t it reads rows
  10000·t … 10000·t + 9999 of the hidden activations and the whole weight matrix, and writes the tile's product back to the
  same rows of the result. Every row of the result lies in exactly the tile t = row / 10000, so after the ten write-backs
  the result array is the whole matrix product: entry (i, j) is `∑_k X_{i,k} · W_{k,j}` of the arrays the region found.
-/
import proofs.«150785_j1864015806542_1_alg».proof.Proof.KI.R2
import proofs.«150785_j1864015806542_1_alg».proof.Proof.Val.BMat2
import proofs.«150785_j1864015806542_1_alg».proof.Proof.LibEntryForms
import Idealize.ShloMosaic.Lib.Pipeline.Value
import proofs.«150785_j1864015806542_1_alg».proof.Proof.Val.BBase

noncomputable section

open scoped BigOperators

namespace Cert.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The inner product of a row of the first array with a column of the second, each picked by an index function. -/
def pick (X : (⟨2, ![100000, 64]⟩ : Shape).Idx → Ideal .f32) (Wt : (⟨2, ![64, 40]⟩ : Shape).Idx → Ideal .f32)
    (ex : Fin 64 → (⟨2, ![100000, 64]⟩ : Shape).Idx) (ew : Fin 64 → (⟨2, ![64, 40]⟩ : Shape).Idx) : Ideal .f32 :=
  ∑ k : Fin 64, X (ex k) * Wt (ew k)

/-- The result tile at entry `(a, b)`: the inner product of the input tile's row with the weights' column. -/
theorem prod2_apply (x : FVec Ideal S10000x64 .f32) (w : FVec Ideal S64x40 .f32) (a : Fin 10000) (b : Fin 40) :
    prod2 (F := Ideal) x w (ix2 a b) = ∑ k : Fin 64, x (ix2 a k) * w (ix2 k b) := by
  unfold prod2
  rw [View.canon_unit_zero zero2, View.ld_unit_zero zero2, View.ld_unit_zero zero2]
  exact k2_pay1_apply x w a b

/-- The block indices of the three windows at grid point `t`: the row tile is `t`, everything else block 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is tile `t` of the whole product of the arrays the region found. -/
theorem flushed2_eq (c : Dev nD) (t : Fin cfg2.N) :
    (data2 (F := Ideal) V c).flushed 2 t = ((cfg2.win 2).blk t).view.read (Elt Ideal)
      (Forms.product (V c main_v57_0 : S100000x64.Idx → Ideal .f32) (V c main_arg6 : S64x40.Idx → Ideal .f32)) := by
  show (cfg2.win 2).cut (grid2.coords t) ((data2 V c).after 2 t) = _
  rw [data2_after_2]
  obtain ⟨e0, e1, e2, e3, e4, e5⟩ := idx2 t
  funext j
  obtain ⟨a, b, rfl⟩ : ∃ (a : Fin 10000) (b : Fin 40), j = ix2 a b := ⟨j 0, j 1, eq_ix2 j⟩
  show prod2 (tile2 V c 0 t) (tile2 V c 1 t) (ix2 a b) = _
  refine (prod2_apply (tile2 V c 0 t) (tile2 V c 1 t) a b).trans ?_
  show pick (V c main_v57_0) (V c main_arg6) (fun k => ((cfg2.win 0).blk t).view.emb (ix2 a k))
        (fun k => ((cfg2.win 1).blk t).view.emb (ix2 k b))
      = pick (V c main_v57_0) (V c main_arg6) (fun k => ix2 ((((cfg2.win 2).blk t).view.emb (ix2 a b)) 0) k) (fun k => ix2 k ((((cfg2.win 2).blk t).view.emb (ix2 a b)) 1))
  have h0 : ∀ k : Fin 64, ((cfg2.win 0).blk t).view.emb (ix2 a k) = ix2 ((((cfg2.win 2).blk t).view.emb (ix2 a b)) 0) k := fun k => by
    funext ax; apply Fin.ext
    match ax with
    | ⟨0, _⟩ => show win2_0.index t (0 : Fin 2) * 10000 + 1 * a.val = win2_2.index t (0 : Fin 2) * 10000 + 1 * a.val; rw [e0, e4]
    | ⟨1, _⟩ => show win2_0.index t (1 : Fin 2) * 64 + 1 * k.val = k.val; rw [e1]; omega
  have h1 : ∀ k : Fin 64, ((cfg2.win 1).blk t).view.emb (ix2 k b) = ix2 k ((((cfg2.win 2).blk t).view.emb (ix2 a b)) 1) := fun k => by
    funext ax; apply Fin.ext
    match ax with
    | ⟨0, _⟩ => show win2_1.index t (0 : Fin 2) * 64 + 1 * k.val = k.val; rw [e2]; omega
    | ⟨1, _⟩ => show win2_1.index t (1 : Fin 2) * 40 + 1 * b.val = win2_2.index t (1 : Fin 2) * 40 + 1 * b.val; rw [e3, e5]
  rw [funext h0, funext h1]
  rfl

/-- Every entry of the result array lies in the tile of its row. -/
theorem cover2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : grid2.N = 10 := N_2
  have ht : (i 0).val / 10000 < grid2.N := by rw [hN]; omega
  refine ⟨⟨(i 0).val / 10000, ht⟩, flush2_2 _, ?_⟩
  obtain ⟨-, -, -, -, e4, e5⟩ := idx2 ⟨(i 0).val / 10000, ht⟩
  show i ∈ ((View.whole main_v59).slice (win2_2.rect ⟨(i 0).val / 10000, ht⟩)).set
  rw [View.set_slice_whole, Rect.mem_set_unit]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 40 ≤ (i 1).val ∧ (i 1).val < win2_2.index ⟨(i 0).val / 10000, ht⟩ (1 : Fin 2) * 40 + 40
    rw [e5]; omega

/-- The result array when region 2 is left: the whole product of the arrays the region found. -/
theorem arr2_eq (c : Dev nD) :
    (data2 (F := Ideal) V c).arrAt 2 cfg2.N
      = Forms.product (V c main_v57_0 : S100000x64.Idx → Ideal .f32) (V c main_arg6 : S64x40.Idx → Ideal .f32) :=
  (data2 V c).arrAt_eq_of_cover 2 _ (fun t _ => flushed2_eq V c t) cover2

end Cert.Val

end
-- ==== Proof.Val.BCombForms.lean ====
/-
  One entry of a graph layer's output after aggregation: with `agg` the neighbour sum, `h` the node's own features, `k2`
  the self weight, `b` the bias and (`mu`, `var`, `g`, `be`) the batch-norm statistics and affine parameters of the
  entry's column, the output is `tanh ((((agg + k2·h) + b) - mu) · rsqrt (var + eps) · g + be)`. Two spellings read as this
  one expression at every entry, with the same operations in the same order, so no law of arithmetic is used: a kernel's
  (the scalar extracted from a [1,1] tile and splat, the per-column rows as [1,W] tiles broadcast down the rows) and the
  host's (the scalar and the per-column vectors broadcast by broadcast_in_dim).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«150785_j1864015806542_1_alg».proof.Proof.LibEntryForms

noncomputable section

open scoped BigOperators

namespace Cert.Val

open Idealize.ShloMosaic Idealize.ShloMosaic.ValueIdx

/-- The layer's output at one entry, from the eight numbers it depends on. -/
def combEntry (eps : BitVec FTy.f32.bits) (agg h k2 b mu var g be : Ideal .f32) : Ideal .f32 :=
  Ideal.tanh ((((agg + k2 * h) + b) - mu) * Ideal.rsqrt (var + Ideal.ofBits .f32 eps) * g + be)

variable {s : Shape} {φ : FTy}

theorem tanh_at (x : FVec Ideal s φ) (i : s.Idx) : tanh x i = Ideal.tanh (x i) := rfl
theorem rsqrt_at (x : FVec Ideal s φ) (i : s.Idx) : rsqrt x i = Ideal.rsqrt (x i) := rfl
theorem hostTanh_at (x : FVec Ideal s φ) (i : s.Idx) : Host.tanh x i = Ideal.tanh (x i) := rfl
theorem hostRsqrt_at (x : FVec Ideal s φ) (i : s.Idx) : Host.rsqrt x i = Ideal.rsqrt (x i) := rfl

/-- The one entry of a [1,1] tile, extracted at position (0, 0). -/
theorem extractAt_00 {α : Type} (x : (⟨2, ![1, 1]⟩ : Shape).Idx → α) (hp : ∀ a, (![0, 0] : Fin 2 → Nat) a < (⟨2, ![1, 1]⟩ : Shape).size a) :
    extractAt ![0, 0] x hp = x (ix2 (0 : Fin 1) (0 : Fin 1)) :=
  congrArg x (funext fun a => Fin.ext (by match a with | ⟨0, _⟩ => rfl | ⟨1, _⟩ => rfl))

/-- A kernel's spelling at entry `(p, q)`. -/
theorem kernel_comb_apply {N W : Nat} (h agg : FVec Ideal ⟨2, ![N, W]⟩ .f32) (k2 : FVec Ideal ⟨2, ![1, 1]⟩ .f32)
    (b mu var g be : FVec Ideal ⟨2, ![1, W]⟩ .f32) (eps : BitVec FTy.f32.bits)
    (hs : (⟨2, ![N, W]⟩ : Shape).ShapeCasts ⟨2, ![N, W]⟩) (hr : (⟨2, ![1, W]⟩ : Shape).ShapeCasts ⟨2, ![1, W]⟩)
    (hb : (⟨2, ![1, W]⟩ : Shape).Broadcasts ⟨2, ![N, W]⟩)
    (hp : ∀ a, (![0, 0] : Fin 2 → Nat) a < (⟨2, ![1, 1]⟩ : Shape).size a) (p : Fin N) (q : Fin W) :
    tanh (addf (mulf (mulf (subf (addf (addf (shapeCast ⟨2, ![N, W]⟩ agg hs)
        (mulf (broadcast ⟨2, ![N, W]⟩ (extractAt ![0, 0] k2 hp)) (shapeCast ⟨2, ![N, W]⟩ h hs)))
        (broadcastTo ⟨2, ![N, W]⟩ (shapeCast ⟨2, ![1, W]⟩ b hr) hb))
        (broadcastTo ⟨2, ![N, W]⟩ (shapeCast ⟨2, ![1, W]⟩ mu hr) hb))
        (broadcastTo ⟨2, ![N, W]⟩ (rsqrt (addf (shapeCast ⟨2, ![1, W]⟩ var hr)
          (broadcast ⟨2, ![1, W]⟩ (Scalar.ofBits (F := Ideal) .f32 eps)))) hb))
        (broadcastTo ⟨2, ![N, W]⟩ (shapeCast ⟨2, ![1, W]⟩ g hr) hb))
        (broadcastTo ⟨2, ![N, W]⟩ (shapeCast ⟨2, ![1, W]⟩ be hr) hb)) (ix2 p q)
      = combEntry eps (agg (ix2 p q)) (h (ix2 p q)) (k2 (ix2 (0 : Fin 1) (0 : Fin 1))) (b (ix2 (0 : Fin 1) q))
          (mu (ix2 (0 : Fin 1) q)) (var (ix2 (0 : Fin 1) q)) (g (ix2 (0 : Fin 1) q)) (be (ix2 (0 : Fin 1) q)) := by
  rw [tanh_at, addf_apply, mulf_apply, mulf_apply, subf_apply, addf_apply, addf_apply, mulf_apply, broadcast_apply,
    broadcastTo_1b_ab_apply, broadcastTo_1b_ab_apply, broadcastTo_1b_ab_apply, broadcastTo_1b_ab_apply,
    broadcastTo_1b_ab_apply, rsqrt_at, addf_apply, broadcast_apply, extractAt_00]
  simp only [shapeCast_self]
  rfl

/-- The host's spelling at entry `(p, q)`. -/
theorem host_comb_apply {N W : Nat} (h agg : FVec Ideal ⟨2, ![N, W]⟩ .f32) (k2 : FVec Ideal ⟨0, ![]⟩ .f32)
    (b mu var g be : FVec Ideal ⟨1, ![W]⟩ .f32) (eps : BitVec FTy.f32.bits)
    (h0 : (⟨0, ![]⟩ : Shape).BroadcastsInDim ⟨2, ![N, W]⟩ (![] : Fin 0 → Fin 2))
    (h1 : (⟨1, ![W]⟩ : Shape).BroadcastsInDim ⟨2, ![1, W]⟩ ![1])
    (h2 : (⟨2, ![1, W]⟩ : Shape).BroadcastsInDim ⟨2, ![N, W]⟩ ![0, 1])
    (h3 : (⟨0, ![]⟩ : Shape).BroadcastsInDim ⟨1, ![W]⟩ (![] : Fin 0 → Fin 1)) (p : Fin N) (q : Fin W) :
    Host.tanh (addf (mulf (mulf (subf (addf (addf agg (mulf (broadcastInDim ⟨2, ![N, W]⟩ ![] h0 k2) h))
        (broadcastInDim ⟨2, ![N, W]⟩ ![0, 1] h2 (broadcastInDim ⟨2, ![1, W]⟩ ![1] h1 b)))
        (broadcastInDim ⟨2, ![N, W]⟩ ![0, 1] h2 (broadcastInDim ⟨2, ![1, W]⟩ ![1] h1 mu)))
        (broadcastInDim ⟨2, ![N, W]⟩ ![0, 1] h2 (broadcastInDim ⟨2, ![1, W]⟩ ![1] h1
          (Host.rsqrt (addf var (broadcastInDim ⟨1, ![W]⟩ ![] h3 (constant (F := Ideal) ⟨0, ![]⟩ .f32 eps)))))))
        (broadcastInDim ⟨2, ![N, W]⟩ ![0, 1] h2 (broadcastInDim ⟨2, ![1, W]⟩ ![1] h1 g)))
        (broadcastInDim ⟨2, ![N, W]⟩ ![0, 1] h2 (broadcastInDim ⟨2, ![1, W]⟩ ![1] h1 be))) (ix2 p q)
      = combEntry eps (agg (ix2 p q)) (h (ix2 p q)) (k2 ix0) (b (ix1 q)) (mu (ix1 q)) (var (ix1 q)) (g (ix1 q)) (be (ix1 q)) := by
  rw [hostTanh_at, addf_apply, mulf_apply, mulf_apply, subf_apply, addf_apply, addf_apply, mulf_apply,
    broadcastInDim_scalar_apply,
    Forms.hostRow_apply, Forms.hostAsRow_apply, Forms.hostRow_apply, Forms.hostAsRow_apply,
    Forms.hostRow_apply, Forms.hostAsRow_apply, Forms.hostRow_apply, Forms.hostAsRow_apply,
    Forms.hostRow_apply, Forms.hostAsRow_apply, hostRsqrt_at, addf_apply, broadcastInDim_scalar_apply, constant_apply]
  rfl

end Cert.Val

end
-- ==== Proof.Val.BComb3.lean ====
/-
  The second combine body's arithmetic, read at one entry: from the tiles of the dense output `h`, the aggregated messages
  `agg`, the self weight (a [1,1] tile), and the bias, mean, variance, scale and shift rows ([1,40] tiles), the stored value
  at `(a, b)` is `tanh ((((agg + k2·h) + bias) - mean) · rsqrt (var + eps) · scale + shift)` of the entries at `(a, b)` and of
  column `b` of the rows.
-/
import proofs.«150785_j1864015806542_1_alg».proof.Proof.Gen.KernelIdeal.Skeleton
import proofs.«150785_j1864015806542_1_alg».proof.Proof.Val.BCombForms

noncomputable section

open scoped BigOperators

namespace Cert.Val

open Cert.KernelIdeal Cert.KernelIdeal.Gen Idealize.ShloMosaic Idealize.ShloMosaic.ValueIdx

/-- The stored value of the second combine body at entry `(a, b)`; the arguments in the body's load order
    (h, agg, self weight, bias, mean, variance, scale, shift). -/
theorem k3_pay1_apply (v0 v2 : FVec Ideal S10000x40 .f32) (v4 : FVec Ideal S1x1 .f32)
    (v9 v13 v17 v24 v28 : FVec Ideal S1x40 .f32) (a : Fin 10000) (b : Fin 40) :
    k3_pay1 (F := Ideal) v0 v2 v4 v9 v13 v17 v24 v28 (ix2 a b)
      = combEntry 0x3727C5AC#32 (v2 (ix2 a b)) (v0 (ix2 a b)) (v4 (ix2 (0 : Fin 1) (0 : Fin 1))) (v9 (ix2 (0 : Fin 1) b))
          (v13 (ix2 (0 : Fin 1) b)) (v17 (ix2 (0 : Fin 1) b)) (v24 (ix2 (0 : Fin 1) b)) (v28 (ix2 (0 : Fin 1) b)) := by
  unfold k3_pay1
  exact kernel_comb_apply v0 v2 v4 v9 v13 v17 v24 v28 0x3727C5AC#32 shapeCasts_S10000x40_S10000x40 shapeCasts_S1x40_S1x40
    broadcasts_S1x40_S10000x40 inpos_S1x1_p0_0 a b

end Cert.Val

end
-- ==== Proof.Val.BArr3.lean ====
/-
  The second-layer activations array. Region 3 runs the combine body on ten row tiles: at point t it reads rows
  10000·t … 10000·t + 9999 of the dense output and of the aggregated messages, and the whole one-entry and one-row
  arrays (self weight, bias, scale, shift, mean, variance), and writes the tile of activations back to the same rows.
  Every row lies in exactly the tile t = row / 10000, so after the ten write-backs the result array holds, at every entry
  (i, j), `tanh ((((agg_{i,j} + k2·h_{i,j}) + bias_j) - mean_j) · rsqrt (var_j + eps) · scale_j + shift_j)` of the arrays the
  region found.
-/
import proofs.«150785_j1864015806542_1_alg».proof.Proof.KI.R3
import proofs.«150785_j1864015806542_1_alg».proof.Proof.Val.BComb3
import Idealize.ShloMosaic.Lib.Pipeline.Value
import proofs.«150785_j1864015806542_1_alg».proof.Proof.Val.BBase

noncomputable section

open scoped BigOperators

namespace Cert.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The activations, entry by entry, from the dense output, the aggregated messages, the self weight as a one-entry
    array and the bias, scale, shift, mean and variance as one-row arrays. -/
def combArr (h agg : (⟨2, ![100000, 40]⟩ : Shape).Idx → Ideal .f32) (k2 : (⟨2, ![1, 1]⟩ : Shape).Idx → Ideal .f32)
    (b g be mu var : (⟨2, ![1, 40]⟩ : Shape).Idx → Ideal .f32) : (⟨2, ![100000, 40]⟩ : Shape).Idx → Ideal .f32 :=
  fun i => combEntry 0x3727C5AC#32 (agg i) (h i) (k2 (ix2 (0 : Fin 1) (0 : Fin 1))) (b (ix2 (0 : Fin 1) (i 1)))
    (mu (ix2 (0 : Fin 1) (i 1))) (var (ix2 (0 : Fin 1) (i 1))) (g (ix2 (0 : Fin 1) (i 1))) (be (ix2 (0 : Fin 1) (i 1)))

/-- The result tile at entry `(a, b)`, from the eight input tiles in the windows' order (h, agg, self weight, bias,
    scale, shift, mean, variance). -/
theorem comb3_apply (x0 x1 : FVec Ideal S10000x40 .f32) (x2 : FVec Ideal S1x1 .f32) (x3 x4 x5 x6 x7 : FVec Ideal S1x40 .f32)
    (a : Fin 10000) (b : Fin 40) :
    comb3 (F := Ideal) x0 x1 x2 x3 x4 x5 x6 x7 (ix2 a b)
      = combEntry 0x3727C5AC#32 (x1 (ix2 a b)) (x0 (ix2 a b)) (x2 (ix2 (0 : Fin 1) (0 : Fin 1))) (x3 (ix2 (0 : Fin 1) b))
          (x6 (ix2 (0 : Fin 1) b)) (x7 (ix2 (0 : Fin 1) b)) (x4 (ix2 (0 : Fin 1) b)) (x5 (ix2 (0 : Fin 1) b)) := by
  unfold comb3
  rw [View.canon_unit_zero zero2]
  simp only [View.ld_unit_zero (S := S10000x40) zero2, View.ld_unit_zero (S := S1x1) zero2, View.ld_unit_zero (S := S1x40) zero2]
  exact k3_pay1_apply x0 x1 x2 x3 x6 x7 x4 x5 a b

/-- The block indices of the nine windows at grid point `t`: the row tile is `t` for the three big arrays, block 0
    everywhere else. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- What point `t` writes back is tile `t` of the activations of the arrays the region found. -/
theorem flushed3_eq (c : Dev nD) (t : Fin cfg3.N) :
    (data3 (F := Ideal) V c).flushed 8 t = ((cfg3.win 8).blk t).view.read (Elt Ideal)
      (combArr (V c main_v59 : S100000x40.Idx → Ideal .f32) (V c main_v77 : S100000x40.Idx → Ideal .f32) (V c main_v83 : S1x1.Idx → Ideal .f32) (V c main_v78 : S1x40.Idx → Ideal .f32) (V c main_v79 : S1x40.Idx → Ideal .f32) (V c main_v80 : S1x40.Idx → Ideal .f32) (V c main_v81 : S1x40.Idx → Ideal .f32) (V c main_v82 : S1x40.Idx → Ideal .f32)) := by
  show (cfg3.win 8).cut (grid3.coords t) ((data3 V c).after 8 t) = _
  rw [data3_after_8]
  obtain ⟨e00, e01, e10, e11, e20, e21, e30, e31, e40, e41, e50, e51, e60, e61, e70, e71, e80, e81⟩ := idx3 t
  funext j
  obtain ⟨a, b, rfl⟩ : ∃ (a : Fin 10000) (b : Fin 40), j = ix2 a b := ⟨j 0, j 1, eq_ix2 j⟩
  show comb3 (tile3 V c 0 t) (tile3 V c 1 t) (tile3 V c 2 t) (tile3 V c 3 t) (tile3 V c 4 t) (tile3 V c 5 t) (tile3 V c 6 t) (tile3 V c 7 t) (ix2 a b) = _
  refine (comb3_apply (tile3 V c 0 t) (tile3 V c 1 t) (tile3 V c 2 t) (tile3 V c 3 t) (tile3 V c 4 t) (tile3 V c 5 t) (tile3 V c 6 t) (tile3 V c 7 t) a b).trans ?_
  show combEntry 0x3727C5AC#32 ((V c main_v77 : S100000x40.Idx → Ideal .f32) (((cfg3.win 1).blk t).view.emb (ix2 a b)))
      ((V c main_v59 : S100000x40.Idx → Ideal .f32) (((cfg3.win 0).blk t).view.emb (ix2 a b)))
      ((V c main_v83 : S1x1.Idx → Ideal .f32) (((cfg3.win 2).blk t).view.emb (ix2 (0 : Fin 1) (0 : Fin 1))))
      ((V c main_v78 : S1x40.Idx → Ideal .f32) (((cfg3.win 3).blk t).view.emb (ix2 (0 : Fin 1) b)))
      ((V c main_v81 : S1x40.Idx → Ideal .f32) (((cfg3.win 6).blk t).view.emb (ix2 (0 : Fin 1) b)))
      ((V c main_v82 : S1x40.Idx → Ideal .f32) (((cfg3.win 7).blk t).view.emb (ix2 (0 : Fin 1) b)))
      ((V c main_v79 : S1x40.Idx → Ideal .f32) (((cfg3.win 4).blk t).view.emb (ix2 (0 : Fin 1) b)))
      ((V c main_v80 : S1x40.Idx → Ideal .f32) (((cfg3.win 5).blk t).view.emb (ix2 (0 : Fin 1) b)))
    = combArr (V c main_v59 : S100000x40.Idx → Ideal .f32) (V c main_v77 : S100000x40.Idx → Ideal .f32) (V c main_v83 : S1x1.Idx → Ideal .f32) (V c main_v78 : S1x40.Idx → Ideal .f32) (V c main_v79 : S1x40.Idx → Ideal .f32) (V c main_v80 : S1x40.Idx → Ideal .f32) (V c main_v81 : S1x40.Idx → Ideal .f32) (V c main_v82 : S1x40.Idx → Ideal .f32) (((cfg3.win 8).blk t).view.emb (ix2 a b))
  have h0 : (((cfg3.win 0).blk t).view.emb (ix2 a b)) = (((cfg3.win 8).blk t).view.emb (ix2 a b)) := by
    funext ax; apply Fin.ext
    match ax with
    | ⟨0, _⟩ => show win3_0.index t (0 : Fin 2) * 10000 + 1 * a.val = win3_8.index t (0 : Fin 2) * 10000 + 1 * a.val; rw [e00, e80]
    | ⟨1, _⟩ => show win3_0.index t (1 : Fin 2) * 40 + 1 * b.val = win3_8.index t (1 : Fin 2) * 40 + 1 * b.val; rw [e01, e81]
  have h1 : (((cfg3.win 1).blk t).view.emb (ix2 a b)) = (((cfg3.win 8).blk t).view.emb (ix2 a b)) := by
    funext ax; apply Fin.ext
    match ax with
    | ⟨0, _⟩ => show win3_1.index t (0 : Fin 2) * 10000 + 1 * a.val = win3_8.index t (0 : Fin 2) * 10000 + 1 * a.val; rw [e10, e80]
    | ⟨1, _⟩ => show win3_1.index t (1 : Fin 2) * 40 + 1 * b.val = win3_8.index t (1 : Fin 2) * 40 + 1 * b.val; rw [e11, e81]
  have h2 : (((cfg3.win 2).blk t).view.emb (ix2 (0 : Fin 1) (0 : Fin 1))) = ix2 (0 : Fin 1) (0 : Fin 1) := by
    funext ax; apply Fin.ext
    match ax with
    | ⟨0, _⟩ => show win3_2.index t (0 : Fin 2) * 1 + 1 * 0 = 0; rw [e20]
    | ⟨1, _⟩ => show win3_2.index t (1 : Fin 2) * 1 + 1 * 0 = 0; rw [e21]
  have h3 : (((cfg3.win 3).blk t).view.emb (ix2 (0 : Fin 1) b)) = ix2 (0 : Fin 1) ((((cfg3.win 8).blk t).view.emb (ix2 a b)) 1) := by
    funext ax; apply Fin.ext
    match ax with
    | ⟨0, _⟩ => show win3_3.index t (0 : Fin 2) * 1 + 1 * 0 = 0; rw [e30]
    | ⟨1, _⟩ => show win3_3.index t (1 : Fin 2) * 40 + 1 * b.val = win3_8.index t (1 : Fin 2) * 40 + 1 * b.val; rw [e31, e81]
  have h4 : (((cfg3.win 4).blk t).view.emb (ix2 (0 : Fin 1) b)) = ix2 (0 : Fin 1) ((((cfg3.win 8).blk t).view.emb (ix2 a b)) 1) := by
    funext ax; apply Fin.ext
    match ax with
    | ⟨0, _⟩ => show win3_4.index t (0 : Fin 2) * 1 + 1 * 0 = 0; rw [e40]
    | ⟨1, _⟩ => show win3_4.index t (1 : Fin 2) * 40 + 1 * b.val = win3_8.index t (1 : Fin 2) * 40 + 1 * b.val; rw [e41, e81]
  have h5 : (((cfg3.win 5).blk t).view.emb (ix2 (0 : Fin 1) b)) = ix2 (0 : Fin 1) ((((cfg3.win 8).blk t).view.emb (ix2 a b)) 1) := by
    funext ax; apply Fin.ext
    match ax with
    | ⟨0, _⟩ => show win3_5.index t (0 : Fin 2) * 1 + 1 * 0 = 0; rw [e50]
    | ⟨1, _⟩ => show win3_5.index t (1 : Fin 2) * 40 + 1 * b.val = win3_8.index t (1 : Fin 2) * 40 + 1 * b.val; rw [e51, e81]
  have h6 : (((cfg3.win 6).blk t).view.emb (ix2 (0 : Fin 1) b)) = ix2 (0 : Fin 1) ((((cfg3.win 8).blk t).view.emb (ix2 a b)) 1) := by
    funext ax; apply Fin.ext
    match ax with
    | ⟨0, _⟩ => show win3_6.index t (0 : Fin 2) * 1 + 1 * 0 = 0; rw [e60]
    | ⟨1, _⟩ => show win3_6.index t (1 : Fin 2) * 40 + 1 * b.val = win3_8.index t (1 : Fin 2) * 40 + 1 * b.val; rw [e61, e81]
  have h7 : (((cfg3.win 7).blk t).view.emb (ix2 (0 : Fin 1) b)) = ix2 (0 : Fin 1) ((((cfg3.win 8).blk t).view.emb (ix2 a b)) 1) := by
    funext ax; apply Fin.ext
    match ax with
    | ⟨0, _⟩ => show win3_7.index t (0 : Fin 2) * 1 + 1 * 0 = 0; rw [e70]
    | ⟨1, _⟩ => show win3_7.index t (1 : Fin 2) * 40 + 1 * b.val = win3_8.index t (1 : Fin 2) * 40 + 1 * b.val; rw [e71, e81]
  rw [h0, h1, h2, h3, h4, h5, h6, h7]
  rfl

/-- Every entry of the result array lies in the tile of its row. -/
theorem cover3 (i : S100000x40.Idx) :
    ∃ t : Fin cfg3.N, (cfg3.win 8).flush t = true ∧ i ∈ ((cfg3.win 8).blk t).view.set := by
  have hi0 : (i 0).val < 100000 := (i 0).isLt
  have hi1 : (i 1).val < 40 := (i 1).isLt
  have hN : grid3.N = 10 := N_3
  have ht : (i 0).val / 10000 < grid3.N := by rw [hN]; omega
  refine ⟨⟨(i 0).val / 10000, ht⟩, flush3_8 _, ?_⟩
  obtain ⟨-, -, -, -, -, -, -, -, -, -, -, -, -, -, -, -, e80, e81⟩ := idx3 ⟨(i 0).val / 10000, ht⟩
  show i ∈ ((View.whole main_v84).slice (win3_8.rect ⟨(i 0).val / 10000, ht⟩)).set
  rw [View.set_slice_whole, Rect.mem_set_unit]
  intro a
  match a with
  | ⟨0, _⟩ =>
    show win3_8.index ⟨(i 0).val / 10000, ht⟩ (0 : Fin 2) * 10000 ≤ (i 0).val ∧ (i 0).val < win3_8.index ⟨(i 0).val / 10000, ht⟩ (0 : Fin 2) * 10000 + 10000
    rw [e80]; show (i 0).val / 10000 * 10000 ≤ (i 0).val ∧ (i 0).val < (i 0).val / 10000 * 10000 + 10000; omega
  | ⟨1, _⟩ =>
    show win3_8.index ⟨(i 0).val / 10000, ht⟩ (1 : Fin 2) * 40 ≤ (i 1).val ∧ (i 1).val < win3_8.index ⟨(i 0).val / 10000, ht⟩ (1 : Fin 2) * 40 + 40
    rw [e81]; omega

/-- The activations array when region 3 is left. -/
theorem arr3_eq (c : Dev nD) :
    (data3 (F := Ideal) V c).arrAt 8 cfg3.N
      = combArr (V c main_v59 : S100000x40.Idx → Ideal .f32) (V c main_v77 : S100000x40.Idx → Ideal .f32) (V c main_v83 : S1x1.Idx → Ideal .f32) (V c main_v78 : S1x40.Idx → Ideal .f32) (V c main_v79 : S1x40.Idx → Ideal .f32) (V c main_v80 : S1x40.Idx → Ideal .f32) (V c main_v81 : S1x40.Idx → Ideal .f32) (V c main_v82 : S1x40.Idx → Ideal .f32) :=
  (data3 V c).arrAt_eq_of_cover 8 _ (fun t _ => flushed3_eq V c t) cover3

end Cert.Val

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«150785_j1864015806542_1_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.LibLogSoftmax.lean ====
/-
  A row-wise log-softmax at the ideal values, read at an entry given by its coordinates.

  For a finite family `L` of extended reals (one row of logits) put `M = max_q L_q`, the fold of `max` from the value
  the accumulator's pattern denotes. The log-softmax of the row at `c` is `(L_c - M) - log (∑_q exp (L_q - M))`.
  Both spellings below read as this one function of the row:

  * a kernel's: the lane maximum kept as a column and broadcast back, the difference, its exponential, the lane sum
    kept as a column, its logarithm broadcast back, the second difference;
  * the host's (jax.nn.log_softmax over axis 1): a `reduce` by `maximum` from an initial value, the `maximum` of that with
    the same value broadcast (which changes nothing: the fold already dominates the value it starts from), the column
    and its broadcast, the difference, `exponential`, a `reduce` by `add` from zero, the column, `log`, its broadcast, the
    second difference.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«150785_j1864015806542_1_alg».proof.Proof.LibKeepdims
import proofs.«150785_j1864015806542_1_alg».proof.Proof.LibRowOps

noncomputable section

open scoped BigOperators

namespace Cert.LibLogSoftmax

open Idealize.ShloMosaic Idealize.ShloMosaic.ValueIdx

/-! ## The row function -/

/-- The maximum of a row: the fold of `max` over its entries from the value `b`. -/
def rowMax {n : Nat} (b : EReal) (L : Fin n → EReal) : EReal := (Finset.univ : Finset (Fin n)).fold max b L

/-- The log-softmax of a row at entry `c`, the maximum taken from `b`: `(L_c - M) - log (∑_q exp (L_q - M))`. -/
def rowLogSoftmax {n : Nat} (b : EReal) (L : Fin n → EReal) (c : Fin n) : EReal :=
  (L c - rowMax b L) - Ideal.log (∑ q : Fin n, Ideal.exp (L q - rowMax b L))

/-- The fold of `max` dominates the value it starts from, so taking the maximum with that value again changes nothing. -/
theorem max_rowMax {n : Nat} (b : EReal) (L : Fin n → EReal) : max b (rowMax b L) = rowMax b L :=
  max_eq_right ((Finset.le_fold_max b).2 (Or.inl le_rfl))

/-! ## The exponential and the logarithm read at an index -/

variable {s : Shape} {φ : FTy}

theorem exp_apply (x : FVec Ideal s φ) (i : s.Idx) : exp x i = Ideal.exp (x i) := rfl
theorem log_apply (x : FVec Ideal s φ) (i : s.Idx) : log x i = Ideal.log (x i) := rfl
theorem hostExp_apply (x : FVec Ideal s φ) (i : s.Idx) : Host.exp x i = Ideal.exp (x i) := rfl
theorem hostLog_apply (x : FVec Ideal s φ) (i : s.Idx) : Host.log x i = Ideal.log (x i) := rfl

/-! ## Maxima along the rows, and the host's column broadcasts -/

/-- A kernel's lane maximum over axis 1 of `[m, n]`, at row `r`: the row's maximum from the accumulator's value. -/
theorem kernel_rowmax_apply {m n : Nat} (v : FVec Ideal ⟨2, ![m, n]⟩ .f32) (acc : BitVec FTy.f32.bits)
    (h : (⟨2, ![m, n]⟩ : Shape).Reduces [1] ⟨1, ![m]⟩) (hφ : FKind.Formats .f32)
    (hacc : acc = FKind.maximumf.neutral .f32 hφ) (r : Fin m) :
    multiReduction .maximumf [1] ⟨1, ![m]⟩ v acc h hφ hacc (ix1 r) = rowMax (Ideal.ofBits .f32 acc) fun q => v (ix2 r q) := by
  refine (Ideal.multiReduction_maximumf_single v acc h hφ hacc (ix1 r)).trans ?_
  refine congrArg (Finset.univ.fold max (Ideal.ofBits .f32 acc)) (funext fun q => congrArg v (funext fun a => Fin.ext ?_))
  match a with
  | ⟨0, _⟩ => rfl
  | ⟨1, _⟩ => rfl

/-- The host's `reduce` by `maximum` over axis 1 of `[m, n]` from a scalar initial value, at row `r`. -/
theorem host_rowmax_apply {m n : Nat} (v : FVec Ideal ⟨2, ![m, n]⟩ .f32) (init : FVec Ideal ⟨0, ![]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (r : Fin m) :
    Host.reduce (FloatOps.maximumf (F := Ideal) (φ := .f32)) v init h' hu (ix1 r) = rowMax (init ix0) fun q => v (ix2 r q) := by
  refine (Host.reduce_eq_fold_single (FloatOps.maximumf (F := Ideal) (φ := .f32)) v init h' h hu (ix1 r)).trans ?_
  rw [eq_ix0 (Shape.Idx.first hu)]
  refine congrArg (Finset.univ.fold max (init ix0)) (funext fun q => congrArg v (funext fun a => Fin.ext ?_))
  match a with
  | ⟨0, _⟩ => rfl
  | ⟨1, _⟩ => rfl

/-- The host's broadcast of `[a]` to the column `[a, 1]` reads, at `(i, u)`, the operand at `i`. -/
theorem broadcastInDim_a_a1_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's broadcast of a column `[a, 1]` to `[a, b]` reads, at `(p, c)`, the column's entry of row `p`. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## A kernel's spelling -/

/-- A kernel's shifted logits: the logits minus their lane maximum, kept as a column and broadcast back. -/
abbrev kernelShift {m n : Nat} (L : FVec Ideal ⟨2, ![m, n]⟩ .f32)
    (hr : (⟨2, ![m, n]⟩ : Shape).Reduces [1] ⟨1, ![m]⟩) (hc : (⟨1, ![m]⟩ : Shape).ShapeCasts ⟨2, ![m, 1]⟩)
    (hb : (⟨2, ![m, 1]⟩ : Shape).Broadcasts ⟨2, ![m, n]⟩) (hφ : FKind.Formats .f32)
    (hmax : (0xFF800000#32 : BitVec FTy.f32.bits) = FKind.maximumf.neutral .f32 hφ) : FVec Ideal ⟨2, ![m, n]⟩ .f32 :=
  subf L (broadcastTo ⟨2, ![m, n]⟩ (shapeCast ⟨2, ![m, 1]⟩ (multiReduction .maximumf [1] ⟨1, ![m]⟩ L 0xFF800000#32 hr hφ hmax) hc) hb)

/-- A kernel's row-wise log-softmax of `[m, n]` logits at entry `(r, c)`. -/
theorem kernel_apply {m n : Nat} (L : FVec Ideal ⟨2, ![m, n]⟩ .f32)
    (hr : (⟨2, ![m, n]⟩ : Shape).Reduces [1] ⟨1, ![m]⟩) (hc : (⟨1, ![m]⟩ : Shape).ShapeCasts ⟨2, ![m, 1]⟩)
    (hb : (⟨2, ![m, 1]⟩ : Shape).Broadcasts ⟨2, ![m, n]⟩) (hφ : FKind.Formats .f32)
    (hmax : (0xFF800000#32 : BitVec FTy.f32.bits) = FKind.maximumf.neutral .f32 hφ)
    (hadd : (0x00000000#32 : BitVec FTy.f32.bits) = FKind.add.neutral .f32 hφ) (r : Fin m) (c : Fin n) :
    subf (kernelShift L hr hc hb hφ hmax)
        (broadcastTo ⟨2, ![m, n]⟩ (log (shapeCast ⟨2, ![m, 1]⟩ (multiReduction .add [1] ⟨1, ![m]⟩
          (exp (kernelShift L hr hc hb hφ hmax)) 0x00000000#32 hr hφ hadd) hc)) hb) (ix2 r c)
      = rowLogSoftmax (Ideal.ofBits .f32 0xFF800000#32) (fun q => L (ix2 r q)) c := by
  have hsh : ∀ q : Fin n, kernelShift L hr hc hb hφ hmax (ix2 r q)
      = L (ix2 r q) - rowMax (Ideal.ofBits .f32 0xFF800000#32) fun q => L (ix2 r q) := fun q => by
    unfold kernelShift
    rw [subf_apply, Keepdims.broadcastTo_a1_ab_apply, Keepdims.shapeCast_a_a1_apply, kernel_rowmax_apply]
  have hsum : (∑ q : Fin n, exp (kernelShift L hr hc hb hφ hmax) (ix2 r q))
      = ∑ q : Fin n, Ideal.exp (L (ix2 r q) - rowMax (Ideal.ofBits .f32 0xFF800000#32) fun q => L (ix2 r q)) :=
    Finset.sum_congr rfl fun q _ => by rw [exp_apply, hsh q]
  rw [subf_apply, hsh c, Keepdims.broadcastTo_a1_ab_apply, log_apply, Keepdims.shapeCast_a_a1_apply,
    LibRowOps.kernel_rowsum_apply, hsum]
  rfl

/-! ## The host's spelling -/

/-- The host's shifted logits: the logits minus the column of their row maxima, broadcast back. -/
abbrev hostShift {m n : Nat} (L : FVec Ideal ⟨2, ![m, n]⟩ .f32) (b : BitVec FTy.f32.bits)
    (h' : (⟨2, ![m, n]⟩ : Shape).ReducesTo [1] ⟨1, ![m]⟩) (hu : 0 < (⟨0, ![]⟩ : Shape).numel)
    (h0 : (⟨0, ![]⟩ : Shape).BroadcastsInDim ⟨1, ![m]⟩ (![] : Fin 0 → Fin 1))
    (h1 : (⟨1, ![m]⟩ : Shape).BroadcastsInDim ⟨2, ![m, 1]⟩ ![0])
    (h2 : (⟨2, ![m, 1]⟩ : Shape).BroadcastsInDim ⟨2, ![m, n]⟩ ![0, 1]) : FVec Ideal ⟨2, ![m, n]⟩ .f32 :=
  subf L (broadcastInDim ⟨2, ![m, n]⟩ ![0, 1] h2 (broadcastInDim ⟨2, ![m, 1]⟩ ![0] h1
    (maximumf (broadcastInDim ⟨1, ![m]⟩ ![] h0 (constant (F := Ideal) ⟨0, ![]⟩ .f32 b))
      (Host.reduce (FloatOps.maximumf (F := Ideal) (φ := .f32)) L (constant (F := Ideal) ⟨0, ![]⟩ .f32 b) h' hu))))

/-- The host's row-wise log-softmax of `[m, n]` logits at entry `(r, c)`. -/
theorem host_apply {m n : Nat} (L : FVec Ideal ⟨2, ![m, n]⟩ .f32) (b : BitVec FTy.f32.bits)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel)
    (h0 : (⟨0, ![]⟩ : Shape).BroadcastsInDim ⟨1, ![m]⟩ (![] : Fin 0 → Fin 1))
    (h1 : (⟨1, ![m]⟩ : Shape).BroadcastsInDim ⟨2, ![m, 1]⟩ ![0])
    (h2 : (⟨2, ![m, 1]⟩ : Shape).BroadcastsInDim ⟨2, ![m, n]⟩ ![0, 1]) (r : Fin m) (c : Fin n) :
    subf (hostShift L b h' hu h0 h1 h2)
        (broadcastInDim ⟨2, ![m, n]⟩ ![0, 1] h2 (Host.log (broadcastInDim ⟨2, ![m, 1]⟩ ![0] h1
          (Host.reduceAdd (Host.exp (hostShift L b h' hu h0 h1 h2))
            (constant (F := Ideal) ⟨0, ![]⟩ .f32 0x00000000#32) h' hu)))) (ix2 r c)
      = rowLogSoftmax (Ideal.ofBits .f32 b) (fun q => L (ix2 r q)) c := by
  have hsh : ∀ q : Fin n, hostShift L b h' hu h0 h1 h2 (ix2 r q)
      = L (ix2 r q) - rowMax (Ideal.ofBits .f32 b) fun q => L (ix2 r q) := fun q => by
    unfold hostShift
    rw [subf_apply, broadcastInDim_a1_ab_apply, broadcastInDim_a_a1_apply, maximumf_apply, broadcastInDim_scalar_apply,
      host_rowmax_apply L _ h' h hu r, constant_apply, max_rowMax]
  have hsum : (∑ q : Fin n, Host.exp (hostShift L b h' hu h0 h1 h2) (ix2 r q))
      = ∑ q : Fin n, Ideal.exp (L (ix2 r q) - rowMax (Ideal.ofBits .f32 b) fun q => L (ix2 r q)) :=
    Finset.sum_congr rfl fun q _ => by rw [hostExp_apply, hsh q]
  rw [subf_apply, hsh c, broadcastInDim_a1_ab_apply, hostLog_apply, broadcastInDim_a_a1_apply,
    LibRowOps.host_rowsum_apply _ _ h' h hu r, hsum, constant_apply, Ideal.ofBits_zero_f32, zero_add]
  rfl

end Cert.LibLogSoftmax

end
-- ==== Proof.Val.BLsm.lean ====
/-
  The last kernel's arithmetic, read at one entry: for a tile of logits `x` (10000 rows of 40), the stored value at
  row `r`, column `c` is the row's log-softmax at `c`: `(x_{r,c} - M_r) - log (∑_q exp (x_{r,q} - M_r))` with `M_r` the
  maximum of row `r` (folded from -inf). The body spells it with the lane maximum and the lane sum kept as columns.
-/
import proofs.«150785_j1864015806542_1_alg».proof.Proof.Gen.KernelIdeal.Skeleton
import proofs.«150785_j1864015806542_1_alg».proof.Proof.LibLogSoftmax

noncomputable section

open scoped BigOperators

namespace Cert.Val

open Cert.KernelIdeal Cert.KernelIdeal.Gen Idealize.ShloMosaic Idealize.ShloMosaic.ValueIdx

/-- The stored value of the log-softmax body at entry `(r, c)`. -/
theorem k4_pay1_apply (x : FVec Ideal S10000x40 .f32) (r : Fin 10000) (c : Fin 40) :
    k4_pay1 (F := Ideal) x (ix2 r c)
      = LibLogSoftmax.rowLogSoftmax (Ideal.ofBits .f32 0xFF800000#32) (fun q => x (ix2 r q)) c := by
  unfold k4_pay1
  refine (LibLogSoftmax.kernel_apply (shapeCast S10000x40 x shapeCasts_S10000x40_S10000x40) reduces_S10000x40_S10000
    shapeCasts_S10000_S10000x1 broadcasts_S10000x1_S10000x40 (.inl rfl) rfl rfl r c).trans ?_
  rw [shapeCast_self]

end Cert.Val

end
-- ==== Proof.Val.BArr4.lean ====
/-
  The log-probabilities array. The last region has one grid point whose tile is the whole 10000 × 40 array of gathered
  rows; its body stores each row's log-softmax, and the one write-back covers the result array. So the result is the
  row-wise log-softmax of the array the region found.
-/
import proofs.«150785_j1864015806542_1_alg».proof.Proof.KI.R4
import proofs.«150785_j1864015806542_1_alg».proof.Proof.Val.BLsm
import Idealize.ShloMosaic.Lib.Pipeline.Value
import proofs.«150785_j1864015806542_1_alg».proof.Proof.Val.BBase

noncomputable section

open scoped BigOperators

namespace Cert.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The row-wise log-softmax of a 10000 × 40 array of logits, entry by entry. -/
def logSoftmaxRows (L : (⟨2, ![10000, 40]⟩ : Shape).Idx → Ideal .f32) : (⟨2, ![10000, 40]⟩ : Shape).Idx → Ideal .f32 :=
  fun i => LibLogSoftmax.rowLogSoftmax (Ideal.ofBits .f32 0xFF800000#32) (fun q => L (ix2 (i 0) q)) (i 1)

theorem logSoftmaxRows_apply (L : (⟨2, ![10000, 40]⟩ : Shape).Idx → Ideal .f32) (r : Fin 10000) (c : Fin 40) :
    logSoftmaxRows L (ix2 r c)
      = LibLogSoftmax.rowLogSoftmax (Ideal.ofBits .f32 0xFF800000#32) (fun q => L (ix2 r q)) c := rfl

/-- The result tile is the row-wise log-softmax of the input tile. -/
theorem lsm4_eq (x : FVec Ideal S10000x40 .f32) : lsm4 (F := Ideal) x = logSoftmaxRows x := by
  funext j
  obtain ⟨r, c, rfl⟩ : ∃ (r : Fin 10000) (c : Fin 40), j = ix2 r c := ⟨j 0, j 1, eq_ix2 j⟩
  unfold lsm4
  rw [View.canon_unit_zero zero2, View.ld_unit_zero zero2]
  exact k4_pay1_apply x r c

/-- Both windows' one block is block (0, 0). -/
theorem idx4 : ∀ t : Fin cfg4.N, win4_0.index t (0 : Fin 2) = 0 ∧ win4_0.index t (1 : Fin 2) = 0
    ∧ win4_1.index t (0 : Fin 2) = 0 ∧ win4_1.index t (1 : Fin 2) = 0 :=
  (by decide +kernel : ∀ t : Fin grid4.N, _)

/-- What the one point writes back is the (whole) block of the log-softmax of the array the region found. -/
theorem flushed4_eq (c : Dev nD) (t : Fin cfg4.N) :
    (data4 (F := Ideal) V c).flushed 1 t = ((cfg4.win 1).blk t).view.read (Elt Ideal)
      (logSoftmaxRows (V c main_v91 : S10000x40.Idx → Ideal .f32)) := by
  show (cfg4.win 1).cut (grid4.coords t) ((data4 V c).after 1 t) = _
  rw [data4_after_1]
  obtain ⟨e0, e1, e2, e3⟩ := idx4 t
  funext j
  obtain ⟨r, q, rfl⟩ : ∃ (r : Fin 10000) (q : Fin 40), j = ix2 r q := ⟨j 0, j 1, eq_ix2 j⟩
  show lsm4 (tile4 V c 0 t) (ix2 r q) = _
  refine (congrFun (lsm4_eq (tile4 V c 0 t)) (ix2 r q)).trans ?_
  have hout : ((cfg4.win 1).blk t).view.emb (ix2 r q) = ix2 r q := by
    funext ax; apply Fin.ext
    match ax with
    | ⟨0, _⟩ => show win4_1.index t (0 : Fin 2) * 10000 + 1 * r.val = r.val; rw [e2]; omega
    | ⟨1, _⟩ => show win4_1.index t (1 : Fin 2) * 40 + 1 * q.val = q.val; rw [e3]; omega
  have hin : ∀ q' : Fin 40, ((cfg4.win 0).blk t).view.emb (ix2 r q') = ix2 r q' := fun q' => by
    funext ax; apply Fin.ext
    match ax with
    | ⟨0, _⟩ => show win4_0.index t (0 : Fin 2) * 10000 + 1 * r.val = r.val; rw [e0]; omega
    | ⟨1, _⟩ => show win4_0.index t (1 : Fin 2) * 40 + 1 * q'.val = q'.val; rw [e1]; omega
  show LibLogSoftmax.rowLogSoftmax (Ideal.ofBits .f32 0xFF800000#32)
        (fun q' => (V c main_v91 : S10000x40.Idx → Ideal .f32) (((cfg4.win 0).blk t).view.emb (ix2 r q'))) q
      = logSoftmaxRows (V c main_v91 : S10000x40.Idx → Ideal .f32) (((cfg4.win 1).blk t).view.emb (ix2 r q))
  rw [hout, logSoftmaxRows_apply]
  exact congrArg (fun L => LibLogSoftmax.rowLogSoftmax (Ideal.ofBits .f32 0xFF800000#32) L q) (funext fun q' => by rw [hin q'])

/-- The one block covers the result array. -/
theorem cover4 (i : S10000x40.Idx) :
    ∃ t : Fin cfg4.N, (cfg4.win 1).flush t = true ∧ i ∈ ((cfg4.win 1).blk t).view.set := by
  have hi0 : (i 0).val < 10000 := (i 0).isLt
  have hi1 : (i 1).val < 40 := (i 1).isLt
  refine ⟨t4_0, flush4_1 _, ?_⟩
  obtain ⟨-, -, e2, e3⟩ := idx4 t4_0
  show i ∈ ((View.whole main_v92).slice (win4_1.rect t4_0)).set
  rw [View.set_slice_whole, Rect.mem_set_unit]
  intro a
  match a with
  | ⟨0, _⟩ =>
    show win4_1.index t4_0 (0 : Fin 2) * 10000 ≤ (i 0).val ∧ (i 0).val < win4_1.index t4_0 (0 : Fin 2) * 10000 + 10000
    rw [e2]; omega
  | ⟨1, _⟩ =>
    show win4_1.index t4_0 (1 : Fin 2) * 40 ≤ (i 1).val ∧ (i 1).val < win4_1.index t4_0 (1 : Fin 2) * 40 + 40
    rw [e3]; omega

/-- The result array when the last region is left. -/
theorem arr4_eq (c : Dev nD) :
    (data4 (F := Ideal) V c).arrAt 1 cfg4.N = logSoftmaxRows (V c main_v91 : S10000x40.Idx → Ideal .f32) :=
  (data4 V c).arrAt_eq_of_cover 1 _ (fun t _ => flushed4_eq V c t) cover4

end Cert.Val

end
-- ==== Proof.Val.BRefLsm.lean ====
/-
  The reference's last stage, jax.nn.log_softmax over the 40 columns of the gathered rows, read at one entry: it is the
  row's log-softmax `(L_{r,c} - M_r) - log (∑_q exp (L_{r,q} - M_r))` of the gathered logits `L`, the maximum `M_r` folded
  from -inf (the host takes the maximum with -inf once more, which changes nothing).
-/
import proofs.«150785_j1864015806542_1_alg».proof.Proof.RefReadP
import proofs.«150785_j1864015806542_1_alg».proof.Proof.LibLogSoftmax

noncomputable section

open scoped BigOperators

namespace Cert.Val

open Cert.ReferenceIdeal Cert.ReferenceIdeal.Gen Cert.ReferenceIdeal.ReadP Idealize.ShloMosaic Idealize.ShloMosaic.ValueIdx

/-- The reference's log-probabilities at entry `(r, c)`, from its gathered logits (stage 162). -/
theorem ref_logsoftmax_apply (x0 : (⟨S100000x128, .f32⟩ : BufTy).Contents (Elt Ideal)) (x1 : (⟨S2x1600000, .i32⟩ : BufTy).Contents (Elt Ideal)) (x2 : (⟨S10000, .i32⟩ : BufTy).Contents (Elt Ideal)) (x3 : (⟨S128x64, .f32⟩ : BufTy).Contents (Elt Ideal)) (x4 : (⟨S64, .f32⟩ : BufTy).Contents (Elt Ideal)) (x5 : (⟨S_, .f32⟩ : BufTy).Contents (Elt Ideal)) (x6 : (⟨S64x40, .f32⟩ : BufTy).Contents (Elt Ideal)) (x7 : (⟨S40, .f32⟩ : BufTy).Contents (Elt Ideal)) (x8 : (⟨S_, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S40, .f32⟩ : BufTy).Contents (Elt Ideal)) (x14 : (⟨S40, .f32⟩ : BufTy).Contents (Elt Ideal)) (x15 : (⟨S40, .f32⟩ : BufTy).Contents (Elt Ideal)) (x16 : (⟨S40, .f32⟩ : BufTy).Contents (Elt Ideal)) (r : Fin 10000) (c : Fin 40) :
    val_main_v163 (F := Ideal) x0 x1 x2 x3 x4 x5 x6 x7 x8 x9 x10 x11 x12 x13 x14 x15 x16 (ix2 r c)
      = LibLogSoftmax.rowLogSoftmax (Ideal.ofBits .f32 0xFF800000#32)
          (fun q => val_main_v162 (F := Ideal) x0 x1 x2 x3 x4 x5 x6 x7 x8 x9 x10 x11 x12 x13 x14 x15 x16 (ix2 r q)) c := by
  unfold val_main_v163 val_main_call0_v10 val_main_call0_v9 val_main_call0_v8 val_main_call0_v7 val_main_call0_cst_1
    val_main_call0_v6 val_main_call0_v5 val_main_call0_v4 val_main_call0_v3 val_main_call0_v2 val_main_call0_v1
    val_main_call0_cst_0 val_main_call0_v0 val_main_call0_cst
  generalize val_main_v162 (F := Ideal) x0 x1 x2 x3 x4 x5 x6 x7 x8 x9 x10 x11 x12 x13 x14 x15 x16 = L
  exact LibLogSoftmax.host_apply L 0xFF800000#32 reducesTo_S10000x40_S10000_d1 (by decide : S10000x40.Reduces [1] S10000) h_S_
    bcast_S_S10000 bcast_S10000_S10000x1_0 bcast_S10000x1_S10000x40_0_1 r c

end Cert.Val

end
-- ==== Proof.Val.BRefComb.lean ====
/-
  The reference's second-layer activations (stage 155), read at one entry: with the aggregated messages (stage 126) and
  the dense output (stage 80) at the entry, the self weight, and the bias, mean, variance, scale and shift at the entry's
  column, it is `tanh ((((agg + k2·h) + bias) - mean) · rsqrt (var + eps) · scale + shift)`.
-/
import proofs.«150785_j1864015806542_1_alg».proof.Proof.RefReadP
import proofs.«150785_j1864015806542_1_alg».proof.Proof.Val.BCombForms

noncomputable section

open scoped BigOperators

namespace Cert.Val

open Cert.ReferenceIdeal Cert.ReferenceIdeal.Gen Cert.ReferenceIdeal.ReadP Idealize.ShloMosaic Idealize.ShloMosaic.ValueIdx

/-- The reference's second-layer activations at entry `(p, q)`. -/
theorem ref_x2_apply (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S_, .f32⟩ : BufTy).Contents (Elt Ideal)) (x6 : (⟨S64x40, .f32⟩ : BufTy).Contents (Elt Ideal)) (x7 : (⟨S40, .f32⟩ : BufTy).Contents (Elt Ideal)) (x8 : (⟨S_, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S40, .f32⟩ : BufTy).Contents (Elt Ideal)) (x14 : (⟨S40, .f32⟩ : BufTy).Contents (Elt Ideal)) (x15 : (⟨S40, .f32⟩ : BufTy).Contents (Elt Ideal)) (x16 : (⟨S40, .f32⟩ : BufTy).Contents (Elt Ideal)) (p : Fin 100000) (q : Fin 40) :
    val_main_v155 (F := Ideal) x0 x1 x3 x4 x5 x6 x7 x8 x9 x10 x11 x12 x13 x14 x15 x16 (ix2 p q)
      = combEntry 0x3727C5AC#32 (val_main_v126 (F := Ideal) x0 x1 x3 x4 x5 x6 x9 x10 x11 x12 (ix2 p q)) (val_main_v80 (F := Ideal) x0 x1 x3 x4 x5 x6 x9 x10 x11 x12 (ix2 p q))
          (x8 ix0) (x7 (ix1 q)) (x15 (ix1 q)) (x16 (ix1 q)) (x13 (ix1 q)) (x14 (ix1 q)) := by
  unfold val_main_v155 val_main_v154 val_main_v153 val_main_v152 val_main_v151 val_main_v150 val_main_v149 val_main_v148
    val_main_v147 val_main_v146 val_main_v145 val_main_v144 val_main_v143 val_main_cst_29 val_main_v142 val_main_v141
    val_main_v140 val_main_v132 val_main_v131 val_main_v130 val_main_v129 val_main_v128 val_main_v127
  generalize val_main_v126 (F := Ideal) x0 x1 x3 x4 x5 x6 x9 x10 x11 x12 = agg
  generalize val_main_v80 (F := Ideal) x0 x1 x3 x4 x5 x6 x9 x10 x11 x12 = h
  exact host_comb_apply h agg x8 x7 x15 x16 x13 x14 0x3727C5AC#32 bcast_S_S100000x40 bcast_S40_S1x40_1
    bcast_S1x40_S100000x40_0_1 bcast_S_S40 p q

end Cert.Val

end
-- ==== Proof.Val.BRefDup.lean ====
/-
  The reference recomputes, for its second layer, the edge lists with the self loops appended and the edge coefficients
  (the product of the two endpoint degrees' inverse square roots) that it already computed for the first layer: the same
  operations on the same edge array. This file records that the second computation's stages are the first one's.
-/
import proofs.«150785_j1864015806542_1_alg».proof.Proof.RefReadP

noncomputable section

open scoped BigOperators

namespace Cert.Val

open Cert.ReferenceIdeal Cert.ReferenceIdeal.Gen Cert.ReferenceIdeal.ReadP Idealize.ShloMosaic

variable {F : FTy → Type} [FloatOps F]

/-- The node numbering appended as self loops is the same iota both times. -/
theorem dup_iota : val_main_v81 (F := F) = val_main_v5 (F := F) := rfl

/-- The source list with self loops. -/
theorem dup_src (x1 : (⟨S2x1600000, .i32⟩ : BufTy).Contents (Elt F)) : val_main_v82 (F := F) x1 = val_main_v6 (F := F) x1 := rfl

/-- The destination list with self loops. -/
theorem dup_dst (x1 : (⟨S2x1600000, .i32⟩ : BufTy).Contents (Elt F)) : val_main_v83 (F := F) x1 = val_main_v7 (F := F) x1 := rfl

/-- The wrapped destination indices as a column. -/
theorem dup_v90 (x1 : (⟨S2x1600000, .i32⟩ : BufTy).Contents (Elt F)) : val_main_v90 (F := F) x1 = val_main_v14 (F := F) x1 := rfl

/-- The degrees' inverse square roots. -/
theorem dup_dis (x1 : (⟨S2x1600000, .i32⟩ : BufTy).Contents (Elt F)) : val_main_v93 (F := F) x1 = val_main_v17 (F := F) x1 := rfl

/-- The inverse-root degree of each edge's source. -/
theorem dup_v100 (x1 : (⟨S2x1600000, .i32⟩ : BufTy).Contents (Elt F)) : val_main_v100 (F := F) x1 = val_main_v24 (F := F) x1 := rfl

/-- The inverse-root degree of each edge's destination. -/
theorem dup_v107 (x1 : (⟨S2x1600000, .i32⟩ : BufTy).Contents (Elt F)) : val_main_v107 (F := F) x1 = val_main_v31 (F := F) x1 := rfl

/-- The edge coefficients. -/
theorem dup_coef (x1 : (⟨S2x1600000, .i32⟩ : BufTy).Contents (Elt F)) : val_main_v108 (F := F) x1 = val_main_v32 (F := F) x1 := by
  unfold val_main_v108 val_main_v32
  rw [dup_v100, dup_v107]

end Cert.Val

end
-- ==== Proof.Val.BRefAgg.lean ====
/-
  The reference's second aggregation (stage 126) and its gather of the batch rows (stage 162) are the same host
  operations the kernel program applies between its regions, applied to the reference's own stages: the edge lists with
  self loops, the edge coefficients, the second dense output; and the second-layer activations with the batch nodes.
  The operations themselves are never opened.
-/
import proofs.«150785_j1864015806542_1_alg».proof.Proof.RefReadP
import proofs.«150785_j1864015806542_1_alg».proof.Proof.Val.BOps
import proofs.«150785_j1864015806542_1_alg».proof.Proof.Val.BRefDup

noncomputable section

open scoped BigOperators

namespace Cert.Val

open Idealize.ShloMosaic
open Cert.ReferenceIdeal Cert.ReferenceIdeal.ReadP

/-- The reference's aggregated messages of the second layer. -/
theorem ref_agg2 (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S_, .f32⟩ : BufTy).Contents (Elt Ideal)) (x6 : (⟨S64x40, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) :
    val_main_v126 (F := Ideal) x0 x1 x3 x4 x5 x6 x9 x10 x11 x12
      = agg2 (F := Ideal) (val_main_v6 (F := Ideal) x1) (val_main_v7 (F := Ideal) x1) (val_main_v32 (F := Ideal) x1)
          (val_main_v80 (F := Ideal) x0 x1 x3 x4 x5 x6 x9 x10 x11 x12) := by
  rw [← dup_src, ← dup_dst, ← dup_coef]
  unfold val_main_v126 val_main_v125 val_main_v124 val_main_v123 val_main_v122 val_main_c_26 val_main_v121 val_main_v120
    val_main_c_25 val_main_v119 val_main_cst_24 val_main_v118 val_main_v117 val_main_v109 val_main_v116 val_main_v115
    val_main_v114 val_main_v113 val_main_v112 val_main_c_23 val_main_v111 val_main_v110 val_main_c_22 agg2 wrapEdges
  rfl

/-- The reference's gathered batch rows. -/
theorem ref_batchRows (x0 : (⟨S100000x128, .f32⟩ : BufTy).Contents (Elt Ideal)) (x1 : (⟨S2x1600000, .i32⟩ : BufTy).Contents (Elt Ideal)) (x2 : (⟨S10000, .i32⟩ : BufTy).Contents (Elt Ideal)) (x3 : (⟨S128x64, .f32⟩ : BufTy).Contents (Elt Ideal)) (x4 : (⟨S64, .f32⟩ : BufTy).Contents (Elt Ideal)) (x5 : (⟨S_, .f32⟩ : BufTy).Contents (Elt Ideal)) (x6 : (⟨S64x40, .f32⟩ : BufTy).Contents (Elt Ideal)) (x7 : (⟨S40, .f32⟩ : BufTy).Contents (Elt Ideal)) (x8 : (⟨S_, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S40, .f32⟩ : BufTy).Contents (Elt Ideal)) (x14 : (⟨S40, .f32⟩ : BufTy).Contents (Elt Ideal)) (x15 : (⟨S40, .f32⟩ : BufTy).Contents (Elt Ideal)) (x16 : (⟨S40, .f32⟩ : BufTy).Contents (Elt Ideal)) :
    val_main_v162 (F := Ideal) x0 x1 x2 x3 x4 x5 x6 x7 x8 x9 x10 x11 x12 x13 x14 x15 x16
      = batchRows (F := Ideal) (val_main_v155 (F := Ideal) x0 x1 x3 x4 x5 x6 x7 x8 x9 x10 x11 x12 x13 x14 x15 x16) x2 := by
  unfold val_main_v162 val_main_v161 val_main_v160 val_main_v159 val_main_v158 val_main_c_31 val_main_v157 val_main_v156
    val_main_c_30 batchRows wrapBatch
  rfl

end Cert.Val

end
-- ==== Proof.Val.BRefMat.lean ====
/-
  The reference's second dense layer (stage 80) is the matrix product of the first layer's activations (stage 79) with the
  second weight matrix: entry (i, j) is `∑_k x1_{i,k} · W2_{k,j}`.
-/
import proofs.«150785_j1864015806542_1_alg».proof.Proof.RefReadP
import proofs.«150785_j1864015806542_1_alg».proof.Proof.LibEntryForms

noncomputable section

open scoped BigOperators

namespace Cert.Val

open Cert.ReferenceIdeal Cert.ReferenceIdeal.Gen Cert.ReferenceIdeal.ReadP Idealize.ShloMosaic Idealize.ShloMosaic.ValueIdx

/-- The reference's dimension numbers for the second dense layer are the plain ones. -/
theorem refdot2_plain : dot_S100000x64_S64x40_S100000x40_1_0_0_1_n_n = DotDims.plain 100000 64 40 := rfl

/-- The reference's second dense output as the entrywise matrix product. -/
theorem ref_h2 (x0 : (⟨S100000x128, .f32⟩ : BufTy).Contents (Elt Ideal)) (x1 : (⟨S2x1600000, .i32⟩ : BufTy).Contents (Elt Ideal)) (x3 : (⟨S128x64, .f32⟩ : BufTy).Contents (Elt Ideal)) (x4 : (⟨S64, .f32⟩ : BufTy).Contents (Elt Ideal)) (x5 : (⟨S_, .f32⟩ : BufTy).Contents (Elt Ideal)) (x6 : (⟨S64x40, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) :
    val_main_v80 (F := Ideal) x0 x1 x3 x4 x5 x6 x9 x10 x11 x12
      = Forms.product (val_main_v79 (F := Ideal) x0 x1 x3 x4 x5 x9 x10 x11 x12) x6 := by
  unfold val_main_v80
  rw [refdot2_plain]
  exact (Forms.product_eq_host (val_main_v79 (F := Ideal) x0 x1 x3 x4 x5 x9 x10 x11 x12) x6 none).symm

end Cert.Val

end
-- ==== Proof.Val.BLayer2.lean ====
/-
  The second layer of the kernel program against the reference, assembled. Given that the first layer's activations
  (when region 1 is left) and the edge lists and coefficients (after the first host stretch) are the reference's
  stages, each later boundary of the kernel program holds the reference's corresponding stage:
  the second dense output after region 2 (the ten tiles' products are the whole product), the second aggregation after
  the next stretch (the same gather, weighting and scatter-add applied to equal operands), the second-layer activations
  after region 3 (the same expression at every entry), the gathered batch rows after the last stretch, and the
  log-probabilities after region 4 (both spellings of the row-wise log-softmax are the same row function).
-/
import proofs.«150785_j1864015806542_1_alg».proof.Proof.KI.Fold
import proofs.«150785_j1864015806542_1_alg».proof.Proof.Val.BKeep
import proofs.«150785_j1864015806542_1_alg».proof.Proof.Val.BOps
import proofs.«150785_j1864015806542_1_alg».proof.Proof.Val.BArr2
import proofs.«150785_j1864015806542_1_alg».proof.Proof.Val.BArr3
import proofs.«150785_j1864015806542_1_alg».proof.Proof.Val.BArr4
import proofs.«150785_j1864015806542_1_alg».proof.Proof.Val.BRefLsm
import proofs.«150785_j1864015806542_1_alg».proof.Proof.Val.BRefComb
import proofs.«150785_j1864015806542_1_alg».proof.Proof.Val.BRefAgg
import proofs.«150785_j1864015806542_1_alg».proof.Proof.Val.BRefMat
import Idealize.ShloMosaic.Lib.ValueLayout

noncomputable section

open scoped BigOperators

namespace Cert.Val

open Cert.KernelIdeal Cert.KernelIdeal.Gen Cert.KernelIdeal.Fr
open Idealize.ShloMosaic Idealize.ShloMosaic.ValueIdx Idealize.ShloMosaic.TcCoe Idealize.SL.Sem
open Cert.ReferenceIdeal.ReadP

variable (m : (ℓ : Loc nD τ sig) → Buf (Elt Ideal) ℓ) (ρ : Dev nD → PrngReg) (c : Dev nD)

/-- A scalar cast to a one-entry array reads the scalar. -/
theorem cast_scalar_11 {α : Type} (x : (⟨0, ![]⟩ : Shape).Idx → α) (h : (⟨0, ![]⟩ : Shape).ShapeCasts ⟨2, ![1, 1]⟩) :
    shapeCast ⟨2, ![1, 1]⟩ x h (ix2 (0 : Fin 1) (0 : Fin 1)) = x ix0 :=
  congrArg x (funext fun a => a.elim0)

/-- The second dense output, when region 2 is left, is the reference's. -/
theorem h2_eq (x0 : (⟨S100000x128, .f32⟩ : BufTy).Contents (Elt Ideal)) (x1 : (⟨S2x1600000, .i32⟩ : BufTy).Contents (Elt Ideal)) (x2 : (⟨S10000, .i32⟩ : BufTy).Contents (Elt Ideal)) (x3 : (⟨S128x64, .f32⟩ : BufTy).Contents (Elt Ideal)) (x4 : (⟨S64, .f32⟩ : BufTy).Contents (Elt Ideal)) (x5 : (⟨S_, .f32⟩ : BufTy).Contents (Elt Ideal)) (x6 : (⟨S64x40, .f32⟩ : BufTy).Contents (Elt Ideal)) (x7 : (⟨S40, .f32⟩ : BufTy).Contents (Elt Ideal)) (x8 : (⟨S_, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S40, .f32⟩ : BufTy).Contents (Elt Ideal)) (x14 : (⟨S40, .f32⟩ : BufTy).Contents (Elt Ideal)) (x15 : (⟨S40, .f32⟩ : BufTy).Contents (Elt Ideal)) (x16 : (⟨S40, .f32⟩ : BufTy).Contents (Elt Ideal))
    (hx1 : W4 m ρ c (Proc.devRef .tc main_v57_0) = val_main_v79 (F := Ideal) x0 x1 x3 x4 x5 x9 x10 x11 x12)
    (a6 : m ((c : Thread nD τ).loc main_arg6) = x6) :
    W6 m ρ c (Proc.devRef .tc main_v59) = val_main_v80 (F := Ideal) x0 x1 x3 x4 x5 x6 x9 x10 x11 x12 := by
  have e57 : (V5 m ρ c main_v57_0 : S100000x64.Idx → Ideal .f32) = val_main_v79 (F := Ideal) x0 x1 x3 x4 x5 x9 x10 x11 x12 :=
    (W5_main_v57_0 m ρ c).trans hx1
  have e6 : (V5 m ρ c main_arg6 : S64x40.Idx → Ideal .f32) = x6 := (W5_main_arg6 m ρ c).trans a6
  refine (W6_arr m ρ c 2).trans ((arr2_eq (V5 m ρ) c).trans ?_)
  rw [e57, e6]
  exact (ref_h2 x0 x1 x3 x4 x5 x6 x9 x10 x11 x12).symm

/-- The second aggregation, after the stretch before region 3, is the reference's. -/
theorem agg2_eq (x0 : (⟨S100000x128, .f32⟩ : BufTy).Contents (Elt Ideal)) (x1 : (⟨S2x1600000, .i32⟩ : BufTy).Contents (Elt Ideal)) (x2 : (⟨S10000, .i32⟩ : BufTy).Contents (Elt Ideal)) (x3 : (⟨S128x64, .f32⟩ : BufTy).Contents (Elt Ideal)) (x4 : (⟨S64, .f32⟩ : BufTy).Contents (Elt Ideal)) (x5 : (⟨S_, .f32⟩ : BufTy).Contents (Elt Ideal)) (x6 : (⟨S64x40, .f32⟩ : BufTy).Contents (Elt Ideal)) (x7 : (⟨S40, .f32⟩ : BufTy).Contents (Elt Ideal)) (x8 : (⟨S_, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S40, .f32⟩ : BufTy).Contents (Elt Ideal)) (x14 : (⟨S40, .f32⟩ : BufTy).Contents (Elt Ideal)) (x15 : (⟨S40, .f32⟩ : BufTy).Contents (Elt Ideal)) (x16 : (⟨S40, .f32⟩ : BufTy).Contents (Elt Ideal))
    (hx1 : W4 m ρ c (Proc.devRef .tc main_v57_0) = val_main_v79 (F := Ideal) x0 x1 x3 x4 x5 x9 x10 x11 x12)
    (hsrc : W1 m ρ c (Proc.devRef .tc main_v5) = val_main_v6 (F := Ideal) x1)
    (hdst : W1 m ρ c (Proc.devRef .tc main_v6) = val_main_v7 (F := Ideal) x1)
    (hcoef : W1 m ρ c (Proc.devRef .tc main_v31) = val_main_v32 (F := Ideal) x1)
    (a6 : m ((c : Thread nD τ).loc main_arg6) = x6) :
    W7 m ρ c (Proc.devRef .tc main_v77) = val_main_v126 (F := Ideal) x0 x1 x3 x4 x5 x6 x9 x10 x11 x12 := by
  refine (ops3_agg (W6 m ρ c)).trans ?_
  rw [W6_main_v5 m ρ c, W6_main_v6 m ρ c, W6_main_v31 m ρ c, hsrc, hdst, hcoef,
    h2_eq m ρ c x0 x1 x2 x3 x4 x5 x6 x7 x8 x9 x10 x11 x12 x13 x14 x15 x16 hx1 a6]
  exact (ref_agg2 x0 x1 x3 x4 x5 x6 x9 x10 x11 x12).symm

/-- The second-layer activations, when region 3 is left, are the reference's. -/
theorem x2_eq (x0 : (⟨S100000x128, .f32⟩ : BufTy).Contents (Elt Ideal)) (x1 : (⟨S2x1600000, .i32⟩ : BufTy).Contents (Elt Ideal)) (x2 : (⟨S10000, .i32⟩ : BufTy).Contents (Elt Ideal)) (x3 : (⟨S128x64, .f32⟩ : BufTy).Contents (Elt Ideal)) (x4 : (⟨S64, .f32⟩ : BufTy).Contents (Elt Ideal)) (x5 : (⟨S_, .f32⟩ : BufTy).Contents (Elt Ideal)) (x6 : (⟨S64x40, .f32⟩ : BufTy).Contents (Elt Ideal)) (x7 : (⟨S40, .f32⟩ : BufTy).Contents (Elt Ideal)) (x8 : (⟨S_, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S40, .f32⟩ : BufTy).Contents (Elt Ideal)) (x14 : (⟨S40, .f32⟩ : BufTy).Contents (Elt Ideal)) (x15 : (⟨S40, .f32⟩ : BufTy).Contents (Elt Ideal)) (x16 : (⟨S40, .f32⟩ : BufTy).Contents (Elt Ideal))
    (hx1 : W4 m ρ c (Proc.devRef .tc main_v57_0) = val_main_v79 (F := Ideal) x0 x1 x3 x4 x5 x9 x10 x11 x12)
    (hsrc : W1 m ρ c (Proc.devRef .tc main_v5) = val_main_v6 (F := Ideal) x1)
    (hdst : W1 m ρ c (Proc.devRef .tc main_v6) = val_main_v7 (F := Ideal) x1)
    (hcoef : W1 m ρ c (Proc.devRef .tc main_v31) = val_main_v32 (F := Ideal) x1)
    (a6 : m ((c : Thread nD τ).loc main_arg6) = x6)
    (a7 : m ((c : Thread nD τ).loc main_arg7) = x7)
    (a8 : m ((c : Thread nD τ).loc main_arg8) = x8)
    (a13 : m ((c : Thread nD τ).loc main_arg13) = x13)
    (a14 : m ((c : Thread nD τ).loc main_arg14) = x14)
    (a15 : m ((c : Thread nD τ).loc main_arg15) = x15)
    (a16 : m ((c : Thread nD τ).loc main_arg16) = x16) :
    W8 m ρ c (Proc.devRef .tc main_v84) = val_main_v155 (F := Ideal) x0 x1 x3 x4 x5 x6 x7 x8 x9 x10 x11 x12 x13 x14 x15 x16 := by
  have eh : (V7 m ρ c main_v59 : S100000x40.Idx → Ideal .f32) = val_main_v80 (F := Ideal) x0 x1 x3 x4 x5 x6 x9 x10 x11 x12 :=
    (ops3_keep (W6 m ρ c) main_v59 (by decide)).trans (h2_eq m ρ c x0 x1 x2 x3 x4 x5 x6 x7 x8 x9 x10 x11 x12 x13 x14 x15 x16 hx1 a6)
  have ea : (V7 m ρ c main_v77 : S100000x40.Idx → Ideal .f32) = val_main_v126 (F := Ideal) x0 x1 x3 x4 x5 x6 x9 x10 x11 x12 :=
    agg2_eq m ρ c x0 x1 x2 x3 x4 x5 x6 x7 x8 x9 x10 x11 x12 x13 x14 x15 x16 hx1 hsrc hdst hcoef a6
  have ek : (V7 m ρ c main_v83 : S1x1.Idx → Ideal .f32) = shapeCast S1x1 x8 shapeCasts_S_S1x1 :=
    (ops3_v83 (W6 m ρ c)).trans (by rw [W6_main_arg8 m ρ c, a8])
  have eb : (V7 m ρ c main_v78 : S1x40.Idx → Ideal .f32) = shapeCast S1x40 x7 shapeCasts_S40_S1x40 :=
    (ops3_v78 (W6 m ρ c)).trans (by rw [W6_main_arg7 m ρ c, a7])
  have eg : (V7 m ρ c main_v79 : S1x40.Idx → Ideal .f32) = shapeCast S1x40 x13 shapeCasts_S40_S1x40 :=
    (ops3_v79 (W6 m ρ c)).trans (by rw [W6_main_arg13 m ρ c, a13])
  have ebe : (V7 m ρ c main_v80 : S1x40.Idx → Ideal .f32) = shapeCast S1x40 x14 shapeCasts_S40_S1x40 :=
    (ops3_v80 (W6 m ρ c)).trans (by rw [W6_main_arg14 m ρ c, a14])
  have emu : (V7 m ρ c main_v81 : S1x40.Idx → Ideal .f32) = shapeCast S1x40 x15 shapeCasts_S40_S1x40 :=
    (ops3_v81 (W6 m ρ c)).trans (by rw [W6_main_arg15 m ρ c, a15])
  have evar : (V7 m ρ c main_v82 : S1x40.Idx → Ideal .f32) = shapeCast S1x40 x16 shapeCasts_S40_S1x40 :=
    (ops3_v82 (W6 m ρ c)).trans (by rw [W6_main_arg16 m ρ c, a16])
  refine (W8_arr m ρ c 8).trans ((arr3_eq (V7 m ρ) c).trans ?_)
  rw [eh, ea, ek, eb, eg, ebe, emu, evar]
  funext i
  obtain ⟨p, q, rfl⟩ : ∃ (p : Fin 100000) (q : Fin 40), i = ix2 p q := ⟨i 0, i 1, eq_ix2 i⟩
  rw [ref_x2_apply x0 x1 x3 x4 x5 x6 x7 x8 x9 x10 x11 x12 x13 x14 x15 x16 p q]
  show combEntry 0x3727C5AC#32 (val_main_v126 (F := Ideal) x0 x1 x3 x4 x5 x6 x9 x10 x11 x12 (ix2 p q)) (val_main_v80 (F := Ideal) x0 x1 x3 x4 x5 x6 x9 x10 x11 x12 (ix2 p q))
      (shapeCast S1x1 x8 shapeCasts_S_S1x1 (ix2 (0 : Fin 1) (0 : Fin 1)))
      (shapeCast S1x40 x7 shapeCasts_S40_S1x40 (ix2 (0 : Fin 1) q)) (shapeCast S1x40 x15 shapeCasts_S40_S1x40 (ix2 (0 : Fin 1) q))
      (shapeCast S1x40 x16 shapeCasts_S40_S1x40 (ix2 (0 : Fin 1) q)) (shapeCast S1x40 x13 shapeCasts_S40_S1x40 (ix2 (0 : Fin 1) q))
      (shapeCast S1x40 x14 shapeCasts_S40_S1x40 (ix2 (0 : Fin 1) q)) = _
  rw [cast_scalar_11, shapeCast_a_1a_apply, shapeCast_a_1a_apply, shapeCast_a_1a_apply, shapeCast_a_1a_apply,
    shapeCast_a_1a_apply]

/-- The gathered batch rows, after the last stretch, are the reference's. -/
theorem rows_eq (x0 : (⟨S100000x128, .f32⟩ : BufTy).Contents (Elt Ideal)) (x1 : (⟨S2x1600000, .i32⟩ : BufTy).Contents (Elt Ideal)) (x2 : (⟨S10000, .i32⟩ : BufTy).Contents (Elt Ideal)) (x3 : (⟨S128x64, .f32⟩ : BufTy).Contents (Elt Ideal)) (x4 : (⟨S64, .f32⟩ : BufTy).Contents (Elt Ideal)) (x5 : (⟨S_, .f32⟩ : BufTy).Contents (Elt Ideal)) (x6 : (⟨S64x40, .f32⟩ : BufTy).Contents (Elt Ideal)) (x7 : (⟨S40, .f32⟩ : BufTy).Contents (Elt Ideal)) (x8 : (⟨S_, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S40, .f32⟩ : BufTy).Contents (Elt Ideal)) (x14 : (⟨S40, .f32⟩ : BufTy).Contents (Elt Ideal)) (x15 : (⟨S40, .f32⟩ : BufTy).Contents (Elt Ideal)) (x16 : (⟨S40, .f32⟩ : BufTy).Contents (Elt Ideal))
    (hx1 : W4 m ρ c (Proc.devRef .tc main_v57_0) = val_main_v79 (F := Ideal) x0 x1 x3 x4 x5 x9 x10 x11 x12)
    (hsrc : W1 m ρ c (Proc.devRef .tc main_v5) = val_main_v6 (F := Ideal) x1)
    (hdst : W1 m ρ c (Proc.devRef .tc main_v6) = val_main_v7 (F := Ideal) x1)
    (hcoef : W1 m ρ c (Proc.devRef .tc main_v31) = val_main_v32 (F := Ideal) x1)
    (a2 : m ((c : Thread nD τ).loc main_arg2) = x2)
    (a6 : m ((c : Thread nD τ).loc main_arg6) = x6)
    (a7 : m ((c : Thread nD τ).loc main_arg7) = x7)
    (a8 : m ((c : Thread nD τ).loc main_arg8) = x8)
    (a13 : m ((c : Thread nD τ).loc main_arg13) = x13)
    (a14 : m ((c : Thread nD τ).loc main_arg14) = x14)
    (a15 : m ((c : Thread nD τ).loc main_arg15) = x15)
    (a16 : m ((c : Thread nD τ).loc main_arg16) = x16) :
    W9 m ρ c (Proc.devRef .tc main_v91) = val_main_v162 (F := Ideal) x0 x1 x2 x3 x4 x5 x6 x7 x8 x9 x10 x11 x12 x13 x14 x15 x16 := by
  refine (ops4_v91 (W8 m ρ c)).trans ?_
  rw [x2_eq m ρ c x0 x1 x2 x3 x4 x5 x6 x7 x8 x9 x10 x11 x12 x13 x14 x15 x16 hx1 hsrc hdst hcoef a6 a7 a8 a13 a14 a15 a16, W8_main_arg2 m ρ c, a2]
  exact (ref_batchRows x0 x1 x2 x3 x4 x5 x6 x7 x8 x9 x10 x11 x12 x13 x14 x15 x16).symm

/-- The log-probabilities the kernel program ends with are the reference's. -/
theorem layer2_logp (x0 : (⟨S100000x128, .f32⟩ : BufTy).Contents (Elt Ideal)) (x1 : (⟨S2x1600000, .i32⟩ : BufTy).Contents (Elt Ideal)) (x2 : (⟨S10000, .i32⟩ : BufTy).Contents (Elt Ideal)) (x3 : (⟨S128x64, .f32⟩ : BufTy).Contents (Elt Ideal)) (x4 : (⟨S64, .f32⟩ : BufTy).Contents (Elt Ideal)) (x5 : (⟨S_, .f32⟩ : BufTy).Contents (Elt Ideal)) (x6 : (⟨S64x40, .f32⟩ : BufTy).Contents (Elt Ideal)) (x7 : (⟨S40, .f32⟩ : BufTy).Contents (Elt Ideal)) (x8 : (⟨S_, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S40, .f32⟩ : BufTy).Contents (Elt Ideal)) (x14 : (⟨S40, .f32⟩ : BufTy).Contents (Elt Ideal)) (x15 : (⟨S40, .f32⟩ : BufTy).Contents (Elt Ideal)) (x16 : (⟨S40, .f32⟩ : BufTy).Contents (Elt Ideal))
    (hx1 : W4 m ρ c (Proc.devRef .tc main_v57_0) = val_main_v79 (F := Ideal) x0 x1 x3 x4 x5 x9 x10 x11 x12)
    (hsrc : W1 m ρ c (Proc.devRef .tc main_v5) = val_main_v6 (F := Ideal) x1)
    (hdst : W1 m ρ c (Proc.devRef .tc main_v6) = val_main_v7 (F := Ideal) x1)
    (hcoef : W1 m ρ c (Proc.devRef .tc main_v31) = val_main_v32 (F := Ideal) x1)
    (a2 : m ((c : Thread nD τ).loc main_arg2) = x2)
    (a6 : m ((c : Thread nD τ).loc main_arg6) = x6)
    (a7 : m ((c : Thread nD τ).loc main_arg7) = x7)
    (a8 : m ((c : Thread nD τ).loc main_arg8) = x8)
    (a13 : m ((c : Thread nD τ).loc main_arg13) = x13)
    (a14 : m ((c : Thread nD τ).loc main_arg14) = x14)
    (a15 : m ((c : Thread nD τ).loc main_arg15) = x15)
    (a16 : m ((c : Thread nD τ).loc main_arg16) = x16) :
    W10 m ρ c (Proc.devRef .tc main_v92) = val_main_v163 (F := Ideal) x0 x1 x2 x3 x4 x5 x6 x7 x8 x9 x10 x11 x12 x13 x14 x15 x16 := by
  have e91 : (V9 m ρ c main_v91 : S10000x40.Idx → Ideal .f32) = val_main_v162 (F := Ideal) x0 x1 x2 x3 x4 x5 x6 x7 x8 x9 x10 x11 x12 x13 x14 x15 x16 :=
    rows_eq m ρ c x0 x1 x2 x3 x4 x5 x6 x7 x8 x9 x10 x11 x12 x13 x14 x15 x16 hx1 hsrc hdst hcoef a2 a6 a7 a8 a13 a14 a15 a16
  refine (W10_arr m ρ c 1).trans ((arr4_eq (V9 m ρ) c).trans ?_)
  rw [e91]
  funext i
  obtain ⟨r, q, rfl⟩ : ∃ (r : Fin 10000) (q : Fin 40), i = ix2 r q := ⟨i 0, i 1, eq_ix2 i⟩
  rw [logSoftmaxRows_apply]
  exact (ref_logsoftmax_apply x0 x1 x2 x3 x4 x5 x6 x7 x8 x9 x10 x11 x12 x13 x14 x15 x16 r q).symm

end Cert.Val

end
-- ==== Proof.Val.Join.lean ====
/-
  The two results of the kernel program as functions of the arrays it is launched with. The log-probabilities it ends
  with are the reference's last stage of the seventeen argument arrays: the first layer's activations, edge lists and
  coefficients are the reference's stages, and the second layer carries that to the end. The loss, as the stretch after
  the first combine region leaves it, is the reference's loss stage of the four arrays it depends on.
-/
import proofs.«150785_j1864015806542_1_alg».proof.Proof.Val.ALayer1
import proofs.«150785_j1864015806542_1_alg».proof.Proof.Val.BLayer2

noncomputable section

open scoped BigOperators

namespace Cert.Val

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (ρ : Dev nD → PrngReg)

/-- The log-probabilities at the end are the reference's, as a function of the launch memory's argument arrays. -/
theorem logp_eq (c : Dev nD) :
    W10 m ρ c (Proc.devRef .tc main_v92)
      = Cert.ReferenceIdeal.ReadP.val_main_v163 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  layer2_logp m ρ c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
    (layer1_x1 m ρ c) (src_eq m ρ c) (dst_eq m ρ c) (coef_eq m ρ c) rfl rfl rfl rfl rfl rfl rfl rfl

/-- The loss is the reference's, as a function of the launch memory's argument arrays. -/
theorem loss_eq (c : Dev nD) :
    W5 m ρ c (Proc.devRef .tc main_v58)
      = Cert.ReferenceIdeal.ReadP.val_main_v63 (F := Ideal) (m ((c.tc : Thread nD τ).loc main_arg0)) (m ((c.tc : Thread nD τ).loc main_arg1)) (m ((c.tc : Thread nD τ).loc main_arg3)) (m ((c.tc : Thread nD τ).loc main_arg5)) :=
  layer1_loss m ρ c

end Cert.Val

end
-- ==== Proof.lean ====
/-
  The certificate of a two-layer graph network kernel against its jnp reference.

  The program. For a graph of 100000 nodes with 128 features each and 1600000 edges, both programs compute, with
  self loops added and the symmetric normalisation coef(e) = deg(src e)^(-1/2) · deg(dst e)^(-1/2):
    h₁ = X · W₁,  agg₁(n) = Σ over edges e into n of coef(e) · h₁(src e),
    x₁ = tanh(((agg₁ + k₁² · h₁ + b₁) − μ₁) · rsqrt(σ₁ + ε) · γ₁ + β₁),
    loss = (Σ over all 100000 × 64 entries of (agg₁ − h₁ + k₁² · h₁)²) / 6400000,
    h₂ = x₁ · W₂,  agg₂ likewise,  x₂ = tanh(((agg₂ + k₂² · h₂ + b₂) − μ₂) · rsqrt(σ₂ + ε) · γ₂ + β₂),
    log p = the row-wise log-softmax of the 10000 rows of x₂ picked by the batch indices.
  The kernel does the two matrix products, the two combine steps (the first with the loss, summed tile by tile into a
  one-entry accumulator and multiplied at the end by a constant that the idealization reads as exactly 1/6400000)
  and the log-softmax as five pipelined regions over row tiles of 10000; the degree count, the gathers and the
  scatter-adds are the same host operations in both programs.

  The five claims. Frames of the two kernel programs: each region's body is run once, symbolically, on whole staging
  buffers (Proof/K, Proof/KI: one module per region, then the chain of the ten segments); every argument array is
  read back through the ten boundaries to its launch contents. The reference's frame and run: its 212 host operations
  in sequence (Proof/RefRunP, RefRunQ). The one rewrite of the idealization, the named constant, is its rule's
  statement. Equality of the results over the extended reals: the kernel program's boundary contents equal, stage by
  stage and entry by entry, the reference's stages of the same arguments (Proof/Val) — the tiles of a product are the
  rows of the whole product, a sum over ten tiles of per-tile sums is the sum over all rows, dividing by 6400000 is
  multiplying by 1/6400000, and the shared host operations are applied to equal operands. No step needs the inputs
  to be finite.
-/
import proofs.«150785_j1864015806542_1_alg».proof.Defs
import proofs.«150785_j1864015806542_1_alg».proof.Proof.Gen.Kernel
import proofs.«150785_j1864015806542_1_alg».proof.Proof.Gen.KernelIdeal
import proofs.«150785_j1864015806542_1_alg».proof.Proof.Gen.ReferenceIdeal
import proofs.«150785_j1864015806542_1_alg».proof.Proof.Gen.Pre_finite_inputs
import proofs.«150785_j1864015806542_1_alg».proof.Proof.K.Frame
import proofs.«150785_j1864015806542_1_alg».proof.Proof.KI.Frame
import proofs.«150785_j1864015806542_1_alg».proof.Proof.RefRunQ
import proofs.«150785_j1864015806542_1_alg».proof.Proof.RefReadP
import proofs.«150785_j1864015806542_1_alg».proof.Proof.Val.Join

noncomputable section

namespace Cert.Proof

open Idealize.ShloMosaic Idealize.SL.Sem

/-- The two kernel programs run to the end and leave their arguments as launched. -/
theorem frame_k [Cert.Kernel.Facts] [Cert.Pre_finite_inputs.Facts] : Cert.frame_Kernel :=
  fun m ρ _ => Cert.Kernel.Fr.frame m ρ
theorem frame_ki [Cert.KernelIdeal.Facts] [Cert.Pre_finite_inputs.Facts] : Cert.frame_KernelIdeal :=
  fun m ρ _ => Cert.KernelIdeal.Fr.frame m ρ
/-- So does the reference: its run, with the results dropped. -/
theorem frame_ri [Cert.ReferenceIdeal.Facts] [Cert.Pre_finite_inputs.Facts] : Cert.frame_ReferenceIdeal :=
  fun m ρ _ => (θ_run (Cert.ReferenceIdeal.defs (F := Ideal)) _ _).mono (fun _ h c => (h c).2.2)
    (Cert.ReferenceIdeal.ValueP.run (F := Ideal) m ρ)

/-- The idealization's one rewrite: the kernel's constant, named, is 1/6400000 on the extended reals. -/
theorem preserves : Cert.preserves_Kernel_KernelIdeal :=
  IdealRules.named_const.statement Cert.KernelIdeal.κ "inv_6400000" .f32 0x3427C5AC#32 ((1 / 6400000 : ℝ) : EReal) rfl

/-- From memories that agree on the arguments both idealized programs end with the same log-probabilities and the
    same loss: the kernel program's last boundary holds the reference's last stages of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Fr.W10 m ρ c (Proc.devRef .tc Cert.KernelIdeal.main_v92),
    fun c => Cert.KernelIdeal.Fr.W5 m ρ c (Proc.devRef .tc Cert.KernelIdeal.main_v58),
    Cert.KernelIdeal.Fr.run_results (F := Ideal) m ρ, ?_⟩
  refine (θ_run (Cert.ReferenceIdeal.defs (F := Ideal)) _ _).mono (fun r h c => ⟨?_, ?_, (h c).2.2⟩)
    (Cert.ReferenceIdeal.ValueP.run (F := Ideal) m' ρ')
  · rw [(h c).1, Cert.ReferenceIdeal.ReadP.val_main_v163_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
    exact (Cert.Val.logp_eq m ρ c).symm
  · rw [(h c).2.1, Cert.ReferenceIdeal.ReadP.val_main_v63_eq, (hagree c).1, (hagree c).2.1, (hagree c).2.2.2.1, (hagree c).2.2.2.2.2.1]
    exact (Cert.Val.loss_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
